-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x400000 : Shape := ⟨2, ![2, 400000]⟩
abbrev S32x128 : Shape := ⟨2, ![32, 128]⟩
abbrev S128 : Shape := ⟨1, ![128]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S4x128x256 : S_.BroadcastsInDim S4x128x256 (![] : Fin 0 → Fin S4x128x256.rank)
  reducesTo_S4x128x256_S_d0_1_2 : S4x128x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg8 : FVec F S4x128 .f32) (main_arg9 : FVec F S4x128 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg9
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  main_v43

def fn_part1 {F : FTy → Type} [FloatOps F] (main_arg5 : FVec F S4x256 .f32) (main_arg6 : FVec F S4x256x128 .f32) (main_arg7 : FVec F S4x128 .f32) (main_arg8 : FVec F S4x128 .f32) (main_arg9 : FVec F S4x128 .f32) (main_v13 : IVec S_ 1) (main_v16 : IVec S4x128x256 1) : IVec S_ 1 :=
  let main_c_5 : IVec S_ 1 := constantI S_ 1 1#1
  let main_v17 : IVec S_ 1 := (fun x v => Host.reduce IntOp.andi x v reducesTo_S4x128x256_S_d0_1_2 h_S_) main_v16 main_c_5
  let main_v18 : IVec S_ 1 := andi main_v13 main_v17
  let main_v19 : FVec F S4x256 .f32 := Host.absf main_arg5
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256x128 .f32 := Host.absf main_arg6
  let main_cst_8 : FVec F S_ .f32 := constant S_ .f32 0x7F800000#32
  let main_v25 : FVec F S4x256x128 .f32 := broadcastInDim S4x256x128 ![] bcast_S_S4x256x128 main_cst_8
  let main_v26 : IVec S4x256x128 1 := cmpf .olt main_v24 main_v25
  let main_c_9 : IVec S_ 1 := constantI S_ 1 1#1
  let main_v27 : IVec S_ 1 := (fun x v => Host.reduce IntOp.andi x v reducesTo_S4x256x128_S_d0_1_2 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x400000 32) (main_arg2 : FVec F S32x128 .f32) (main_arg3 : FVec F S128 .f32) (main_arg4 : FVec F S4x128x256 .f32) (main_arg5 : FVec F S4x256 .f32) (main_arg6 : FVec F S4x256x128 .f32) (main_arg7 : FVec F S4x128 .f32) (main_arg8 : FVec F S4x128 .f32) (main_arg9 : FVec F S4x128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x256 .f32 := Host.absf main_arg4
  let main_cst_4 : FVec F S_ .f32 := constant S_ .f32 0x7F800000#32
  let main_v15 : FVec F S4x128x256 .f32 := broadcastInDim S4x128x256 ![] bcast_S_S4x128x256 main_cst_4
  let main_v16 : IVec S4x128x256 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x400000 : Shape := ⟨2, ![2, 400000]⟩
abbrev S32x128 : Shape := ⟨2, ![32, 128]⟩
abbrev S128 : Shape := ⟨1, ![128]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S100000x128 : Shape := ⟨2, ![100000, 128]⟩
abbrev S1x128 : Shape := ⟨2, ![1, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S2000x128 : Shape := ⟨2, ![2000, 128]⟩
abbrev S2000x256 : Shape := ⟨2, ![2000, 256]⟩

abbrev nBuf : Space → Nat
  | .hbm => 186
  | .vmem => 72
  | .smem => 0
  | _ => 0

abbrev hbmTy0_0 (i : Nat) : BufTy := match i % 128 with
  | 0 => ⟨S100000x32, .f32⟩
  | 1 => ⟨S2x400000, .i32⟩
  | 2 => ⟨S32x128, .f32⟩
  | 3 => ⟨S128, .f32⟩
  | 4 => ⟨S4x128x256, .f32⟩
  | 5 => ⟨S4x256, .f32⟩
  | 6 => ⟨S4x256x128, .f32⟩
  | 7 => ⟨S4x128, .f32⟩
  | 8 => ⟨S4x128, .f32⟩
  | 9 => ⟨S4x128, .f32⟩
  | 10 => ⟨S100000x128, .f32⟩
  | 11 => ⟨S1x128, .f32⟩
  | 12 => ⟨S100000x128, .f32⟩
  | 13 => ⟨S100000x128, .f32⟩
  | 14 => ⟨S1x400000, .i32⟩
  | 15 => ⟨S400000, .i32⟩
  | 16 => ⟨S1x400000, .i32⟩
  | 17 => ⟨S400000, .i32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x128, .f32⟩
  | 27 => ⟨S_, .f32⟩
  | 28 => ⟨S100000x128, .f32⟩
  | 29 => ⟨S400000x1, .i32⟩
  | 30 => ⟨S100000x128, .f32⟩
  | 31 => ⟨S100000x128, .f32⟩
  | 32 => ⟨S1x128x256, .f32⟩
  | 33 => ⟨S128x256, .f32⟩
  | 34 => ⟨S1x256, .f32⟩
  | 35 => ⟨S256, .f32⟩
  | 36 => ⟨S1x256x128, .f32⟩
  | 37 => ⟨S256x128, .f32⟩
  | 38 => ⟨S1x128, .f32⟩
  | 39 => ⟨S128, .f32⟩
  | 40 => ⟨S1x256, .f32⟩
  | 41 => ⟨S1x128, .f32⟩
  | 42 => ⟨S100000x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S1x128, .f32⟩
  | 59 => ⟨S100000x128, .f32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x128, .f32⟩
  | 69 => ⟨S_, .f32⟩
  | 70 => ⟨S100000x128, .f32⟩
  | 71 => ⟨S400000x1, .i32⟩
  | 72 => ⟨S100000x128, .f32⟩
  | 73 => ⟨S100000x128, .f32⟩
  | 74 => ⟨S1x128x256, .f32⟩
  | 75 => ⟨S128x256, .f32⟩
  | 76 => ⟨S1x256, .f32⟩
  | 77 => ⟨S256, .f32⟩
  | 78 => ⟨S1x256x128, .f32⟩
  | 79 => ⟨S256x128, .f32⟩
  | 80 => ⟨S1x128, .f32⟩
  | 81 => ⟨S128, .f32⟩
  | 82 => ⟨S1x256, .f32⟩
  | 83 => ⟨S1x128, .f32⟩
  | 84 => ⟨S100000x128, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S1x128, .f32⟩
  | 101 => ⟨S100000x128, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x128, .f32⟩
  | 111 => ⟨S_, .f32⟩
  | 112 => ⟨S100000x128, .f32⟩
  | 113 => ⟨S400000x1, .i32⟩
  | 114 => ⟨S100000x128, .f32⟩
  | 115 => ⟨S100000x128, .f32⟩
  | 116 => ⟨S1x128x256, .f32⟩
  | 117 => ⟨S128x256, .f32⟩
  | 118 => ⟨S1x256, .f32⟩
  | 119 => ⟨S256, .f32⟩
  | 120 => ⟨S1x256x128, .f32⟩
  | 121 => ⟨S256x128, .f32⟩
  | 122 => ⟨S1x128, .f32⟩
  | 123 => ⟨S128, .f32⟩
  | 124 => ⟨S1x256, .f32⟩
  | 125 => ⟨S1x128, .f32⟩
  | 126 => ⟨S100000x128, .f32⟩
  | 127 => ⟨S1x128, .f32⟩
  | _ => ⟨S100000x32, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S1x128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S1x128, .f32⟩
  | 15 => ⟨S100000x128, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x128, .f32⟩
  | 25 => ⟨S_, .f32⟩
  | 26 => ⟨S100000x128, .f32⟩
  | 27 => ⟨S400000x1, .i32⟩
  | 28 => ⟨S100000x128, .f32⟩
  | 29 => ⟨S100000x128, .f32⟩
  | 30 => ⟨S1x128x256, .f32⟩
  | 31 => ⟨S128x256, .f32⟩
  | 32 => ⟨S1x256, .f32⟩
  | 33 => ⟨S256, .f32⟩
  | 34 => ⟨S1x256x128, .f32⟩
  | 35 => ⟨S256x128, .f32⟩
  | 36 => ⟨S1x128, .f32⟩
  | 37 => ⟨S128, .f32⟩
  | 38 => ⟨S1x256, .f32⟩
  | 39 => ⟨S1x128, .f32⟩
  | 40 => ⟨S100000x128, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S_, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S1x128, .f32⟩
  | 57 => ⟨S100000x128, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x256, .f32⟩
  | .local _ .vmem, ⟨21, _⟩ => ⟨S1x256, .f32⟩
  | .local _ .vmem, ⟨22, _⟩ => ⟨S256x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x256, .f32⟩
  | .local _ .vmem, ⟨39, _⟩ => ⟨S1x256, .f32⟩
  | .local _ .vmem, ⟨40, _⟩ => ⟨S256x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x256, .f32⟩
  | .local _ .vmem, ⟨57, _⟩ => ⟨S1x256, .f32⟩
  | .local _ .vmem, ⟨58, _⟩ => ⟨S256x128, .f32⟩
  | .local _ .vmem, ⟨59, _⟩ => ⟨S1x128, .f32⟩
  | .local _ .vmem, ⟨60, _⟩ => ⟨S2000x128, .f32⟩
  | .local _ .vmem, ⟨61, _⟩ => ⟨S2000x128, .f32⟩
  | .local _ .vmem, ⟨62, _⟩ => ⟨S1x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_3 : Ref sig .tc := ⟨.hbm, 60, rfl⟩
abbrev main_v43 : Ref sig .tc := ⟨.hbm, 61, rfl⟩
abbrev main_v44 : Ref sig .tc := ⟨.hbm, 62, rfl⟩
abbrev main_c_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64_0 : Ref sig .tc := ⟨.hbm, 84, rfl⟩
abbrev main_v64_1 : Ref sig .tc := ⟨.hbm, 85, rfl⟩
abbrev main_v64_2 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_cst_7 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_8 : Ref sig .tc := ⟨.hbm, 102, rfl⟩
abbrev main_v78 : Ref sig .tc := ⟨.hbm, 103, rfl⟩
abbrev main_v79 : Ref sig .tc := ⟨.hbm, 104, rfl⟩
abbrev main_c_9 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_10 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99_0 : Ref sig .tc := ⟨.hbm, 126, rfl⟩
abbrev main_v99_1 : Ref sig .tc := ⟨.hbm, 127, rfl⟩
abbrev main_v99_2 : Ref sig .tc := ⟨.hbm, 128, rfl⟩
abbrev main_cst_11 : Ref sig .tc := ⟨.hbm, 129, rfl⟩
abbrev main_v100 : Ref sig .tc := ⟨.hbm, 130, rfl⟩
abbrev main_v101 : Ref sig .tc := ⟨.hbm, 131, rfl⟩
abbrev main_cst_12 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_c_13 : Ref sig .tc := ⟨.hbm, 144, rfl⟩
abbrev main_v113 : Ref sig .tc := ⟨.hbm, 145, rfl⟩
abbrev main_v114 : Ref sig .tc := ⟨.hbm, 146, rfl⟩
abbrev main_c_14 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_15 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134_0 : Ref sig .tc := ⟨.hbm, 168, rfl⟩
abbrev main_v134_1 : Ref sig .tc := ⟨.hbm, 169, rfl⟩
abbrev main_v134_2 : Ref sig .tc := ⟨.hbm, 170, rfl⟩
abbrev main_cst_16 : Ref sig .tc := ⟨.hbm, 171, rfl⟩
abbrev main_v135 : Ref sig .tc := ⟨.hbm, 172, rfl⟩
abbrev main_v136 : Ref sig .tc := ⟨.hbm, 173, rfl⟩
abbrev main_cst_17 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc6_stg6_0 : Ref sig .tc := ⟨.vmem, 62, rfl⟩
abbrev cc6_stg7_0 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem7_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  shapeCasts_S256_S1x256 : S256.ShapeCasts S1x256
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  dot_S100000x32_S32x128_S100000x128_1_0_0_1_n_n_wf : DotDims.WF S100000x32 S32x128 S100000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S100000x128.size a
  hwx4_5 : ∀ i : grid4.Coords, EltTy.bits .f32 = 32 ∨ (Rect.block (s := S100000x128) S2000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S256x128.size a
  hwx6_3 : ∀ i : grid6.Coords, EltTy.bits .f32 = 32 ∨ (Rect.block (s := S256x128) S256x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S100000x128.size a
  hwx6_5 : ∀ i : grid6.Coords, EltTy.bits .f32 = 32 ∨ (Rect.block (s := S100000x128) S2000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S100000x128.size a
  hwx7_5 : ∀ i : grid7.Coords, EltTy.bits .f32 = 32 ∨ (Rect.block (s := S100000x128) S2000x128.size (cc7_transform_5 i) (hinb7_5 i)).WholeWords (EltTy.packing .f32)

variable [Facts₀]

def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v29_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v64_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v64_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v88) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v97) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v98) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99_0) S2000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v99_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v99_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v99_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v105) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v110) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v111) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v112) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v123) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v125) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v132) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v129) S256x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v133) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v134_0) S2000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v134_1) S1x128.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v134_2) S1x128.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v134_0) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v136) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v140) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v145) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v146) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v147) S2000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x32 : Shape := ⟨2, ![100000, 32]⟩
abbrev S2x400000 : Shape := ⟨2, ![2, 400000]⟩
abbrev S32x128 : Shape := ⟨2, ![32, 128]⟩
abbrev S128 : Shape := ⟨1, ![128]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S100000x128 : Shape := ⟨2, ![100000, 128]⟩
abbrev S1x128 : Shape := ⟨2, ![1, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S1x128x256 : Shape := ⟨3, ![1, 128, 256]⟩
abbrev S128x256 : Shape := ⟨2, ![128, 256]⟩
abbrev S100000x256 : Shape := ⟨2, ![100000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩

abbrev nBuf : Space → Nat
  | .hbm => 354
  | .vmem => 0
  | .smem => 0
  | _ => 0

abbrev hbmTy0_0 (i : Nat) : BufTy := match i % 128 with
  | 0 => ⟨S100000x32, .f32⟩
  | 1 => ⟨S2x400000, .i32⟩
  | 2 => ⟨S32x128, .f32⟩
  | 3 => ⟨S128, .f32⟩
  | 4 => ⟨S4x128x256, .f32⟩
  | 5 => ⟨S4x256, .f32⟩
  | 6 => ⟨S4x256x128, .f32⟩
  | 7 => ⟨S4x128, .f32⟩
  | 8 => ⟨S4x128, .f32⟩
  | 9 => ⟨S4x128, .f32⟩
  | 10 => ⟨S100000x128, .f32⟩
  | 11 => ⟨S1x128, .f32⟩
  | 12 => ⟨S100000x128, .f32⟩
  | 13 => ⟨S100000x128, .f32⟩
  | 14 => ⟨S1x400000, .i32⟩
  | 15 => ⟨S400000, .i32⟩
  | 16 => ⟨S1x400000, .i32⟩
  | 17 => ⟨S400000, .i32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x128, .f32⟩
  | 27 => ⟨S_, .f32⟩
  | 28 => ⟨S100000x128, .f32⟩
  | 29 => ⟨S400000x1, .i32⟩
  | 30 => ⟨S100000x128, .f32⟩
  | 31 => ⟨S100000x128, .f32⟩
  | 32 => ⟨S1x128x256, .f32⟩
  | 33 => ⟨S128x256, .f32⟩
  | 34 => ⟨S100000x256, .f32⟩
  | 35 => ⟨S1x256, .f32⟩
  | 36 => ⟨S256, .f32⟩
  | 37 => ⟨S1x256, .f32⟩
  | 38 => ⟨S100000x256, .f32⟩
  | 39 => ⟨S100000x256, .f32⟩
  | 40 => ⟨S_, .f32⟩
  | 41 => ⟨S100000x256, .f32⟩
  | 42 => ⟨S100000x256, .f32⟩
  | 43 => ⟨S1x256x128, .f32⟩
  | 44 => ⟨S256x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x128, .f32⟩
  | 111 => ⟨S_, .f32⟩
  | 112 => ⟨S100000x128, .f32⟩
  | 113 => ⟨S400000x1, .i32⟩
  | 114 => ⟨S100000x128, .f32⟩
  | 115 => ⟨S100000x128, .f32⟩
  | 116 => ⟨S1x128x256, .f32⟩
  | 117 => ⟨S128x256, .f32⟩
  | 118 => ⟨S100000x256, .f32⟩
  | 119 => ⟨S1x256, .f32⟩
  | 120 => ⟨S256, .f32⟩
  | 121 => ⟨S1x256, .f32⟩
  | 122 => ⟨S100000x256, .f32⟩
  | 123 => ⟨S100000x256, .f32⟩
  | 124 => ⟨S_, .f32⟩
  | 125 => ⟨S100000x256, .f32⟩
  | 126 => ⟨S100000x256, .f32⟩
  | 127 => ⟨S1x256x128, .f32⟩
  | _ => ⟨S100000x32, .f32⟩

abbrev hbmTy0_1 (i : Nat) : BufTy := match i % 128 with
  | 0 => ⟨S256x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S100000x128, .f32⟩
  | 20 => ⟨S100000x128, .f32⟩
  | 21 => ⟨S100000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x128, .f32⟩
  | 67 => ⟨S_, .f32⟩
  | 68 => ⟨S100000x128, .f32⟩
  | 69 => ⟨S400000x1, .i32⟩
  | 70 => ⟨S100000x128, .f32⟩
  | 71 => ⟨S100000x128, .f32⟩
  | 72 => ⟨S1x128x256, .f32⟩
  | 73 => ⟨S128x256, .f32⟩
  | 74 => ⟨S100000x256, .f32⟩
  | 75 => ⟨S1x256, .f32⟩
  | 76 => ⟨S256, .f32⟩
  | 77 => ⟨S1x256, .f32⟩
  | 78 => ⟨S100000x256, .f32⟩
  | 79 => ⟨S100000x256, .f32⟩
  | 80 => ⟨S_, .f32⟩
  | 81 => ⟨S100000x256, .f32⟩
  | 82 => ⟨S100000x256, .f32⟩
  | 83 => ⟨S1x256x128, .f32⟩
  | 84 => ⟨S256x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S100000x128, .f32⟩
  | 104 => ⟨S100000x128, .f32⟩
  | 105 => ⟨S100000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S128, .f32⟩
  | 125 => ⟨S128, .f32⟩
  | 126 => ⟨S1x128, .f32⟩
  | 127 => ⟨S100000x128, .f32⟩
  | _ => ⟨S100000x32, .f32⟩

abbrev hbmTy0_2 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x128, .f32⟩
  | 23 => ⟨S_, .f32⟩
  | 24 => ⟨S100000x128, .f32⟩
  | 25 => ⟨S400000x1, .i32⟩
  | 26 => ⟨S100000x128, .f32⟩
  | 27 => ⟨S100000x128, .f32⟩
  | 28 => ⟨S1x128x256, .f32⟩
  | 29 => ⟨S128x256, .f32⟩
  | 30 => ⟨S100000x256, .f32⟩
  | 31 => ⟨S1x256, .f32⟩
  | 32 => ⟨S256, .f32⟩
  | 33 => ⟨S1x256, .f32⟩
  | 34 => ⟨S100000x256, .f32⟩
  | 35 => ⟨S100000x256, .f32⟩
  | 36 => ⟨S_, .f32⟩
  | 37 => ⟨S100000x256, .f32⟩
  | 38 => ⟨S100000x256, .f32⟩
  | 39 => ⟨S1x256x128, .f32⟩
  | 40 => ⟨S256x128, .f32⟩
  | 41 => ⟨S100000x128, .f32⟩
  | 42 => ⟨S1x128, .f32⟩
  | 43 => ⟨S128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S1x128, .f32⟩
  | 91 => ⟨S128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_v38 : Ref sig .tc := ⟨.hbm, 55, rfl⟩
abbrev main_c_3 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_cst_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_cst_1 : Ref sig .tc := ⟨.hbm, 67, rfl⟩
abbrev main_call1_v8 : Ref sig .tc := ⟨.hbm, 68, rfl⟩
abbrev main_call1_cst_2 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_cst_3 : Ref sig .tc := ⟨.hbm, 73, rfl⟩
abbrev main_call1_v12 : Ref sig .tc := ⟨.hbm, 74, rfl⟩
abbrev main_call1_cst_4 : Ref sig .tc := ⟨.hbm, 75, rfl⟩
abbrev main_call1_call0_v0 : Ref sig .tc := ⟨.hbm, 76, rfl⟩
abbrev main_call1_call0_v1 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_4 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call2_cst : Ref sig .tc := ⟨.hbm, 99, rfl⟩
abbrev main_call2_v0 : Ref sig .tc := ⟨.hbm, 100, rfl⟩
abbrev main_v59 : Ref sig .tc := ⟨.hbm, 101, rfl⟩
abbrev main_c_5 : Ref sig .tc := ⟨.hbm, 102, rfl⟩
abbrev main_v60 : Ref sig .tc := ⟨.hbm, 103, rfl⟩
abbrev main_v61 : Ref sig .tc := ⟨.hbm, 104, rfl⟩
abbrev main_c_6 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_7 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_call3_cst : Ref sig .tc := ⟨.hbm, 124, rfl⟩
abbrev main_call3_v0 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_8 : Ref sig .tc := ⟨.hbm, 135, rfl⟩
abbrev main_v88 : Ref sig .tc := ⟨.hbm, 136, rfl⟩
abbrev main_cst_9 : Ref sig .tc := ⟨.hbm, 137, rfl⟩
abbrev main_v89 : Ref sig .tc := ⟨.hbm, 138, rfl⟩
abbrev main_v90 : Ref sig .tc := ⟨.hbm, 139, rfl⟩
abbrev main_c_10 : Ref sig .tc := ⟨.hbm, 140, rfl⟩
abbrev main_call4_cst : Ref sig .tc := ⟨.hbm, 141, rfl⟩
abbrev main_call4_v0 : Ref sig .tc := ⟨.hbm, 142, rfl⟩
abbrev main_call4_v1 : Ref sig .tc := ⟨.hbm, 143, rfl⟩
abbrev main_call4_cst_0 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_v6 : Ref sig .tc := ⟨.hbm, 149, rfl⟩
abbrev main_call4_v7 : Ref sig .tc := ⟨.hbm, 150, rfl⟩
abbrev main_call4_cst_1 : Ref sig .tc := ⟨.hbm, 151, rfl⟩
abbrev main_call4_v8 : Ref sig .tc := ⟨.hbm, 152, rfl⟩
abbrev main_call4_cst_2 : Ref sig .tc := ⟨.hbm, 153, rfl⟩
abbrev main_call4_v9 : Ref sig .tc := ⟨.hbm, 154, rfl⟩
abbrev main_call4_v10 : Ref sig .tc := ⟨.hbm, 155, rfl⟩
abbrev main_call4_v11 : Ref sig .tc := ⟨.hbm, 156, rfl⟩
abbrev main_call4_cst_3 : Ref sig .tc := ⟨.hbm, 157, rfl⟩
abbrev main_call4_v12 : Ref sig .tc := ⟨.hbm, 158, rfl⟩
abbrev main_call4_cst_4 : Ref sig .tc := ⟨.hbm, 159, rfl⟩
abbrev main_call4_call0_v0 : Ref sig .tc := ⟨.hbm, 160, rfl⟩
abbrev main_call4_call0_v1 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_cst_11 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_call5_cst : Ref sig .tc := ⟨.hbm, 183, rfl⟩
abbrev main_call5_v0 : Ref sig .tc := ⟨.hbm, 184, rfl⟩
abbrev main_v111 : Ref sig .tc := ⟨.hbm, 185, rfl⟩
abbrev main_c_12 : Ref sig .tc := ⟨.hbm, 186, rfl⟩
abbrev main_v112 : Ref sig .tc := ⟨.hbm, 187, rfl⟩
abbrev main_v113 : Ref sig .tc := ⟨.hbm, 188, rfl⟩
abbrev main_c_13 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_cst_14 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_call6_cst : Ref sig .tc := ⟨.hbm, 208, rfl⟩
abbrev main_call6_v0 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_cst_15 : Ref sig .tc := ⟨.hbm, 219, rfl⟩
abbrev main_v140 : Ref sig .tc := ⟨.hbm, 220, rfl⟩
abbrev main_cst_16 : Ref sig .tc := ⟨.hbm, 221, rfl⟩
abbrev main_v141 : Ref sig .tc := ⟨.hbm, 222, rfl⟩
abbrev main_v142 : Ref sig .tc := ⟨.hbm, 223, rfl⟩
abbrev main_c_17 : Ref sig .tc := ⟨.hbm, 224, rfl⟩
abbrev main_call7_cst : Ref sig .tc := ⟨.hbm, 225, rfl⟩
abbrev main_call7_v0 : Ref sig .tc := ⟨.hbm, 226, rfl⟩
abbrev main_call7_v1 : Ref sig .tc := ⟨.hbm, 227, rfl⟩
abbrev main_call7_cst_0 : Ref sig .tc := ⟨.hbm, 228, rfl⟩
abbrev main_call7_v2 : Ref sig .tc := ⟨.hbm, 229, rfl⟩
abbrev main_call7_v3 : Ref sig .tc := ⟨.hbm, 230, rfl⟩
abbrev main_call7_v4 : Ref sig .tc := ⟨.hbm, 231, rfl⟩
abbrev main_call7_v5 : Ref sig .tc := ⟨.hbm, 232, rfl⟩
abbrev main_call7_v6 : Ref sig .tc := ⟨.hbm, 233, rfl⟩
abbrev main_call7_v7 : Ref sig .tc := ⟨.hbm, 234, rfl⟩
abbrev main_call7_cst_1 : Ref sig .tc := ⟨.hbm, 235, rfl⟩
abbrev main_call7_v8 : Ref sig .tc := ⟨.hbm, 236, rfl⟩
abbrev main_call7_cst_2 : Ref sig .tc := ⟨.hbm, 237, rfl⟩
abbrev main_call7_v9 : Ref sig .tc := ⟨.hbm, 238, rfl⟩
abbrev main_call7_v10 : Ref sig .tc := ⟨.hbm, 239, rfl⟩
abbrev main_call7_v11 : Ref sig .tc := ⟨.hbm, 240, rfl⟩
abbrev main_call7_cst_3 : Ref sig .tc := ⟨.hbm, 241, rfl⟩
abbrev main_call7_v12 : Ref sig .tc := ⟨.hbm, 242, rfl⟩
abbrev main_call7_cst_4 : Ref sig .tc := ⟨.hbm, 243, rfl⟩
abbrev main_call7_call0_v0 : Ref sig .tc := ⟨.hbm, 244, rfl⟩
abbrev main_call7_call0_v1 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_cst_18 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_call8_cst : Ref sig .tc := ⟨.hbm, 267, rfl⟩
abbrev main_call8_v0 : Ref sig .tc := ⟨.hbm, 268, rfl⟩
abbrev main_v163 : Ref sig .tc := ⟨.hbm, 269, rfl⟩
abbrev main_c_19 : Ref sig .tc := ⟨.hbm, 270, rfl⟩
abbrev main_v164 : Ref sig .tc := ⟨.hbm, 271, rfl⟩
abbrev main_v165 : Ref sig .tc := ⟨.hbm, 272, rfl⟩
abbrev main_c_20 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_cst_21 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_v181 : Ref sig .tc := ⟨.hbm, 290, rfl⟩
abbrev main_v182 : Ref sig .tc := ⟨.hbm, 291, rfl⟩
abbrev main_call9_cst : Ref sig .tc := ⟨.hbm, 292, rfl⟩
abbrev main_call9_v0 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_cst_22 : Ref sig .tc := ⟨.hbm, 303, rfl⟩
abbrev main_v192 : Ref sig .tc := ⟨.hbm, 304, rfl⟩
abbrev main_cst_23 : Ref sig .tc := ⟨.hbm, 305, rfl⟩
abbrev main_v193 : Ref sig .tc := ⟨.hbm, 306, rfl⟩
abbrev main_v194 : Ref sig .tc := ⟨.hbm, 307, rfl⟩
abbrev main_c_24 : Ref sig .tc := ⟨.hbm, 308, rfl⟩
abbrev main_call10_cst : Ref sig .tc := ⟨.hbm, 309, rfl⟩
abbrev main_call10_v0 : Ref sig .tc := ⟨.hbm, 310, rfl⟩
abbrev main_call10_v1 : Ref sig .tc := ⟨.hbm, 311, rfl⟩
abbrev main_call10_cst_0 : Ref sig .tc := ⟨.hbm, 312, rfl⟩
abbrev main_call10_v2 : Ref sig .tc := ⟨.hbm, 313, rfl⟩
abbrev main_call10_v3 : Ref sig .tc := ⟨.hbm, 314, rfl⟩
abbrev main_call10_v4 : Ref sig .tc := ⟨.hbm, 315, rfl⟩
abbrev main_call10_v5 : Ref sig .tc := ⟨.hbm, 316, rfl⟩
abbrev main_call10_v6 : Ref sig .tc := ⟨.hbm, 317, rfl⟩
abbrev main_call10_v7 : Ref sig .tc := ⟨.hbm, 318, rfl⟩
abbrev main_call10_cst_1 : Ref sig .tc := ⟨.hbm, 319, rfl⟩
abbrev main_call10_v8 : Ref sig .tc := ⟨.hbm, 320, rfl⟩
abbrev main_call10_cst_2 : Ref sig .tc := ⟨.hbm, 321, rfl⟩
abbrev main_call10_v9 : Ref sig .tc := ⟨.hbm, 322, rfl⟩
abbrev main_call10_v10 : Ref sig .tc := ⟨.hbm, 323, rfl⟩
abbrev main_call10_v11 : Ref sig .tc := ⟨.hbm, 324, rfl⟩
abbrev main_call10_cst_3 : Ref sig .tc := ⟨.hbm, 325, rfl⟩
abbrev main_call10_v12 : Ref sig .tc := ⟨.hbm, 326, rfl⟩
abbrev main_call10_cst_4 : Ref sig .tc := ⟨.hbm, 327, rfl⟩
abbrev main_call10_call0_v0 : Ref sig .tc := ⟨.hbm, 328, rfl⟩
abbrev main_call10_call0_v1 : Ref sig .tc := ⟨.hbm, 329, rfl⟩
abbrev main_v195 : Ref sig .tc := ⟨.hbm, 330, rfl⟩
abbrev main_v196 : Ref sig .tc := ⟨.hbm, 331, rfl⟩
abbrev main_v197 : Ref sig .tc := ⟨.hbm, 332, rfl⟩
abbrev main_v198 : Ref sig .tc := ⟨.hbm, 333, rfl⟩
abbrev main_cst_25 : Ref sig .tc := ⟨.hbm, 334, rfl⟩
abbrev main_v199 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_v203 : Ref sig .tc := ⟨.hbm, 339, rfl⟩
abbrev main_v204 : Ref sig .tc := ⟨.hbm, 340, rfl⟩
abbrev main_v205 : Ref sig .tc := ⟨.hbm, 341, rfl⟩
abbrev main_v206 : Ref sig .tc := ⟨.hbm, 342, rfl⟩
abbrev main_v207 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_v214 : Ref sig .tc := ⟨.hbm, 350, rfl⟩
abbrev main_call11_cst : Ref sig .tc := ⟨.hbm, 351, rfl⟩
abbrev main_call11_v0 : Ref sig .tc := ⟨.hbm, 352, rfl⟩
abbrev main_v215 : Ref sig .tc := ⟨.hbm, 353, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x256_S1x128x256_1_0_0 : S4x128x256.Slices ![1, 0, 0] S1x128x256
  slices_S4x256_S1x256_1_0 : S4x256.Slices ![1, 0] S1x256
  slices_S4x256x128_S1x256x128_1_0_0 : S4x256x128.Slices ![1, 0, 0] S1x256x128
  slices_S4x128_S1x128_1_0 : S4x128.Slices ![1, 0] S1x128
  slices_S4x128x256_S1x128x256_2_0_0 : S4x128x256.Slices ![2, 0, 0] S1x128x256
  slices_S4x256_S1x256_2_0 : S4x256.Slices ![2, 0] S1x256
  slices_S4x256x128_S1x256x128_2_0_0 : S4x256x128.Slices ![2, 0, 0] S1x256x128
  slices_S4x128_S1x128_2_0 : S4x128.Slices ![2, 0] S1x128
  slices_S4x128x256_S1x128x256_3_0_0 : S4x128x256.Slices ![3, 0, 0] S1x128x256
  slices_S4x256_S1x256_3_0 : S4x256.Slices ![3, 0] S1x256
  slices_S4x256x128_S1x256x128_3_0_0 : S4x256x128.Slices ![3, 0, 0] S1x256x128
  slices_S4x128_S1x128_3_0 : S4x128.Slices ![3, 0] S1x128
  dot_S100000x32_S32x128_S100000x128_1_0_0_1_n_n_wf : DotDims.WF S100000x32 S32x128 S100000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The mathematics of one graph-isomorphism layer, index by index over the extended reals, stated with no
  reference to either program.

  A layer takes the aggregated node features `z` (100000 nodes, 128 features), applies a two-layer perceptron
  `zpre = max (z · W1 + b1) 0 · W2 + b2`, normalises each feature column by its mean and variance over the nodes,
  scales and shifts it by `γ`, `β` and clamps at zero.  The two programs differ in one place only: the variance
  of a column is written `E[y²] − (E[y])²` on one side (`varK`) and `E[(y − E[y])²]` on the other (`varR`).
  These agree whenever every entry of the column is a real number.
-/
import Idealize.ShloMosaic.PureOps.Ideal
import Idealize.ShloMosaic.Lib.ValueIdx

noncomputable section

open scoped BigOperators

namespace Cert.Gin

open Idealize.ShloMosaic Idealize.ShloMosaic.ValueIdx

/-- nodes × features -/
abbrev SNH : Shape := ⟨2, ![100000, 128]⟩
/-- nodes × hidden units -/
abbrev SNH2 : Shape := ⟨2, ![100000, 256]⟩
abbrev SHH2 : Shape := ⟨2, ![128, 256]⟩
abbrev SH2H : Shape := ⟨2, ![256, 128]⟩
abbrev SH : Shape := ⟨1, ![128]⟩
abbrev SH2 : Shape := ⟨1, ![256]⟩

/-- An array of extended reals over a shape. -/
abbrev Arr (s : Shape) : Type := s.Idx → EReal

/-- The number of nodes as the programs write it: the binary32 pattern of 100000. -/
def cN : EReal := Ideal.ofBits .f32 0x47C35000#32
/-- The variance offset as the programs write it: the binary32 pattern nearest 1e-5. -/
def eps : EReal := Ideal.ofBits .f32 0x3727C5AC#32

/-- Hidden unit `k` of node `n`: `max (∑ i, z[n,i] · W1[i,k] + b1[k]) 0`. -/
def hid (z : Arr SNH) (W1 : Arr SHH2) (b1 : Arr SH2) (n : Fin 100000) (k : Fin 256) : EReal :=
  max ((∑ i : Fin 128, z (ix2 n i) * W1 (ix2 i k)) + b1 (ix1 k)) 0

/-- The perceptron's output at node `n`, feature `j`: `∑ k, hid[n,k] · W2[k,j] + b2[j]`. -/
def zpreAt (z : Arr SNH) (W1 : Arr SHH2) (b1 : Arr SH2) (W2 : Arr SH2H) (b2 : Arr SH) (n : Fin 100000) (j : Fin 128) : EReal :=
  (∑ k : Fin 256, hid z W1 b1 n k * W2 (ix2 k j)) + b2 (ix1 j)

/-- The perceptron's output as an array. -/
def zpre (z : Arr SNH) (W1 : Arr SHH2) (b1 : Arr SH2) (W2 : Arr SH2H) (b2 : Arr SH) : Arr SNH :=
  fun idx => zpreAt z W1 b1 W2 b2 (idx 0) (idx 1)

/-- Column sums over the nodes. -/
def colsum (y : Arr SNH) : Arr SH := fun j => ∑ n : Fin 100000, y (ix2 n (j 0))
/-- Column sums of squares over the nodes. -/
def colsumsq (y : Arr SNH) : Arr SH := fun j => ∑ n : Fin 100000, y (ix2 n (j 0)) * y (ix2 n (j 0))

/-- The column mean: the column sum divided by the node count. -/
def mean (y : Arr SNH) : Arr SH := fun j => Ideal.div (colsum y j) cN
/-- The column variance as mean of squares minus squared mean. -/
def varK (y : Arr SNH) : Arr SH := fun j => Ideal.div (colsumsq y j) cN - mean y j * mean y j
/-- The column variance as the mean squared deviation from the mean (the divisor is written `cN - 0`). -/
def varR (y : Arr SNH) : Arr SH := fun j =>
  Ideal.div (∑ n : Fin 100000, (y (ix2 n (j 0)) - mean y j) * (y (ix2 n (j 0)) - mean y j)) (cN - 0)

/-- Normalise, scale, shift and clamp: `max ((y − μ) · rsqrt (v + eps) · γ + β) 0`, the statistics per column. -/
def bnrelu (y : Arr SNH) (μ v γ β : Arr SH) : Arr SNH := fun idx =>
  max ((y idx - μ (ix1 (idx 1))) * Ideal.rsqrt (v (ix1 (idx 1)) + eps) * γ (ix1 (idx 1)) + β (ix1 (idx 1))) 0

/-- One layer's parameters. -/
structure Params where
  W1 : Arr SHH2
  b1 : Arr SH2
  W2 : Arr SH2H
  b2 : Arr SH
  γ : Arr SH
  β : Arr SH

/-- A layer with the variance written as mean of squares minus squared mean. -/
def layerK (z : Arr SNH) (p : Params) : Arr SNH :=
  bnrelu (zpre z p.W1 p.b1 p.W2 p.b2) (mean (zpre z p.W1 p.b1 p.W2 p.b2)) (varK (zpre z p.W1 p.b1 p.W2 p.b2)) p.γ p.β

/-- A layer with the variance written as mean squared deviation. -/
def layerR (z : Arr SNH) (p : Params) : Arr SNH :=
  bnrelu (zpre z p.W1 p.b1 p.W2 p.b2) (mean (zpre z p.W1 p.b1 p.W2 p.b2)) (varR (zpre z p.W1 p.b1 p.W2 p.b2)) p.γ p.β

/-- Four layers, each fed the aggregate `A h` of the previous layer's output. -/
def net (L : Arr SNH → Params → Arr SNH) (A : Arr SNH → Arr SNH) (h0 : Arr SNH) (p0 p1 p2 p3 : Params) : Arr SNH :=
  L (A (L (A (L (A (L (A h0) p0)) p1)) p2)) p3

end Cert.Gin

end
-- ==== Proof.GinConsts.lean ====
/-
  The two binary32 words the programs write, as the real numbers they denote: the node count 100000 and the
  variance offset, 10995116 · 2⁻⁴⁰ (the binary32 number nearest 1e-5), which is positive.
-/
import proofs.«155226_j39831526703451_1_alg».proof.Proof.Spec

noncomputable section

namespace Cert.Gin.Consts

open Idealize.ShloMosaic

/-- The node count's word denotes the real 100000. -/
theorem cN_eq : Cert.Gin.cN = ((100000 : ℝ) : EReal) := by
  simp [Cert.Gin.cN, Ideal.ofBits, Ideal.ieee, -EReal.coe_mul]
  try norm_num

/-- The variance offset's word denotes a real number. -/
theorem eps_eq : Cert.Gin.eps = ((10995116 * (2 : ℝ) ^ (-40 : Int) : ℝ) : EReal) := by
  simp [Cert.Gin.eps, Ideal.ofBits, Ideal.ieee, -EReal.coe_mul]
  try norm_num

/-- … and that number is positive. -/
theorem eps_pos : (0 : ℝ) < 10995116 * (2 : ℝ) ^ (-40 : Int) := by positivity

end Cert.Gin.Consts

end
-- ==== Proof.GinMath.lean ====
/-
  Why the two ways of writing a column's variance agree, and why every layer maps arrays of real numbers to
  arrays of real numbers.

  On the extended reals `E[y²] − (E[y])²` and `E[(y − E[y])²]` differ as soon as an entry is infinite, so the
  argument carries the invariant "every entry is a real number" through the perceptron (sums of products, a
  maximum with zero), the column statistics (sums, a quotient by the real 100000) and the normalisation (the
  variance is a non-negative real, the offset a positive real, so the reciprocal square root is a real).
  With real entries `r n`, column sum `S`, sum of squares `Q` and `m = S / N`:
  `∑ (r n − m)² = Q − 2 m S + N m²`, hence `(∑ (r n − m)²) / N = Q / N − m²`.
-/
import proofs.«155226_j39831526703451_1_alg».proof.Proof.Spec
import proofs.«155226_j39831526703451_1_alg».proof.Proof.GinConsts

noncomputable section

open scoped BigOperators

namespace Cert.Gin

open Idealize.ShloMosaic Idealize.ShloMosaic.ValueIdx

/-! ## Real entries -/

/-- An extended real that is a real number. -/
def IsR (x : EReal) : Prop := ∃ r : ℝ, x = (r : EReal)

/-- Every entry of the array is a real number. -/
def IsReal {s : Shape} (a : Arr s) : Prop := ∀ i, IsR (a i)

theorem isR_coe (r : ℝ) : IsR (r : EReal) := ⟨r, rfl⟩
theorem isR_zero : IsR 0 := ⟨0, rfl⟩
theorem isR_add {x y : EReal} (hx : IsR x) (hy : IsR y) : IsR (x + y) := by
  obtain ⟨a, rfl⟩ := hx; obtain ⟨b, rfl⟩ := hy; exact ⟨a + b, (EReal.coe_add a b).symm⟩
theorem isR_sub {x y : EReal} (hx : IsR x) (hy : IsR y) : IsR (x - y) := by
  obtain ⟨a, rfl⟩ := hx; obtain ⟨b, rfl⟩ := hy; exact ⟨a - b, (EReal.coe_sub a b).symm⟩
theorem isR_mul {x y : EReal} (hx : IsR x) (hy : IsR y) : IsR (x * y) := by
  obtain ⟨a, rfl⟩ := hx; obtain ⟨b, rfl⟩ := hy; exact ⟨a * b, (EReal.coe_mul a b).symm⟩
theorem isR_max {x y : EReal} (hx : IsR x) (hy : IsR y) : IsR (max x y) := by
  rcases max_choice x y with h | h <;> rw [h] <;> assumption

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type} (s : Finset ι) (f : ι → EReal) (h : ∀ i ∈ s, IsR (f i)) : IsR (∑ i ∈ s, f i) := by
  classical
  induction s using Finset.induction_on with
  | empty => simpa using isR_zero
  | insert a s ha ih =>
    rw [Finset.sum_insert ha]
    exact isR_add (h a (Finset.mem_insert_self a s)) (ih fun i hi => h i (Finset.mem_insert_of_mem hi))

/-- A quotient by the node count is a product with a real. -/
theorem div_cN (x : EReal) : Ideal.div x cN = x * (((1 / 100000 : ℝ)) : EReal) := by
  rw [Consts.cN_eq]; exact Ideal.div_coe (by norm_num) x

theorem isR_div_cN {x : EReal} (hx : IsR x) : IsR (Ideal.div x cN) := by
  rw [div_cN]; exact isR_mul hx (isR_coe _)

/-- The reciprocal square root of a positive real is a real. -/
theorem rsqrt_coe_pos {x : ℝ} (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-! ## The perceptron keeps real entries real -/

theorem isR_hid {z : Arr SNH} {W1 : Arr SHH2} {b1 : Arr SH2} (hz : IsReal z) (hW1 : IsReal W1) (hb1 : IsReal b1)
    (n : Fin 100000) (k : Fin 256) : IsR (hid z W1 b1 n k) :=
  isR_max (isR_add (isR_sum _ _ fun i _ => isR_mul (hz _) (hW1 _)) (hb1 _)) isR_zero

theorem isReal_zpre {z : Arr SNH} {W1 : Arr SHH2} {b1 : Arr SH2} {W2 : Arr SH2H} {b2 : Arr SH}
    (hz : IsReal z) (hW1 : IsReal W1) (hb1 : IsReal b1) (hW2 : IsReal W2) (hb2 : IsReal b2) :
    IsReal (zpre z W1 b1 W2 b2) := fun idx =>
  isR_add (isR_sum _ _ fun k _ => isR_mul (isR_hid hz hW1 hb1 _ k) (hW2 _)) (hb2 _)

theorem isReal_mean {y : Arr SNH} (hy : IsReal y) : IsReal (mean y) := fun j =>
  isR_div_cN (isR_sum _ _ fun n _ => hy _)

/-! ## The two variances -/

/-- Over the reals: the sum of squared deviations from `m` is `Q − 2 m S + N m²`. -/
theorem sum_sq_dev (f : Fin 100000 → ℝ) (m : ℝ) :
    ∑ n : Fin 100000, (f n - m) * (f n - m)
      = (∑ n : Fin 100000, f n * f n) - 2 * m * (∑ n : Fin 100000, f n) + 100000 * (m * m) := by
  have h : ∀ n, (f n - m) * (f n - m) = f n * f n - 2 * m * f n + m * m := fun n => by ring
  simp only [h, Finset.sum_add_distrib, Finset.sum_sub_distrib, ← Finset.mul_sum, Finset.sum_const, Finset.card_univ,
    Fintype.card_fin, nsmul_eq_mul]
  norm_num
  ring

/-- A column of real numbers: its variance written either way is the same real, and that real is non-negative. -/
theorem var_real (y : Arr SNH) (hy : IsReal y) (j : SH.Idx) :
    varK y j = varR y j ∧ ∃ v : ℝ, 0 ≤ v ∧ varR y j = (v : EReal) := by
  choose r hr using hy
  have hsum : ∀ g : Fin 100000 → ℝ, (∑ n : Fin 100000, ((g n : ℝ) : EReal)) = ((∑ n : Fin 100000, g n : ℝ) : EReal) :=
    fun g => (coe_sum Finset.univ g).symm
  set f : Fin 100000 → ℝ := fun n => r (ix2 n (j 0)) with hf
  have hS : colsum y j = ((∑ n : Fin 100000, f n : ℝ) : EReal) := by
    unfold colsum; simp only [hr]; exact hsum f
  have hQ : colsumsq y j = ((∑ n : Fin 100000, f n * f n : ℝ) : EReal) := by
    unfold colsumsq; simp only [hr, ← EReal.coe_mul]; exact hsum fun n => f n * f n
  have hm : mean y j = (((∑ n : Fin 100000, f n) * (1 / 100000) : ℝ) : EReal) := by
    unfold mean; rw [div_cN, hS, ← EReal.coe_mul]
  have hK : varK y j = (((∑ n : Fin 100000, f n * f n) * (1 / 100000)
      - ((∑ n : Fin 100000, f n) * (1 / 100000)) * ((∑ n : Fin 100000, f n) * (1 / 100000)) : ℝ) : EReal) := by
    unfold varK; rw [div_cN, hQ, hm, ← EReal.coe_mul, ← EReal.coe_mul, ← EReal.coe_sub]
  have hR : varR y j = (((∑ n : Fin 100000, (f n - (∑ n : Fin 100000, f n) * (1 / 100000))
      * (f n - (∑ n : Fin 100000, f n) * (1 / 100000))) * (1 / 100000) : ℝ) : EReal) := by
    unfold varR; rw [hm, sub_zero, div_cN]
    simp only [hr, ← EReal.coe_sub, ← EReal.coe_mul]
    rw [hsum fun n => (f n - (∑ n : Fin 100000, f n) * (1 / 100000)) * (f n - (∑ n : Fin 100000, f n) * (1 / 100000)),
      ← EReal.coe_mul]
  refine ⟨?_, _, ?_, hR⟩
  · rw [hK, hR, sum_sq_dev]
    refine congrArg (fun x : ℝ => (x : EReal)) ?_
    generalize (∑ n : Fin 100000, f n * f n) = Q
    generalize (∑ n : Fin 100000, f n) = S
    ring
  · exact mul_nonneg (Finset.sum_nonneg fun n _ => mul_self_nonneg _) (by norm_num)

theorem varK_eq_varR (y : Arr SNH) (hy : IsReal y) : varK y = varR y :=
  funext fun j => (var_real y hy j).1

/-! ## A layer -/

/-- All six parameter arrays of a layer have real entries. -/
def Params.IsReal (p : Params) : Prop :=
  Cert.Gin.IsReal p.W1 ∧ Cert.Gin.IsReal p.b1 ∧ Cert.Gin.IsReal p.W2 ∧ Cert.Gin.IsReal p.b2 ∧ Cert.Gin.IsReal p.γ ∧ Cert.Gin.IsReal p.β

/-- On real inputs the two layers are one function … -/
theorem layerK_eq_layerR (z : Arr SNH) (p : Params) (hz : IsReal z) (hp : p.IsReal) : layerK z p = layerR z p := by
  unfold layerK layerR
  rw [varK_eq_varR _ (isReal_zpre hz hp.1 hp.2.1 hp.2.2.1 hp.2.2.2.1)]

/-- … whose values are real: the variance is a non-negative real and the offset positive, so the reciprocal
    square root is taken of a positive real. -/
theorem isReal_layerR (z : Arr SNH) (p : Params) (hz : IsReal z) (hp : p.IsReal) : IsReal (layerR z p) := by
  have hy := isReal_zpre hz hp.1 hp.2.1 hp.2.2.1 hp.2.2.2.1
  intro idx
  unfold layerR bnrelu
  obtain ⟨v, hv0, hv⟩ := (var_real _ hy (ix1 (idx 1))).2
  have hrs : IsR (Ideal.rsqrt (varR (zpre z p.W1 p.b1 p.W2 p.b2) (ix1 (idx 1)) + eps)) := by
    rw [hv, Consts.eps_eq, ← EReal.coe_add, rsqrt_coe_pos (add_pos_of_nonneg_of_pos hv0 Consts.eps_pos)]
    exact isR_coe _
  exact isR_max (isR_add (isR_mul (isR_mul (isR_sub (hy idx) (isReal_mean hy _)) hrs) (hp.2.2.2.2.1 _)) (hp.2.2.2.2.2 _)) isR_zero

/-! ## Four layers -/

/-- With an aggregation that keeps real entries real, real initial features and real parameters, the network is
    the same function whichever way the variances are written. -/
theorem net_eq (A : Arr SNH → Arr SNH) (hA : ∀ h, IsReal h → IsReal (A h)) (h0 : Arr SNH) (hh0 : IsReal h0)
    (p0 p1 p2 p3 : Params) (hp0 : p0.IsReal) (hp1 : p1.IsReal) (hp2 : p2.IsReal) (hp3 : p3.IsReal) :
    net layerK A h0 p0 p1 p2 p3 = net layerR A h0 p0 p1 p2 p3 := by
  unfold net
  have e0 := layerK_eq_layerR (A h0) p0 (hA _ hh0) hp0
  have r0 := isReal_layerR (A h0) p0 (hA _ hh0) hp0
  have e1 := layerK_eq_layerR (A (layerR (A h0) p0)) p1 (hA _ r0) hp1
  have r1 := isReal_layerR (A (layerR (A h0) p0)) p1 (hA _ r0) hp1
  have e2 := layerK_eq_layerR (A (layerR (A (layerR (A h0) p0)) p1)) p2 (hA _ r1) hp2
  have r2 := isReal_layerR (A (layerR (A (layerR (A h0) p0)) p1)) p2 (hA _ r1) hp2
  have e3 := layerK_eq_layerR (A (layerR (A (layerR (A (layerR (A h0) p0)) p1)) p2)) p3 (hA _ r2) hp3
  rw [e0, e1, e2, e3]

end Cert.Gin

end
-- ==== Proof.PreReal.lean ====
/-
  FROM THE PRECONDITION TO REAL ENTRIES. The precondition tests each of the nine float arguments a by
  all (|a| < +∞): the absolute value |x| = max x (-x), an ordered comparison against the broadcast word 0x7F800000
  (which denotes +∞), an and-reduction of the resulting bits over every axis, and the nine bits joined by and. Over the
  extended reals |x| is +∞ at either infinity and is the real |r| at a real r, so |x| < +∞ holds exactly when x is a real
  number. Hence the precondition being 1 gives: every entry of every float argument is a real number.
-/
import proofs.«155226_j39831526703451_1_alg».proof.Pre_finite_inputs
import Idealize.ShloMosaic.PureOps.Ideal
import Idealize.ShloMosaic.Lib.ValueIdx
import Idealize.ShloMosaic.Lib.ReduceAll

noncomputable section

namespace Cert.Pre_finite_inputs.PreReal

open Idealize.ShloMosaic Cert.Pre_finite_inputs

/-- The rank-0 shape has one index. -/
instance : Subsingleton S_.Idx := ⟨fun a b => funext fun d => d.elim0⟩

/-- The word 0x7F800000 denotes +∞. -/
theorem ofBits_inf : Ideal.ofBits .f32 0x7F800000#32 = (⊤ : EReal) := by simp [Ideal.ofBits, Ideal.ieee]

/-- On the extended reals |x| = max x (-x) is below +∞ only when x is a real number: at -∞ and at +∞ it is +∞,
    and +∞ is not below itself. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One argument's test, over any shape s: if the and-reduction over all axes of the bits |a i| < +∞ is 1, then every
    bit is 1, so every entry a i is a real number. -/
theorem real_of_test {s : Shape} {axes : List (Fin s.rank)}
    (hb : S_.BroadcastsInDim s (![] : Fin 0 → Fin s.rank)) (hr : s.ReducesTo axes S_) (hu : 0 < S_.numel)
    (a : FVec Ideal s .f32)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := by
  intro i
  have hi := Host.reduce_andi_all _ _ hr hu ValueIdx.ix0 e i
  exact real_of_abs_lt_top (a i) hi

/-- The precondition decoded: at its one index the result is the and of the nine tests, so each test is 1, and each
    test gives its argument's entries real. -/
theorem real_of_pre [Cert.Pre_finite_inputs.Facts] (a0 : FVec Ideal S100000x32 .f32) (a1 : IVec S2x400000 32)
    (a2 : FVec Ideal S32x128 .f32) (a3 : FVec Ideal S128 .f32) (a4 : FVec Ideal S4x128x256 .f32)
    (a5 : FVec Ideal S4x256 .f32) (a6 : FVec Ideal S4x256x128 .f32) (a7 a8 a9 : FVec Ideal S4x128 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧ (∀ i, ∃ r : ℝ, a9 i = (r : EReal)) := by
  have e := congrFun h ValueIdx.ix0
  dsimp only [fn, fn_part1, fn_part2] at e
  simp only [andi, IntOp.andi_eq_one] at e
  obtain ⟨⟨⟨⟨⟨⟨⟨⟨h0, h2⟩, h3⟩, h4⟩, h5⟩, h6⟩, h7⟩, h8⟩, h9⟩ := e
  exact ⟨real_of_test _ _ _ a0 h0, real_of_test _ _ _ a2 h2, real_of_test _ _ _ a3 h3, real_of_test _ _ _ a4 h4,
    real_of_test _ _ _ a5 h5, real_of_test _ _ _ a6 h6, real_of_test _ _ _ a7 h7, real_of_test _ _ _ a8 h8,
    real_of_test _ _ _ a9 h9⟩

end Cert.Pre_finite_inputs.PreReal

end
-- ==== Proof.KDefs.lean ====
/-
  The host-side functions of the kernel's program as terms of their operands — the embedding, the two index
  rows, the aggregate, each layer's parameter slices — and the fact that each maps arrays of real numbers to
  arrays of real numbers: a matrix product is a finite sum of products, a gather reads an entry of its operand,
  a scatter-add adds finitely many entries to an entry, a slice or a reshape re-reads entries.
-/
import proofs.«155226_j39831526703451_1_alg».proof.KernelIdeal
import proofs.«155226_j39831526703451_1_alg».proof.Proof.Gen.KernelIdeal
import proofs.«155226_j39831526703451_1_alg».proof.Proof.Spec
import proofs.«155226_j39831526703451_1_alg».proof.Proof.GinMath
import Idealize.ShloMosaic.PureOps.Ideal.Laws
import Idealize.ShloMosaic.Lib.ValueIdx

set_option maxRecDepth 16384

noncomputable section

namespace Cert.KernelIdeal.KValue

open Cert.KernelIdeal Cert.KernelIdeal.Gen Idealize.ShloMosaic Idealize.ShloMosaic.ValueIdx Idealize.ShloMosaic.TcCoe Idealize.SL.Sem

/-! ## The host-side functions, as terms of their operands -/

/-- The initial features: `x · We + be`, the bias broadcast over the nodes. -/
def embedK (x : FVec Ideal S100000x32 .f32) (We : FVec Ideal S32x128 .f32) (be : FVec Ideal S128 .f32) : FVec Ideal S100000x128 .f32 :=
  addf (Host.dotGeneral dot_S100000x32_S32x128_S100000x128_1_0_0_1_n_n none x We)
    (broadcastInDim S100000x128 ![0, 1] bcast_S1x128_S100000x128_0_1 (broadcastInDim S1x128 ![1] bcast_S128_S1x128_1 be))

/-- The edges' source row. -/
def srcK (ei : IVec S2x400000 32) : IVec S400000 32 :=
  shapeCast S400000 (extractStridedSlice S1x400000 ![0, 0] ei slices_S2x400000_S1x400000_0_0) shapeCasts_S1x400000_S400000
/-- The edges' destination row. -/
def dstK (ei : IVec S2x400000 32) : IVec S400000 32 :=
  shapeCast S400000 (extractStridedSlice S1x400000 ![1, 0] ei slices_S2x400000_S1x400000_1_0) shapeCasts_S1x400000_S400000

/-- The aggregate: `h` plus, at each node, the sum of `h`'s rows at the sources of the edges that end there
    (a negative source index counted from the end). -/
def aggK (src dst : IVec S400000 32) (h : FVec Ideal S100000x128 .f32) : FVec Ideal S100000x128 .f32 :=
  addf h (Host.scatterAdd scatter_S100000x128_S400000x1_S400000x128_1_0_0_1
    (broadcastInDim S100000x128 ![] bcast_S_S100000x128 (constant (F := Ideal) S_ .f32 0x00000000#32))
    (broadcastInDim S400000x1 ![0] bcast_S400000_S400000x1_0 dst)
    (Host.gather gather_S100000x128_S400000x1_S400000x128_1_0_n_n_0_1_1128 h
      (broadcastInDim S400000x1 ![0] bcast_S400000_S400000x1_0
        (select (cmpi .slt src (broadcastInDim S400000 ![] bcast_S_S400000 (constantI S_ 32 0#32)))
          (addi src (broadcastInDim S400000 ![] bcast_S_S400000 (constantI S_ 32 100000#32))) src))))

/-- Layer 0's parameters: slice 0 of each stacked argument. -/
def pK0 (a4 : FVec Ideal S4x128x256 .f32) (a5 : FVec Ideal S4x256 .f32) (a6 : FVec Ideal S4x256x128 .f32)
    (a7 a8 a9 : FVec Ideal S4x128 .f32) : Cert.Gin.Params where
  W1 := shapeCast S128x256 (extractStridedSlice S1x128x256 ![0, 0, 0] a4 slices_S4x128x256_S1x128x256_0_0_0) shapeCasts_S1x128x256_S128x256
  b1 := shapeCast S256 (extractStridedSlice S1x256 ![0, 0] a5 slices_S4x256_S1x256_0_0) shapeCasts_S1x256_S256
  W2 := shapeCast S256x128 (extractStridedSlice S1x256x128 ![0, 0, 0] a6 slices_S4x256x128_S1x256x128_0_0_0) shapeCasts_S1x256x128_S256x128
  b2 := shapeCast S128 (extractStridedSlice S1x128 ![0, 0] a7 slices_S4x128_S1x128_0_0) shapeCasts_S1x128_S128
  γ := shapeCast S128 (extractStridedSlice S1x128 ![0, 0] a8 slices_S4x128_S1x128_0_0) shapeCasts_S1x128_S128
  β := shapeCast S128 (extractStridedSlice S1x128 ![0, 0] a9 slices_S4x128_S1x128_0_0) shapeCasts_S1x128_S128

/-- Layer 1's parameters: slice 1 of each stacked argument. -/
def pK1 (a4 : FVec Ideal S4x128x256 .f32) (a5 : FVec Ideal S4x256 .f32) (a6 : FVec Ideal S4x256x128 .f32)
    (a7 a8 a9 : FVec Ideal S4x128 .f32) : Cert.Gin.Params where
  W1 := shapeCast S128x256 (extractStridedSlice S1x128x256 ![1, 0, 0] a4 slices_S4x128x256_S1x128x256_1_0_0) shapeCasts_S1x128x256_S128x256
  b1 := shapeCast S256 (extractStridedSlice S1x256 ![1, 0] a5 slices_S4x256_S1x256_1_0) shapeCasts_S1x256_S256
  W2 := shapeCast S256x128 (extractStridedSlice S1x256x128 ![1, 0, 0] a6 slices_S4x256x128_S1x256x128_1_0_0) shapeCasts_S1x256x128_S256x128
  b2 := shapeCast S128 (extractStridedSlice S1x128 ![1, 0] a7 slices_S4x128_S1x128_1_0) shapeCasts_S1x128_S128
  γ := shapeCast S128 (extractStridedSlice S1x128 ![1, 0] a8 slices_S4x128_S1x128_1_0) shapeCasts_S1x128_S128
  β := shapeCast S128 (extractStridedSlice S1x128 ![1, 0] a9 slices_S4x128_S1x128_1_0) shapeCasts_S1x128_S128

/-- Layer 2's parameters: slice 2 of each stacked argument. -/
def pK2 (a4 : FVec Ideal S4x128x256 .f32) (a5 : FVec Ideal S4x256 .f32) (a6 : FVec Ideal S4x256x128 .f32)
    (a7 a8 a9 : FVec Ideal S4x128 .f32) : Cert.Gin.Params where
  W1 := shapeCast S128x256 (extractStridedSlice S1x128x256 ![2, 0, 0] a4 slices_S4x128x256_S1x128x256_2_0_0) shapeCasts_S1x128x256_S128x256
  b1 := shapeCast S256 (extractStridedSlice S1x256 ![2, 0] a5 slices_S4x256_S1x256_2_0) shapeCasts_S1x256_S256
  W2 := shapeCast S256x128 (extractStridedSlice S1x256x128 ![2, 0, 0] a6 slices_S4x256x128_S1x256x128_2_0_0) shapeCasts_S1x256x128_S256x128
  b2 := shapeCast S128 (extractStridedSlice S1x128 ![2, 0] a7 slices_S4x128_S1x128_2_0) shapeCasts_S1x128_S128
  γ := shapeCast S128 (extractStridedSlice S1x128 ![2, 0] a8 slices_S4x128_S1x128_2_0) shapeCasts_S1x128_S128
  β := shapeCast S128 (extractStridedSlice S1x128 ![2, 0] a9 slices_S4x128_S1x128_2_0) shapeCasts_S1x128_S128

/-- Layer 3's parameters: slice 3 of each stacked argument. -/
def pK3 (a4 : FVec Ideal S4x128x256 .f32) (a5 : FVec Ideal S4x256 .f32) (a6 : FVec Ideal S4x256x128 .f32)
    (a7 a8 a9 : FVec Ideal S4x128 .f32) : Cert.Gin.Params where
  W1 := shapeCast S128x256 (extractStridedSlice S1x128x256 ![3, 0, 0] a4 slices_S4x128x256_S1x128x256_3_0_0) shapeCasts_S1x128x256_S128x256
  b1 := shapeCast S256 (extractStridedSlice S1x256 ![3, 0] a5 slices_S4x256_S1x256_3_0) shapeCasts_S1x256_S256
  W2 := shapeCast S256x128 (extractStridedSlice S1x256x128 ![3, 0, 0] a6 slices_S4x256x128_S1x256x128_3_0_0) shapeCasts_S1x256x128_S256x128
  b2 := shapeCast S128 (extractStridedSlice S1x128 ![3, 0] a7 slices_S4x128_S1x128_3_0) shapeCasts_S1x128_S128
  γ := shapeCast S128 (extractStridedSlice S1x128 ![3, 0] a8 slices_S4x128_S1x128_3_0) shapeCasts_S1x128_S128
  β := shapeCast S128 (extractStridedSlice S1x128 ![3, 0] a9 slices_S4x128_S1x128_3_0) shapeCasts_S1x128_S128

/-! ## Real entries stay real -/

theorem isReal_embedK {x : FVec Ideal S100000x32 .f32} {We : FVec Ideal S32x128 .f32} {be : FVec Ideal S128 .f32}
    (hx : Cert.Gin.IsReal x) (hW : Cert.Gin.IsReal We) (hb : Cert.Gin.IsReal be) : Cert.Gin.IsReal (embedK x We be) := by
  intro i
  refine Cert.Gin.isR_add ?_ (hb _)
  show Cert.Gin.IsR (FloatOps.dotGeneral dot_S100000x32_S32x128_S100000x128_1_0_0_1_n_n none .single x We i)
  rw [Ideal.dotGeneral_apply]
  exact Cert.Gin.isR_sum _ _ fun k _ => Cert.Gin.isR_mul (hx _) (hW _)

theorem isReal_aggK (src dst : IVec S400000 32) {h : FVec Ideal S100000x128 .f32} (hh : Cert.Gin.IsReal h) :
    Cert.Gin.IsReal (aggK src dst h) := by
  intro i
  refine Cert.Gin.isR_add (hh i) ?_
  refine Cert.Gin.isR_add ?_ (Cert.Gin.isR_sum _ _ fun j _ => hh _)
  show Cert.Gin.IsR (Ideal.ofBits .f32 0x00000000#32)
  rw [Ideal.ofBits_zero_f32]; exact Cert.Gin.isR_zero

/-- Layer 0's parameters are slices of the stacked arguments: real where those are. -/
theorem isReal_pK0 {a4 : FVec Ideal S4x128x256 .f32} {a5 : FVec Ideal S4x256 .f32} {a6 : FVec Ideal S4x256x128 .f32}
    {a7 a8 a9 : FVec Ideal S4x128 .f32} (h4 : Cert.Gin.IsReal a4) (h5 : Cert.Gin.IsReal a5) (h6 : Cert.Gin.IsReal a6)
    (h7 : Cert.Gin.IsReal a7) (h8 : Cert.Gin.IsReal a8) (h9 : Cert.Gin.IsReal a9) : (pK0 a4 a5 a6 a7 a8 a9).IsReal :=
  ⟨fun _ => h4 _, fun _ => h5 _, fun _ => h6 _, fun _ => h7 _, fun _ => h8 _, fun _ => h9 _⟩

/-- Layer 1's parameters are slices of the stacked arguments: real where those are. -/
theorem isReal_pK1 {a4 : FVec Ideal S4x128x256 .f32} {a5 : FVec Ideal S4x256 .f32} {a6 : FVec Ideal S4x256x128 .f32}
    {a7 a8 a9 : FVec Ideal S4x128 .f32} (h4 : Cert.Gin.IsReal a4) (h5 : Cert.Gin.IsReal a5) (h6 : Cert.Gin.IsReal a6)
    (h7 : Cert.Gin.IsReal a7) (h8 : Cert.Gin.IsReal a8) (h9 : Cert.Gin.IsReal a9) : (pK1 a4 a5 a6 a7 a8 a9).IsReal :=
  ⟨fun _ => h4 _, fun _ => h5 _, fun _ => h6 _, fun _ => h7 _, fun _ => h8 _, fun _ => h9 _⟩

/-- Layer 2's parameters are slices of the stacked arguments: real where those are. -/
theorem isReal_pK2 {a4 : FVec Ideal S4x128x256 .f32} {a5 : FVec Ideal S4x256 .f32} {a6 : FVec Ideal S4x256x128 .f32}
    {a7 a8 a9 : FVec Ideal S4x128 .f32} (h4 : Cert.Gin.IsReal a4) (h5 : Cert.Gin.IsReal a5) (h6 : Cert.Gin.IsReal a6)
    (h7 : Cert.Gin.IsReal a7) (h8 : Cert.Gin.IsReal a8) (h9 : Cert.Gin.IsReal a9) : (pK2 a4 a5 a6 a7 a8 a9).IsReal :=
  ⟨fun _ => h4 _, fun _ => h5 _, fun _ => h6 _, fun _ => h7 _, fun _ => h8 _, fun _ => h9 _⟩

/-- Layer 3's parameters are slices of the stacked arguments: real where those are. -/
theorem isReal_pK3 {a4 : FVec Ideal S4x128x256 .f32} {a5 : FVec Ideal S4x256 .f32} {a6 : FVec Ideal S4x256x128 .f32}
    {a7 a8 a9 : FVec Ideal S4x128 .f32} (h4 : Cert.Gin.IsReal a4) (h5 : Cert.Gin.IsReal a5) (h6 : Cert.Gin.IsReal a6)
    (h7 : Cert.Gin.IsReal a7) (h8 : Cert.Gin.IsReal a8) (h9 : Cert.Gin.IsReal a9) : (pK3 a4 a5 a6 a7 a8 a9).IsReal :=
  ⟨fun _ => h4 _, fun _ => h5 _, fun _ => h6 _, fun _ => h7 _, fun _ => h8 _, fun _ => h9 _⟩

end Cert.KernelIdeal.KValue

end
-- ==== Proof.KRun.lean ====
/-
  The kernel's run with its result named: every weakly fair execution of the program on the TensorCores, from any
  memory with zero counters, terminates without fault, and in every final state the result array holds the last
  boundary's contents of it while each argument array is as launched.
-/
import proofs.«155226_j39831526703451_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run, with the result array read off the last boundary's contents: the final state's copy of every unscoped
    buffer is the fold's last valuation, so the result array is that valuation's, and each argument array reads back
    through the fold to its launch contents. -/
theorem run_named : θ_run defs (onTc (τ := τ) (main (F := F))) ⟨m, fun _ => 0, ρ⟩ (fun r => ∀ c : Dev nD,
      r.2.mem ((c.tc : Thread nD τ).loc main_v147) = Gen.W16 m ρ c (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v147 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.KRun

end
-- ==== Proof.MlpMath.lean ====
/-
  The arithmetic of one block of the perceptron and of the running column sums, over the extended reals and with no
  reference to a program.

  A block is 2000 rows of the 100000-row feature array.  Its perceptron output at row `r`, feature `j` is
  `∑ k, max (∑ i, x[r,i] · W1[i,k] + b1[k]) 0 · W2[k,j] + b2[j]`: two matrix products into a zero accumulator, two
  row broadcasts, one clamp.  A column sum over all rows is the sum, block after block, of the column sums of the
  blocks: the rows `2000 t + r` (`t < 50`, `r < 2000`) enumerate all rows once, and addition of extended reals is
  commutative and associative, so no finiteness is needed.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.StackMember

noncomputable section

open scoped BigOperators

namespace Cert.KernelIdeal.MlpMath

open Idealize.ShloMosaic Idealize.ShloMosaic.ValueIdx

/-! ## A matrix product into the zero accumulator, at an index -/

/-- An `m × k` by `k × n` product accumulated into zeros is, at `(a, b)`, the sum over the contracted coordinate. -/
theorem matmul_zero_plain_apply {m k n : Nat}
    (wf : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    matmul (⟨[1], [0], [0], [1], [], [], wf⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) :=
  (congrFun (matmul_zero_eq_dotGeneral _ prec A B) (ix2 a b)).trans
    (StackMember.dotGeneral_plain_apply prec A B a b)

/-! ## The perceptron of a block, at an index -/

/-- Row `r`, feature `j` of a block's perceptron output, for blocks of any height `R`. -/
theorem perceptron_apply {R : Nat}
    (wf1 : DotDims.WF ⟨2, ![R, 128]⟩ ⟨2, ![128, 256]⟩ ⟨2, ![R, 256]⟩ [1] [0] [0] [1] [] [])
    (wf2 : DotDims.WF ⟨2, ![R, 256]⟩ ⟨2, ![256, 128]⟩ ⟨2, ![R, 128]⟩ [1] [0] [0] [1] [] [])
    (hx : (⟨2, ![R, 128]⟩ : Shape).ShapeCasts ⟨2, ![R, 128]⟩)
    (hW1 : (⟨2, ![128, 256]⟩ : Shape).ShapeCasts ⟨2, ![128, 256]⟩)
    (hb1 : (⟨2, ![1, 256]⟩ : Shape).ShapeCasts ⟨2, ![1, 256]⟩)
    (hW2 : (⟨2, ![256, 128]⟩ : Shape).ShapeCasts ⟨2, ![256, 128]⟩)
    (hb2 : (⟨2, ![1, 128]⟩ : Shape).ShapeCasts ⟨2, ![1, 128]⟩)
    (hB1 : (⟨2, ![1, 256]⟩ : Shape).Broadcasts ⟨2, ![R, 256]⟩)
    (hB2 : (⟨2, ![1, 128]⟩ : Shape).Broadcasts ⟨2, ![R, 128]⟩)
    (x : FVec Ideal ⟨2, ![R, 128]⟩ .f32) (W1 : FVec Ideal ⟨2, ![128, 256]⟩ .f32) (b1 : FVec Ideal ⟨2, ![1, 256]⟩ .f32)
    (W2 : FVec Ideal ⟨2, ![256, 128]⟩ .f32) (b2 : FVec Ideal ⟨2, ![1, 128]⟩ .f32) (r : Fin R) (j : Fin 128) :
    addf
        (matmul (⟨[1], [0], [0], [1], [], [], wf2⟩ : DotDims ⟨2, ![R, 256]⟩ ⟨2, ![256, 128]⟩ ⟨2, ![R, 128]⟩) none
          (maximumf
            (addf
              (matmul (⟨[1], [0], [0], [1], [], [], wf1⟩ : DotDims ⟨2, ![R, 128]⟩ ⟨2, ![128, 256]⟩ ⟨2, ![R, 256]⟩) none
                (shapeCast ⟨2, ![R, 128]⟩ x hx) (shapeCast ⟨2, ![128, 256]⟩ W1 hW1)
                (constant ⟨2, ![R, 256]⟩ .f32 0x00000000#32))
              (broadcastTo ⟨2, ![R, 256]⟩ (shapeCast ⟨2, ![1, 256]⟩ b1 hb1) hB1))
            (broadcast ⟨2, ![R, 256]⟩ (Scalar.ofBits (F := Ideal) .f32 0x00000000#32)))
          (shapeCast ⟨2, ![256, 128]⟩ W2 hW2) (constant ⟨2, ![R, 128]⟩ .f32 0x00000000#32))
        (broadcastTo ⟨2, ![R, 128]⟩ (shapeCast ⟨2, ![1, 128]⟩ b2 hb2) hB2) (ix2 r j)
      = (∑ k : Fin 256, max ((∑ i : Fin 128, x (ix2 r i) * W1 (ix2 i k)) + b1 (ix2 (0 : Fin 1) k)) 0 * W2 (ix2 k j))
          + b2 (ix2 (0 : Fin 1) j) := by
  rw [shapeCast_self, shapeCast_self, shapeCast_self, shapeCast_self, shapeCast_self]
  rw [addf_apply, matmul_zero_plain_apply, broadcastTo_1b_ab_apply]
  refine congrArg (· + b2 (ix2 (0 : Fin 1) j)) (Finset.sum_congr rfl fun k _ => ?_)
  rw [maximumf_apply, addf_apply, matmul_zero_plain_apply, broadcastTo_1b_ab_apply, broadcast_apply]
  show max _ (Ideal.ofBits .f32 0x00000000#32) * _ = _
  rw [Ideal.ofBits_zero_f32]

/-! ## A column sum of a block added to an accumulator row, at an index -/

/-- The sum over the rows of a block, as a `[128]` vector, at feature `j`. -/
theorem colsum_apply {R : Nat} (h : (⟨2, ![R, 128]⟩ : Shape).Reduces [0] ⟨1, ![128]⟩) (hφ : FKind.Formats .f32)
    (hacc : (0x00000000#32 : BitVec 32) = FKind.add.neutral .f32 hφ) (y : FVec Ideal ⟨2, ![R, 128]⟩ .f32) (j : Fin 128) :
    multiReduction .add [0] ⟨1, ![128]⟩ y 0x00000000#32 h hφ hacc (ix1 j) = ∑ r : Fin R, y (ix2 r j) :=
  (Ideal.multiReduction_add_single y 0x00000000#32 h hφ hacc (ix1 j)).trans
    (Finset.sum_congr rfl fun r _ => congrArg y (funext fun a => Fin.ext (by
      match a with
      | ⟨0, _⟩ => rfl
      | ⟨1, _⟩ => rfl)))

/-- An accumulator row plus the column sums of a block, at feature `j`. -/
theorem acc_add_colsum_apply {R : Nat} (h : (⟨2, ![R, 128]⟩ : Shape).Reduces [0] ⟨1, ![128]⟩) (hφ : FKind.Formats .f32)
    (hacc : (0x00000000#32 : BitVec 32) = FKind.add.neutral .f32 hφ)
    (hc : (⟨1, ![128]⟩ : Shape).ShapeCasts ⟨2, ![1, 128]⟩)
    (acc : FVec Ideal ⟨2, ![1, 128]⟩ .f32) (y : FVec Ideal ⟨2, ![R, 128]⟩ .f32) (u : Fin 1) (j : Fin 128) :
    addf acc (shapeCast ⟨2, ![1, 128]⟩ (multiReduction .add [0] ⟨1, ![128]⟩ y 0x00000000#32 h hφ hacc) hc) (ix2 u j)
      = acc (ix2 u j) + ∑ r : Fin R, y (ix2 r j) := by
  rw [addf_apply, shapeCast_a_1a_apply, colsum_apply]

/-- The zero row the first block starts from reads `0` everywhere. -/
theorem zero_row_apply (i : (⟨2, ![1, 128]⟩ : Shape).Idx) :
    broadcast (⟨2, ![1, 128]⟩ : Shape) (Scalar.ofBits (F := Ideal) .f32 0x00000000#32) i = 0 :=
  Ideal.ofBits_zero_f32

/-! ## All rows, block after block -/

/-- A function of the 100000 rows, continued by zero to every natural number. -/
def ext0 (f : Fin 100000 → EReal) (m : ℕ) : EReal := if h : m < 100000 then f ⟨m, h⟩ else 0

/-- Row `r` of block `t`. -/
def row (t : ℕ) (ht : t < 50) (r : Fin 2000) : Fin 100000 := ⟨2000 * t + r.val, by have := r.isLt; omega⟩

theorem ext0_row (f : Fin 100000 → EReal) (t : ℕ) (ht : t < 50) (r : Fin 2000) :
    ext0 f (2000 * t + r.val) = f (row t ht r) := by
  unfold ext0 row
  rw [dif_pos]

/-- The sum over the rows of the first `n` blocks. -/
def psum (f : Fin 100000 → EReal) (n : ℕ) : EReal := ∑ m ∈ Finset.range (2000 * n), ext0 f m

theorem psum_zero (f : Fin 100000 → EReal) : psum f 0 = 0 := by
  unfold psum
  rw [Nat.mul_zero, Finset.range_zero, Finset.sum_empty]

/-- One more block adds the sum over its rows. -/
theorem psum_succ (f : Fin 100000 → EReal) (t : ℕ) (ht : t < 50) :
    psum f (t + 1) = psum f t + ∑ r : Fin 2000, f (row t ht r) := by
  unfold psum
  rw [Nat.mul_succ, Finset.sum_range_add, ← Fin.sum_univ_eq_sum_range (fun r => ext0 f (2000 * t + r)) 2000]
  exact congrArg (_ + ·) (Finset.sum_congr rfl fun r _ => ext0_row f t ht r)

/-- Fifty blocks are all the rows. -/
theorem psum_all (f : Fin 100000 → EReal) : psum f 50 = ∑ n : Fin 100000, f n := by
  unfold psum ext0
  exact (Finset.sum_fin_eq_sum_range f).symm

end Cert.KernelIdeal.MlpMath

end
-- ==== Proof.Mlp0Pay.lean ====
/-
  The arithmetic the perceptron kernel stores at one grid point, read index by index over the extended reals.

  At a grid point the kernel holds a block of 2000 rows `x` of the aggregated features and the whole parameter
  arrays.  It stores the block's perceptron output `y[r,j] = ∑ k, max (∑ i, x[r,i] · W1[i,k] + b1[k]) 0 · W2[k,j] + b2[j]`,
  adds the column sums of `y` to one accumulator row and the column sums of `y · y` to another.  When the block is
  rows `2000 t + r` of the array `z`, `y[r,j]` is the perceptron of the whole array at row `2000 t + r`.
-/
import proofs.«155226_j39831526703451_1_alg».proof.Proof.Gen.KernelIdeal.Skeleton
import proofs.«155226_j39831526703451_1_alg».proof.Proof.Spec
import proofs.«155226_j39831526703451_1_alg».proof.Proof.MlpMath

noncomputable section

open scoped BigOperators

namespace Cert.KernelIdeal.Mlp0

open Cert.KernelIdeal Cert.KernelIdeal.Gen Idealize.ShloMosaic Idealize.ShloMosaic.ValueIdx

/-- The block's perceptron output at row `r`, feature `j`. -/
theorem pay4_apply (x0 : Vec Ideal S2000x128 .f32) (x1 : Vec Ideal S128x256 .f32) (x2 : Vec Ideal S1x256 .f32)
    (x3 : Vec Ideal S256x128 .f32) (x4 : Vec Ideal S1x128 .f32) (r : Fin 2000) (j : Fin 128) :
    k0_pay4 (F := Ideal) x0 x1 x2 x3 x4 (ix2 r j)
      = (∑ k : Fin 256, max ((∑ i : Fin 128, x0 (ix2 r i) * x1 (ix2 i k)) + x2 (ix2 (0 : Fin 1) k)) 0 * x3 (ix2 k j))
          + x4 (ix2 (0 : Fin 1) j) := by
  unfold k0_pay4
  exact MlpMath.perceptron_apply _ _ _ _ _ _ _ _ _ x0 x1 x2 x3 x4 r j

/-- When the block is rows `2000 t + r` of `z` and the other operands are the whole parameter arrays, the block's
    output is the array's perceptron at those rows. -/
theorem pay4_of_blocks (z : Gin.Arr Gin.SNH) (W1 : Gin.Arr Gin.SHH2) (B1 : S1x256.Idx → EReal) (W2 : Gin.Arr Gin.SH2H)
    (B2 : S1x128.Idx → EReal) (t : ℕ) (ht : t < 50)
    (x0 : Vec Ideal S2000x128 .f32) (x1 : Vec Ideal S128x256 .f32) (x2 : Vec Ideal S1x256 .f32)
    (x3 : Vec Ideal S256x128 .f32) (x4 : Vec Ideal S1x128 .f32)
    (h0 : ∀ (r : Fin 2000) (i : Fin 128), x0 (ix2 r i) = z (ix2 (MlpMath.row t ht r) i))
    (h1 : x1 = W1) (h2 : x2 = B1) (h3 : x3 = W2) (h4 : x4 = B2) (r : Fin 2000) (j : Fin 128) :
    k0_pay4 (F := Ideal) x0 x1 x2 x3 x4 (ix2 r j)
      = Gin.zpre z W1 (fun k => B1 (ix2 (0 : Fin 1) (k 0))) W2 (fun j => B2 (ix2 (0 : Fin 1) (j 0)))
          (ix2 (MlpMath.row t ht r) j) := by
  subst h1 h2 h3 h4
  refine (pay4_apply x0 x1 x2 x3 x4 r j).trans ?_
  simp only [h0]
  rfl

/-- The first accumulator row after a point: what it held plus the column sums of the block's output. -/
theorem pay5_apply (x0 : Vec Ideal S2000x128 .f32) (x1 : Vec Ideal S128x256 .f32) (x2 : Vec Ideal S1x256 .f32)
    (x3 : Vec Ideal S256x128 .f32) (x4 : Vec Ideal S1x128 .f32) (acc : Vec Ideal S1x128 .f32) (u : Fin 1) (j : Fin 128) :
    k0_pay5 (F := Ideal) x0 x1 x2 x3 x4 acc (ix2 u j)
      = acc (ix2 u j) + ∑ r : Fin 2000, k0_pay4 (F := Ideal) x0 x1 x2 x3 x4 (ix2 r j) := by
  unfold k0_pay5
  refine (MlpMath.acc_add_colsum_apply _ _ _ _ _ (k0_pay4 (F := Ideal) x0 x1 x2 x3 x4) u j).trans ?_
  rw [shapeCast_self]

/-- The second accumulator row after a point: what it held plus the column sums of a block `q`. -/
theorem pay1_apply (acc : FVec Ideal S1x128 .f32) (q : FVec Ideal S2000x128 .f32) (u : Fin 1) (j : Fin 128) :
    k0_pay1 (F := Ideal) acc q (ix2 u j) = acc (ix2 u j) + ∑ r : Fin 2000, q (ix2 r j) := by
  unfold k0_pay1
  exact MlpMath.acc_add_colsum_apply _ _ _ _ acc q u j

/-- The second accumulator is read back unchanged. -/
theorem pay6_eq (acc : Vec Ideal S1x128 .f32) : k0_pay6 (F := Ideal) acc = acc := by
  unfold k0_pay6
  exact shapeCast_self _ _

/-- The block whose column sums the second accumulator takes: the squares of the block's output. -/
theorem pay7_apply (x0 : Vec Ideal S2000x128 .f32) (x1 : Vec Ideal S128x256 .f32) (x2 : Vec Ideal S1x256 .f32)
    (x3 : Vec Ideal S256x128 .f32) (x4 : Vec Ideal S1x128 .f32) (i : S2000x128.Idx) :
    k0_pay7 (F := Ideal) x0 x1 x2 x3 x4 i
      = k0_pay4 (F := Ideal) x0 x1 x2 x3 x4 i * k0_pay4 (F := Ideal) x0 x1 x2 x3 x4 i := rfl

/-- The rows both accumulators are reset to at the first point are zero. -/
theorem pay2_apply (i : S1x128.Idx) : k0_pay2 (F := Ideal) i = 0 := MlpMath.zero_row_apply i
theorem pay3_apply (i : S1x128.Idx) : k0_pay3 (F := Ideal) i = 0 := MlpMath.zero_row_apply i

end Cert.KernelIdeal.Mlp0

end
-- ==== Proof.Mlp0.lean ====
/-
  What the perceptron kernel leaves in its three result arrays, as functions of the arrays it is given.

  The grid has fifty points; point `t` holds rows `2000 t … 2000 t + 1999` of the aggregated features and the whole
  parameter arrays.  It writes the perceptron of its block to rows `2000 t …` of the first result, so after the fifty
  points the first result is the perceptron of the whole array.  The second and third results are one row each, kept
  in place from point to point: point 0 resets them to zero, every point adds its block's column sums (of the output,
  and of its squares), and the rows are written back once, after point 49.  By induction on the point the rows hold,
  after point `n`, the sums over the rows of blocks `0 … n`; fifty blocks are all the rows, so the two rows end as the
  column sums and the column sums of squares of the perceptron's output over all 100000 nodes.  Only commutativity and
  associativity of the extended reals' addition are used.
-/
import proofs.«155226_j39831526703451_1_alg».proof.Proof.Gen.KernelIdeal.Frame
import proofs.«155226_j39831526703451_1_alg».proof.Proof.Spec
import proofs.«155226_j39831526703451_1_alg».proof.Proof.MlpMath
import proofs.«155226_j39831526703451_1_alg».proof.Proof.Mlp0Pay
import Idealize.ShloMosaic.Lib.Pipeline.Value
import Idealize.ShloMosaic.Lib.Tactic

noncomputable section

open scoped BigOperators

namespace Cert.KernelIdeal.Mlp0

open Cert.KernelIdeal Cert.KernelIdeal.Gen Idealize.ShloMosaic Idealize.ShloMosaic.ValueIdx
open Idealize.ShloMosaic.TcCoe Idealize.SL.Sem
open Idealize.ShloMosaic.Pipeline (Dat)

/-! ## What each case of the body leaves in the three outputs' buffers -/

section Pieces

variable {F : FTy → Type} [FloatOps F]

theorem hz : (![0, 0] : Fin 2 → Nat) = fun _ => 0 := funext fun a => by fin_cases a <;> rfl

/-- At the first point the first output's buffer is left at the block's perceptron output. -/
theorem outA5 (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i) (x0 : Vec F S2000x128 .f32) (x1 : Vec F S128x256 .f32) (x2 : Vec F S1x256 .f32) (x3 : Vec F S256x128 .f32) (x4 : Vec F S1x128 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At the first point the second output's buffer is zeroed, read back, and left at zero plus the block's column sums. -/
theorem outA6 (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i) (x0 : Vec F S2000x128 .f32) (x1 : Vec F S128x256 .f32) (x2 : Vec F S1x256 .f32) (x3 : Vec F S256x128 .f32) (x4 : Vec F S1x128 .f32) :
    out0_A_6 c i a1 h1 a2 h2 a3 h3 a4 h4 a5 h5 a6 h6 a7 h7 a8 h8 hc x0 x1 x2 x3 x4 = k0_pay5 x0 x1 x2 x3 x4 k0_pay2 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At the first point the third output's buffer is zeroed, read back, and left at zero plus the column sums of squares. -/
theorem outA7 (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond0_0 i) (x0 : Vec F S2000x128 .f32) (x1 : Vec F S128x256 .f32) (x2 : Vec F S1x256 .f32) (x3 : Vec F S256x128 .f32) (x4 : Vec F S1x128 .f32) :
    out0_A_7 c i a1 h1 a2 h2 a3 h3 a4 h4 a5 h5 a6 h6 a7 h7 a8 h8 hc x0 x1 x2 x3 x4 = k0_pay1 (k0_pay6 k0_pay3) (k0_pay7 x0 x1 x2 x3 x4) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At a later point the first output's buffer is left at the block's perceptron output. -/
theorem outB5 (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S2000x128 .f32) (x1 : Vec F S128x256 .f32) (x2 : Vec F S1x256 .f32) (x3 : Vec F S256x128 .f32) (x4 : Vec F S1x128 .f32) (xo6 xo7 : Vec F S1x128 .f32) :
    out0_B_5 c i a1 h1 a2 h2 a3 h3 a4 h4 a5 h5 a6 h6 a7 h7 a8 h8 hc x0 x1 x2 x3 x4 xo6 xo7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

/-- At a later point the second output's buffer, holding `xo6`, is left at `xo6` plus the block's column sums. -/
theorem outB6 (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S2000x128 .f32) (x1 : Vec F S128x256 .f32) (x2 : Vec F S1x256 .f32) (x3 : Vec F S256x128 .f32) (x4 : Vec F S1x128 .f32) (xo6 xo7 : Vec F S1x128 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

/-- At a later point the third output's buffer, holding `xo7`, is left at `xo7` plus the column sums of squares. -/
theorem outB7 (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S2000x128 .f32) (x1 : Vec F S128x256 .f32) (x2 : Vec F S1x256 .f32) (x3 : Vec F S256x128 .f32) (x4 : Vec F S1x128 .f32) (xo6 xo7 : Vec F S1x128 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x3 x4) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

end Pieces

/-! ## The three buffers after each point -/

section Value

variable (V : (c : Dev nD) → (b : Ref sig .tc) → Buf (Elt Ideal) ((c : Thread nD τ).loc b))

theorem hN (t : Fin cfg0.N) : t.val < 50 := lt_of_lt_of_eq t.isLt (show cfg0.N = 50 from N_0)

/-- The buffers after a first point, in terms of the point's blocks. -/
theorem outs_A (c : Dev nD) (t : Fin cfg0.N) (h0 : t.val % 50 = 0) :
    outsAt0 V c t.val t.isLt
      = (k0_pay4 (iblk0 V c 0 t) (iblk0 V c 1 t) (iblk0 V c 2 t) (iblk0 V c 3 t) (iblk0 V c 4 t), k0_pay5 (iblk0 V c 0 t) (iblk0 V c 1 t) (iblk0 V c 2 t) (iblk0 V c 3 t) (iblk0 V c 4 t) (k0_pay2 (F := Ideal)), k0_pay1 (k0_pay6 (k0_pay3 (F := Ideal))) (k0_pay7 (iblk0 V c 0 t) (iblk0 V c 1 t) (iblk0 V c 2 t) (iblk0 V c 3 t) (iblk0 V c 4 t))) :=
  (outsAt0_A V c t h0).trans (congrArg₂ Prod.mk
    (outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
    (congrArg₂ Prod.mk
      (outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
      (outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))))

/-- The buffers after a later point, in terms of the point's blocks and the two rows the point before left. -/
theorem outs_B (c : Dev nD) (t : Fin cfg0.N) (h0 : ¬t.val % 50 = 0) :
    outsAt0 V c t.val t.isLt
      = (k0_pay4 (iblk0 V c 0 t) (iblk0 V c 1 t) (iblk0 V c 2 t) (iblk0 V c 3 t) (iblk0 V c 4 t), k0_pay5 (iblk0 V c 0 t) (iblk0 V c 1 t) (iblk0 V c 2 t) (iblk0 V c 3 t) (iblk0 V c 4 t) (outsAt0 V c (t.val - 1) (Nat.lt_of_le_of_lt (Nat.sub_le _ _) t.isLt)).2.1, k0_pay1 (k0_pay6 (outsAt0 V c (t.val - 1) (Nat.lt_of_le_of_lt (Nat.sub_le _ _) t.isLt)).2.2) (k0_pay7 (iblk0 V c 0 t) (iblk0 V c 1 t) (iblk0 V c 2 t) (iblk0 V c 3 t) (iblk0 V c 4 t))) :=
  (outsAt0_B V c t h0).trans (congrArg₂ Prod.mk
    (outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
      (outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)))

/-! ## The windows' blocks, read off their arrays -/

/-- The block indices, decided over the grid: windows 0 and 5 move with the point along the rows, the others stay. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 0's block at point `t` is rows `2000 t + r` of `main_v18`. -/
theorem blk0 (c : Dev nD) (t : Fin cfg0.N) (r : Fin 2000) (i : Fin 128) :
    (iblk0 V c 0 t : Vec Ideal S2000x128 .f32) (ix2 r i) = V c main_v18 (ix2 (MlpMath.row t.val (hN t) r) i) := by
  obtain ⟨e0, e1⟩ := idx0 t
  unfold iblk0
  rw [View.read_apply]
  show V c main_v18 (((cfg0.win 0).blk t).view.emb (ix2 r i)) = _
  refine congrArg (V c main_v18) (funext fun a => Fin.ext ?_)
  match a with
  | ⟨0, _⟩ => show win0_0.index t (0 : Fin 2) * 2000 + 1 * r.val = 2000 * t.val + r.val; rw [e0]; omega
  | ⟨1, _⟩ => show win0_0.index t (1 : Fin 2) * 128 + 1 * i.val = i.val; rw [e1]; omega

/-- Window 1's block is the whole array `main_v20` at every point. -/
theorem blk1 (c : Dev nD) (t : Fin cfg0.N) : (iblk0 V c 1 t : Vec Ideal S128x256 .f32) = V c main_v20 := by
  obtain ⟨e0, e1⟩ := idx1 t
  funext y
  unfold iblk0
  rw [View.read_apply]
  show V c main_v20 (((cfg0.win 1).blk t).view.emb y) = V c main_v20 y
  refine congrArg (V c main_v20) (funext fun a => Fin.ext ?_)
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- Window 2's block is the whole array `main_v27` at every point. -/
theorem blk2 (c : Dev nD) (t : Fin cfg0.N) : (iblk0 V c 2 t : Vec Ideal S1x256 .f32) = V c main_v27 := by
  obtain ⟨e0, e1⟩ := idx2 t
  funext y
  unfold iblk0
  rw [View.read_apply]
  show V c main_v27 (((cfg0.win 2).blk t).view.emb y) = V c main_v27 y
  refine congrArg (V c main_v27) (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- Window 3's block is the whole array `main_v24` at every point. -/
theorem blk3 (c : Dev nD) (t : Fin cfg0.N) : (iblk0 V c 3 t : Vec Ideal S256x128 .f32) = V c main_v24 := by
  obtain ⟨e0, e1⟩ := idx3 t
  funext y
  unfold iblk0
  rw [View.read_apply]
  show V c main_v24 (((cfg0.win 3).blk t).view.emb y) = V c main_v24 y
  refine congrArg (V c main_v24) (funext fun a => Fin.ext ?_)
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega

/-- Window 4's block is the whole array `main_v28` at every point. -/
theorem blk4 (c : Dev nD) (t : Fin cfg0.N) : (iblk0 V c 4 t : Vec Ideal S1x128 .f32) = V c main_v28 := by
  obtain ⟨e0, e1⟩ := idx4 t
  funext y
  unfold iblk0
  rw [View.read_apply]
  show V c main_v28 (((cfg0.win 4).blk t).view.emb y) = V c main_v28 y
  refine congrArg (V c main_v28) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The perceptron's output over all the nodes, from the arrays the region is given. -/
abbrev Y (c : Dev nD) : Gin.Arr Gin.SNH :=
  Gin.zpre (V c main_v18) (V c main_v20) (fun k => V c main_v27 (ix2 0 (k 0))) (V c main_v24) (fun j => V c main_v28 (ix2 0 (j 0)))

/-- Its column sums, as the one-row array the kernel keeps them in. -/
abbrev Ysum (c : Dev nD) : S1x128.Idx → EReal := fun i => Gin.colsum (Y V c) (ix1 (i 1))

/-- Its column sums of squares, likewise. -/
abbrev Ysumsq (c : Dev nD) : S1x128.Idx → EReal := fun i => Gin.colsumsq (Y V c) (ix1 (i 1))

/-- The block's perceptron output at point `t` is the array's at rows `2000 t + r`. -/
theorem pay4_blk (c : Dev nD) (t : Fin cfg0.N) (r : Fin 2000) (j : Fin 128) :
    k0_pay4 (F := Ideal) (iblk0 V c 0 t) (iblk0 V c 1 t) (iblk0 V c 2 t) (iblk0 V c 3 t) (iblk0 V c 4 t) (ix2 r j) = Y V c (ix2 (MlpMath.row t.val (hN t) r) j) :=
  pay4_of_blocks (V c main_v18) (V c main_v20) (V c main_v27) (V c main_v24) (V c main_v28) t.val (hN t) (iblk0 V c 0 t) (iblk0 V c 1 t) (iblk0 V c 2 t) (iblk0 V c 3 t) (iblk0 V c 4 t)
    (blk0 V c t) (blk1 V c t) (blk2 V c t) (blk3 V c t) (blk4 V c t) r j

/-- The first output's buffer after any point: the block's perceptron output. -/
theorem outs5 (c : Dev nD) (t : Fin cfg0.N) :
    (outsAt0 V c t.val t.isLt).1 = k0_pay4 (iblk0 V c 0 t) (iblk0 V c 1 t) (iblk0 V c 2 t) (iblk0 V c 3 t) (iblk0 V c 4 t) := by
  by_cases h0 : t.val % 50 = 0
  · rw [outs_A V c t h0]
  · rw [outs_B V c t h0]

/-- The second output's buffer after point `n`: the column sums over the rows of blocks `0 … n`. -/
theorem outs6 (c : Dev nD) : ∀ (n : ℕ) (h : n < cfg0.N) (u : Fin 1) (j : Fin 128),
    ((outsAt0 V c n h).2.1 : Vec Ideal S1x128 .f32) (ix2 u j) = MlpMath.psum (fun m => Y V c (ix2 m j)) (n + 1)
  | 0, h, u, j => by
    rw [show outsAt0 V c 0 h = _ from outs_A V c ⟨0, h⟩ (Nat.zero_mod 50)]
    show k0_pay5 (F := Ideal) _ _ _ _ _ _ (ix2 u j) = _
    rw [pay5_apply, pay2_apply, zero_add, MlpMath.psum_succ _ 0 (by decide), MlpMath.psum_zero, zero_add]
    exact Finset.sum_congr rfl fun r _ => pay4_blk V c ⟨0, h⟩ r j
  | n + 1, h, u, j => by
    have hn : n + 1 < 50 := lt_of_lt_of_eq h (show cfg0.N = 50 from N_0)
    have hB : ¬(⟨n + 1, h⟩ : Fin cfg0.N).val % 50 = 0 := by dsimp only; omega
    rw [show outsAt0 V c (n + 1) h = _ from outs_B V c ⟨n + 1, h⟩ hB]
    show k0_pay5 (F := Ideal) _ _ _ _ _ _ (ix2 u j) = _
    rw [pay5_apply, MlpMath.psum_succ _ (n + 1) hn]
    exact congrArg₂ (· + ·) (outs6 c n (Nat.lt_of_succ_lt h) u j)
      (Finset.sum_congr rfl fun r _ => pay4_blk V c ⟨n + 1, h⟩ r j)

/-- The third output's buffer after point `n`: the column sums of squares over the rows of blocks `0 … n`. -/
theorem outs7 (c : Dev nD) : ∀ (n : ℕ) (h : n < cfg0.N) (u : Fin 1) (j : Fin 128),
    ((outsAt0 V c n h).2.2 : Vec Ideal S1x128 .f32) (ix2 u j)
      = MlpMath.psum (fun m => Y V c (ix2 m j) * Y V c (ix2 m j)) (n + 1)
  | 0, h, u, j => by
    rw [show outsAt0 V c 0 h = _ from outs_A V c ⟨0, h⟩ (Nat.zero_mod 50)]
    show k0_pay1 (F := Ideal) _ _ (ix2 u j) = _
    rw [pay1_apply, pay6_eq, pay3_apply, zero_add, MlpMath.psum_succ _ 0 (by decide), MlpMath.psum_zero, zero_add]
    refine Finset.sum_congr rfl fun r _ => ?_
    rw [pay7_apply, pay4_blk V c ⟨0, h⟩ r j]
  | n + 1, h, u, j => by
    have hn : n + 1 < 50 := lt_of_lt_of_eq h (show cfg0.N = 50 from N_0)
    have hB : ¬(⟨n + 1, h⟩ : Fin cfg0.N).val % 50 = 0 := by dsimp only; omega
    rw [show outsAt0 V c (n + 1) h = _ from outs_B V c ⟨n + 1, h⟩ hB]
    show k0_pay1 (F := Ideal) _ _ (ix2 u j) = _
    rw [pay1_apply, pay6_eq, MlpMath.psum_succ _ (n + 1) hn]
    refine congrArg₂ (· + ·) (outs7 c n (Nat.lt_of_succ_lt h) u j) (Finset.sum_congr rfl fun r _ => ?_)
    rw [pay7_apply, pay4_blk V c ⟨n + 1, h⟩ r j]

/-! ## From the buffers to the arrays -/

/-- Point `t` writes back block `t` of the perceptron's output. -/
theorem flushed5_eq (c : Dev nD) (t : Fin cfg0.N) :
    (dat0 V c).flushed 5 t = ((cfg0.win 5).blk t).view.read (Elt Ideal) (Y V c) := by
  obtain ⟨e0, e1⟩ := idx5 t
  show (cfg0.win 5).cut (grid0.coords t) ((dat0 V c).after 5 t) = _
  rw [after0_5, outs5 V c t]
  show (k0_pay4 (F := Ideal) (iblk0 V c 0 t) (iblk0 V c 1 t) (iblk0 V c 2 t) (iblk0 V c 3 t) (iblk0 V c 4 t) : Vec Ideal S2000x128 .f32) = fun y => Y V c (((cfg0.win 5).blk t).view.emb y)
  funext y
  obtain ⟨r, j, rfl⟩ : ∃ (r : Fin 2000) (j : Fin 128), y = ix2 r j := ⟨y 0, y 1, eq_ix2 y⟩
  have hemb : ((cfg0.win 5).blk t).view.emb (ix2 r j) = ix2 (MlpMath.row t.val (hN t) r) j := funext fun a => Fin.ext (by
    match a with
    | ⟨0, _⟩ => show win0_5.index t (0 : Fin 2) * 2000 + 1 * r.val = 2000 * t.val + r.val; rw [e0]; omega
    | ⟨1, _⟩ => show win0_5.index t (1 : Fin 2) * 128 + 1 * j.val = j.val; rw [e1]; omega)
  rw [hemb]
  exact pay4_blk V c t r j

theorem mem_blk5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v29_0).slice (win0_5.rect t)).set ↔ _
  rw [View.set_slice_whole, Rect.mem_set_unit]
  exact Iff.rfl

/-- Row `n` is in the block of point `n / 2000`. -/
theorem cover5 (i : S100000x128.Idx) : ∃ t : Fin cfg0.N, (cfg0.win 5).flush t = true ∧ i ∈ ((cfg0.win 5).blk t).view.set := by
  have hi0 : (i 0).val < 100000 := idx2_lt0 i
  have hi1 : (i 1).val < 128 := idx2_lt1 i
  have ht : (i 0).val / 2000 < cfg0.N := by rw [show cfg0.N = 50 from N_0]; omega
  obtain ⟨e0, e1⟩ := idx5 ⟨(i 0).val / 2000, ht⟩
  refine ⟨⟨(i 0).val / 2000, ht⟩, flush0_5 _, ?_⟩
  rw [mem_blk5]
  intro a
  match a with
  | ⟨0, _⟩ => show win0_5.index ⟨(i 0).val / 2000, ht⟩ (0 : Fin 2) * 2000 ≤ (i 0).val ∧ (i 0).val < win0_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win0_5.index ⟨(i 0).val / 2000, ht⟩ (1 : Fin 2) * 128 ≤ (i 1).val ∧ (i 1).val < win0_5.index ⟨(i 0).val / 2000, ht⟩ (1 : Fin 2) * 128 + 128; rw [e1]; omega

/-- What output 6's write-back at point `t` writes, for any row `G` its buffer holds there: the row, whole. -/
theorem flushed6_of (c : Dev nD) (t : Fin cfg0.N) (G : S1x128.Idx → EReal)
    (hG : ∀ (u : Fin 1) (j : Fin 128), ((outsAt0 V c t.val t.isLt).2.1 : Vec Ideal S1x128 .f32) (ix2 u j) = G (ix2 u j)) :
    (dat0 V c).flushed 6 t = ((cfg0.win 6).blk t).view.read (Elt Ideal) G := by
  obtain ⟨e0, e1⟩ := idx6 t
  show (cfg0.win 6).cut (grid0.coords t) ((dat0 V c).after 6 t) = _
  rw [after0_6]
  show ((outsAt0 V c t.val t.isLt).2.1 : Vec Ideal S1x128 .f32) = fun y => G (((cfg0.win 6).blk t).view.emb y)
  funext y
  obtain ⟨u, j, rfl⟩ : ∃ (u : Fin 1) (j : Fin 128), y = ix2 u j := ⟨y 0, y 1, eq_ix2 y⟩
  have hemb : ((cfg0.win 6).blk t).view.emb (ix2 u j) = ix2 u j := funext fun a => Fin.ext (by
    match a with
    | ⟨0, _⟩ => show win0_6.index t (0 : Fin 2) * 1 + 1 * u.val = u.val; rw [e0]; omega
    | ⟨1, _⟩ => show win0_6.index t (1 : Fin 2) * 128 + 1 * j.val = j.val; rw [e1]; omega)
  rw [hemb]
  exact hG u j

/-- The one write-back of output 6, after the last point, writes the column sums: fifty blocks are all the rows. -/
theorem flushed6_eq (c : Dev nD) (t : Fin cfg0.N) (hf : (cfg0.win 6).flush t = true) :
    (dat0 V c).flushed 6 t = ((cfg0.win 6).blk t).view.read (Elt Ideal) (Ysum V c) := by
  have h49 : t.val = 49 := by have := (flush0_6 t).mp hf; have := hN t; omega
  refine flushed6_of V c t (Ysum V c) fun u j => ?_
  rw [outs6 V c t.val t.isLt u j, h49]
  exact MlpMath.psum_all (fun m => Y V c (ix2 m j))

theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v29_1).slice (win0_6.rect t)).set ↔ _
  rw [View.set_slice_whole, Rect.mem_set_unit]
  exact Iff.rfl

/-- The last point's block is the whole row. -/
theorem cover6 (i : S1x128.Idx) : ∃ t : Fin cfg0.N, (cfg0.win 6).flush t = true ∧ i ∈ ((cfg0.win 6).blk t).view.set := by
  have hi0 : (i 0).val < 1 := idx2_lt0 i
  have hi1 : (i 1).val < 128 := idx2_lt1 i
  have h49 : 49 < cfg0.N := by rw [show cfg0.N = 50 from N_0]; decide
  obtain ⟨e0, e1⟩ := idx6 ⟨49, h49⟩
  refine ⟨⟨49, h49⟩, (flush0_6 _).mpr rfl, ?_⟩
  rw [mem_blk6]
  intro a
  match a with
  | ⟨0, _⟩ => show win0_6.index ⟨49, h49⟩ (0 : Fin 2) * 1 ≤ (i 0).val ∧ (i 0).val < win0_6.index ⟨49, h49⟩ (0 : Fin 2) * 1 + 1; rw [e0]; omega
  | ⟨1, _⟩ => show win0_6.index ⟨49, h49⟩ (1 : Fin 2) * 128 ≤ (i 1).val ∧ (i 1).val < win0_6.index ⟨49, h49⟩ (1 : Fin 2) * 128 + 128; rw [e1]; omega

/-- What output 7's write-back at point `t` writes, for any row `G` its buffer holds there: the row, whole. -/
theorem flushed7_of (c : Dev nD) (t : Fin cfg0.N) (G : S1x128.Idx → EReal)
    (hG : ∀ (u : Fin 1) (j : Fin 128), ((outsAt0 V c t.val t.isLt).2.2 : Vec Ideal S1x128 .f32) (ix2 u j) = G (ix2 u j)) :
    (dat0 V c).flushed 7 t = ((cfg0.win 7).blk t).view.read (Elt Ideal) G := by
  obtain ⟨e0, e1⟩ := idx7 t
  show (cfg0.win 7).cut (grid0.coords t) ((dat0 V c).after 7 t) = _
  rw [after0_7]
  show ((outsAt0 V c t.val t.isLt).2.2 : Vec Ideal S1x128 .f32) = fun y => G (((cfg0.win 7).blk t).view.emb y)
  funext y
  obtain ⟨u, j, rfl⟩ : ∃ (u : Fin 1) (j : Fin 128), y = ix2 u j := ⟨y 0, y 1, eq_ix2 y⟩
  have hemb : ((cfg0.win 7).blk t).view.emb (ix2 u j) = ix2 u j := funext fun a => Fin.ext (by
    match a with
    | ⟨0, _⟩ => show win0_7.index t (0 : Fin 2) * 1 + 1 * u.val = u.val; rw [e0]; omega
    | ⟨1, _⟩ => show win0_7.index t (1 : Fin 2) * 128 + 1 * j.val = j.val; rw [e1]; omega)
  rw [hemb]
  exact hG u j

/-- The one write-back of output 7, after the last point, writes the column sums of squares: fifty blocks are all the rows. -/
theorem flushed7_eq (c : Dev nD) (t : Fin cfg0.N) (hf : (cfg0.win 7).flush t = true) :
    (dat0 V c).flushed 7 t = ((cfg0.win 7).blk t).view.read (Elt Ideal) (Ysumsq V c) := by
  have h49 : t.val = 49 := by have := (flush0_7 t).mp hf; have := hN t; omega
  refine flushed7_of V c t (Ysumsq V c) fun u j => ?_
  rw [outs7 V c t.val t.isLt u j, h49]
  exact MlpMath.psum_all (fun m => Y V c (ix2 m j) * Y V c (ix2 m j))

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v29_2).slice (win0_7.rect t)).set ↔ _
  rw [View.set_slice_whole, Rect.mem_set_unit]
  exact Iff.rfl

/-- The last point's block is the whole row. -/
theorem cover7 (i : S1x128.Idx) : ∃ t : Fin cfg0.N, (cfg0.win 7).flush t = true ∧ i ∈ ((cfg0.win 7).blk t).view.set := by
  have hi0 : (i 0).val < 1 := idx2_lt0 i
  have hi1 : (i 1).val < 128 := idx2_lt1 i
  have h49 : 49 < cfg0.N := by rw [show cfg0.N = 50 from N_0]; decide
  obtain ⟨e0, e1⟩ := idx7 ⟨49, h49⟩
  refine ⟨⟨49, h49⟩, (flush0_7 _).mpr rfl, ?_⟩
  rw [mem_blk7]
  intro a
  match a with
  | ⟨0, _⟩ => show win0_7.index ⟨49, h49⟩ (0 : Fin 2) * 1 ≤ (i 0).val ∧ (i 0).val < win0_7.index ⟨49, h49⟩ (0 : Fin 2) * 1 + 1; rw [e0]; omega
  | ⟨1, _⟩ => show win0_7.index ⟨49, h49⟩ (1 : Fin 2) * 128 ≤ (i 1).val ∧ (i 1).val < win0_7.index ⟨49, h49⟩ (1 : Fin 2) * 128 + 128; rw [e1]; omega

/-! ## The three result arrays -/

/-- The first result array ends as the perceptron's output over all the nodes. -/
theorem zpre_eq (c : Dev nD) : (Gen.dat0 (F := Ideal) V c).arrAt 5 cfg0.N
    = Gin.zpre (V c main_v18) (V c main_v20) (fun k => V c main_v27 (ix2 0 (k 0))) (V c main_v24) (fun j => V c main_v28 (ix2 0 (j 0))) :=
  (dat0 V c).arrAt_eq_of_cover 5 (Y V c) (fun t _ => flushed5_eq V c t) cover5

/-- The second ends as its column sums. -/
theorem sum_eq (c : Dev nD) : (Gen.dat0 (F := Ideal) V c).arrAt 6 cfg0.N
    = fun i => Gin.colsum (Gin.zpre (V c main_v18) (V c main_v20) (fun k => V c main_v27 (ix2 0 (k 0))) (V c main_v24) (fun j => V c main_v28 (ix2 0 (j 0)))) (ix1 (i 1)) :=
  (dat0 V c).arrAt_eq_of_cover 6 (Ysum V c) (flushed6_eq V c) cover6

/-- The third ends as its column sums of squares. -/
theorem sumsq_eq (c : Dev nD) : (Gen.dat0 (F := Ideal) V c).arrAt 7 cfg0.N
    = fun i => Gin.colsumsq (Gin.zpre (V c main_v18) (V c main_v20) (fun k => V c main_v27 (ix2 0 (k 0))) (V c main_v24) (fun j => V c main_v28 (ix2 0 (j 0)))) (ix1 (i 1)) :=
  (dat0 V c).arrAt_eq_of_cover 7 (Ysumsq V c) (flushed7_eq V c) cover7

end Value

end Cert.KernelIdeal.Mlp0

end
-- ==== Proof.Mlp2Pay.lean ====
/-
  The arithmetic the perceptron kernel stores at one grid point, read index by index over the extended reals.

  At a grid point the kernel holds a block of 2000 rows `x` of the aggregated features and the whole parameter
  arrays.  It stores the block's perceptron output `y[r,j] = ∑ k, max (∑ i, x[r,i] · W1[i,k] + b1[k]) 0 · W2[k,j] + b2[j]`,
  adds the column sums of `y` to one accumulator row and the column sums of `y · y` to another.  When the block is
  rows `2000 t + r` of the array `z`, `y[r,j]` is the perceptron of the whole array at row `2000 t + r`.
-/
import proofs.«155226_j39831526703451_1_alg».proof.Proof.Gen.KernelIdeal.Skeleton
import proofs.«155226_j39831526703451_1_alg».proof.Proof.Spec
import proofs.«155226_j39831526703451_1_alg».proof.Proof.MlpMath

noncomputable section

open scoped BigOperators

namespace Cert.KernelIdeal.Mlp2

open Cert.KernelIdeal Cert.KernelIdeal.Gen Idealize.ShloMosaic Idealize.ShloMosaic.ValueIdx

/-- The block's perceptron output at row `r`, feature `j`. -/
theorem pay4_apply (x0 : Vec Ideal S2000x128 .f32) (x1 : Vec Ideal S128x256 .f32) (x2 : Vec Ideal S1x256 .f32)
    (x3 : Vec Ideal S256x128 .f32) (x4 : Vec Ideal S1x128 .f32) (r : Fin 2000) (j : Fin 128) :
    k2_pay4 (F := Ideal) x0 x1 x2 x3 x4 (ix2 r j)
      = (∑ k : Fin 256, max ((∑ i : Fin 128, x0 (ix2 r i) * x1 (ix2 i k)) + x2 (ix2 (0 : Fin 1) k)) 0 * x3 (ix2 k j))
          + x4 (ix2 (0 : Fin 1) j) := by
  unfold k2_pay4
  exact MlpMath.perceptron_apply _ _ _ _ _ _ _ _ _ x0 x1 x2 x3 x4 r j

/-- When the block is rows `2000 t + r` of `z` and the other operands are the whole parameter arrays, the block's
    output is the array's perceptron at those rows. -/
theorem pay4_of_blocks (z : Gin.Arr Gin.SNH) (W1 : Gin.Arr Gin.SHH2) (B1 : S1x256.Idx → EReal) (W2 : Gin.Arr Gin.SH2H)
    (B2 : S1x128.Idx → EReal) (t : ℕ) (ht : t < 50)
    (x0 : Vec Ideal S2000x128 .f32) (x1 : Vec Ideal S128x256 .f32) (x2 : Vec Ideal S1x256 .f32)
    (x3 : Vec Ideal S256x128 .f32) (x4 : Vec Ideal S1x128 .f32)
    (h0 : ∀ (r : Fin 2000) (i : Fin 128), x0 (ix2 r i) = z (ix2 (MlpMath.row t ht r) i))
    (h1 : x1 = W1) (h2 : x2 = B1) (h3 : x3 = W2) (h4 : x4 = B2) (r : Fin 2000) (j : Fin 128) :
    k2_pay4 (F := Ideal) x0 x1 x2 x3 x4 (ix2 r j)
      = Gin.zpre z W1 (fun k => B1 (ix2 (0 : Fin 1) (k 0))) W2 (fun j => B2 (ix2 (0 : Fin 1) (j 0)))
          (ix2 (MlpMath.row t ht r) j) := by
  subst h1 h2 h3 h4
  refine (pay4_apply x0 x1 x2 x3 x4 r j).trans ?_
  simp only [h0]
  rfl

/-- The first accumulator row after a point: what it held plus the column sums of the block's output. -/
theorem pay5_apply (x0 : Vec Ideal S2000x128 .f32) (x1 : Vec Ideal S128x256 .f32) (x2 : Vec Ideal S1x256 .f32)
    (x3 : Vec Ideal S256x128 .f32) (x4 : Vec Ideal S1x128 .f32) (acc : Vec Ideal S1x128 .f32) (u : Fin 1) (j : Fin 128) :
    k2_pay5 (F := Ideal) x0 x1 x2 x3 x4 acc (ix2 u j)
      = acc (ix2 u j) + ∑ r : Fin 2000, k2_pay4 (F := Ideal) x0 x1 x2 x3 x4 (ix2 r j) := by
  unfold k2_pay5
  refine (MlpMath.acc_add_colsum_apply _ _ _ _ _ (k2_pay4 (F := Ideal) x0 x1 x2 x3 x4) u j).trans ?_
  rw [shapeCast_self]

/-- The second accumulator row after a point: what it held plus the column sums of a block `q`. -/
theorem pay1_apply (acc : FVec Ideal S1x128 .f32) (q : FVec Ideal S2000x128 .f32) (u : Fin 1) (j : Fin 128) :
    k2_pay1 (F := Ideal) acc q (ix2 u j) = acc (ix2 u j) + ∑ r : Fin 2000, q (ix2 r j) := by
  unfold k2_pay1
  exact MlpMath.acc_add_colsum_apply _ _ _ _ acc q u j

/-- The second accumulator is read back unchanged. -/
theorem pay6_eq (acc : Vec Ideal S1x128 .f32) : k2_pay6 (F := Ideal) acc = acc := by
  unfold k2_pay6
  exact shapeCast_self _ _

/-- The block whose column sums the second accumulator takes: the squares of the block's output. -/
theorem pay7_apply (x0 : Vec Ideal S2000x128 .f32) (x1 : Vec Ideal S128x256 .f32) (x2 : Vec Ideal S1x256 .f32)
    (x3 : Vec Ideal S256x128 .f32) (x4 : Vec Ideal S1x128 .f32) (i : S2000x128.Idx) :
    k2_pay7 (F := Ideal) x0 x1 x2 x3 x4 i
      = k2_pay4 (F := Ideal) x0 x1 x2 x3 x4 i * k2_pay4 (F := Ideal) x0 x1 x2 x3 x4 i := rfl

/-- The rows both accumulators are reset to at the first point are zero. -/
theorem pay2_apply (i : S1x128.Idx) : k2_pay2 (F := Ideal) i = 0 := MlpMath.zero_row_apply i
theorem pay3_apply (i : S1x128.Idx) : k2_pay3 (F := Ideal) i = 0 := MlpMath.zero_row_apply i

end Cert.KernelIdeal.Mlp2

end
-- ==== Proof.Mlp2.lean ====
/-
  What the perceptron kernel leaves in its three result arrays, as functions of the arrays it is given.

  The grid has fifty points; point `t` holds rows `2000 t … 2000 t + 1999` of the aggregated features and the whole
  parameter arrays.  It writes the perceptron of its block to rows `2000 t …` of the first result, so after the fifty
  points the first result is the perceptron of the whole array.  The second and third results are one row each, kept
  in place from point to point: point 0 resets them to zero, every point adds its block's column sums (of the output,
  and of its squares), and the rows are written back once, after point 49.  By induction on the point the rows hold,
  after point `n`, the sums over the rows of blocks `0 … n`; fifty blocks are all the rows, so the two rows end as the
  column sums and the column sums of squares of the perceptron's output over all 100000 nodes.  Only commutativity and
  associativity of the extended reals' addition are used.
-/
import proofs.«155226_j39831526703451_1_alg».proof.Proof.Gen.KernelIdeal.Frame
import proofs.«155226_j39831526703451_1_alg».proof.Proof.Spec
import proofs.«155226_j39831526703451_1_alg».proof.Proof.MlpMath
import proofs.«155226_j39831526703451_1_alg».proof.Proof.Mlp2Pay
import Idealize.ShloMosaic.Lib.Pipeline.Value
import Idealize.ShloMosaic.Lib.Tactic

noncomputable section

open scoped BigOperators

namespace Cert.KernelIdeal.Mlp2

open Cert.KernelIdeal Cert.KernelIdeal.Gen Idealize.ShloMosaic Idealize.ShloMosaic.ValueIdx
open Idealize.ShloMosaic.TcCoe Idealize.SL.Sem
open Idealize.ShloMosaic.Pipeline (Dat)

/-! ## What each case of the body leaves in the three outputs' buffers -/

section Pieces

variable {F : FTy → Type} [FloatOps F]

theorem hz : (![0, 0] : Fin 2 → Nat) = fun _ => 0 := funext fun a => by fin_cases a <;> rfl

/-- At the first point the first output's buffer is left at the block's perceptron output. -/
theorem outA5 (c : Dev nD) (i : grid2.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 : Vec F S2000x128 .f32) (x1 : Vec F S128x256 .f32) (x2 : Vec F S1x256 .f32) (x3 : Vec F S256x128 .f32) (x4 : Vec F S1x128 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At the first point the second output's buffer is zeroed, read back, and left at zero plus the block's column sums. -/
theorem outA6 (c : Dev nD) (i : grid2.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 : Vec F S2000x128 .f32) (x1 : Vec F S128x256 .f32) (x2 : Vec F S1x256 .f32) (x3 : Vec F S256x128 .f32) (x4 : Vec F S1x128 .f32) :
    out2_A_6 c i a1 h1 a2 h2 a3 h3 a4 h4 a5 h5 a6 h6 a7 h7 a8 h8 hc x0 x1 x2 x3 x4 = k2_pay5 x0 x1 x2 x3 x4 k2_pay2 := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At the first point the third output's buffer is zeroed, read back, and left at zero plus the column sums of squares. -/
theorem outA7 (c : Dev nD) (i : grid2.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 : Vec F S2000x128 .f32) (x1 : Vec F S128x256 .f32) (x2 : Vec F S1x256 .f32) (x3 : Vec F S256x128 .f32) (x4 : Vec F S1x128 .f32) :
    out2_A_7 c i a1 h1 a2 h2 a3 h3 a4 h4 a5 h5 a6 h6 a7 h7 a8 h8 hc x0 x1 x2 x3 x4 = k2_pay1 (k2_pay6 k2_pay3) (k2_pay7 x0 x1 x2 x3 x4) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At a later point the first output's buffer is left at the block's perceptron output. -/
theorem outB5 (c : Dev nD) (i : grid2.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S2000x128 .f32) (x1 : Vec F S128x256 .f32) (x2 : Vec F S1x256 .f32) (x3 : Vec F S256x128 .f32) (x4 : Vec F S1x128 .f32) (xo6 xo7 : Vec F S1x128 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

/-- At a later point the second output's buffer, holding `xo6`, is left at `xo6` plus the block's column sums. -/
theorem outB6 (c : Dev nD) (i : grid2.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S2000x128 .f32) (x1 : Vec F S128x256 .f32) (x2 : Vec F S1x256 .f32) (x3 : Vec F S256x128 .f32) (x4 : Vec F S1x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

/-- At a later point the third output's buffer, holding `xo7`, is left at `xo7` plus the column sums of squares. -/
theorem outB7 (c : Dev nD) (i : grid2.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S2000x128 .f32) (x1 : Vec F S128x256 .f32) (x2 : Vec F S1x256 .f32) (x3 : Vec F S256x128 .f32) (x4 : Vec F S1x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x3 x4) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

end Pieces

/-! ## The three buffers after each point -/

section Value

variable (V : (c : Dev nD) → (b : Ref sig .tc) → Buf (Elt Ideal) ((c : Thread nD τ).loc b))

theorem hN (t : Fin cfg2.N) : t.val < 50 := lt_of_lt_of_eq t.isLt (show cfg2.N = 50 from N_2)

/-- The buffers after a first point, in terms of the point's blocks. -/
theorem outs_A (c : Dev nD) (t : Fin cfg2.N) (h0 : t.val % 50 = 0) :
    outsAt2 V c t.val t.isLt
      = (k2_pay4 (iblk2 V c 0 t) (iblk2 V c 1 t) (iblk2 V c 2 t) (iblk2 V c 3 t) (iblk2 V c 4 t), k2_pay5 (iblk2 V c 0 t) (iblk2 V c 1 t) (iblk2 V c 2 t) (iblk2 V c 3 t) (iblk2 V c 4 t) (k2_pay2 (F := Ideal)), k2_pay1 (k2_pay6 (k2_pay3 (F := Ideal))) (k2_pay7 (iblk2 V c 0 t) (iblk2 V c 1 t) (iblk2 V c 2 t) (iblk2 V c 3 t) (iblk2 V c 4 t))) :=
  (outsAt2_A V c t h0).trans (congrArg₂ Prod.mk
    (outA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))
    (congrArg₂ Prod.mk
      (outA6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))
      (outA7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))))

/-- The buffers after a later point, in terms of the point's blocks and the two rows the point before left. -/
theorem outs_B (c : Dev nD) (t : Fin cfg2.N) (h0 : ¬t.val % 50 = 0) :
    outsAt2 V c t.val t.isLt
      = (k2_pay4 (iblk2 V c 0 t) (iblk2 V c 1 t) (iblk2 V c 2 t) (iblk2 V c 3 t) (iblk2 V c 4 t), k2_pay5 (iblk2 V c 0 t) (iblk2 V c 1 t) (iblk2 V c 2 t) (iblk2 V c 3 t) (iblk2 V c 4 t) (outsAt2 V c (t.val - 1) (Nat.lt_of_le_of_lt (Nat.sub_le _ _) t.isLt)).2.1, k2_pay1 (k2_pay6 (outsAt2 V c (t.val - 1) (Nat.lt_of_le_of_lt (Nat.sub_le _ _) t.isLt)).2.2) (k2_pay7 (iblk2 V c 0 t) (iblk2 V c 1 t) (iblk2 V c 2 t) (iblk2 V c 3 t) (iblk2 V c 4 t))) :=
  (outsAt2_B V c t h0).trans (congrArg₂ Prod.mk
    (outB5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (outB6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
      (outB7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)))

/-! ## The windows' blocks, read off their arrays -/

/-- The block indices, decided over the grid: windows 0 and 5 move with the point along the rows, the others stay. -/
theorem idx0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx5 : ∀ t : Fin cfg2.N, win2_5.index t (0 : Fin 2) = t.val ∧ win2_5.index t (1 : Fin 2) = 0 :=
  (by decide +kernel : ∀ t : Fin grid2.N, win2_5.index t (0 : Fin 2) = t.val ∧ win2_5.index t (1 : Fin 2) = 0)
theorem idx6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idx7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)

/-- Window 0's block at point `t` is rows `2000 t + r` of `main_v53`. -/
theorem blk0 (c : Dev nD) (t : Fin cfg2.N) (r : Fin 2000) (i : Fin 128) :
    (iblk2 V c 0 t : Vec Ideal S2000x128 .f32) (ix2 r i) = V c main_v53 (ix2 (MlpMath.row t.val (hN t) r) i) := by
  obtain ⟨e0, e1⟩ := idx0 t
  unfold iblk2
  rw [View.read_apply]
  show V c main_v53 (((cfg2.win 0).blk t).view.emb (ix2 r i)) = _
  refine congrArg (V c main_v53) (funext fun a => Fin.ext ?_)
  match a with
  | ⟨0, _⟩ => show win2_0.index t (0 : Fin 2) * 2000 + 1 * r.val = 2000 * t.val + r.val; rw [e0]; omega
  | ⟨1, _⟩ => show win2_0.index t (1 : Fin 2) * 128 + 1 * i.val = i.val; rw [e1]; omega

/-- Window 1's block is the whole array `main_v55` at every point. -/
theorem blk1 (c : Dev nD) (t : Fin cfg2.N) : (iblk2 V c 1 t : Vec Ideal S128x256 .f32) = V c main_v55 := by
  obtain ⟨e0, e1⟩ := idx1 t
  funext y
  unfold iblk2
  rw [View.read_apply]
  show V c main_v55 (((cfg2.win 1).blk t).view.emb y) = V c main_v55 y
  refine congrArg (V c main_v55) (funext fun a => Fin.ext ?_)
  match a with
  | ⟨0, _⟩ => show win2_1.index t (0 : Fin 2) * 128 + 1 * (y 0).val = (y 0).val; rw [e0]; omega
  | ⟨1, _⟩ => show win2_1.index t (1 : Fin 2) * 256 + 1 * (y 1).val = (y 1).val; rw [e1]; omega

/-- Window 2's block is the whole array `main_v62` at every point. -/
theorem blk2 (c : Dev nD) (t : Fin cfg2.N) : (iblk2 V c 2 t : Vec Ideal S1x256 .f32) = V c main_v62 := by
  obtain ⟨e0, e1⟩ := idx2 t
  funext y
  unfold iblk2
  rw [View.read_apply]
  show V c main_v62 (((cfg2.win 2).blk t).view.emb y) = V c main_v62 y
  refine congrArg (V c main_v62) (funext fun a => Fin.ext ?_)
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-- Window 3's block is the whole array `main_v59` at every point. -/
theorem blk3 (c : Dev nD) (t : Fin cfg2.N) : (iblk2 V c 3 t : Vec Ideal S256x128 .f32) = V c main_v59 := by
  obtain ⟨e0, e1⟩ := idx3 t
  funext y
  unfold iblk2
  rw [View.read_apply]
  show V c main_v59 (((cfg2.win 3).blk t).view.emb y) = V c main_v59 y
  refine congrArg (V c main_v59) (funext fun a => Fin.ext ?_)
  match a with
  | ⟨0, _⟩ => show win2_3.index t (0 : Fin 2) * 256 + 1 * (y 0).val = (y 0).val; rw [e0]; omega
  | ⟨1, _⟩ => show win2_3.index t (1 : Fin 2) * 128 + 1 * (y 1).val = (y 1).val; rw [e1]; omega

/-- Window 4's block is the whole array `main_v63` at every point. -/
theorem blk4 (c : Dev nD) (t : Fin cfg2.N) : (iblk2 V c 4 t : Vec Ideal S1x128 .f32) = V c main_v63 := by
  obtain ⟨e0, e1⟩ := idx4 t
  funext y
  unfold iblk2
  rw [View.read_apply]
  show V c main_v63 (((cfg2.win 4).blk t).view.emb y) = V c main_v63 y
  refine congrArg (V c main_v63) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The perceptron's output over all the nodes, from the arrays the region is given. -/
abbrev Y (c : Dev nD) : Gin.Arr Gin.SNH :=
  Gin.zpre (V c main_v53) (V c main_v55) (fun k => V c main_v62 (ix2 0 (k 0))) (V c main_v59) (fun j => V c main_v63 (ix2 0 (j 0)))

/-- Its column sums, as the one-row array the kernel keeps them in. -/
abbrev Ysum (c : Dev nD) : S1x128.Idx → EReal := fun i => Gin.colsum (Y V c) (ix1 (i 1))

/-- Its column sums of squares, likewise. -/
abbrev Ysumsq (c : Dev nD) : S1x128.Idx → EReal := fun i => Gin.colsumsq (Y V c) (ix1 (i 1))

/-- The block's perceptron output at point `t` is the array's at rows `2000 t + r`. -/
theorem pay4_blk (c : Dev nD) (t : Fin cfg2.N) (r : Fin 2000) (j : Fin 128) :
    k2_pay4 (F := Ideal) (iblk2 V c 0 t) (iblk2 V c 1 t) (iblk2 V c 2 t) (iblk2 V c 3 t) (iblk2 V c 4 t) (ix2 r j) = Y V c (ix2 (MlpMath.row t.val (hN t) r) j) :=
  pay4_of_blocks (V c main_v53) (V c main_v55) (V c main_v62) (V c main_v59) (V c main_v63) t.val (hN t) (iblk2 V c 0 t) (iblk2 V c 1 t) (iblk2 V c 2 t) (iblk2 V c 3 t) (iblk2 V c 4 t)
    (blk0 V c t) (blk1 V c t) (blk2 V c t) (blk3 V c t) (blk4 V c t) r j

/-- The first output's buffer after any point: the block's perceptron output. -/
theorem outs5 (c : Dev nD) (t : Fin cfg2.N) :
    (outsAt2 V c t.val t.isLt).1 = k2_pay4 (iblk2 V c 0 t) (iblk2 V c 1 t) (iblk2 V c 2 t) (iblk2 V c 3 t) (iblk2 V c 4 t) := by
  by_cases h0 : t.val % 50 = 0
  · rw [outs_A V c t h0]
  · rw [outs_B V c t h0]

/-- The second output's buffer after point `n`: the column sums over the rows of blocks `0 … n`. -/
theorem outs6 (c : Dev nD) : ∀ (n : ℕ) (h : n < cfg2.N) (u : Fin 1) (j : Fin 128),
    ((outsAt2 V c n h).2.1 : Vec Ideal S1x128 .f32) (ix2 u j) = MlpMath.psum (fun m => Y V c (ix2 m j)) (n + 1)
  | 0, h, u, j => by
    rw [show outsAt2 V c 0 h = _ from outs_A V c ⟨0, h⟩ (Nat.zero_mod 50)]
    show k2_pay5 (F := Ideal) _ _ _ _ _ _ (ix2 u j) = _
    rw [pay5_apply, pay2_apply, zero_add, MlpMath.psum_succ _ 0 (by decide), MlpMath.psum_zero, zero_add]
    exact Finset.sum_congr rfl fun r _ => pay4_blk V c ⟨0, h⟩ r j
  | n + 1, h, u, j => by
    have hn : n + 1 < 50 := lt_of_lt_of_eq h (show cfg2.N = 50 from N_2)
    have hB : ¬(⟨n + 1, h⟩ : Fin cfg2.N).val % 50 = 0 := by dsimp only; omega
    rw [show outsAt2 V c (n + 1) h = _ from outs_B V c ⟨n + 1, h⟩ hB]
    show k2_pay5 (F := Ideal) _ _ _ _ _ _ (ix2 u j) = _
    rw [pay5_apply, MlpMath.psum_succ _ (n + 1) hn]
    exact congrArg₂ (· + ·) (outs6 c n (Nat.lt_of_succ_lt h) u j)
      (Finset.sum_congr rfl fun r _ => pay4_blk V c ⟨n + 1, h⟩ r j)

/-- The third output's buffer after point `n`: the column sums of squares over the rows of blocks `0 … n`. -/
theorem outs7 (c : Dev nD) : ∀ (n : ℕ) (h : n < cfg2.N) (u : Fin 1) (j : Fin 128),
    ((outsAt2 V c n h).2.2 : Vec Ideal S1x128 .f32) (ix2 u j)
      = MlpMath.psum (fun m => Y V c (ix2 m j) * Y V c (ix2 m j)) (n + 1)
  | 0, h, u, j => by
    rw [show outsAt2 V c 0 h = _ from outs_A V c ⟨0, h⟩ (Nat.zero_mod 50)]
    show k2_pay1 (F := Ideal) _ _ (ix2 u j) = _
    rw [pay1_apply, pay6_eq, pay3_apply, zero_add, MlpMath.psum_succ _ 0 (by decide), MlpMath.psum_zero, zero_add]
    refine Finset.sum_congr rfl fun r _ => ?_
    rw [pay7_apply, pay4_blk V c ⟨0, h⟩ r j]
  | n + 1, h, u, j => by
    have hn : n + 1 < 50 := lt_of_lt_of_eq h (show cfg2.N = 50 from N_2)
    have hB : ¬(⟨n + 1, h⟩ : Fin cfg2.N).val % 50 = 0 := by dsimp only; omega
    rw [show outsAt2 V c (n + 1) h = _ from outs_B V c ⟨n + 1, h⟩ hB]
    show k2_pay1 (F := Ideal) _ _ (ix2 u j) = _
    rw [pay1_apply, pay6_eq, MlpMath.psum_succ _ (n + 1) hn]
    refine congrArg₂ (· + ·) (outs7 c n (Nat.lt_of_succ_lt h) u j) (Finset.sum_congr rfl fun r _ => ?_)
    rw [pay7_apply, pay4_blk V c ⟨n + 1, h⟩ r j]

/-! ## From the buffers to the arrays -/

/-- Point `t` writes back block `t` of the perceptron's output. -/
theorem flushed5_eq (c : Dev nD) (t : Fin cfg2.N) :
    (dat2 V c).flushed 5 t = ((cfg2.win 5).blk t).view.read (Elt Ideal) (Y V c) := by
  obtain ⟨e0, e1⟩ := idx5 t
  show (cfg2.win 5).cut (grid2.coords t) ((dat2 V c).after 5 t) = _
  rw [after2_5, outs5 V c t]
  show (k2_pay4 (F := Ideal) (iblk2 V c 0 t) (iblk2 V c 1 t) (iblk2 V c 2 t) (iblk2 V c 3 t) (iblk2 V c 4 t) : Vec Ideal S2000x128 .f32) = fun y => Y V c (((cfg2.win 5).blk t).view.emb y)
  funext y
  obtain ⟨r, j, rfl⟩ : ∃ (r : Fin 2000) (j : Fin 128), y = ix2 r j := ⟨y 0, y 1, eq_ix2 y⟩
  have hemb : ((cfg2.win 5).blk t).view.emb (ix2 r j) = ix2 (MlpMath.row t.val (hN t) r) j := funext fun a => Fin.ext (by
    match a with
    | ⟨0, _⟩ => show win2_5.index t (0 : Fin 2) * 2000 + 1 * r.val = 2000 * t.val + r.val; rw [e0]; omega
    | ⟨1, _⟩ => show win2_5.index t (1 : Fin 2) * 128 + 1 * j.val = j.val; rw [e1]; omega)
  rw [hemb]
  exact pay4_blk V c t r j

theorem mem_blk5 (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v64_0).slice (win2_5.rect t)).set ↔ _
  rw [View.set_slice_whole, Rect.mem_set_unit]
  exact Iff.rfl

/-- Row `n` is in the block of point `n / 2000`. -/
theorem cover5 (i : S100000x128.Idx) : ∃ t : Fin cfg2.N, (cfg2.win 5).flush t = true ∧ i ∈ ((cfg2.win 5).blk t).view.set := by
  have hi0 : (i 0).val < 100000 := idx2_lt0 i
  have hi1 : (i 1).val < 128 := idx2_lt1 i
  have ht : (i 0).val / 2000 < cfg2.N := by rw [show cfg2.N = 50 from N_2]; omega
  obtain ⟨e0, e1⟩ := idx5 ⟨(i 0).val / 2000, ht⟩
  refine ⟨⟨(i 0).val / 2000, ht⟩, flush2_5 _, ?_⟩
  rw [mem_blk5]
  intro a
  match a with
  | ⟨0, _⟩ => show win2_5.index ⟨(i 0).val / 2000, ht⟩ (0 : Fin 2) * 2000 ≤ (i 0).val ∧ (i 0).val < win2_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win2_5.index ⟨(i 0).val / 2000, ht⟩ (1 : Fin 2) * 128 ≤ (i 1).val ∧ (i 1).val < win2_5.index ⟨(i 0).val / 2000, ht⟩ (1 : Fin 2) * 128 + 128; rw [e1]; omega

/-- What output 6's write-back at point `t` writes, for any row `G` its buffer holds there: the row, whole. -/
theorem flushed6_of (c : Dev nD) (t : Fin cfg2.N) (G : S1x128.Idx → EReal)
    (hG : ∀ (u : Fin 1) (j : Fin 128), ((outsAt2 V c t.val t.isLt).2.1 : Vec Ideal S1x128 .f32) (ix2 u j) = G (ix2 u j)) :
    (dat2 V c).flushed 6 t = ((cfg2.win 6).blk t).view.read (Elt Ideal) G := by
  obtain ⟨e0, e1⟩ := idx6 t
  show (cfg2.win 6).cut (grid2.coords t) ((dat2 V c).after 6 t) = _
  rw [after2_6]
  show ((outsAt2 V c t.val t.isLt).2.1 : Vec Ideal S1x128 .f32) = fun y => G (((cfg2.win 6).blk t).view.emb y)
  funext y
  obtain ⟨u, j, rfl⟩ : ∃ (u : Fin 1) (j : Fin 128), y = ix2 u j := ⟨y 0, y 1, eq_ix2 y⟩
  have hemb : ((cfg2.win 6).blk t).view.emb (ix2 u j) = ix2 u j := funext fun a => Fin.ext (by
    match a with
    | ⟨0, _⟩ => show win2_6.index t (0 : Fin 2) * 1 + 1 * u.val = u.val; rw [e0]; omega
    | ⟨1, _⟩ => show win2_6.index t (1 : Fin 2) * 128 + 1 * j.val = j.val; rw [e1]; omega)
  rw [hemb]
  exact hG u j

/-- The one write-back of output 6, after the last point, writes the column sums: fifty blocks are all the rows. -/
theorem flushed6_eq (c : Dev nD) (t : Fin cfg2.N) (hf : (cfg2.win 6).flush t = true) :
    (dat2 V c).flushed 6 t = ((cfg2.win 6).blk t).view.read (Elt Ideal) (Ysum V c) := by
  have h49 : t.val = 49 := by have := (flush2_6 t).mp hf; have := hN t; omega
  refine flushed6_of V c t (Ysum V c) fun u j => ?_
  rw [outs6 V c t.val t.isLt u j, h49]
  exact MlpMath.psum_all (fun m => Y V c (ix2 m j))

theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v64_1).slice (win2_6.rect t)).set ↔ _
  rw [View.set_slice_whole, Rect.mem_set_unit]
  exact Iff.rfl

/-- The last point's block is the whole row. -/
theorem cover6 (i : S1x128.Idx) : ∃ t : Fin cfg2.N, (cfg2.win 6).flush t = true ∧ i ∈ ((cfg2.win 6).blk t).view.set := by
  have hi0 : (i 0).val < 1 := idx2_lt0 i
  have hi1 : (i 1).val < 128 := idx2_lt1 i
  have h49 : 49 < cfg2.N := by rw [show cfg2.N = 50 from N_2]; decide
  obtain ⟨e0, e1⟩ := idx6 ⟨49, h49⟩
  refine ⟨⟨49, h49⟩, (flush2_6 _).mpr rfl, ?_⟩
  rw [mem_blk6]
  intro a
  match a with
  | ⟨0, _⟩ => show win2_6.index ⟨49, h49⟩ (0 : Fin 2) * 1 ≤ (i 0).val ∧ (i 0).val < win2_6.index ⟨49, h49⟩ (0 : Fin 2) * 1 + 1; rw [e0]; omega
  | ⟨1, _⟩ => show win2_6.index ⟨49, h49⟩ (1 : Fin 2) * 128 ≤ (i 1).val ∧ (i 1).val < win2_6.index ⟨49, h49⟩ (1 : Fin 2) * 128 + 128; rw [e1]; omega

/-- What output 7's write-back at point `t` writes, for any row `G` its buffer holds there: the row, whole. -/
theorem flushed7_of (c : Dev nD) (t : Fin cfg2.N) (G : S1x128.Idx → EReal)
    (hG : ∀ (u : Fin 1) (j : Fin 128), ((outsAt2 V c t.val t.isLt).2.2 : Vec Ideal S1x128 .f32) (ix2 u j) = G (ix2 u j)) :
    (dat2 V c).flushed 7 t = ((cfg2.win 7).blk t).view.read (Elt Ideal) G := by
  obtain ⟨e0, e1⟩ := idx7 t
  show (cfg2.win 7).cut (grid2.coords t) ((dat2 V c).after 7 t) = _
  rw [after2_7]
  show ((outsAt2 V c t.val t.isLt).2.2 : Vec Ideal S1x128 .f32) = fun y => G (((cfg2.win 7).blk t).view.emb y)
  funext y
  obtain ⟨u, j, rfl⟩ : ∃ (u : Fin 1) (j : Fin 128), y = ix2 u j := ⟨y 0, y 1, eq_ix2 y⟩
  have hemb : ((cfg2.win 7).blk t).view.emb (ix2 u j) = ix2 u j := funext fun a => Fin.ext (by
    match a with
    | ⟨0, _⟩ => show win2_7.index t (0 : Fin 2) * 1 + 1 * u.val = u.val; rw [e0]; omega
    | ⟨1, _⟩ => show win2_7.index t (1 : Fin 2) * 128 + 1 * j.val = j.val; rw [e1]; omega)
  rw [hemb]
  exact hG u j

/-- The one write-back of output 7, after the last point, writes the column sums of squares: fifty blocks are all the rows. -/
theorem flushed7_eq (c : Dev nD) (t : Fin cfg2.N) (hf : (cfg2.win 7).flush t = true) :
    (dat2 V c).flushed 7 t = ((cfg2.win 7).blk t).view.read (Elt Ideal) (Ysumsq V c) := by
  have h49 : t.val = 49 := by have := (flush2_7 t).mp hf; have := hN t; omega
  refine flushed7_of V c t (Ysumsq V c) fun u j => ?_
  rw [outs7 V c t.val t.isLt u j, h49]
  exact MlpMath.psum_all (fun m => Y V c (ix2 m j) * Y V c (ix2 m j))

theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v64_2).slice (win2_7.rect t)).set ↔ _
  rw [View.set_slice_whole, Rect.mem_set_unit]
  exact Iff.rfl

/-- The last point's block is the whole row. -/
theorem cover7 (i : S1x128.Idx) : ∃ t : Fin cfg2.N, (cfg2.win 7).flush t = true ∧ i ∈ ((cfg2.win 7).blk t).view.set := by
  have hi0 : (i 0).val < 1 := idx2_lt0 i
  have hi1 : (i 1).val < 128 := idx2_lt1 i
  have h49 : 49 < cfg2.N := by rw [show cfg2.N = 50 from N_2]; decide
  obtain ⟨e0, e1⟩ := idx7 ⟨49, h49⟩
  refine ⟨⟨49, h49⟩, (flush2_7 _).mpr rfl, ?_⟩
  rw [mem_blk7]
  intro a
  match a with
  | ⟨0, _⟩ => show win2_7.index ⟨49, h49⟩ (0 : Fin 2) * 1 ≤ (i 0).val ∧ (i 0).val < win2_7.index ⟨49, h49⟩ (0 : Fin 2) * 1 + 1; rw [e0]; omega
  | ⟨1, _⟩ => show win2_7.index ⟨49, h49⟩ (1 : Fin 2) * 128 ≤ (i 1).val ∧ (i 1).val < win2_7.index ⟨49, h49⟩ (1 : Fin 2) * 128 + 128; rw [e1]; omega

/-! ## The three result arrays -/

/-- The first result array ends as the perceptron's output over all the nodes. -/
theorem zpre_eq (c : Dev nD) : (Gen.dat2 (F := Ideal) V c).arrAt 5 cfg2.N
    = Gin.zpre (V c main_v53) (V c main_v55) (fun k => V c main_v62 (ix2 0 (k 0))) (V c main_v59) (fun j => V c main_v63 (ix2 0 (j 0))) :=
  (dat2 V c).arrAt_eq_of_cover 5 (Y V c) (fun t _ => flushed5_eq V c t) cover5

/-- The second ends as its column sums. -/
theorem sum_eq (c : Dev nD) : (Gen.dat2 (F := Ideal) V c).arrAt 6 cfg2.N
    = fun i => Gin.colsum (Gin.zpre (V c main_v53) (V c main_v55) (fun k => V c main_v62 (ix2 0 (k 0))) (V c main_v59) (fun j => V c main_v63 (ix2 0 (j 0)))) (ix1 (i 1)) :=
  (dat2 V c).arrAt_eq_of_cover 6 (Ysum V c) (flushed6_eq V c) cover6

/-- The third ends as its column sums of squares. -/
theorem sumsq_eq (c : Dev nD) : (Gen.dat2 (F := Ideal) V c).arrAt 7 cfg2.N
    = fun i => Gin.colsumsq (Gin.zpre (V c main_v53) (V c main_v55) (fun k => V c main_v62 (ix2 0 (k 0))) (V c main_v59) (fun j => V c main_v63 (ix2 0 (j 0)))) (ix1 (i 1)) :=
  (dat2 V c).arrAt_eq_of_cover 7 (Ysumsq V c) (flushed7_eq V c) cover7

end Value

end Cert.KernelIdeal.Mlp2

end
-- ==== Proof.Mlp4Pay.lean ====
/-
  The arithmetic the perceptron kernel stores at one grid point, read index by index over the extended reals.

  At a grid point the kernel holds a block of 2000 rows `x` of the aggregated features and the whole parameter
  arrays.  It stores the block's perceptron output `y[r,j] = ∑ k, max (∑ i, x[r,i] · W1[i,k] + b1[k]) 0 · W2[k,j] + b2[j]`,
  adds the column sums of `y` to one accumulator row and the column sums of `y · y` to another.  When the block is
  rows `2000 t + r` of the array `z`, `y[r,j]` is the perceptron of the whole array at row `2000 t + r`.
-/
import proofs.«155226_j39831526703451_1_alg».proof.Proof.Gen.KernelIdeal.Skeleton
import proofs.«155226_j39831526703451_1_alg».proof.Proof.Spec
import proofs.«155226_j39831526703451_1_alg».proof.Proof.MlpMath

noncomputable section

open scoped BigOperators

namespace Cert.KernelIdeal.Mlp4

open Cert.KernelIdeal Cert.KernelIdeal.Gen Idealize.ShloMosaic Idealize.ShloMosaic.ValueIdx

/-- The block's perceptron output at row `r`, feature `j`. -/
theorem pay4_apply (x0 : Vec Ideal S2000x128 .f32) (x1 : Vec Ideal S128x256 .f32) (x2 : Vec Ideal S1x256 .f32)
    (x3 : Vec Ideal S256x128 .f32) (x4 : Vec Ideal S1x128 .f32) (r : Fin 2000) (j : Fin 128) :
    k4_pay4 (F := Ideal) x0 x1 x2 x3 x4 (ix2 r j)
      = (∑ k : Fin 256, max ((∑ i : Fin 128, x0 (ix2 r i) * x1 (ix2 i k)) + x2 (ix2 (0 : Fin 1) k)) 0 * x3 (ix2 k j))
          + x4 (ix2 (0 : Fin 1) j) := by
  unfold k4_pay4
  exact MlpMath.perceptron_apply _ _ _ _ _ _ _ _ _ x0 x1 x2 x3 x4 r j

/-- When the block is rows `2000 t + r` of `z` and the other operands are the whole parameter arrays, the block's
    output is the array's perceptron at those rows. -/
theorem pay4_of_blocks (z : Gin.Arr Gin.SNH) (W1 : Gin.Arr Gin.SHH2) (B1 : S1x256.Idx → EReal) (W2 : Gin.Arr Gin.SH2H)
    (B2 : S1x128.Idx → EReal) (t : ℕ) (ht : t < 50)
    (x0 : Vec Ideal S2000x128 .f32) (x1 : Vec Ideal S128x256 .f32) (x2 : Vec Ideal S1x256 .f32)
    (x3 : Vec Ideal S256x128 .f32) (x4 : Vec Ideal S1x128 .f32)
    (h0 : ∀ (r : Fin 2000) (i : Fin 128), x0 (ix2 r i) = z (ix2 (MlpMath.row t ht r) i))
    (h1 : x1 = W1) (h2 : x2 = B1) (h3 : x3 = W2) (h4 : x4 = B2) (r : Fin 2000) (j : Fin 128) :
    k4_pay4 (F := Ideal) x0 x1 x2 x3 x4 (ix2 r j)
      = Gin.zpre z W1 (fun k => B1 (ix2 (0 : Fin 1) (k 0))) W2 (fun j => B2 (ix2 (0 : Fin 1) (j 0)))
          (ix2 (MlpMath.row t ht r) j) := by
  subst h1 h2 h3 h4
  refine (pay4_apply x0 x1 x2 x3 x4 r j).trans ?_
  simp only [h0]
  rfl

/-- The first accumulator row after a point: what it held plus the column sums of the block's output. -/
theorem pay5_apply (x0 : Vec Ideal S2000x128 .f32) (x1 : Vec Ideal S128x256 .f32) (x2 : Vec Ideal S1x256 .f32)
    (x3 : Vec Ideal S256x128 .f32) (x4 : Vec Ideal S1x128 .f32) (acc : Vec Ideal S1x128 .f32) (u : Fin 1) (j : Fin 128) :
    k4_pay5 (F := Ideal) x0 x1 x2 x3 x4 acc (ix2 u j)
      = acc (ix2 u j) + ∑ r : Fin 2000, k4_pay4 (F := Ideal) x0 x1 x2 x3 x4 (ix2 r j) := by
  unfold k4_pay5
  refine (MlpMath.acc_add_colsum_apply _ _ _ _ _ (k4_pay4 (F := Ideal) x0 x1 x2 x3 x4) u j).trans ?_
  rw [shapeCast_self]

/-- The second accumulator row after a point: what it held plus the column sums of a block `q`. -/
theorem pay1_apply (acc : FVec Ideal S1x128 .f32) (q : FVec Ideal S2000x128 .f32) (u : Fin 1) (j : Fin 128) :
    k4_pay1 (F := Ideal) acc q (ix2 u j) = acc (ix2 u j) + ∑ r : Fin 2000, q (ix2 r j) := by
  unfold k4_pay1
  exact MlpMath.acc_add_colsum_apply _ _ _ _ acc q u j

/-- The second accumulator is read back unchanged. -/
theorem pay6_eq (acc : Vec Ideal S1x128 .f32) : k4_pay6 (F := Ideal) acc = acc := by
  unfold k4_pay6
  exact shapeCast_self _ _

/-- The block whose column sums the second accumulator takes: the squares of the block's output. -/
theorem pay7_apply (x0 : Vec Ideal S2000x128 .f32) (x1 : Vec Ideal S128x256 .f32) (x2 : Vec Ideal S1x256 .f32)
    (x3 : Vec Ideal S256x128 .f32) (x4 : Vec Ideal S1x128 .f32) (i : S2000x128.Idx) :
    k4_pay7 (F := Ideal) x0 x1 x2 x3 x4 i
      = k4_pay4 (F := Ideal) x0 x1 x2 x3 x4 i * k4_pay4 (F := Ideal) x0 x1 x2 x3 x4 i := rfl

/-- The rows both accumulators are reset to at the first point are zero. -/
theorem pay2_apply (i : S1x128.Idx) : k4_pay2 (F := Ideal) i = 0 := MlpMath.zero_row_apply i
theorem pay3_apply (i : S1x128.Idx) : k4_pay3 (F := Ideal) i = 0 := MlpMath.zero_row_apply i

end Cert.KernelIdeal.Mlp4

end
-- ==== Proof.Mlp4.lean ====
/-
  What the perceptron kernel leaves in its three result arrays, as functions of the arrays it is given.

  The grid has fifty points; point `t` holds rows `2000 t … 2000 t + 1999` of the aggregated features and the whole
  parameter arrays.  It writes the perceptron of its block to rows `2000 t …` of the first result, so after the fifty
  points the first result is the perceptron of the whole array.  The second and third results are one row each, kept
  in place from point to point: point 0 resets them to zero, every point adds its block's column sums (of the output,
  and of its squares), and the rows are written back once, after point 49.  By induction on the point the rows hold,
  after point `n`, the sums over the rows of blocks `0 … n`; fifty blocks are all the rows, so the two rows end as the
  column sums and the column sums of squares of the perceptron's output over all 100000 nodes.  Only commutativity and
  associativity of the extended reals' addition are used.
-/
import proofs.«155226_j39831526703451_1_alg».proof.Proof.Gen.KernelIdeal.Frame
import proofs.«155226_j39831526703451_1_alg».proof.Proof.Spec
import proofs.«155226_j39831526703451_1_alg».proof.Proof.MlpMath
import proofs.«155226_j39831526703451_1_alg».proof.Proof.Mlp4Pay
import Idealize.ShloMosaic.Lib.Pipeline.Value
import Idealize.ShloMosaic.Lib.Tactic

noncomputable section

open scoped BigOperators

namespace Cert.KernelIdeal.Mlp4

open Cert.KernelIdeal Cert.KernelIdeal.Gen Idealize.ShloMosaic Idealize.ShloMosaic.ValueIdx
open Idealize.ShloMosaic.TcCoe Idealize.SL.Sem
open Idealize.ShloMosaic.Pipeline (Dat)

/-! ## What each case of the body leaves in the three outputs' buffers -/

section Pieces

variable {F : FTy → Type} [FloatOps F]

theorem hz : (![0, 0] : Fin 2 → Nat) = fun _ => 0 := funext fun a => by fin_cases a <;> rfl

/-- At the first point the first output's buffer is left at the block's perceptron output. -/
theorem outA5 (c : Dev nD) (i : grid4.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond4_0 i) (x0 : Vec F S2000x128 .f32) (x1 : Vec F S128x256 .f32) (x2 : Vec F S1x256 .f32) (x3 : Vec F S256x128 .f32) (x4 : Vec F S1x128 .f32) :
    out4_A_5 c i a1 h1 a2 h2 a3 h3 a4 h4 a5 h5 a6 h6 a7 h7 a8 h8 hc x0 x1 x2 x3 x4 = k4_pay4 x0 x1 x2 x3 x4 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  sl_unfold_words
  rw [View.canon_unit_zero hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At the first point the second output's buffer is zeroed, read back, and left at zero plus the block's column sums. -/
theorem outA6 (c : Dev nD) (i : grid4.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond4_0 i) (x0 : Vec F S2000x128 .f32) (x1 : Vec F S128x256 .f32) (x2 : Vec F S1x256 .f32) (x3 : Vec F S256x128 .f32) (x4 : Vec F S1x128 .f32) :
    out4_A_6 c i a1 h1 a2 h2 a3 h3 a4 h4 a5 h5 a6 h6 a7 h7 a8 h8 hc x0 x1 x2 x3 x4 = k4_pay5 x0 x1 x2 x3 x4 k4_pay2 := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At the first point the third output's buffer is zeroed, read back, and left at zero plus the column sums of squares. -/
theorem outA7 (c : Dev nD) (i : grid4.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond4_0 i) (x0 : Vec F S2000x128 .f32) (x1 : Vec F S128x256 .f32) (x2 : Vec F S1x256 .f32) (x3 : Vec F S256x128 .f32) (x4 : Vec F S1x128 .f32) :
    out4_A_7 c i a1 h1 a2 h2 a3 h3 a4 h4 a5 h5 a6 h6 a7 h7 a8 h8 hc x0 x1 x2 x3 x4 = k4_pay1 (k4_pay6 k4_pay3) (k4_pay7 x0 x1 x2 x3 x4) := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At a later point the first output's buffer is left at the block's perceptron output. -/
theorem outB5 (c : Dev nD) (i : grid4.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond4_0 i) (x0 : Vec F S2000x128 .f32) (x1 : Vec F S128x256 .f32) (x2 : Vec F S1x256 .f32) (x3 : Vec F S256x128 .f32) (x4 : Vec F S1x128 .f32) (xo6 xo7 : Vec F S1x128 .f32) :
    out4_B_5 c i a1 h1 a2 h2 a3 h3 a4 h4 a5 h5 a6 h6 a7 h7 a8 h8 hc x0 x1 x2 x3 x4 xo6 xo7 = k4_pay4 x0 x1 x2 x3 x4 := by
  unfold out4_B_5
  rw [View.read_writes_eq_canon _ _ _ (cover4_B_5 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

/-- At a later point the second output's buffer, holding `xo6`, is left at `xo6` plus the block's column sums. -/
theorem outB6 (c : Dev nD) (i : grid4.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond4_0 i) (x0 : Vec F S2000x128 .f32) (x1 : Vec F S128x256 .f32) (x2 : Vec F S1x256 .f32) (x3 : Vec F S256x128 .f32) (x4 : Vec F S1x128 .f32) (xo6 xo7 : Vec F S1x128 .f32) :
    out4_B_6 c i a1 h1 a2 h2 a3 h3 a4 h4 a5 h5 a6 h6 a7 h7 a8 h8 hc x0 x1 x2 x3 x4 xo6 xo7 = k4_pay5 x0 x1 x2 x3 x4 xo6 := by
  unfold out4_B_6
  rw [View.read_writes_eq_canon _ _ _ (cover4_B_6 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

/-- At a later point the third output's buffer, holding `xo7`, is left at `xo7` plus the column sums of squares. -/
theorem outB7 (c : Dev nD) (i : grid4.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond4_0 i) (x0 : Vec F S2000x128 .f32) (x1 : Vec F S128x256 .f32) (x2 : Vec F S1x256 .f32) (x3 : Vec F S256x128 .f32) (x4 : Vec F S1x128 .f32) (xo6 xo7 : Vec F S1x128 .f32) :
    out4_B_7 c i a1 h1 a2 h2 a3 h3 a4 h4 a5 h5 a6 h6 a7 h7 a8 h8 hc x0 x1 x2 x3 x4 xo6 xo7 = k4_pay1 (k4_pay6 xo7) (k4_pay7 x0 x1 x2 x3 x4) := by
  unfold out4_B_7
  rw [View.read_writes_eq_canon _ _ _ (cover4_B_7 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

end Pieces

/-! ## The three buffers after each point -/

section Value

variable (V : (c : Dev nD) → (b : Ref sig .tc) → Buf (Elt Ideal) ((c : Thread nD τ).loc b))

theorem hN (t : Fin cfg4.N) : t.val < 50 := lt_of_lt_of_eq t.isLt (show cfg4.N = 50 from N_4)

/-- The buffers after a first point, in terms of the point's blocks. -/
theorem outs_A (c : Dev nD) (t : Fin cfg4.N) (h0 : t.val % 50 = 0) :
    outsAt4 V c t.val t.isLt
      = (k4_pay4 (iblk4 V c 0 t) (iblk4 V c 1 t) (iblk4 V c 2 t) (iblk4 V c 3 t) (iblk4 V c 4 t), k4_pay5 (iblk4 V c 0 t) (iblk4 V c 1 t) (iblk4 V c 2 t) (iblk4 V c 3 t) (iblk4 V c 4 t) (k4_pay2 (F := Ideal)), k4_pay1 (k4_pay6 (k4_pay3 (F := Ideal))) (k4_pay7 (iblk4 V c 0 t) (iblk4 V c 1 t) (iblk4 V c 2 t) (iblk4 V c 3 t) (iblk4 V c 4 t))) :=
  (outsAt4_A V c t h0).trans (congrArg₂ Prod.mk
    (outA5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))
    (congrArg₂ Prod.mk
      (outA6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))
      (outA7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))))

/-- The buffers after a later point, in terms of the point's blocks and the two rows the point before left. -/
theorem outs_B (c : Dev nD) (t : Fin cfg4.N) (h0 : ¬t.val % 50 = 0) :
    outsAt4 V c t.val t.isLt
      = (k4_pay4 (iblk4 V c 0 t) (iblk4 V c 1 t) (iblk4 V c 2 t) (iblk4 V c 3 t) (iblk4 V c 4 t), k4_pay5 (iblk4 V c 0 t) (iblk4 V c 1 t) (iblk4 V c 2 t) (iblk4 V c 3 t) (iblk4 V c 4 t) (outsAt4 V c (t.val - 1) (Nat.lt_of_le_of_lt (Nat.sub_le _ _) t.isLt)).2.1, k4_pay1 (k4_pay6 (outsAt4 V c (t.val - 1) (Nat.lt_of_le_of_lt (Nat.sub_le _ _) t.isLt)).2.2) (k4_pay7 (iblk4 V c 0 t) (iblk4 V c 1 t) (iblk4 V c 2 t) (iblk4 V c 3 t) (iblk4 V c 4 t))) :=
  (outsAt4_B V c t h0).trans (congrArg₂ Prod.mk
    (outB5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk
      (outB6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2)
      (outB7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2)))

/-! ## The windows' blocks, read off their arrays -/

/-- The block indices, decided over the grid: windows 0 and 5 move with the point along the rows, the others stay. -/
theorem idx0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)
theorem idx2 : ∀ t : Fin cfg4.N, win4_2.index t (0 : Fin 2) = 0 ∧ win4_2.index t (1 : Fin 2) = 0 :=
  (by decide +kernel : ∀ t : Fin grid4.N, win4_2.index t (0 : Fin 2) = 0 ∧ win4_2.index t (1 : Fin 2) = 0)
theorem idx3 : ∀ t : Fin cfg4.N, win4_3.index t (0 : Fin 2) = 0 ∧ win4_3.index t (1 : Fin 2) = 0 :=
  (by decide +kernel : ∀ t : Fin grid4.N, win4_3.index t (0 : Fin 2) = 0 ∧ win4_3.index t (1 : Fin 2) = 0)
theorem idx4 : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)
theorem idx5 : ∀ t : Fin cfg4.N, win4_5.index t (0 : Fin 2) = t.val ∧ win4_5.index t (1 : Fin 2) = 0 :=
  (by decide +kernel : ∀ t : Fin grid4.N, win4_5.index t (0 : Fin 2) = t.val ∧ win4_5.index t (1 : Fin 2) = 0)
theorem idx6 : ∀ t : Fin cfg4.N, win4_6.index t (0 : Fin 2) = 0 ∧ win4_6.index t (1 : Fin 2) = 0 :=
  (by decide +kernel : ∀ t : Fin grid4.N, win4_6.index t (0 : Fin 2) = 0 ∧ win4_6.index t (1 : Fin 2) = 0)
theorem idx7 : ∀ t : Fin cfg4.N, win4_7.index t (0 : Fin 2) = 0 ∧ win4_7.index t (1 : Fin 2) = 0 :=
  (by decide +kernel : ∀ t : Fin grid4.N, win4_7.index t (0 : Fin 2) = 0 ∧ win4_7.index t (1 : Fin 2) = 0)

/-- Window 0's block at point `t` is rows `2000 t + r` of `main_v88`. -/
theorem blk0 (c : Dev nD) (t : Fin cfg4.N) (r : Fin 2000) (i : Fin 128) :
    (iblk4 V c 0 t : Vec Ideal S2000x128 .f32) (ix2 r i) = V c main_v88 (ix2 (MlpMath.row t.val (hN t) r) i) := by
  obtain ⟨e0, e1⟩ := idx0 t
  unfold iblk4
  rw [View.read_apply]
  show V c main_v88 (((cfg4.win 0).blk t).view.emb (ix2 r i)) = _
  refine congrArg (V c main_v88) (funext fun a => Fin.ext ?_)
  match a with
  | ⟨0, _⟩ => show win4_0.index t (0 : Fin 2) * 2000 + 1 * r.val = 2000 * t.val + r.val; rw [e0]; omega
  | ⟨1, _⟩ => show win4_0.index t (1 : Fin 2) * 128 + 1 * i.val = i.val; rw [e1]; omega

/-- Window 1's block is the whole array `main_v90` at every point. -/
theorem blk1 (c : Dev nD) (t : Fin cfg4.N) : (iblk4 V c 1 t : Vec Ideal S128x256 .f32) = V c main_v90 := by
  obtain ⟨e0, e1⟩ := idx1 t
  funext y
  unfold iblk4
  rw [View.read_apply]
  show V c main_v90 (((cfg4.win 1).blk t).view.emb y) = V c main_v90 y
  refine congrArg (V c main_v90) (funext fun a => Fin.ext ?_)
  match a with
  | ⟨0, _⟩ => show win4_1.index t (0 : Fin 2) * 128 + 1 * (y 0).val = (y 0).val; rw [e0]; omega
  | ⟨1, _⟩ => show win4_1.index t (1 : Fin 2) * 256 + 1 * (y 1).val = (y 1).val; rw [e1]; omega

/-- Window 2's block is the whole array `main_v97` at every point. -/
theorem blk2 (c : Dev nD) (t : Fin cfg4.N) : (iblk4 V c 2 t : Vec Ideal S1x256 .f32) = V c main_v97 := by
  obtain ⟨e0, e1⟩ := idx2 t
  funext y
  unfold iblk4
  rw [View.read_apply]
  show V c main_v97 (((cfg4.win 2).blk t).view.emb y) = V c main_v97 y
  refine congrArg (V c main_v97) (funext fun a => Fin.ext ?_)
  match a with
  | ⟨0, _⟩ => show win4_2.index t (0 : Fin 2) * 1 + 1 * (y 0).val = (y 0).val; rw [e0]; omega
  | ⟨1, _⟩ => show win4_2.index t (1 : Fin 2) * 256 + 1 * (y 1).val = (y 1).val; rw [e1]; omega

/-- Window 3's block is the whole array `main_v94` at every point. -/
theorem blk3 (c : Dev nD) (t : Fin cfg4.N) : (iblk4 V c 3 t : Vec Ideal S256x128 .f32) = V c main_v94 := by
  obtain ⟨e0, e1⟩ := idx3 t
  funext y
  unfold iblk4
  rw [View.read_apply]
  show V c main_v94 (((cfg4.win 3).blk t).view.emb y) = V c main_v94 y
  refine congrArg (V c main_v94) (funext fun a => Fin.ext ?_)
  match a with
  | ⟨0, _⟩ => show win4_3.index t (0 : Fin 2) * 256 + 1 * (y 0).val = (y 0).val; rw [e0]; omega
  | ⟨1, _⟩ => show win4_3.index t (1 : Fin 2) * 128 + 1 * (y 1).val = (y 1).val; rw [e1]; omega

/-- Window 4's block is the whole array `main_v98` at every point. -/
theorem blk4 (c : Dev nD) (t : Fin cfg4.N) : (iblk4 V c 4 t : Vec Ideal S1x128 .f32) = V c main_v98 := by
  obtain ⟨e0, e1⟩ := idx4 t
  funext y
  unfold iblk4
  rw [View.read_apply]
  show V c main_v98 (((cfg4.win 4).blk t).view.emb y) = V c main_v98 y
  refine congrArg (V c main_v98) (funext fun a => Fin.ext ?_)
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- The perceptron's output over all the nodes, from the arrays the region is given. -/
abbrev Y (c : Dev nD) : Gin.Arr Gin.SNH :=
  Gin.zpre (V c main_v88) (V c main_v90) (fun k => V c main_v97 (ix2 0 (k 0))) (V c main_v94) (fun j => V c main_v98 (ix2 0 (j 0)))

/-- Its column sums, as the one-row array the kernel keeps them in. -/
abbrev Ysum (c : Dev nD) : S1x128.Idx → EReal := fun i => Gin.colsum (Y V c) (ix1 (i 1))

/-- Its column sums of squares, likewise. -/
abbrev Ysumsq (c : Dev nD) : S1x128.Idx → EReal := fun i => Gin.colsumsq (Y V c) (ix1 (i 1))

/-- The block's perceptron output at point `t` is the array's at rows `2000 t + r`. -/
theorem pay4_blk (c : Dev nD) (t : Fin cfg4.N) (r : Fin 2000) (j : Fin 128) :
    k4_pay4 (F := Ideal) (iblk4 V c 0 t) (iblk4 V c 1 t) (iblk4 V c 2 t) (iblk4 V c 3 t) (iblk4 V c 4 t) (ix2 r j) = Y V c (ix2 (MlpMath.row t.val (hN t) r) j) :=
  pay4_of_blocks (V c main_v88) (V c main_v90) (V c main_v97) (V c main_v94) (V c main_v98) t.val (hN t) (iblk4 V c 0 t) (iblk4 V c 1 t) (iblk4 V c 2 t) (iblk4 V c 3 t) (iblk4 V c 4 t)
    (blk0 V c t) (blk1 V c t) (blk2 V c t) (blk3 V c t) (blk4 V c t) r j

/-- The first output's buffer after any point: the block's perceptron output. -/
theorem outs5 (c : Dev nD) (t : Fin cfg4.N) :
    (outsAt4 V c t.val t.isLt).1 = k4_pay4 (iblk4 V c 0 t) (iblk4 V c 1 t) (iblk4 V c 2 t) (iblk4 V c 3 t) (iblk4 V c 4 t) := by
  by_cases h0 : t.val % 50 = 0
  · rw [outs_A V c t h0]
  · rw [outs_B V c t h0]

/-- The second output's buffer after point `n`: the column sums over the rows of blocks `0 … n`. -/
theorem outs6 (c : Dev nD) : ∀ (n : ℕ) (h : n < cfg4.N) (u : Fin 1) (j : Fin 128),
    ((outsAt4 V c n h).2.1 : Vec Ideal S1x128 .f32) (ix2 u j) = MlpMath.psum (fun m => Y V c (ix2 m j)) (n + 1)
  | 0, h, u, j => by
    rw [show outsAt4 V c 0 h = _ from outs_A V c ⟨0, h⟩ (Nat.zero_mod 50)]
    show k4_pay5 (F := Ideal) _ _ _ _ _ _ (ix2 u j) = _
    rw [pay5_apply, pay2_apply, zero_add, MlpMath.psum_succ _ 0 (by decide), MlpMath.psum_zero, zero_add]
    exact Finset.sum_congr rfl fun r _ => pay4_blk V c ⟨0, h⟩ r j
  | n + 1, h, u, j => by
    have hn : n + 1 < 50 := lt_of_lt_of_eq h (show cfg4.N = 50 from N_4)
    have hB : ¬(⟨n + 1, h⟩ : Fin cfg4.N).val % 50 = 0 := by dsimp only; omega
    rw [show outsAt4 V c (n + 1) h = _ from outs_B V c ⟨n + 1, h⟩ hB]
    show k4_pay5 (F := Ideal) _ _ _ _ _ _ (ix2 u j) = _
    rw [pay5_apply, MlpMath.psum_succ _ (n + 1) hn]
    exact congrArg₂ (· + ·) (outs6 c n (Nat.lt_of_succ_lt h) u j)
      (Finset.sum_congr rfl fun r _ => pay4_blk V c ⟨n + 1, h⟩ r j)

/-- The third output's buffer after point `n`: the column sums of squares over the rows of blocks `0 … n`. -/
theorem outs7 (c : Dev nD) : ∀ (n : ℕ) (h : n < cfg4.N) (u : Fin 1) (j : Fin 128),
    ((outsAt4 V c n h).2.2 : Vec Ideal S1x128 .f32) (ix2 u j)
      = MlpMath.psum (fun m => Y V c (ix2 m j) * Y V c (ix2 m j)) (n + 1)
  | 0, h, u, j => by
    rw [show outsAt4 V c 0 h = _ from outs_A V c ⟨0, h⟩ (Nat.zero_mod 50)]
    show k4_pay1 (F := Ideal) _ _ (ix2 u j) = _
    rw [pay1_apply, pay6_eq, pay3_apply, zero_add, MlpMath.psum_succ _ 0 (by decide), MlpMath.psum_zero, zero_add]
    refine Finset.sum_congr rfl fun r _ => ?_
    rw [pay7_apply, pay4_blk V c ⟨0, h⟩ r j]
  | n + 1, h, u, j => by
    have hn : n + 1 < 50 := lt_of_lt_of_eq h (show cfg4.N = 50 from N_4)
    have hB : ¬(⟨n + 1, h⟩ : Fin cfg4.N).val % 50 = 0 := by dsimp only; omega
    rw [show outsAt4 V c (n + 1) h = _ from outs_B V c ⟨n + 1, h⟩ hB]
    show k4_pay1 (F := Ideal) _ _ (ix2 u j) = _
    rw [pay1_apply, pay6_eq, MlpMath.psum_succ _ (n + 1) hn]
    refine congrArg₂ (· + ·) (outs7 c n (Nat.lt_of_succ_lt h) u j) (Finset.sum_congr rfl fun r _ => ?_)
    rw [pay7_apply, pay4_blk V c ⟨n + 1, h⟩ r j]

/-! ## From the buffers to the arrays -/

/-- Point `t` writes back block `t` of the perceptron's output. -/
theorem flushed5_eq (c : Dev nD) (t : Fin cfg4.N) :
    (dat4 V c).flushed 5 t = ((cfg4.win 5).blk t).view.read (Elt Ideal) (Y V c) := by
  obtain ⟨e0, e1⟩ := idx5 t
  show (cfg4.win 5).cut (grid4.coords t) ((dat4 V c).after 5 t) = _
  rw [after4_5, outs5 V c t]
  show (k4_pay4 (F := Ideal) (iblk4 V c 0 t) (iblk4 V c 1 t) (iblk4 V c 2 t) (iblk4 V c 3 t) (iblk4 V c 4 t) : Vec Ideal S2000x128 .f32) = fun y => Y V c (((cfg4.win 5).blk t).view.emb y)
  funext y
  obtain ⟨r, j, rfl⟩ : ∃ (r : Fin 2000) (j : Fin 128), y = ix2 r j := ⟨y 0, y 1, eq_ix2 y⟩
  have hemb : ((cfg4.win 5).blk t).view.emb (ix2 r j) = ix2 (MlpMath.row t.val (hN t) r) j := funext fun a => Fin.ext (by
    match a with
    | ⟨0, _⟩ => show win4_5.index t (0 : Fin 2) * 2000 + 1 * r.val = 2000 * t.val + r.val; rw [e0]; omega
    | ⟨1, _⟩ => show win4_5.index t (1 : Fin 2) * 128 + 1 * j.val = j.val; rw [e1]; omega)
  rw [hemb]
  exact pay4_blk V c t r j

theorem mem_blk5 (t : Fin cfg4.N) (i : S100000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v99_0).slice (win4_5.rect t)).set ↔ _
  rw [View.set_slice_whole, Rect.mem_set_unit]
  exact Iff.rfl

/-- Row `n` is in the block of point `n / 2000`. -/
theorem cover5 (i : S100000x128.Idx) : ∃ t : Fin cfg4.N, (cfg4.win 5).flush t = true ∧ i ∈ ((cfg4.win 5).blk t).view.set := by
  have hi0 : (i 0).val < 100000 := idx2_lt0 i
  have hi1 : (i 1).val < 128 := idx2_lt1 i
  have ht : (i 0).val / 2000 < cfg4.N := by rw [show cfg4.N = 50 from N_4]; omega
  obtain ⟨e0, e1⟩ := idx5 ⟨(i 0).val / 2000, ht⟩
  refine ⟨⟨(i 0).val / 2000, ht⟩, flush4_5 _, ?_⟩
  rw [mem_blk5]
  intro a
  match a with
  | ⟨0, _⟩ => show win4_5.index ⟨(i 0).val / 2000, ht⟩ (0 : Fin 2) * 2000 ≤ (i 0).val ∧ (i 0).val < win4_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win4_5.index ⟨(i 0).val / 2000, ht⟩ (1 : Fin 2) * 128 ≤ (i 1).val ∧ (i 1).val < win4_5.index ⟨(i 0).val / 2000, ht⟩ (1 : Fin 2) * 128 + 128; rw [e1]; omega

/-- What output 6's write-back at point `t` writes, for any row `G` its buffer holds there: the row, whole. -/
theorem flushed6_of (c : Dev nD) (t : Fin cfg4.N) (G : S1x128.Idx → EReal)
    (hG : ∀ (u : Fin 1) (j : Fin 128), ((outsAt4 V c t.val t.isLt).2.1 : Vec Ideal S1x128 .f32) (ix2 u j) = G (ix2 u j)) :
    (dat4 V c).flushed 6 t = ((cfg4.win 6).blk t).view.read (Elt Ideal) G := by
  obtain ⟨e0, e1⟩ := idx6 t
  show (cfg4.win 6).cut (grid4.coords t) ((dat4 V c).after 6 t) = _
  rw [after4_6]
  show ((outsAt4 V c t.val t.isLt).2.1 : Vec Ideal S1x128 .f32) = fun y => G (((cfg4.win 6).blk t).view.emb y)
  funext y
  obtain ⟨u, j, rfl⟩ : ∃ (u : Fin 1) (j : Fin 128), y = ix2 u j := ⟨y 0, y 1, eq_ix2 y⟩
  have hemb : ((cfg4.win 6).blk t).view.emb (ix2 u j) = ix2 u j := funext fun a => Fin.ext (by
    match a with
    | ⟨0, _⟩ => show win4_6.index t (0 : Fin 2) * 1 + 1 * u.val = u.val; rw [e0]; omega
    | ⟨1, _⟩ => show win4_6.index t (1 : Fin 2) * 128 + 1 * j.val = j.val; rw [e1]; omega)
  rw [hemb]
  exact hG u j

/-- The one write-back of output 6, after the last point, writes the column sums: fifty blocks are all the rows. -/
theorem flushed6_eq (c : Dev nD) (t : Fin cfg4.N) (hf : (cfg4.win 6).flush t = true) :
    (dat4 V c).flushed 6 t = ((cfg4.win 6).blk t).view.read (Elt Ideal) (Ysum V c) := by
  have h49 : t.val = 49 := by have := (flush4_6 t).mp hf; have := hN t; omega
  refine flushed6_of V c t (Ysum V c) fun u j => ?_
  rw [outs6 V c t.val t.isLt u j, h49]
  exact MlpMath.psum_all (fun m => Y V c (ix2 m j))

theorem mem_blk6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v99_1).slice (win4_6.rect t)).set ↔ _
  rw [View.set_slice_whole, Rect.mem_set_unit]
  exact Iff.rfl

/-- The last point's block is the whole row. -/
theorem cover6 (i : S1x128.Idx) : ∃ t : Fin cfg4.N, (cfg4.win 6).flush t = true ∧ i ∈ ((cfg4.win 6).blk t).view.set := by
  have hi0 : (i 0).val < 1 := idx2_lt0 i
  have hi1 : (i 1).val < 128 := idx2_lt1 i
  have h49 : 49 < cfg4.N := by rw [show cfg4.N = 50 from N_4]; decide
  obtain ⟨e0, e1⟩ := idx6 ⟨49, h49⟩
  refine ⟨⟨49, h49⟩, (flush4_6 _).mpr rfl, ?_⟩
  rw [mem_blk6]
  intro a
  match a with
  | ⟨0, _⟩ => show win4_6.index ⟨49, h49⟩ (0 : Fin 2) * 1 ≤ (i 0).val ∧ (i 0).val < win4_6.index ⟨49, h49⟩ (0 : Fin 2) * 1 + 1; rw [e0]; omega
  | ⟨1, _⟩ => show win4_6.index ⟨49, h49⟩ (1 : Fin 2) * 128 ≤ (i 1).val ∧ (i 1).val < win4_6.index ⟨49, h49⟩ (1 : Fin 2) * 128 + 128; rw [e1]; omega

/-- What output 7's write-back at point `t` writes, for any row `G` its buffer holds there: the row, whole. -/
theorem flushed7_of (c : Dev nD) (t : Fin cfg4.N) (G : S1x128.Idx → EReal)
    (hG : ∀ (u : Fin 1) (j : Fin 128), ((outsAt4 V c t.val t.isLt).2.2 : Vec Ideal S1x128 .f32) (ix2 u j) = G (ix2 u j)) :
    (dat4 V c).flushed 7 t = ((cfg4.win 7).blk t).view.read (Elt Ideal) G := by
  obtain ⟨e0, e1⟩ := idx7 t
  show (cfg4.win 7).cut (grid4.coords t) ((dat4 V c).after 7 t) = _
  rw [after4_7]
  show ((outsAt4 V c t.val t.isLt).2.2 : Vec Ideal S1x128 .f32) = fun y => G (((cfg4.win 7).blk t).view.emb y)
  funext y
  obtain ⟨u, j, rfl⟩ : ∃ (u : Fin 1) (j : Fin 128), y = ix2 u j := ⟨y 0, y 1, eq_ix2 y⟩
  have hemb : ((cfg4.win 7).blk t).view.emb (ix2 u j) = ix2 u j := funext fun a => Fin.ext (by
    match a with
    | ⟨0, _⟩ => show win4_7.index t (0 : Fin 2) * 1 + 1 * u.val = u.val; rw [e0]; omega
    | ⟨1, _⟩ => show win4_7.index t (1 : Fin 2) * 128 + 1 * j.val = j.val; rw [e1]; omega)
  rw [hemb]
  exact hG u j

/-- The one write-back of output 7, after the last point, writes the column sums of squares: fifty blocks are all the rows. -/
theorem flushed7_eq (c : Dev nD) (t : Fin cfg4.N) (hf : (cfg4.win 7).flush t = true) :
    (dat4 V c).flushed 7 t = ((cfg4.win 7).blk t).view.read (Elt Ideal) (Ysumsq V c) := by
  have h49 : t.val = 49 := by have := (flush4_7 t).mp hf; have := hN t; omega
  refine flushed7_of V c t (Ysumsq V c) fun u j => ?_
  rw [outs7 V c t.val t.isLt u j, h49]
  exact MlpMath.psum_all (fun m => Y V c (ix2 m j) * Y V c (ix2 m j))

theorem mem_blk7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v99_2).slice (win4_7.rect t)).set ↔ _
  rw [View.set_slice_whole, Rect.mem_set_unit]
  exact Iff.rfl

/-- The last point's block is the whole row. -/
theorem cover7 (i : S1x128.Idx) : ∃ t : Fin cfg4.N, (cfg4.win 7).flush t = true ∧ i ∈ ((cfg4.win 7).blk t).view.set := by
  have hi0 : (i 0).val < 1 := idx2_lt0 i
  have hi1 : (i 1).val < 128 := idx2_lt1 i
  have h49 : 49 < cfg4.N := by rw [show cfg4.N = 50 from N_4]; decide
  obtain ⟨e0, e1⟩ := idx7 ⟨49, h49⟩
  refine ⟨⟨49, h49⟩, (flush4_7 _).mpr rfl, ?_⟩
  rw [mem_blk7]
  intro a
  match a with
  | ⟨0, _⟩ => show win4_7.index ⟨49, h49⟩ (0 : Fin 2) * 1 ≤ (i 0).val ∧ (i 0).val < win4_7.index ⟨49, h49⟩ (0 : Fin 2) * 1 + 1; rw [e0]; omega
  | ⟨1, _⟩ => show win4_7.index ⟨49, h49⟩ (1 : Fin 2) * 128 ≤ (i 1).val ∧ (i 1).val < win4_7.index ⟨49, h49⟩ (1 : Fin 2) * 128 + 128; rw [e1]; omega

/-! ## The three result arrays -/

/-- The first result array ends as the perceptron's output over all the nodes. -/
theorem zpre_eq (c : Dev nD) : (Gen.dat4 (F := Ideal) V c).arrAt 5 cfg4.N
    = Gin.zpre (V c main_v88) (V c main_v90) (fun k => V c main_v97 (ix2 0 (k 0))) (V c main_v94) (fun j => V c main_v98 (ix2 0 (j 0))) :=
  (dat4 V c).arrAt_eq_of_cover 5 (Y V c) (fun t _ => flushed5_eq V c t) cover5

/-- The second ends as its column sums. -/
theorem sum_eq (c : Dev nD) : (Gen.dat4 (F := Ideal) V c).arrAt 6 cfg4.N
    = fun i => Gin.colsum (Gin.zpre (V c main_v88) (V c main_v90) (fun k => V c main_v97 (ix2 0 (k 0))) (V c main_v94) (fun j => V c main_v98 (ix2 0 (j 0)))) (ix1 (i 1)) :=
  (dat4 V c).arrAt_eq_of_cover 6 (Ysum V c) (flushed6_eq V c) cover6

/-- The third ends as its column sums of squares. -/
theorem sumsq_eq (c : Dev nD) : (Gen.dat4 (F := Ideal) V c).arrAt 7 cfg4.N
    = fun i => Gin.colsumsq (Gin.zpre (V c main_v88) (V c main_v90) (fun k => V c main_v97 (ix2 0 (k 0))) (V c main_v94) (fun j => V c main_v98 (ix2 0 (j 0)))) (ix1 (i 1)) :=
  (dat4 V c).arrAt_eq_of_cover 7 (Ysumsq V c) (flushed7_eq V c) cover7

end Value

end Cert.KernelIdeal.Mlp4

end
-- ==== Proof.Mlp6Pay.lean ====
/-
  The arithmetic the perceptron kernel stores at one grid point, read index by index over the extended reals.

  At a grid point the kernel holds a block of 2000 rows `x` of the aggregated features and the whole parameter
  arrays.  It stores the block's perceptron output `y[r,j] = ∑ k, max (∑ i, x[r,i] · W1[i,k] + b1[k]) 0 · W2[k,j] + b2[j]`,
  adds the column sums of `y` to one accumulator row and the column sums of `y · y` to another.  When the block is
  rows `2000 t + r` of the array `z`, `y[r,j]` is the perceptron of the whole array at row `2000 t + r`.
-/
import proofs.«155226_j39831526703451_1_alg».proof.Proof.Gen.KernelIdeal.Skeleton
import proofs.«155226_j39831526703451_1_alg».proof.Proof.Spec
import proofs.«155226_j39831526703451_1_alg».proof.Proof.MlpMath

noncomputable section

open scoped BigOperators

namespace Cert.KernelIdeal.Mlp6

open Cert.KernelIdeal Cert.KernelIdeal.Gen Idealize.ShloMosaic Idealize.ShloMosaic.ValueIdx

/-- The block's perceptron output at row `r`, feature `j`. -/
theorem pay4_apply (x0 : Vec Ideal S2000x128 .f32) (x1 : Vec Ideal S128x256 .f32) (x2 : Vec Ideal S1x256 .f32)
    (x3 : Vec Ideal S256x128 .f32) (x4 : Vec Ideal S1x128 .f32) (r : Fin 2000) (j : Fin 128) :
    k6_pay4 (F := Ideal) x0 x1 x2 x3 x4 (ix2 r j)
      = (∑ k : Fin 256, max ((∑ i : Fin 128, x0 (ix2 r i) * x1 (ix2 i k)) + x2 (ix2 (0 : Fin 1) k)) 0 * x3 (ix2 k j))
          + x4 (ix2 (0 : Fin 1) j) := by
  unfold k6_pay4
  exact MlpMath.perceptron_apply _ _ _ _ _ _ _ _ _ x0 x1 x2 x3 x4 r j

/-- When the block is rows `2000 t + r` of `z` and the other operands are the whole parameter arrays, the block's
    output is the array's perceptron at those rows. -/
theorem pay4_of_blocks (z : Gin.Arr Gin.SNH) (W1 : Gin.Arr Gin.SHH2) (B1 : S1x256.Idx → EReal) (W2 : Gin.Arr Gin.SH2H)
    (B2 : S1x128.Idx → EReal) (t : ℕ) (ht : t < 50)
    (x0 : Vec Ideal S2000x128 .f32) (x1 : Vec Ideal S128x256 .f32) (x2 : Vec Ideal S1x256 .f32)
    (x3 : Vec Ideal S256x128 .f32) (x4 : Vec Ideal S1x128 .f32)
    (h0 : ∀ (r : Fin 2000) (i : Fin 128), x0 (ix2 r i) = z (ix2 (MlpMath.row t ht r) i))
    (h1 : x1 = W1) (h2 : x2 = B1) (h3 : x3 = W2) (h4 : x4 = B2) (r : Fin 2000) (j : Fin 128) :
    k6_pay4 (F := Ideal) x0 x1 x2 x3 x4 (ix2 r j)
      = Gin.zpre z W1 (fun k => B1 (ix2 (0 : Fin 1) (k 0))) W2 (fun j => B2 (ix2 (0 : Fin 1) (j 0)))
          (ix2 (MlpMath.row t ht r) j) := by
  subst h1 h2 h3 h4
  refine (pay4_apply x0 x1 x2 x3 x4 r j).trans ?_
  simp only [h0]
  rfl

/-- The first accumulator row after a point: what it held plus the column sums of the block's output. -/
theorem pay5_apply (x0 : Vec Ideal S2000x128 .f32) (x1 : Vec Ideal S128x256 .f32) (x2 : Vec Ideal S1x256 .f32)
    (x3 : Vec Ideal S256x128 .f32) (x4 : Vec Ideal S1x128 .f32) (acc : Vec Ideal S1x128 .f32) (u : Fin 1) (j : Fin 128) :
    k6_pay5 (F := Ideal) x0 x1 x2 x3 x4 acc (ix2 u j)
      = acc (ix2 u j) + ∑ r : Fin 2000, k6_pay4 (F := Ideal) x0 x1 x2 x3 x4 (ix2 r j) := by
  unfold k6_pay5
  refine (MlpMath.acc_add_colsum_apply _ _ _ _ _ (k6_pay4 (F := Ideal) x0 x1 x2 x3 x4) u j).trans ?_
  rw [shapeCast_self]

/-- The second accumulator row after a point: what it held plus the column sums of a block `q`. -/
theorem pay1_apply (acc : FVec Ideal S1x128 .f32) (q : FVec Ideal S2000x128 .f32) (u : Fin 1) (j : Fin 128) :
    k6_pay1 (F := Ideal) acc q (ix2 u j) = acc (ix2 u j) + ∑ r : Fin 2000, q (ix2 r j) := by
  unfold k6_pay1
  exact MlpMath.acc_add_colsum_apply _ _ _ _ acc q u j

/-- The second accumulator is read back unchanged. -/
theorem pay6_eq (acc : Vec Ideal S1x128 .f32) : k6_pay6 (F := Ideal) acc = acc := by
  unfold k6_pay6
  exact shapeCast_self _ _

/-- The block whose column sums the second accumulator takes: the squares of the block's output. -/
theorem pay7_apply (x0 : Vec Ideal S2000x128 .f32) (x1 : Vec Ideal S128x256 .f32) (x2 : Vec Ideal S1x256 .f32)
    (x3 : Vec Ideal S256x128 .f32) (x4 : Vec Ideal S1x128 .f32) (i : S2000x128.Idx) :
    k6_pay7 (F := Ideal) x0 x1 x2 x3 x4 i
      = k6_pay4 (F := Ideal) x0 x1 x2 x3 x4 i * k6_pay4 (F := Ideal) x0 x1 x2 x3 x4 i := rfl

/-- The rows both accumulators are reset to at the first point are zero. -/
theorem pay2_apply (i : S1x128.Idx) : k6_pay2 (F := Ideal) i = 0 := MlpMath.zero_row_apply i
theorem pay3_apply (i : S1x128.Idx) : k6_pay3 (F := Ideal) i = 0 := MlpMath.zero_row_apply i

end Cert.KernelIdeal.Mlp6

end
-- ==== Proof.Mlp6.lean ====
/-
  What the perceptron kernel leaves in its three result arrays, as functions of the arrays it is given.

  The grid has fifty points; point `t` holds rows `2000 t … 2000 t + 1999` of the aggregated features and the whole
  parameter arrays.  It writes the perceptron of its block to rows `2000 t …` of the first result, so after the fifty
  points the first result is the perceptron of the whole array.  The second and third results are one row each, kept
  in place from point to point: point 0 resets them to zero, every point adds its block's column sums (of the output,
  and of its squares), and the rows are written back once, after point 49.  By induction on the point the rows hold,
  after point `n`, the sums over the rows of blocks `0 … n`; fifty blocks are all the rows, so the two rows end as the
  column sums and the column sums of squares of the perceptron's output over all 100000 nodes.  Only commutativity and
  associativity of the extended reals' addition are used.
-/
import proofs.«155226_j39831526703451_1_alg».proof.Proof.Gen.KernelIdeal.Frame
import proofs.«155226_j39831526703451_1_alg».proof.Proof.Spec
import proofs.«155226_j39831526703451_1_alg».proof.Proof.MlpMath
import proofs.«155226_j39831526703451_1_alg».proof.Proof.Mlp6Pay
import Idealize.ShloMosaic.Lib.Pipeline.Value
import Idealize.ShloMosaic.Lib.Tactic

noncomputable section

open scoped BigOperators

namespace Cert.KernelIdeal.Mlp6

open Cert.KernelIdeal Cert.KernelIdeal.Gen Idealize.ShloMosaic Idealize.ShloMosaic.ValueIdx
open Idealize.ShloMosaic.TcCoe Idealize.SL.Sem
open Idealize.ShloMosaic.Pipeline (Dat)

/-! ## What each case of the body leaves in the three outputs' buffers -/

section Pieces

variable {F : FTy → Type} [FloatOps F]

theorem hz : (![0, 0] : Fin 2 → Nat) = fun _ => 0 := funext fun a => by fin_cases a <;> rfl

/-- At the first point the first output's buffer is left at the block's perceptron output. -/
theorem outA5 (c : Dev nD) (i : grid6.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond6_0 i) (x0 : Vec F S2000x128 .f32) (x1 : Vec F S128x256 .f32) (x2 : Vec F S1x256 .f32) (x3 : Vec F S256x128 .f32) (x4 : Vec F S1x128 .f32) :
    out6_A_5 c i a1 h1 a2 h2 a3 h3 a4 h4 a5 h5 a6 h6 a7 h7 a8 h8 hc x0 x1 x2 x3 x4 = k6_pay4 x0 x1 x2 x3 x4 := by
  unfold out6_A_5
  rw [View.read_writes_eq_canon _ _ _ (cover6_A_5 c i a1 h1 a2 h2 a3 h3 a4 h4 a5 h5 a6 h6 a7 h7 a8 h8 hc x0 x1 x2 x3 x4)]
  unfold kernelRun6_A
  dsimp only
  sl_unfold_words
  rw [View.canon_unit_zero hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At the first point the second output's buffer is zeroed, read back, and left at zero plus the block's column sums. -/
theorem outA6 (c : Dev nD) (i : grid6.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond6_0 i) (x0 : Vec F S2000x128 .f32) (x1 : Vec F S128x256 .f32) (x2 : Vec F S1x256 .f32) (x3 : Vec F S256x128 .f32) (x4 : Vec F S1x128 .f32) :
    out6_A_6 c i a1 h1 a2 h2 a3 h3 a4 h4 a5 h5 a6 h6 a7 h7 a8 h8 hc x0 x1 x2 x3 x4 = k6_pay5 x0 x1 x2 x3 x4 k6_pay2 := by
  unfold out6_A_6
  rw [View.read_writes_eq_canon _ _ _ (cover6_A_6 c i a1 h1 a2 h2 a3 h3 a4 h4 a5 h5 a6 h6 a7 h7 a8 h8 hc x0 x1 x2 x3 x4)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At the first point the third output's buffer is zeroed, read back, and left at zero plus the column sums of squares. -/
theorem outA7 (c : Dev nD) (i : grid6.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond6_0 i) (x0 : Vec F S2000x128 .f32) (x1 : Vec F S128x256 .f32) (x2 : Vec F S1x256 .f32) (x3 : Vec F S256x128 .f32) (x4 : Vec F S1x128 .f32) :
    out6_A_7 c i a1 h1 a2 h2 a3 h3 a4 h4 a5 h5 a6 h6 a7 h7 a8 h8 hc x0 x1 x2 x3 x4 = k6_pay1 (k6_pay6 k6_pay3) (k6_pay7 x0 x1 x2 x3 x4) := by
  unfold out6_A_7
  rw [View.read_writes_eq_canon _ _ _ (cover6_A_7 c i a1 h1 a2 h2 a3 h3 a4 h4 a5 h5 a6 h6 a7 h7 a8 h8 hc x0 x1 x2 x3 x4)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S2000x128) hz, View.ld_unit_zero (S := S128x256) hz, View.ld_unit_zero (S := S1x256) hz, View.ld_unit_zero (S := S256x128) hz, View.ld_unit_zero (S := S1x128) hz]

/-- At a later point the first output's buffer is left at the block's perceptron output. -/
theorem outB5 (c : Dev nD) (i : grid6.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond6_0 i) (x0 : Vec F S2000x128 .f32) (x1 : Vec F S128x256 .f32) (x2 : Vec F S1x256 .f32) (x3 : Vec F S256x128 .f32) (x4 : Vec F S1x128 .f32) (xo6 xo7 : Vec F S1x128 .f32) :
    out6_B_5 c i a1 h1 a2 h2 a3 h3 a4 h4 a5 h5 a6 h6 a7 h7 a8 h8 hc x0 x1 x2 x3 x4 xo6 xo7 = k6_pay4 x0 x1 x2 x3 x4 := by
  unfold out6_B_5
  rw [View.read_writes_eq_canon _ _ _ (cover6_B_5 c i a1 h1 a2 h2 a3 h3 a4 h4 a5 h5 a6 h6 a7 h7 a8 h8 hc x0 x1 x2 x3 x4 xo6 xo7)]
  unfold kernelRun6_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

/-- At a later point the second output's buffer, holding `xo6`, is left at `xo6` plus the block's column sums. -/
theorem outB6 (c : Dev nD) (i : grid6.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond6_0 i) (x0 : Vec F S2000x128 .f32) (x1 : Vec F S128x256 .f32) (x2 : Vec F S1x256 .f32) (x3 : Vec F S256x128 .f32) (x4 : Vec F S1x128 .f32) (xo6 xo7 : Vec F S1x128 .f32) :
    out6_B_6 c i a1 h1 a2 h2 a3 h3 a4 h4 a5 h5 a6 h6 a7 h7 a8 h8 hc x0 x1 x2 x3 x4 xo6 xo7 = k6_pay5 x0 x1 x2 x3 x4 xo6 := by
  unfold out6_B_6
  rw [View.read_writes_eq_canon _ _ _ (cover6_B_6 c i a1 h1 a2 h2 a3 h3 a4 h4 a5 h5 a6 h6 a7 h7 a8 h8 hc x0 x1 x2 x3 x4 xo6 xo7)]
  unfold kernelRun6_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

/-- At a later point the third output's buffer, holding `xo7`, is left at `xo7` plus the column sums of squares. -/
theorem outB7 (c : Dev nD) (i : grid6.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S256x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond6_0 i) (x0 : Vec F S2000x128 .f32) (x1 : Vec F S128x256 .f32) (x2 : Vec F S1x256 .f32) (x3 : Vec F S256x128 .f32) (x4 : Vec F S1x128 .f32) (xo6 xo7 : Vec F S1x128 .f32) :
    out6_B_7 c i a1 h1 a2 h2 a3 h3 a4 h4 a5 h5 a6 h6 a7 h7 a8 h8 hc x0 x1 x2 x3 x4 xo6 xo7 = k6_pay1 (k6_pay6 xo7) (k6_pay7 x0 x1 x2 x3 x4) := by
  unfold out6_B_7
  rw [View.read_writes_eq_canon _ _ _ (cover6_B_7 c i a1 h1 a2 h2 a3 h3 a4 h4 a5 h5 a6 h6 a7 h7 a8 h8 hc x0 x1 x2 x3 x4 xo6 xo7)]
  unfold kernelRun6_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S2000x128) hz, View.ld_unit_zero (S := S128x256) hz, View.ld_unit_zero (S := S1x256) hz, View.ld_unit_zero (S := S256x128) hz, View.ld_unit_zero (S := S1x128) hz]

end Pieces

/-! ## The three buffers after each point -/

section Value

variable (V : (c : Dev nD) → (b : Ref sig .tc) → Buf (Elt Ideal) ((c : Thread nD τ).loc b))

theorem hN (t : Fin cfg6.N) : t.val < 50 := lt_of_lt_of_eq t.isLt (show cfg6.N = 50 from N_6)

/-- The buffers after a first point, in terms of the point's blocks. -/
theorem outs_A (c : Dev nD) (t : Fin cfg6.N) (h0 : t.val % 50 = 0) :
    outsAt6 V c t.val t.isLt
      = (k6_pay4 (iblk6 V c 0 t) (iblk6 V c 1 t) (iblk6 V c 2 t) (iblk6 V c 3 t) (iblk6 V c 4 t), k6_pay5 (iblk6 V c 0 t) (iblk6 V c 1 t) (iblk6 V c 2 t) (iblk6 V c 3 t) (iblk6 V c 4 t) (k6_pay2 (F := Ideal)), k6_pay1 (k6_pay6 (k6_pay3 (F := Ideal))) (k6_pay7 (iblk6 V c 0 t) (iblk6 V c 1 t) (iblk6 V c 2 t) (iblk6 V c 3 t) (iblk6 V c 4 t))) :=
  (outsAt6_A V c t h0).trans (congrArg₂ Prod.mk
    (outA5 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t))
    (congrArg₂ Prod.mk
      (outA6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t))
      (outA7 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t))))

/-- The buffers after a later point, in terms of the point's blocks and the two rows the point before left. -/
theorem outs_B (c : Dev nD) (t : Fin cfg6.N) (h0 : ¬t.val % 50 = 0) :
    outsAt6 V c t.val t.isLt
      = (k6_pay4 (iblk6 V c 0 t) (iblk6 V c 1 t) (iblk6 V c 2 t) (iblk6 V c 3 t) (iblk6 V c 4 t), k6_pay5 (iblk6 V c 0 t) (iblk6 V c 1 t) (iblk6 V c 2 t) (iblk6 V c 3 t) (iblk6 V c 4 t) (outsAt6 V c (t.val - 1) (Nat.lt_of_le_of_lt (Nat.sub_le _ _) t.isLt)).2.1, k6_pay1 (k6_pay6 (outsAt6 V c (t.val - 1) (Nat.lt_of_le_of_lt (Nat.sub_le _ _) t.isLt)).2.2) (k6_pay7 (iblk6 V c 0 t) (iblk6 V c 1 t) (iblk6 V c 2 t) (iblk6 V c 3 t) (iblk6 V c 4 t))) :=
  (outsAt6_B V c t h0).trans (congrArg₂ Prod.mk
    (outB5 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2)
    (congrArg₂ Prod.mk
      (outB6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2)
      (outB7 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2)))

/-! ## The windows' blocks, read off their arrays -/

/-- The block indices, decided over the grid: windows 0 and 5 move with the point along the rows, the others stay. -/
theorem idx0 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)
theorem idx1 : ∀ t : Fin cfg6.N, win6_1.index t (0 : Fin 2) = 0 ∧ win6_1.index t (1 : Fin 2) = 0 :=
  (by decide +kernel : ∀ t : Fin grid6.N, win6_1.index t (0 : Fin 2) = 0 ∧ win6_1.index t (1 : Fin 2) = 0)
theorem idx2 : ∀ t : Fin cfg6.N, win6_2.index t (0 : Fin 2) = 0 ∧ win6_2.index t (1 : Fin 2) = 0 :=
  (by decide +kernel : ∀ t : Fin grid6.N, win6_2.index t (0 : Fin 2) = 0 ∧ win6_2.index t (1 : Fin 2) = 0)
theorem idx3 : ∀ t : Fin cfg6.N, win6_3.index t (0 : Fin 2) = 0 ∧ win6_3.index t (1 : Fin 2) = 0 :=
  (by decide +kernel : ∀ t : Fin grid6.N, win6_3.index t (0 : Fin 2) = 0 ∧ win6_3.index t (1 : Fin 2) = 0)
theorem idx4 : ∀ t : Fin cfg6.N, win6_4.index t (0 : Fin 2) = 0 ∧ win6_4.index t (1 : Fin 2) = 0 :=
  (by decide +kernel : ∀ t : Fin grid6.N, win6_4.index t (0 : Fin 2) = 0 ∧ win6_4.index t (1 : Fin 2) = 0)
theorem idx5 : ∀ t : Fin cfg6.N, win6_5.index t (0 : Fin 2) = t.val ∧ win6_5.index t (1 : Fin 2) = 0 :=
  (by decide +kernel : ∀ t : Fin grid6.N, win6_5.index t (0 : Fin 2) = t.val ∧ win6_5.index t (1 : Fin 2) = 0)
theorem idx6 : ∀ t : Fin cfg6.N, win6_6.index t (0 : Fin 2) = 0 ∧ win6_6.index t (1 : Fin 2) = 0 :=
  (by decide +kernel : ∀ t : Fin grid6.N, win6_6.index t (0 : Fin 2) = 0 ∧ win6_6.index t (1 : Fin 2) = 0)
theorem idx7 : ∀ t : Fin cfg6.N, win6_7.index t (0 : Fin 2) = 0 ∧ win6_7.index t (1 : Fin 2) = 0 :=
  (by decide +kernel : ∀ t : Fin grid6.N, win6_7.index t (0 : Fin 2) = 0 ∧ win6_7.index t (1 : Fin 2) = 0)

/-- Window 0's block at point `t` is rows `2000 t + r` of `main_v123`. -/
theorem blk0 (c : Dev nD) (t : Fin cfg6.N) (r : Fin 2000) (i : Fin 128) :
    (iblk6 V c 0 t : Vec Ideal S2000x128 .f32) (ix2 r i) = V c main_v123 (ix2 (MlpMath.row t.val (hN t) r) i) := by
  obtain ⟨e0, e1⟩ := idx0 t
  unfold iblk6
  rw [View.read_apply]
  show V c main_v123 (((cfg6.win 0).blk t).view.emb (ix2 r i)) = _
  refine congrArg (V c main_v123) (funext fun a => Fin.ext ?_)
  match a with
  | ⟨0, _⟩ => show win6_0.index t (0 : Fin 2) * 2000 + 1 * r.val = 2000 * t.val + r.val; rw [e0]; omega
  | ⟨1, _⟩ => show win6_0.index t (1 : Fin 2) * 128 + 1 * i.val = i.val; rw [e1]; omega

/-- Window 1's block is the whole array `main_v125` at every point. -/
theorem blk1 (c : Dev nD) (t : Fin cfg6.N) : (iblk6 V c 1 t : Vec Ideal S128x256 .f32) = V c main_v125 := by
  obtain ⟨e0, e1⟩ := idx1 t
  funext y
  unfold iblk6
  rw [View.read_apply]
  show V c main_v125 (((cfg6.win 1).blk t).view.emb y) = V c main_v125 y
  refine congrArg (V c main_v125) (funext fun a => Fin.ext ?_)
  match a with
  | ⟨0, _⟩ => show win6_1.index t (0 : Fin 2) * 128 + 1 * (y 0).val = (y 0).val; rw [e0]; omega
  | ⟨1, _⟩ => show win6_1.index t (1 : Fin 2) * 256 + 1 * (y 1).val = (y 1).val; rw [e1]; omega

/-- Window 2's block is the whole array `main_v132` at every point. -/
theorem blk2 (c : Dev nD) (t : Fin cfg6.N) : (iblk6 V c 2 t : Vec Ideal S1x256 .f32) = V c main_v132 := by
  obtain ⟨e0, e1⟩ := idx2 t
  funext y
  unfold iblk6
  rw [View.read_apply]
  show V c main_v132 (((cfg6.win 2).blk t).view.emb y) = V c main_v132 y
  refine congrArg (V c main_v132) (funext fun a => Fin.ext ?_)
  match a with
  | ⟨0, _⟩ => show win6_2.index t (0 : Fin 2) * 1 + 1 * (y 0).val = (y 0).val; rw [e0]; omega
  | ⟨1, _⟩ => show win6_2.index t (1 : Fin 2) * 256 + 1 * (y 1).val = (y 1).val; rw [e1]; omega

/-- Window 3's block is the whole array `main_v129` at every point. -/
theorem blk3 (c : Dev nD) (t : Fin cfg6.N) : (iblk6 V c 3 t : Vec Ideal S256x128 .f32) = V c main_v129 := by
  obtain ⟨e0, e1⟩ := idx3 t
  funext y
  unfold iblk6
  rw [View.read_apply]
  show V c main_v129 (((cfg6.win 3).blk t).view.emb y) = V c main_v129 y
  refine congrArg (V c main_v129) (funext fun a => Fin.ext ?_)
  match a with
  | ⟨0, _⟩ => show win6_3.index t (0 : Fin 2) * 256 + 1 * (y 0).val = (y 0).val; rw [e0]; omega
  | ⟨1, _⟩ => show win6_3.index t (1 : Fin 2) * 128 + 1 * (y 1).val = (y 1).val; rw [e1]; omega

/-- Window 4's block is the whole array `main_v133` at every point. -/
theorem blk4 (c : Dev nD) (t : Fin cfg6.N) : (iblk6 V c 4 t : Vec Ideal S1x128 .f32) = V c main_v133 := by
  obtain ⟨e0, e1⟩ := idx4 t
  funext y
  unfold iblk6
  rw [View.read_apply]
  show V c main_v133 (((cfg6.win 4).blk t).view.emb y) = V c main_v133 y
  refine congrArg (V c main_v133) (funext fun a => Fin.ext ?_)
  match a with
  | ⟨0, _⟩ => show win6_4.index t (0 : Fin 2) * 1 + 1 * (y 0).val = (y 0).val; rw [e0]; omega
  | ⟨1, _⟩ => show win6_4.index t (1 : Fin 2) * 128 + 1 * (y 1).val = (y 1).val; rw [e1]; omega

/-- The perceptron's output over all the nodes, from the arrays the region is given. -/
abbrev Y (c : Dev nD) : Gin.Arr Gin.SNH :=
  Gin.zpre (V c main_v123) (V c main_v125) (fun k => V c main_v132 (ix2 0 (k 0))) (V c main_v129) (fun j => V c main_v133 (ix2 0 (j 0)))

/-- Its column sums, as the one-row array the kernel keeps them in. -/
abbrev Ysum (c : Dev nD) : S1x128.Idx → EReal := fun i => Gin.colsum (Y V c) (ix1 (i 1))

/-- Its column sums of squares, likewise. -/
abbrev Ysumsq (c : Dev nD) : S1x128.Idx → EReal := fun i => Gin.colsumsq (Y V c) (ix1 (i 1))

/-- The block's perceptron output at point `t` is the array's at rows `2000 t + r`. -/
theorem pay4_blk (c : Dev nD) (t : Fin cfg6.N) (r : Fin 2000) (j : Fin 128) :
    k6_pay4 (F := Ideal) (iblk6 V c 0 t) (iblk6 V c 1 t) (iblk6 V c 2 t) (iblk6 V c 3 t) (iblk6 V c 4 t) (ix2 r j) = Y V c (ix2 (MlpMath.row t.val (hN t) r) j) :=
  pay4_of_blocks (V c main_v123) (V c main_v125) (V c main_v132) (V c main_v129) (V c main_v133) t.val (hN t) (iblk6 V c 0 t) (iblk6 V c 1 t) (iblk6 V c 2 t) (iblk6 V c 3 t) (iblk6 V c 4 t)
    (blk0 V c t) (blk1 V c t) (blk2 V c t) (blk3 V c t) (blk4 V c t) r j

/-- The first output's buffer after any point: the block's perceptron output. -/
theorem outs5 (c : Dev nD) (t : Fin cfg6.N) :
    (outsAt6 V c t.val t.isLt).1 = k6_pay4 (iblk6 V c 0 t) (iblk6 V c 1 t) (iblk6 V c 2 t) (iblk6 V c 3 t) (iblk6 V c 4 t) := by
  by_cases h0 : t.val % 50 = 0
  · rw [outs_A V c t h0]
  · rw [outs_B V c t h0]

/-- The second output's buffer after point `n`: the column sums over the rows of blocks `0 … n`. -/
theorem outs6 (c : Dev nD) : ∀ (n : ℕ) (h : n < cfg6.N) (u : Fin 1) (j : Fin 128),
    ((outsAt6 V c n h).2.1 : Vec Ideal S1x128 .f32) (ix2 u j) = MlpMath.psum (fun m => Y V c (ix2 m j)) (n + 1)
  | 0, h, u, j => by
    rw [show outsAt6 V c 0 h = _ from outs_A V c ⟨0, h⟩ (Nat.zero_mod 50)]
    show k6_pay5 (F := Ideal) _ _ _ _ _ _ (ix2 u j) = _
    rw [pay5_apply, pay2_apply, zero_add, MlpMath.psum_succ _ 0 (by decide), MlpMath.psum_zero, zero_add]
    exact Finset.sum_congr rfl fun r _ => pay4_blk V c ⟨0, h⟩ r j
  | n + 1, h, u, j => by
    have hn : n + 1 < 50 := lt_of_lt_of_eq h (show cfg6.N = 50 from N_6)
    have hB : ¬(⟨n + 1, h⟩ : Fin cfg6.N).val % 50 = 0 := by dsimp only; omega
    rw [show outsAt6 V c (n + 1) h = _ from outs_B V c ⟨n + 1, h⟩ hB]
    show k6_pay5 (F := Ideal) _ _ _ _ _ _ (ix2 u j) = _
    rw [pay5_apply, MlpMath.psum_succ _ (n + 1) hn]
    exact congrArg₂ (· + ·) (outs6 c n (Nat.lt_of_succ_lt h) u j)
      (Finset.sum_congr rfl fun r _ => pay4_blk V c ⟨n + 1, h⟩ r j)

/-- The third output's buffer after point `n`: the column sums of squares over the rows of blocks `0 … n`. -/
theorem outs7 (c : Dev nD) : ∀ (n : ℕ) (h : n < cfg6.N) (u : Fin 1) (j : Fin 128),
    ((outsAt6 V c n h).2.2 : Vec Ideal S1x128 .f32) (ix2 u j)
      = MlpMath.psum (fun m => Y V c (ix2 m j) * Y V c (ix2 m j)) (n + 1)
  | 0, h, u, j => by
    rw [show outsAt6 V c 0 h = _ from outs_A V c ⟨0, h⟩ (Nat.zero_mod 50)]
    show k6_pay1 (F := Ideal) _ _ (ix2 u j) = _
    rw [pay1_apply, pay6_eq, pay3_apply, zero_add, MlpMath.psum_succ _ 0 (by decide), MlpMath.psum_zero, zero_add]
    refine Finset.sum_congr rfl fun r _ => ?_
    rw [pay7_apply, pay4_blk V c ⟨0, h⟩ r j]
  | n + 1, h, u, j => by
    have hn : n + 1 < 50 := lt_of_lt_of_eq h (show cfg6.N = 50 from N_6)
    have hB : ¬(⟨n + 1, h⟩ : Fin cfg6.N).val % 50 = 0 := by dsimp only; omega
    rw [show outsAt6 V c (n + 1) h = _ from outs_B V c ⟨n + 1, h⟩ hB]
    show k6_pay1 (F := Ideal) _ _ (ix2 u j) = _
    rw [pay1_apply, pay6_eq, MlpMath.psum_succ _ (n + 1) hn]
    refine congrArg₂ (· + ·) (outs7 c n (Nat.lt_of_succ_lt h) u j) (Finset.sum_congr rfl fun r _ => ?_)
    rw [pay7_apply, pay4_blk V c ⟨n + 1, h⟩ r j]

/-! ## From the buffers to the arrays -/

/-- Point `t` writes back block `t` of the perceptron's output. -/
theorem flushed5_eq (c : Dev nD) (t : Fin cfg6.N) :
    (dat6 V c).flushed 5 t = ((cfg6.win 5).blk t).view.read (Elt Ideal) (Y V c) := by
  obtain ⟨e0, e1⟩ := idx5 t
  show (cfg6.win 5).cut (grid6.coords t) ((dat6 V c).after 5 t) = _
  rw [after6_5, outs5 V c t]
  show (k6_pay4 (F := Ideal) (iblk6 V c 0 t) (iblk6 V c 1 t) (iblk6 V c 2 t) (iblk6 V c 3 t) (iblk6 V c 4 t) : Vec Ideal S2000x128 .f32) = fun y => Y V c (((cfg6.win 5).blk t).view.emb y)
  funext y
  obtain ⟨r, j, rfl⟩ : ∃ (r : Fin 2000) (j : Fin 128), y = ix2 r j := ⟨y 0, y 1, eq_ix2 y⟩
  have hemb : ((cfg6.win 5).blk t).view.emb (ix2 r j) = ix2 (MlpMath.row t.val (hN t) r) j := funext fun a => Fin.ext (by
    match a with
    | ⟨0, _⟩ => show win6_5.index t (0 : Fin 2) * 2000 + 1 * r.val = 2000 * t.val + r.val; rw [e0]; omega
    | ⟨1, _⟩ => show win6_5.index t (1 : Fin 2) * 128 + 1 * j.val = j.val; rw [e1]; omega)
  rw [hemb]
  exact pay4_blk V c t r j

theorem mem_blk5 (t : Fin cfg6.N) (i : S100000x128.Idx) :
    i ∈ ((cfg6.win 5).blk t).view.set ↔ ∀ a : Fin 2, win6_5.index t a * S2000x128.size a ≤ (i a).val ∧ (i a).val < win6_5.index t a * S2000x128.size a + S2000x128.size a := by
  show i ∈ ((View.whole main_v134_0).slice (win6_5.rect t)).set ↔ _
  rw [View.set_slice_whole, Rect.mem_set_unit]
  exact Iff.rfl

/-- Row `n` is in the block of point `n / 2000`. -/
theorem cover5 (i : S100000x128.Idx) : ∃ t : Fin cfg6.N, (cfg6.win 5).flush t = true ∧ i ∈ ((cfg6.win 5).blk t).view.set := by
  have hi0 : (i 0).val < 100000 := idx2_lt0 i
  have hi1 : (i 1).val < 128 := idx2_lt1 i
  have ht : (i 0).val / 2000 < cfg6.N := by rw [show cfg6.N = 50 from N_6]; omega
  obtain ⟨e0, e1⟩ := idx5 ⟨(i 0).val / 2000, ht⟩
  refine ⟨⟨(i 0).val / 2000, ht⟩, flush6_5 _, ?_⟩
  rw [mem_blk5]
  intro a
  match a with
  | ⟨0, _⟩ => show win6_5.index ⟨(i 0).val / 2000, ht⟩ (0 : Fin 2) * 2000 ≤ (i 0).val ∧ (i 0).val < win6_5.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win6_5.index ⟨(i 0).val / 2000, ht⟩ (1 : Fin 2) * 128 ≤ (i 1).val ∧ (i 1).val < win6_5.index ⟨(i 0).val / 2000, ht⟩ (1 : Fin 2) * 128 + 128; rw [e1]; omega

/-- What output 6's write-back at point `t` writes, for any row `G` its buffer holds there: the row, whole. -/
theorem flushed6_of (c : Dev nD) (t : Fin cfg6.N) (G : S1x128.Idx → EReal)
    (hG : ∀ (u : Fin 1) (j : Fin 128), ((outsAt6 V c t.val t.isLt).2.1 : Vec Ideal S1x128 .f32) (ix2 u j) = G (ix2 u j)) :
    (dat6 V c).flushed 6 t = ((cfg6.win 6).blk t).view.read (Elt Ideal) G := by
  obtain ⟨e0, e1⟩ := idx6 t
  show (cfg6.win 6).cut (grid6.coords t) ((dat6 V c).after 6 t) = _
  rw [after6_6]
  show ((outsAt6 V c t.val t.isLt).2.1 : Vec Ideal S1x128 .f32) = fun y => G (((cfg6.win 6).blk t).view.emb y)
  funext y
  obtain ⟨u, j, rfl⟩ : ∃ (u : Fin 1) (j : Fin 128), y = ix2 u j := ⟨y 0, y 1, eq_ix2 y⟩
  have hemb : ((cfg6.win 6).blk t).view.emb (ix2 u j) = ix2 u j := funext fun a => Fin.ext (by
    match a with
    | ⟨0, _⟩ => show win6_6.index t (0 : Fin 2) * 1 + 1 * u.val = u.val; rw [e0]; omega
    | ⟨1, _⟩ => show win6_6.index t (1 : Fin 2) * 128 + 1 * j.val = j.val; rw [e1]; omega)
  rw [hemb]
  exact hG u j

/-- The one write-back of output 6, after the last point, writes the column sums: fifty blocks are all the rows. -/
theorem flushed6_eq (c : Dev nD) (t : Fin cfg6.N) (hf : (cfg6.win 6).flush t = true) :
    (dat6 V c).flushed 6 t = ((cfg6.win 6).blk t).view.read (Elt Ideal) (Ysum V c) := by
  have h49 : t.val = 49 := by have := (flush6_6 t).mp hf; have := hN t; omega
  refine flushed6_of V c t (Ysum V c) fun u j => ?_
  rw [outs6 V c t.val t.isLt u j, h49]
  exact MlpMath.psum_all (fun m => Y V c (ix2 m j))

theorem mem_blk6 (t : Fin cfg6.N) (i : S1x128.Idx) :
    i ∈ ((cfg6.win 6).blk t).view.set ↔ ∀ a : Fin 2, win6_6.index t a * S1x128.size a ≤ (i a).val ∧ (i a).val < win6_6.index t a * S1x128.size a + S1x128.size a := by
  show i ∈ ((View.whole main_v134_1).slice (win6_6.rect t)).set ↔ _
  rw [View.set_slice_whole, Rect.mem_set_unit]
  exact Iff.rfl

/-- The last point's block is the whole row. -/
theorem cover6 (i : S1x128.Idx) : ∃ t : Fin cfg6.N, (cfg6.win 6).flush t = true ∧ i ∈ ((cfg6.win 6).blk t).view.set := by
  have hi0 : (i 0).val < 1 := idx2_lt0 i
  have hi1 : (i 1).val < 128 := idx2_lt1 i
  have h49 : 49 < cfg6.N := by rw [show cfg6.N = 50 from N_6]; decide
  obtain ⟨e0, e1⟩ := idx6 ⟨49, h49⟩
  refine ⟨⟨49, h49⟩, (flush6_6 _).mpr rfl, ?_⟩
  rw [mem_blk6]
  intro a
  match a with
  | ⟨0, _⟩ => show win6_6.index ⟨49, h49⟩ (0 : Fin 2) * 1 ≤ (i 0).val ∧ (i 0).val < win6_6.index ⟨49, h49⟩ (0 : Fin 2) * 1 + 1; rw [e0]; omega
  | ⟨1, _⟩ => show win6_6.index ⟨49, h49⟩ (1 : Fin 2) * 128 ≤ (i 1).val ∧ (i 1).val < win6_6.index ⟨49, h49⟩ (1 : Fin 2) * 128 + 128; rw [e1]; omega

/-- What output 7's write-back at point `t` writes, for any row `G` its buffer holds there: the row, whole. -/
theorem flushed7_of (c : Dev nD) (t : Fin cfg6.N) (G : S1x128.Idx → EReal)
    (hG : ∀ (u : Fin 1) (j : Fin 128), ((outsAt6 V c t.val t.isLt).2.2 : Vec Ideal S1x128 .f32) (ix2 u j) = G (ix2 u j)) :
    (dat6 V c).flushed 7 t = ((cfg6.win 7).blk t).view.read (Elt Ideal) G := by
  obtain ⟨e0, e1⟩ := idx7 t
  show (cfg6.win 7).cut (grid6.coords t) ((dat6 V c).after 7 t) = _
  rw [after6_7]
  show ((outsAt6 V c t.val t.isLt).2.2 : Vec Ideal S1x128 .f32) = fun y => G (((cfg6.win 7).blk t).view.emb y)
  funext y
  obtain ⟨u, j, rfl⟩ : ∃ (u : Fin 1) (j : Fin 128), y = ix2 u j := ⟨y 0, y 1, eq_ix2 y⟩
  have hemb : ((cfg6.win 7).blk t).view.emb (ix2 u j) = ix2 u j := funext fun a => Fin.ext (by
    match a with
    | ⟨0, _⟩ => show win6_7.index t (0 : Fin 2) * 1 + 1 * u.val = u.val; rw [e0]; omega
    | ⟨1, _⟩ => show win6_7.index t (1 : Fin 2) * 128 + 1 * j.val = j.val; rw [e1]; omega)
  rw [hemb]
  exact hG u j

/-- The one write-back of output 7, after the last point, writes the column sums of squares: fifty blocks are all the rows. -/
theorem flushed7_eq (c : Dev nD) (t : Fin cfg6.N) (hf : (cfg6.win 7).flush t = true) :
    (dat6 V c).flushed 7 t = ((cfg6.win 7).blk t).view.read (Elt Ideal) (Ysumsq V c) := by
  have h49 : t.val = 49 := by have := (flush6_7 t).mp hf; have := hN t; omega
  refine flushed7_of V c t (Ysumsq V c) fun u j => ?_
  rw [outs7 V c t.val t.isLt u j, h49]
  exact MlpMath.psum_all (fun m => Y V c (ix2 m j) * Y V c (ix2 m j))

theorem mem_blk7 (t : Fin cfg6.N) (i : S1x128.Idx) :
    i ∈ ((cfg6.win 7).blk t).view.set ↔ ∀ a : Fin 2, win6_7.index t a * S1x128.size a ≤ (i a).val ∧ (i a).val < win6_7.index t a * S1x128.size a + S1x128.size a := by
  show i ∈ ((View.whole main_v134_2).slice (win6_7.rect t)).set ↔ _
  rw [View.set_slice_whole, Rect.mem_set_unit]
  exact Iff.rfl

/-- The last point's block is the whole row. -/
theorem cover7 (i : S1x128.Idx) : ∃ t : Fin cfg6.N, (cfg6.win 7).flush t = true ∧ i ∈ ((cfg6.win 7).blk t).view.set := by
  have hi0 : (i 0).val < 1 := idx2_lt0 i
  have hi1 : (i 1).val < 128 := idx2_lt1 i
  have h49 : 49 < cfg6.N := by rw [show cfg6.N = 50 from N_6]; decide
  obtain ⟨e0, e1⟩ := idx7 ⟨49, h49⟩
  refine ⟨⟨49, h49⟩, (flush6_7 _).mpr rfl, ?_⟩
  rw [mem_blk7]
  intro a
  match a with
  | ⟨0, _⟩ => show win6_7.index ⟨49, h49⟩ (0 : Fin 2) * 1 ≤ (i 0).val ∧ (i 0).val < win6_7.index ⟨49, h49⟩ (0 : Fin 2) * 1 + 1; rw [e0]; omega
  | ⟨1, _⟩ => show win6_7.index ⟨49, h49⟩ (1 : Fin 2) * 128 ≤ (i 1).val ∧ (i 1).val < win6_7.index ⟨49, h49⟩ (1 : Fin 2) * 128 + 128; rw [e1]; omega

/-! ## The three result arrays -/

/-- The first result array ends as the perceptron's output over all the nodes. -/
theorem zpre_eq (c : Dev nD) : (Gen.dat6 (F := Ideal) V c).arrAt 5 cfg6.N
    = Gin.zpre (V c main_v123) (V c main_v125) (fun k => V c main_v132 (ix2 0 (k 0))) (V c main_v129) (fun j => V c main_v133 (ix2 0 (j 0))) :=
  (dat6 V c).arrAt_eq_of_cover 5 (Y V c) (fun t _ => flushed5_eq V c t) cover5

/-- The second ends as its column sums. -/
theorem sum_eq (c : Dev nD) : (Gen.dat6 (F := Ideal) V c).arrAt 6 cfg6.N
    = fun i => Gin.colsum (Gin.zpre (V c main_v123) (V c main_v125) (fun k => V c main_v132 (ix2 0 (k 0))) (V c main_v129) (fun j => V c main_v133 (ix2 0 (j 0)))) (ix1 (i 1)) :=
  (dat6 V c).arrAt_eq_of_cover 6 (Ysum V c) (flushed6_eq V c) cover6

/-- The third ends as its column sums of squares. -/
theorem sumsq_eq (c : Dev nD) : (Gen.dat6 (F := Ideal) V c).arrAt 7 cfg6.N
    = fun i => Gin.colsumsq (Gin.zpre (V c main_v123) (V c main_v125) (fun k => V c main_v132 (ix2 0 (k 0))) (V c main_v129) (fun j => V c main_v133 (ix2 0 (j 0)))) (ix1 (i 1)) :=
  (dat6 V c).arrAt_eq_of_cover 7 (Ysumsq V c) (flushed7_eq V c) cover7

end Value

end Cert.KernelIdeal.Mlp6

end
-- ==== Proof.Bn1.lean ====
/-
  What the normalisation region leaves in its result array: at every node and feature,
  `max ((y − μ) · rsqrt (v + eps) · γ + β) 0` of the arrays the region finds on entry, `y` the node's feature,
  `μ`, `v`, `γ`, `β` the feature's mean, variance, scale and shift rows.

  The region walks the 100000 nodes in 50 blocks of 2000 rows; at each block its body stores the pointwise value
  of the block of `y` and the four rows, and the block is written back to rows `2000 t … 2000 t + 1999` of the
  result.  Every row lies in exactly the block `row / 2000`, so the result array is the pointwise value everywhere.
-/
import proofs.«155226_j39831526703451_1_alg».proof.Proof.Gen.KernelIdeal.Frame
import proofs.«155226_j39831526703451_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Bn1

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered: arbitrary
variable (V : (c : Dev nD) → (b : Ref sig .tc) → Buf (Elt Ideal) ((c : Thread nD τ).loc b))

theorem hz : (![0, 0] : Fin 2 → Nat) = fun _ => 0 := funext fun a => by fin_cases a <;> rfl

/-! ## The body's stored value at an index of the block -/

/-- At row `p`, feature `q` of the block the stored value is the normalised, scaled, shifted and clamped entry:
    the four statistics rows are read at feature `q` of their one row. -/
theorem pay_apply (v0 : Vec Ideal S2000x128 .f32) (v2 v7 v13 v17 : Vec Ideal S1x128 .f32) (p : Fin 2000) (q : Fin 128) :
    k1_pay1 (F := Ideal) v0 v2 v7 v13 v17 (ix2 p q) =
      max ((v0 (ix2 p q) - v7 (ix2 (0 : Fin 1) q)) * Ideal.rsqrt (v2 (ix2 (0 : Fin 1) q) + Gin.eps) * v13 (ix2 (0 : Fin 1) q)
        + v17 (ix2 (0 : Fin 1) q)) 0 := by
  unfold k1_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max ((v0 (ix2 p q) - v7 (ix2 (0 : Fin 1) q)) * Ideal.rsqrt (v2 (ix2 (0 : Fin 1) q) + Ideal.ofBits .f32 0x3727C5AC#32)
      * v13 (ix2 (0 : Fin 1) q) + v17 (ix2 (0 : Fin 1) q)) (Ideal.ofBits .f32 0x00000000#32) = _
  rw [Ideal.ofBits_zero_f32]
  rfl

/-- The same at any index of the block. -/
theorem pay_at (v0 : Vec Ideal S2000x128 .f32) (v2 v7 v13 v17 : Vec Ideal S1x128 .f32) (j : S2000x128.Idx) :
    k1_pay1 (F := Ideal) v0 v2 v7 v13 v17 j =
      max ((v0 j - v7 (ix2 (0 : Fin 1) (j 1))) * Ideal.rsqrt (v2 (ix2 (0 : Fin 1) (j 1)) + Gin.eps) * v13 (ix2 (0 : Fin 1) (j 1))
        + v17 (ix2 (0 : Fin 1) (j 1))) 0 := by
  obtain ⟨p, q, rfl⟩ : ∃ (p : Fin 2000) (q : Fin 128), j = ix2 p q := ⟨j 0, j 1, eq_ix2 j⟩
  exact pay_apply v0 v2 v7 v13 v17 p q

/-! ## The result array as one function of the arrays on entry -/

/-- The five operand arrays as the region finds them, over their literal index sets. -/
abbrev aY (c : Dev nD) : S100000x128.Idx → EReal := V c main_v29_0
abbrev aM (c : Dev nD) : S1x128.Idx → EReal := V c main_v31
abbrev aV (c : Dev nD) : S1x128.Idx → EReal := V c main_v35
abbrev aG (c : Dev nD) : S1x128.Idx → EReal := V c main_v40
abbrev aB (c : Dev nD) : S1x128.Idx → EReal := V c main_v41

/-- The pointwise value over the whole node array. -/
abbrev G (c : Dev nD) : S100000x128.Idx → EReal :=
  Gin.bnrelu (V c main_v29_0) (fun j => V c main_v31 (ix2 0 (j 0))) (fun j => V c main_v35 (ix2 0 (j 0)))
    (fun j => V c main_v40 (ix2 0 (j 0))) (fun j => V c main_v41 (ix2 0 (j 0)))

/-- The block index maps over the grid: the node windows (operand 0 and the result) take block `t` of the rows and the
    one block of the features; the four statistics rows are one block throughout. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the pointwise value. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S2000x128) hz, View.ld_unit_zero (S := S1x128) hz]
  obtain ⟨e00, e01, e10, e11, e20, e21, e30, e31, e40, e41, e50, e51⟩ := idx_facts t
  funext j
  refine (pay_at (iblk1 V c 0 t) (iblk1 V c 2 t) (iblk1 V c 1 t) (iblk1 V c 3 t) (iblk1 V c 4 t) j).trans ?_
  show max ((aY V c (((cfg1.win 0).blk t).view.emb j)
        - aM V c (((cfg1.win 1).blk t).view.emb (ix2 (0 : Fin 1) (j 1))))
      * Ideal.rsqrt (aV V c (((cfg1.win 2).blk t).view.emb (ix2 (0 : Fin 1) (j 1))) + Gin.eps)
      * aG V c (((cfg1.win 3).blk t).view.emb (ix2 (0 : Fin 1) (j 1)))
      + aB V c (((cfg1.win 4).blk t).view.emb (ix2 (0 : Fin 1) (j 1)))) 0
    = G V c (((cfg1.win 5).blk t).view.emb j)
  have hj0 : (j 0).val < 2000 := (j 0).isLt
  have hj1 : (j 1).val < 128 := (j 1).isLt
  have h0 : ((cfg1.win 0).blk t).view.emb j = ((cfg1.win 5).blk t).view.emb j := by
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb (ix2 (0 : Fin 1) (j 1)) = ix2 (0 : Fin 1) ((((cfg1.win 5).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  have h2 : ((cfg1.win 2).blk t).view.emb (ix2 (0 : Fin 1) (j 1)) = ix2 (0 : Fin 1) ((((cfg1.win 5).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  have h3 : ((cfg1.win 3).blk t).view.emb (ix2 (0 : Fin 1) (j 1)) = ix2 (0 : Fin 1) ((((cfg1.win 5).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have h4 : ((cfg1.win 4).blk t).view.emb (ix2 (0 : Fin 1) (j 1)) = ix2 (0 : Fin 1) ((((cfg1.win 5).blk t).view.emb j) 1) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  rw [h0, h1, h2, h3, h4]
  rfl

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v42).slice (win1_5.rect t)).set ↔ _
  rw [View.set_slice_whole, Rect.mem_set_unit]
  exact Iff.rfl

/-- Every index of the result array is in the block of the point `row / 2000`, which is written back. -/
theorem cover (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 50 := N_1
  refine ⟨⟨(i 0).val / 2000, by rw [hN]; omega⟩, flush1_5 _, ?_⟩
  obtain ⟨-, -, -, -, -, -, -, -, -, -, e50, e51⟩ := idx_facts ⟨(i 0).val / 2000, by rw [hN]; omega⟩
  rw [mem_blk]
  intro a
  match a with
  | ⟨0, _⟩ =>
    show win1_5.index _ (0 : Fin 2) * 2000 ≤ (i 0).val ∧ (i 0).val < win1_5.index _ (0 : Fin 2) * 2000 + 2000
    rw [e50]
    show (i 0).val / 2000 * 2000 ≤ (i 0).val ∧ (i 0).val < (i 0).val / 2000 * 2000 + 2000
    omega
  | ⟨1, _⟩ =>
    show win1_5.index _ (1 : Fin 2) * 128 ≤ (i 1).val ∧ (i 1).val < win1_5.index _ (1 : Fin 2) * 128 + 128
    rw [e51]
    omega

/-- THE RESULT ARRAY after the region: the pointwise value of the arrays the region found on entry. -/
theorem out_eq (c : Dev nD) : (dat1 (F := Ideal) V c).arrAt 5 cfg1.N
    = Gin.bnrelu (V c main_v29_0) (fun j => V c main_v31 (ix2 0 (j 0))) (fun j => V c main_v35 (ix2 0 (j 0)))
        (fun j => V c main_v40 (ix2 0 (j 0))) (fun j => V c main_v41 (ix2 0 (j 0))) :=
  (dat1 (F := Ideal) V c).arrAt_eq_of_cover 5 (G V c) (fun t _ => flushed_eq V c t) cover

end Cert.KernelIdeal.Bn1

end
-- ==== Proof.Bn3.lean ====
/-
  What the normalisation region leaves in its result array: at every node and feature,
  `max ((y − μ) · rsqrt (v + eps) · γ + β) 0` of the arrays the region finds on entry, `y` the node's feature,
  `μ`, `v`, `γ`, `β` the feature's mean, variance, scale and shift rows.

  The region walks the 100000 nodes in 50 blocks of 2000 rows; at each block its body stores the pointwise value
  of the block of `y` and the four rows, and the block is written back to rows `2000 t … 2000 t + 1999` of the
  result.  Every row lies in exactly the block `row / 2000`, so the result array is the pointwise value everywhere.
-/
import proofs.«155226_j39831526703451_1_alg».proof.Proof.Gen.KernelIdeal.Frame
import proofs.«155226_j39831526703451_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Bn3

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered: arbitrary
variable (V : (c : Dev nD) → (b : Ref sig .tc) → Buf (Elt Ideal) ((c : Thread nD τ).loc b))

theorem hz : (![0, 0] : Fin 2 → Nat) = fun _ => 0 := funext fun a => by fin_cases a <;> rfl

/-! ## The body's stored value at an index of the block -/

/-- At row `p`, feature `q` of the block the stored value is the normalised, scaled, shifted and clamped entry:
    the four statistics rows are read at feature `q` of their one row. -/
theorem pay_apply (v0 : Vec Ideal S2000x128 .f32) (v2 v7 v13 v17 : Vec Ideal S1x128 .f32) (p : Fin 2000) (q : Fin 128) :
    k3_pay1 (F := Ideal) v0 v2 v7 v13 v17 (ix2 p q) =
      max ((v0 (ix2 p q) - v7 (ix2 (0 : Fin 1) q)) * Ideal.rsqrt (v2 (ix2 (0 : Fin 1) q) + Gin.eps) * v13 (ix2 (0 : Fin 1) q)
        + v17 (ix2 (0 : Fin 1) q)) 0 := by
  unfold k3_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max ((v0 (ix2 p q) - v7 (ix2 (0 : Fin 1) q)) * Ideal.rsqrt (v2 (ix2 (0 : Fin 1) q) + Ideal.ofBits .f32 0x3727C5AC#32)
      * v13 (ix2 (0 : Fin 1) q) + v17 (ix2 (0 : Fin 1) q)) (Ideal.ofBits .f32 0x00000000#32) = _
  rw [Ideal.ofBits_zero_f32]
  rfl

/-- The same at any index of the block. -/
theorem pay_at (v0 : Vec Ideal S2000x128 .f32) (v2 v7 v13 v17 : Vec Ideal S1x128 .f32) (j : S2000x128.Idx) :
    k3_pay1 (F := Ideal) v0 v2 v7 v13 v17 j =
      max ((v0 j - v7 (ix2 (0 : Fin 1) (j 1))) * Ideal.rsqrt (v2 (ix2 (0 : Fin 1) (j 1)) + Gin.eps) * v13 (ix2 (0 : Fin 1) (j 1))
        + v17 (ix2 (0 : Fin 1) (j 1))) 0 := by
  obtain ⟨p, q, rfl⟩ : ∃ (p : Fin 2000) (q : Fin 128), j = ix2 p q := ⟨j 0, j 1, eq_ix2 j⟩
  exact pay_apply v0 v2 v7 v13 v17 p q

/-! ## The result array as one function of the arrays on entry -/

/-- The five operand arrays as the region finds them, over their literal index sets. -/
abbrev aY (c : Dev nD) : S100000x128.Idx → EReal := V c main_v64_0
abbrev aM (c : Dev nD) : S1x128.Idx → EReal := V c main_v66
abbrev aV (c : Dev nD) : S1x128.Idx → EReal := V c main_v70
abbrev aG (c : Dev nD) : S1x128.Idx → EReal := V c main_v75
abbrev aB (c : Dev nD) : S1x128.Idx → EReal := V c main_v76

/-- The pointwise value over the whole node array. -/
abbrev G (c : Dev nD) : S100000x128.Idx → EReal :=
  Gin.bnrelu (V c main_v64_0) (fun j => V c main_v66 (ix2 0 (j 0))) (fun j => V c main_v70 (ix2 0 (j 0)))
    (fun j => V c main_v75 (ix2 0 (j 0))) (fun j => V c main_v76 (ix2 0 (j 0)))

/-- The block index maps over the grid: the node windows (operand 0 and the result) take block `t` of the rows and the
    one block of the features; the four statistics rows are one block throughout. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the pointwise value. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 (F := Ideal) V c).after 5 t) = _
  rw [after3_5]
  unfold out3_5
  rw [View.canon_unit_zero hz]
  simp only [View.ld_unit_zero (S := S2000x128) hz, View.ld_unit_zero (S := S1x128) hz]
  obtain ⟨e00, e01, e10, e11, e20, e21, e30, e31, e40, e41, e50, e51⟩ := idx_facts t
  funext j
  refine (pay_at (iblk3 V c 0 t) (iblk3 V c 2 t) (iblk3 V c 1 t) (iblk3 V c 3 t) (iblk3 V c 4 t) j).trans ?_
  show max ((aY V c (((cfg3.win 0).blk t).view.emb j)
        - aM V c (((cfg3.win 1).blk t).view.emb (ix2 (0 : Fin 1) (j 1))))
      * Ideal.rsqrt (aV V c (((cfg3.win 2).blk t).view.emb (ix2 (0 : Fin 1) (j 1))) + Gin.eps)
      * aG V c (((cfg3.win 3).blk t).view.emb (ix2 (0 : Fin 1) (j 1)))
      + aB V c (((cfg3.win 4).blk t).view.emb (ix2 (0 : Fin 1) (j 1)))) 0
    = G V c (((cfg3.win 5).blk t).view.emb j)
  have hj0 : (j 0).val < 2000 := (j 0).isLt
  have hj1 : (j 1).val < 128 := (j 1).isLt
  have h0 : ((cfg3.win 0).blk t).view.emb j = ((cfg3.win 5).blk t).view.emb j := by
    funext a; apply Fin.ext
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 128 + 1 * (j 1).val = win3_5.index t (1 : Fin 2) * 128 + 1 * (j 1).val; omega
  have h1 : ((cfg3.win 1).blk t).view.emb (ix2 (0 : Fin 1) (j 1)) = ix2 (0 : Fin 1) ((((cfg3.win 5).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_5.index t (1 : Fin 2) * 128 + 1 * (j 1).val; omega
  have h2 : ((cfg3.win 2).blk t).view.emb (ix2 (0 : Fin 1) (j 1)) = ix2 (0 : Fin 1) ((((cfg3.win 5).blk t).view.emb j) 1) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_5.index t (1 : Fin 2) * 128 + 1 * (j 1).val; omega
  have h3 : ((cfg3.win 3).blk t).view.emb (ix2 (0 : Fin 1) (j 1)) = ix2 (0 : Fin 1) ((((cfg3.win 5).blk t).view.emb j) 1) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_5.index t (1 : Fin 2) * 128 + 1 * (j 1).val; omega
  have h4 : ((cfg3.win 4).blk t).view.emb (ix2 (0 : Fin 1) (j 1)) = ix2 (0 : Fin 1) ((((cfg3.win 5).blk t).view.emb j) 1) := by
    funext a; apply Fin.ext
    match a with
    | ⟨0, _⟩ => show win3_4.index t (0 : Fin 2) * 1 + 1 * 0 = 0; omega
    | ⟨1, _⟩ => show win3_4.index t (1 : Fin 2) * 128 + 1 * (j 1).val = win3_5.index t (1 : Fin 2) * 128 + 1 * (j 1).val; omega
  rw [h0, h1, h2, h3, h4]
  rfl

/-- An index of the result array is in point `t`'s block iff each coordinate is in the block's range on its axis. -/
theorem mem_blk (t : Fin cfg3.N) (i : S100000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v77).slice (win3_5.rect t)).set ↔ _
  rw [View.set_slice_whole, Rect.mem_set_unit]
  exact Iff.rfl

/-- Every index of the result array is in the block of the point `row / 2000`, which is written back. -/
theorem cover (i : S100000x128.Idx) : ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 50 := N_3
  refine ⟨⟨(i 0).val / 2000, by rw [hN]; omega⟩, flush3_5 _, ?_⟩
  obtain ⟨-, -, -, -, -, -, -, -, -, -, e50, e51⟩ := idx_facts ⟨(i 0).val / 2000, by rw [hN]; omega⟩
  rw [mem_blk]
  intro a
  match a with
  | ⟨0, _⟩ =>
    show win3_5.index _ (0 : Fin 2) * 2000 ≤ (i 0).val ∧ (i 0).val < win3_5.index _ (0 : Fin 2) * 2000 + 2000
    rw [e50]
    show (i 0).val / 2000 * 2000 ≤ (i 0).val ∧ (i 0).val < (i 0).val / 2000 * 2000 + 2000
    omega
  | ⟨1, _⟩ =>
    show win3_5.index _ (1 : Fin 2) * 128 ≤ (i 1).val ∧ (i 1).val < win3_5.index _ (1 : Fin 2) * 128 + 128
    rw [e51]
    omega

/-- THE RESULT ARRAY after the region: the pointwise value of the arrays the region found on entry. -/
theorem out_eq (c : Dev nD) : (dat3 (F := Ideal) V c).arrAt 5 cfg3.N
    = Gin.bnrelu (V c main_v64_0) (fun j => V c main_v66 (ix2 0 (j 0))) (fun j => V c main_v70 (ix2 0 (j 0)))
        (fun j => V c main_v75 (ix2 0 (j 0))) (fun j => V c main_v76 (ix2 0 (j 0))) :=
  (dat3 (F := Ideal) V c).arrAt_eq_of_cover 5 (G V c) (fun t _ => flushed_eq V c t) cover

end Cert.KernelIdeal.Bn3

end
-- ==== Proof.Bn5.lean ====
/-
  What the normalisation region leaves in its result array: at every node and feature,
  `max ((y − μ) · rsqrt (v + eps) · γ + β) 0` of the arrays the region finds on entry, `y` the node's feature,
  `μ`, `v`, `γ`, `β` the feature's mean, variance, scale and shift rows.

  The region walks the 100000 nodes in 50 blocks of 2000 rows; at each block its body stores the pointwise value
  of the block of `y` and the four rows, and the block is written back to rows `2000 t … 2000 t + 1999` of the
  result.  Every row lies in exactly the block `row / 2000`, so the result array is the pointwise value everywhere.
-/
import proofs.«155226_j39831526703451_1_alg».proof.Proof.Gen.KernelIdeal.Frame
import proofs.«155226_j39831526703451_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Bn5

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered: arbitrary
variable (V : (c : Dev nD) → (b : Ref sig .tc) → Buf (Elt Ideal) ((c : Thread nD τ).loc b))

theorem hz : (![0, 0] : Fin 2 → Nat) = fun _ => 0 := funext fun a => by fin_cases a <;> rfl

/-! ## The body's stored value at an index of the block -/

/-- At row `p`, feature `q` of the block the stored value is the normalised, scaled, shifted and clamped entry:
    the four statistics rows are read at feature `q` of their one row. -/
theorem pay_apply (v0 : Vec Ideal S2000x128 .f32) (v2 v7 v13 v17 : Vec Ideal S1x128 .f32) (p : Fin 2000) (q : Fin 128) :
    k5_pay1 (F := Ideal) v0 v2 v7 v13 v17 (ix2 p q) =
      max ((v0 (ix2 p q) - v7 (ix2 (0 : Fin 1) q)) * Ideal.rsqrt (v2 (ix2 (0 : Fin 1) q) + Gin.eps) * v13 (ix2 (0 : Fin 1) q)
        + v17 (ix2 (0 : Fin 1) q)) 0 := by
  unfold k5_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max ((v0 (ix2 p q) - v7 (ix2 (0 : Fin 1) q)) * Ideal.rsqrt (v2 (ix2 (0 : Fin 1) q) + Ideal.ofBits .f32 0x3727C5AC#32)
      * v13 (ix2 (0 : Fin 1) q) + v17 (ix2 (0 : Fin 1) q)) (Ideal.ofBits .f32 0x00000000#32) = _
  rw [Ideal.ofBits_zero_f32]
  rfl

/-- The same at any index of the block. -/
theorem pay_at (v0 : Vec Ideal S2000x128 .f32) (v2 v7 v13 v17 : Vec Ideal S1x128 .f32) (j : S2000x128.Idx) :
    k5_pay1 (F := Ideal) v0 v2 v7 v13 v17 j =
      max ((v0 j - v7 (ix2 (0 : Fin 1) (j 1))) * Ideal.rsqrt (v2 (ix2 (0 : Fin 1) (j 1)) + Gin.eps) * v13 (ix2 (0 : Fin 1) (j 1))
        + v17 (ix2 (0 : Fin 1) (j 1))) 0 := by
  obtain ⟨p, q, rfl⟩ : ∃ (p : Fin 2000) (q : Fin 128), j = ix2 p q := ⟨j 0, j 1, eq_ix2 j⟩
  exact pay_apply v0 v2 v7 v13 v17 p q

/-! ## The result array as one function of the arrays on entry -/

/-- The five operand arrays as the region finds them, over their literal index sets. -/
abbrev aY (c : Dev nD) : S100000x128.Idx → EReal := V c main_v99_0
abbrev aM (c : Dev nD) : S1x128.Idx → EReal := V c main_v101
abbrev aV (c : Dev nD) : S1x128.Idx → EReal := V c main_v105
abbrev aG (c : Dev nD) : S1x128.Idx → EReal := V c main_v110
abbrev aB (c : Dev nD) : S1x128.Idx → EReal := V c main_v111

/-- The pointwise value over the whole node array. -/
abbrev G (c : Dev nD) : S100000x128.Idx → EReal :=
  Gin.bnrelu (V c main_v99_0) (fun j => V c main_v101 (ix2 0 (j 0))) (fun j => V c main_v105 (ix2 0 (j 0)))
    (fun j => V c main_v110 (ix2 0 (j 0))) (fun j => V c main_v111 (ix2 0 (j 0)))

/-- The block index maps over the grid: the node windows (operand 0 and the result) take block `t` of the rows and the
    one block of the features; the four statistics rows are one block throughout. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the pointwise value. -/
theorem flushed_eq (c : Dev nD) (t : Fin cfg5.N) :
    (dat5 (F := Ideal) V c).flushed 5 t = ((cfg5.win 5).blk t).view.read (Elt Ideal) (G V c) := by
  show (cfg5.win 5).cut (grid5.coords t) ((dat5 (F := Ideal) V c).after 5 t) = _
  rw [after5_5]
  unfold out5_5
  rw [View.canon_unit_zero hz]
  simp only [View.ld_unit_zero (S := S2000x128) hz, View.ld_unit_zero (S := S1x128) hz]
  obtain ⟨e00, e01, e10, e11, e20, e21, e30, e31, e40, e41, e50, e51⟩ := idx_facts t
  funext j
  refine (pay_at (iblk5 V c 0 t) (iblk5 V c 2 t) (iblk5 V c 1 t) (iblk5 V c 3 t) (iblk5 V c 4 t) j).trans ?_
  show max ((aY V c (((cfg5.win 0).blk t).view.emb j)
        - aM V c (((cfg5.win 1).blk t).view.emb (ix2 (0 : Fin 1) (j 1))))
      * Ideal.rsqrt (aV V c (((cfg5.win 2).blk t).view.emb (ix2 (0 : Fin 1) (j 1))) + Gin.eps)
      * aG V c (((cfg5.win 3).blk t).view.emb (ix2 (0 : Fin 1) (j 1)))
      + aB V c (((cfg5.win 4).blk t).view.emb (ix2 (0 : Fin 1) (j 1)))) 0
    = G V c (((cfg5.win 5).blk t).view.emb j)
  have hj0 : (j 0).val < 2000 := (j 0).isLt
  have hj1 : (j 1).val < 128 := (j 1).isLt
  have h0 : ((cfg5.win 0).blk t).view.emb j = ((cfg5.win 5).blk t).view.emb j := by
    funext a; apply Fin.ext
    match a with
    | ⟨0, _⟩ => show win5_0.index t (0 : Fin 2) * 2000 + 1 * (j 0).val = win5_5.index t (0 : Fin 2) * 2000 + 1 * (j 0).val; omega
    | ⟨1, _⟩ => show win5_0.index t (1 : Fin 2) * 128 + 1 * (j 1).val = win5_5.index t (1 : Fin 2) * 128 + 1 * (j 1).val; omega
  have h1 : ((cfg5.win 1).blk t).view.emb (ix2 (0 : Fin 1) (j 1)) = ix2 (0 : Fin 1) ((((cfg5.win 5).blk t).view.emb j) 1) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_5.index t (1 : Fin 2) * 128 + 1 * (j 1).val; omega
  have h2 : ((cfg5.win 2).blk t).view.emb (ix2 (0 : Fin 1) (j 1)) = ix2 (0 : Fin 1) ((((cfg5.win 5).blk t).view.emb j) 1) := by
    funext a; apply Fin.ext
    match a with
    | ⟨0, _⟩ => show win5_2.index t (0 : Fin 2) * 1 + 1 * 0 = 0; omega
    | ⟨1, _⟩ => show win5_2.index t (1 : Fin 2) * 128 + 1 * (j 1).val = win5_5.index t (1 : Fin 2) * 128 + 1 * (j 1).val; omega
  have h3 : ((cfg5.win 3).blk t).view.emb (ix2 (0 : Fin 1) (j 1)) = ix2 (0 : Fin 1) ((((cfg5.win 5).blk t).view.emb j) 1) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_5.index t (1 : Fin 2) * 128 + 1 * (j 1).val; omega
  have h4 : ((cfg5.win 4).blk t).view.emb (ix2 (0 : Fin 1) (j 1)) = ix2 (0 : Fin 1) ((((cfg5.win 5).blk t).view.emb j) 1) := by
    funext a; apply Fin.ext
    match a with
    | ⟨0, _⟩ => show win5_4.index t (0 : Fin 2) * 1 + 1 * 0 = 0; omega
    | ⟨1, _⟩ => show win5_4.index t (1 : Fin 2) * 128 + 1 * (j 1).val = win5_5.index t (1 : Fin 2) * 128 + 1 * (j 1).val; omega
  rw [h0, h1, h2, h3, h4]
  rfl

/-- An index of the result array is in point `t`'s block iff each coordinate is in the block's range on its axis. -/
theorem mem_blk (t : Fin cfg5.N) (i : S100000x128.Idx) :
    i ∈ ((cfg5.win 5).blk t).view.set ↔ ∀ a : Fin 2, win5_5.index t a * S2000x128.size a ≤ (i a).val
      ∧ (i a).val < win5_5.index t a * S2000x128.size a + S2000x128.size a := by
  show i ∈ ((View.whole main_v112).slice (win5_5.rect t)).set ↔ _
  rw [View.set_slice_whole, Rect.mem_set_unit]
  exact Iff.rfl

/-- Every index of the result array is in the block of the point `row / 2000`, which is written back. -/
theorem cover (i : S100000x128.Idx) : ∃ t : Fin cfg5.N, (cfg5.win 5).flush t = true ∧ i ∈ ((cfg5.win 5).blk t).view.set := by
  have hi0 : (i 0).val < 100000 := idx2_lt0 i
  have hi1 : (i 1).val < 128 := idx2_lt1 i
  have hN : cfg5.N = 50 := N_5
  refine ⟨⟨(i 0).val / 2000, by rw [hN]; omega⟩, flush5_5 _, ?_⟩
  obtain ⟨-, -, -, -, -, -, -, -, -, -, e50, e51⟩ := idx_facts ⟨(i 0).val / 2000, by rw [hN]; omega⟩
  rw [mem_blk]
  intro a
  match a with
  | ⟨0, _⟩ =>
    show win5_5.index _ (0 : Fin 2) * 2000 ≤ (i 0).val ∧ (i 0).val < win5_5.index _ (0 : Fin 2) * 2000 + 2000
    rw [e50]
    show (i 0).val / 2000 * 2000 ≤ (i 0).val ∧ (i 0).val < (i 0).val / 2000 * 2000 + 2000
    omega
  | ⟨1, _⟩ =>
    show win5_5.index _ (1 : Fin 2) * 128 ≤ (i 1).val ∧ (i 1).val < win5_5.index _ (1 : Fin 2) * 128 + 128
    rw [e51]
    omega

/-- THE RESULT ARRAY after the region: the pointwise value of the arrays the region found on entry. -/
theorem out_eq (c : Dev nD) : (dat5 (F := Ideal) V c).arrAt 5 cfg5.N
    = Gin.bnrelu (V c main_v99_0) (fun j => V c main_v101 (ix2 0 (j 0))) (fun j => V c main_v105 (ix2 0 (j 0)))
        (fun j => V c main_v110 (ix2 0 (j 0))) (fun j => V c main_v111 (ix2 0 (j 0))) :=
  (dat5 (F := Ideal) V c).arrAt_eq_of_cover 5 (G V c) (fun t _ => flushed_eq V c t) cover

end Cert.KernelIdeal.Bn5

end
-- ==== Proof.Bn7.lean ====
/-
  What the normalisation region leaves in its result array: at every node and feature,
  `max ((y − μ) · rsqrt (v + eps) · γ + β) 0` of the arrays the region finds on entry, `y` the node's feature,
  `μ`, `v`, `γ`, `β` the feature's mean, variance, scale and shift rows.

  The region walks the 100000 nodes in 50 blocks of 2000 rows; at each block its body stores the pointwise value
  of the block of `y` and the four rows, and the block is written back to rows `2000 t … 2000 t + 1999` of the
  result.  Every row lies in exactly the block `row / 2000`, so the result array is the pointwise value everywhere.
-/
import proofs.«155226_j39831526703451_1_alg».proof.Proof.Gen.KernelIdeal.Frame
import proofs.«155226_j39831526703451_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Bn7

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered: arbitrary
variable (V : (c : Dev nD) → (b : Ref sig .tc) → Buf (Elt Ideal) ((c : Thread nD τ).loc b))

theorem hz : (![0, 0] : Fin 2 → Nat) = fun _ => 0 := funext fun a => by fin_cases a <;> rfl

/-! ## The body's stored value at an index of the block -/

/-- At row `p`, feature `q` of the block the stored value is the normalised, scaled, shifted and clamped entry:
    the four statistics rows are read at feature `q` of their one row. -/
theorem pay_apply (v0 : Vec Ideal S2000x128 .f32) (v2 v7 v13 v17 : Vec Ideal S1x128 .f32) (p : Fin 2000) (q : Fin 128) :
    k7_pay1 (F := Ideal) v0 v2 v7 v13 v17 (ix2 p q) =
      max ((v0 (ix2 p q) - v7 (ix2 (0 : Fin 1) q)) * Ideal.rsqrt (v2 (ix2 (0 : Fin 1) q) + Gin.eps) * v13 (ix2 (0 : Fin 1) q)
        + v17 (ix2 (0 : Fin 1) q)) 0 := by
  unfold k7_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max ((v0 (ix2 p q) - v7 (ix2 (0 : Fin 1) q)) * Ideal.rsqrt (v2 (ix2 (0 : Fin 1) q) + Ideal.ofBits .f32 0x3727C5AC#32)
      * v13 (ix2 (0 : Fin 1) q) + v17 (ix2 (0 : Fin 1) q)) (Ideal.ofBits .f32 0x00000000#32) = _
  rw [Ideal.ofBits_zero_f32]
  rfl

/-- The same at any index of the block. -/
theorem pay_at (v0 : Vec Ideal S2000x128 .f32) (v2 v7 v13 v17 : Vec Ideal S1x128 .f32) (j : S2000x128.Idx) :
    k7_pay1 (F := Ideal) v0 v2 v7 v13 v17 j =
      max ((v0 j - v7 (ix2 (0 : Fin 1) (j 1))) * Ideal.rsqrt (v2 (ix2 (0 : Fin 1) (j 1)) + Gin.eps) * v13 (ix2 (0 : Fin 1) (j 1))
        + v17 (ix2 (0 : Fin 1) (j 1))) 0 := by
  obtain ⟨p, q, rfl⟩ : ∃ (p : Fin 2000) (q : Fin 128), j = ix2 p q := ⟨j 0, j 1, eq_ix2 j⟩
  exact pay_apply v0 v2 v7 v13 v17 p q

/-! ## The result array as one function of the arrays on entry -/

/-- The five operand arrays as the region finds them, over their literal index sets. -/
abbrev aY (c : Dev nD) : S100000x128.Idx → EReal := V c main_v134_0
abbrev aM (c : Dev nD) : S1x128.Idx → EReal := V c main_v136
abbrev aV (c : Dev nD) : S1x128.Idx → EReal := V c main_v140
abbrev aG (c : Dev nD) : S1x128.Idx → EReal := V c main_v145
abbrev aB (c : Dev nD) : S1x128.Idx → EReal := V c main_v146

/-- The pointwise value over the whole node array. -/
abbrev G (c : Dev nD) : S100000x128.Idx → EReal :=
  Gin.bnrelu (V c main_v134_0) (fun j => V c main_v136 (ix2 0 (j 0))) (fun j => V c main_v140 (ix2 0 (j 0)))
    (fun j => V c main_v145 (ix2 0 (j 0))) (fun j => V c main_v146 (ix2 0 (j 0)))

/-- The block index maps over the grid: the node windows (operand 0 and the result) take block `t` of the rows and the
    one block of the features; the four statistics rows are one block throughout. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- What point `t` writes back is block `t` of the pointwise value. -/
theorem flushed_eq (c : Dev nD) (t : Fin cfg7.N) :
    (dat7 (F := Ideal) V c).flushed 5 t = ((cfg7.win 5).blk t).view.read (Elt Ideal) (G V c) := by
  show (cfg7.win 5).cut (grid7.coords t) ((dat7 (F := Ideal) V c).after 5 t) = _
  rw [after7_5]
  unfold out7_5
  rw [View.canon_unit_zero hz]
  simp only [View.ld_unit_zero (S := S2000x128) hz, View.ld_unit_zero (S := S1x128) hz]
  obtain ⟨e00, e01, e10, e11, e20, e21, e30, e31, e40, e41, e50, e51⟩ := idx_facts t
  funext j
  refine (pay_at (iblk7 V c 0 t) (iblk7 V c 2 t) (iblk7 V c 1 t) (iblk7 V c 3 t) (iblk7 V c 4 t) j).trans ?_
  show max ((aY V c (((cfg7.win 0).blk t).view.emb j)
        - aM V c (((cfg7.win 1).blk t).view.emb (ix2 (0 : Fin 1) (j 1))))
      * Ideal.rsqrt (aV V c (((cfg7.win 2).blk t).view.emb (ix2 (0 : Fin 1) (j 1))) + Gin.eps)
      * aG V c (((cfg7.win 3).blk t).view.emb (ix2 (0 : Fin 1) (j 1)))
      + aB V c (((cfg7.win 4).blk t).view.emb (ix2 (0 : Fin 1) (j 1)))) 0
    = G V c (((cfg7.win 5).blk t).view.emb j)
  have hj0 : (j 0).val < 2000 := (j 0).isLt
  have hj1 : (j 1).val < 128 := (j 1).isLt
  have h0 : ((cfg7.win 0).blk t).view.emb j = ((cfg7.win 5).blk t).view.emb j := by
    funext a; apply Fin.ext
    match a with
    | ⟨0, _⟩ => show win7_0.index t (0 : Fin 2) * 2000 + 1 * (j 0).val = win7_5.index t (0 : Fin 2) * 2000 + 1 * (j 0).val; omega
    | ⟨1, _⟩ => show win7_0.index t (1 : Fin 2) * 128 + 1 * (j 1).val = win7_5.index t (1 : Fin 2) * 128 + 1 * (j 1).val; omega
  have h1 : ((cfg7.win 1).blk t).view.emb (ix2 (0 : Fin 1) (j 1)) = ix2 (0 : Fin 1) ((((cfg7.win 5).blk t).view.emb j) 1) := by
    funext a; apply Fin.ext
    match a with
    | ⟨0, _⟩ => show win7_1.index t (0 : Fin 2) * 1 + 1 * 0 = 0; omega
    | ⟨1, _⟩ => show win7_1.index t (1 : Fin 2) * 128 + 1 * (j 1).val = win7_5.index t (1 : Fin 2) * 128 + 1 * (j 1).val; omega
  have h2 : ((cfg7.win 2).blk t).view.emb (ix2 (0 : Fin 1) (j 1)) = ix2 (0 : Fin 1) ((((cfg7.win 5).blk t).view.emb j) 1) := by
    funext a; apply Fin.ext
    match a with
    | ⟨0, _⟩ => show win7_2.index t (0 : Fin 2) * 1 + 1 * 0 = 0; omega
    | ⟨1, _⟩ => show win7_2.index t (1 : Fin 2) * 128 + 1 * (j 1).val = win7_5.index t (1 : Fin 2) * 128 + 1 * (j 1).val; omega
  have h3 : ((cfg7.win 3).blk t).view.emb (ix2 (0 : Fin 1) (j 1)) = ix2 (0 : Fin 1) ((((cfg7.win 5).blk t).view.emb j) 1) := by
    funext a; apply Fin.ext
    match a with
    | ⟨0, _⟩ => show win7_3.index t (0 : Fin 2) * 1 + 1 * 0 = 0; omega
    | ⟨1, _⟩ => show win7_3.index t (1 : Fin 2) * 128 + 1 * (j 1).val = win7_5.index t (1 : Fin 2) * 128 + 1 * (j 1).val; omega
  have h4 : ((cfg7.win 4).blk t).view.emb (ix2 (0 : Fin 1) (j 1)) = ix2 (0 : Fin 1) ((((cfg7.win 5).blk t).view.emb j) 1) := by
    funext a; apply Fin.ext
    match a with
    | ⟨0, _⟩ => show win7_4.index t (0 : Fin 2) * 1 + 1 * 0 = 0; omega
    | ⟨1, _⟩ => show win7_4.index t (1 : Fin 2) * 128 + 1 * (j 1).val = win7_5.index t (1 : Fin 2) * 128 + 1 * (j 1).val; omega
  rw [h0, h1, h2, h3, h4]
  rfl

/-- An index of the result array is in point `t`'s block iff each coordinate is in the block's range on its axis. -/
theorem mem_blk (t : Fin cfg7.N) (i : S100000x128.Idx) :
    i ∈ ((cfg7.win 5).blk t).view.set ↔ ∀ a : Fin 2, win7_5.index t a * S2000x128.size a ≤ (i a).val
      ∧ (i a).val < win7_5.index t a * S2000x128.size a + S2000x128.size a := by
  show i ∈ ((View.whole main_v147).slice (win7_5.rect t)).set ↔ _
  rw [View.set_slice_whole, Rect.mem_set_unit]
  exact Iff.rfl

/-- Every index of the result array is in the block of the point `row / 2000`, which is written back. -/
theorem cover (i : S100000x128.Idx) : ∃ t : Fin cfg7.N, (cfg7.win 5).flush t = true ∧ i ∈ ((cfg7.win 5).blk t).view.set := by
  have hi0 : (i 0).val < 100000 := idx2_lt0 i
  have hi1 : (i 1).val < 128 := idx2_lt1 i
  have hN : cfg7.N = 50 := N_7
  refine ⟨⟨(i 0).val / 2000, by rw [hN]; omega⟩, flush7_5 _, ?_⟩
  obtain ⟨-, -, -, -, -, -, -, -, -, -, e50, e51⟩ := idx_facts ⟨(i 0).val / 2000, by rw [hN]; omega⟩
  rw [mem_blk]
  intro a
  match a with
  | ⟨0, _⟩ =>
    show win7_5.index _ (0 : Fin 2) * 2000 ≤ (i 0).val ∧ (i 0).val < win7_5.index _ (0 : Fin 2) * 2000 + 2000
    rw [e50]
    show (i 0).val / 2000 * 2000 ≤ (i 0).val ∧ (i 0).val < (i 0).val / 2000 * 2000 + 2000
    omega
  | ⟨1, _⟩ =>
    show win7_5.index _ (1 : Fin 2) * 128 ≤ (i 1).val ∧ (i 1).val < win7_5.index _ (1 : Fin 2) * 128 + 128
    rw [e51]
    omega

/-- THE RESULT ARRAY after the region: the pointwise value of the arrays the region found on entry. -/
theorem out_eq (c : Dev nD) : (dat7 (F := Ideal) V c).arrAt 5 cfg7.N
    = Gin.bnrelu (V c main_v134_0) (fun j => V c main_v136 (ix2 0 (j 0))) (fun j => V c main_v140 (ix2 0 (j 0)))
        (fun j => V c main_v145 (ix2 0 (j 0))) (fun j => V c main_v146 (ix2 0 (j 0))) :=
  (dat7 (F := Ideal) V c).arrAt_eq_of_cover 5 (G V c) (fun t _ => flushed_eq V c t) cover

end Cert.KernelIdeal.Bn7

end
-- ==== Proof.KValue.lean ====
/-
  What the kernel's program leaves in its result buffer, as a function of the ten argument arrays.

  The program alternates stretches of host operations with grid regions.  Reading the buffer contents at each
  boundary back to the arguments gives, layer by layer: the aggregate `h + scatter-add (gather h)` of the previous
  features, the perceptron's output and its two column sums from the first region of the layer, the column mean
  `s / N` and the variance `ss / N − mean²` from the host operations after it, and the normalised, clamped features
  from the second region.  The index rows and the parameter arrays are never overwritten, so at every boundary
  they still hold what the first stretch computed from the arguments.
-/
import proofs.«155226_j39831526703451_1_alg».proof.Proof.Gen.KernelIdeal.Frame
import proofs.«155226_j39831526703451_1_alg».proof.Proof.Spec
import proofs.«155226_j39831526703451_1_alg».proof.Proof.KDefs
import proofs.«155226_j39831526703451_1_alg».proof.Proof.Mlp0
import proofs.«155226_j39831526703451_1_alg».proof.Proof.Mlp2
import proofs.«155226_j39831526703451_1_alg».proof.Proof.Mlp4
import proofs.«155226_j39831526703451_1_alg».proof.Proof.Mlp6
import proofs.«155226_j39831526703451_1_alg».proof.Proof.Bn1
import proofs.«155226_j39831526703451_1_alg».proof.Proof.Bn3
import proofs.«155226_j39831526703451_1_alg».proof.Proof.Bn5
import proofs.«155226_j39831526703451_1_alg».proof.Proof.Bn7
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen Idealize.ShloMosaic Idealize.ShloMosaic.ValueIdx Idealize.ShloMosaic.TcCoe Idealize.SL.Sem

/-- A row vector stored as a one-row matrix, read back as a vector. -/
theorem row_of_cast {a : Nat} (v : (⟨1, ![a]⟩ : Shape).Idx → EReal) (h : (⟨1, ![a]⟩ : Shape).ShapeCasts ⟨2, ![1, a]⟩) :
    (fun j : (⟨1, ![a]⟩ : Shape).Idx => shapeCast (⟨2, ![1, a]⟩ : Shape) v h (ix2 0 (j 0))) = v := by
  funext j
  exact (shapeCast_a_1a_apply v h 0 (j 0)).trans (congrArg v (eq_ix1 j).symm)

/-! ## Buffers no operation overwrites -/

/-- A stretch of host operations leaves a buffer none of them writes as it was. -/
macro "host_keep" : tactic => `(tactic| (
  refine StableHlo.after_of_forall_not_mem _ _ (List.forall_iff_forall_mem.mp ?_)
  simp only [hostOps0, hostOps1, hostOps2, hostOps3, hostOps4, hostOps5, hostOps6, hostOps7, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

theorem back0_main_arg4 : W0 m ρ c (Proc.devRef .tc main_arg4) = m ((c : Thread nD τ).loc main_arg4) := rfl
theorem back1_main_arg4 : W1 m ρ c (Proc.devRef .tc main_arg4) = m ((c : Thread nD τ).loc main_arg4) :=
  (show W1 m ρ c (Proc.devRef .tc main_arg4) = W0 m ρ c (Proc.devRef .tc main_arg4) by host_keep).trans (back0_main_arg4 m ρ c)
theorem back2_main_arg4 : W2 m ρ c (Proc.devRef .tc main_arg4) = m ((c : Thread nD τ).loc main_arg4) :=
  (W2_of_ne m ρ c main_arg4 (by decide)).trans (back1_main_arg4 m ρ c)
theorem back3_main_arg4 : W3 m ρ c (Proc.devRef .tc main_arg4) = m ((c : Thread nD τ).loc main_arg4) :=
  (show W3 m ρ c (Proc.devRef .tc main_arg4) = W2 m ρ c (Proc.devRef .tc main_arg4) by host_keep).trans (back2_main_arg4 m ρ c)
theorem back4_main_arg4 : W4 m ρ c (Proc.devRef .tc main_arg4) = m ((c : Thread nD τ).loc main_arg4) :=
  (W4_of_ne m ρ c main_arg4 (by decide)).trans (back3_main_arg4 m ρ c)
theorem back5_main_arg4 : W5 m ρ c (Proc.devRef .tc main_arg4) = m ((c : Thread nD τ).loc main_arg4) :=
  (show W5 m ρ c (Proc.devRef .tc main_arg4) = W4 m ρ c (Proc.devRef .tc main_arg4) by host_keep).trans (back4_main_arg4 m ρ c)
theorem back6_main_arg4 : W6 m ρ c (Proc.devRef .tc main_arg4) = m ((c : Thread nD τ).loc main_arg4) :=
  (W6_of_ne m ρ c main_arg4 (by decide)).trans (back5_main_arg4 m ρ c)
theorem back7_main_arg4 : W7 m ρ c (Proc.devRef .tc main_arg4) = m ((c : Thread nD τ).loc main_arg4) :=
  (show W7 m ρ c (Proc.devRef .tc main_arg4) = W6 m ρ c (Proc.devRef .tc main_arg4) by host_keep).trans (back6_main_arg4 m ρ c)
theorem back8_main_arg4 : W8 m ρ c (Proc.devRef .tc main_arg4) = m ((c : Thread nD τ).loc main_arg4) :=
  (W8_of_ne m ρ c main_arg4 (by decide)).trans (back7_main_arg4 m ρ c)
theorem back9_main_arg4 : W9 m ρ c (Proc.devRef .tc main_arg4) = m ((c : Thread nD τ).loc main_arg4) :=
  (show W9 m ρ c (Proc.devRef .tc main_arg4) = W8 m ρ c (Proc.devRef .tc main_arg4) by host_keep).trans (back8_main_arg4 m ρ c)
theorem back10_main_arg4 : W10 m ρ c (Proc.devRef .tc main_arg4) = m ((c : Thread nD τ).loc main_arg4) :=
  (W10_of_ne m ρ c main_arg4 (by decide)).trans (back9_main_arg4 m ρ c)
theorem back11_main_arg4 : W11 m ρ c (Proc.devRef .tc main_arg4) = m ((c : Thread nD τ).loc main_arg4) :=
  (show W11 m ρ c (Proc.devRef .tc main_arg4) = W10 m ρ c (Proc.devRef .tc main_arg4) by host_keep).trans (back10_main_arg4 m ρ c)
theorem back12_main_arg4 : W12 m ρ c (Proc.devRef .tc main_arg4) = m ((c : Thread nD τ).loc main_arg4) :=
  (W12_of_ne m ρ c main_arg4 (by decide)).trans (back11_main_arg4 m ρ c)
theorem back13_main_arg4 : W13 m ρ c (Proc.devRef .tc main_arg4) = m ((c : Thread nD τ).loc main_arg4) :=
  (show W13 m ρ c (Proc.devRef .tc main_arg4) = W12 m ρ c (Proc.devRef .tc main_arg4) by host_keep).trans (back12_main_arg4 m ρ c)
theorem back14_main_arg4 : W14 m ρ c (Proc.devRef .tc main_arg4) = m ((c : Thread nD τ).loc main_arg4) :=
  (W14_of_ne m ρ c main_arg4 (by decide)).trans (back13_main_arg4 m ρ c)
theorem back0_main_arg5 : W0 m ρ c (Proc.devRef .tc main_arg5) = m ((c : Thread nD τ).loc main_arg5) := rfl
theorem back1_main_arg5 : W1 m ρ c (Proc.devRef .tc main_arg5) = m ((c : Thread nD τ).loc main_arg5) :=
  (show W1 m ρ c (Proc.devRef .tc main_arg5) = W0 m ρ c (Proc.devRef .tc main_arg5) by host_keep).trans (back0_main_arg5 m ρ c)
theorem back2_main_arg5 : W2 m ρ c (Proc.devRef .tc main_arg5) = m ((c : Thread nD τ).loc main_arg5) :=
  (W2_of_ne m ρ c main_arg5 (by decide)).trans (back1_main_arg5 m ρ c)
theorem back3_main_arg5 : W3 m ρ c (Proc.devRef .tc main_arg5) = m ((c : Thread nD τ).loc main_arg5) :=
  (show W3 m ρ c (Proc.devRef .tc main_arg5) = W2 m ρ c (Proc.devRef .tc main_arg5) by host_keep).trans (back2_main_arg5 m ρ c)
theorem back4_main_arg5 : W4 m ρ c (Proc.devRef .tc main_arg5) = m ((c : Thread nD τ).loc main_arg5) :=
  (W4_of_ne m ρ c main_arg5 (by decide)).trans (back3_main_arg5 m ρ c)
theorem back5_main_arg5 : W5 m ρ c (Proc.devRef .tc main_arg5) = m ((c : Thread nD τ).loc main_arg5) :=
  (show W5 m ρ c (Proc.devRef .tc main_arg5) = W4 m ρ c (Proc.devRef .tc main_arg5) by host_keep).trans (back4_main_arg5 m ρ c)
theorem back6_main_arg5 : W6 m ρ c (Proc.devRef .tc main_arg5) = m ((c : Thread nD τ).loc main_arg5) :=
  (W6_of_ne m ρ c main_arg5 (by decide)).trans (back5_main_arg5 m ρ c)
theorem back7_main_arg5 : W7 m ρ c (Proc.devRef .tc main_arg5) = m ((c : Thread nD τ).loc main_arg5) :=
  (show W7 m ρ c (Proc.devRef .tc main_arg5) = W6 m ρ c (Proc.devRef .tc main_arg5) by host_keep).trans (back6_main_arg5 m ρ c)
theorem back8_main_arg5 : W8 m ρ c (Proc.devRef .tc main_arg5) = m ((c : Thread nD τ).loc main_arg5) :=
  (W8_of_ne m ρ c main_arg5 (by decide)).trans (back7_main_arg5 m ρ c)
theorem back9_main_arg5 : W9 m ρ c (Proc.devRef .tc main_arg5) = m ((c : Thread nD τ).loc main_arg5) :=
  (show W9 m ρ c (Proc.devRef .tc main_arg5) = W8 m ρ c (Proc.devRef .tc main_arg5) by host_keep).trans (back8_main_arg5 m ρ c)
theorem back10_main_arg5 : W10 m ρ c (Proc.devRef .tc main_arg5) = m ((c : Thread nD τ).loc main_arg5) :=
  (W10_of_ne m ρ c main_arg5 (by decide)).trans (back9_main_arg5 m ρ c)
theorem back11_main_arg5 : W11 m ρ c (Proc.devRef .tc main_arg5) = m ((c : Thread nD τ).loc main_arg5) :=
  (show W11 m ρ c (Proc.devRef .tc main_arg5) = W10 m ρ c (Proc.devRef .tc main_arg5) by host_keep).trans (back10_main_arg5 m ρ c)
theorem back12_main_arg5 : W12 m ρ c (Proc.devRef .tc main_arg5) = m ((c : Thread nD τ).loc main_arg5) :=
  (W12_of_ne m ρ c main_arg5 (by decide)).trans (back11_main_arg5 m ρ c)
theorem back13_main_arg5 : W13 m ρ c (Proc.devRef .tc main_arg5) = m ((c : Thread nD τ).loc main_arg5) :=
  (show W13 m ρ c (Proc.devRef .tc main_arg5) = W12 m ρ c (Proc.devRef .tc main_arg5) by host_keep).trans (back12_main_arg5 m ρ c)
theorem back14_main_arg5 : W14 m ρ c (Proc.devRef .tc main_arg5) = m ((c : Thread nD τ).loc main_arg5) :=
  (W14_of_ne m ρ c main_arg5 (by decide)).trans (back13_main_arg5 m ρ c)
theorem back0_main_arg6 : W0 m ρ c (Proc.devRef .tc main_arg6) = m ((c : Thread nD τ).loc main_arg6) := rfl
theorem back1_main_arg6 : W1 m ρ c (Proc.devRef .tc main_arg6) = m ((c : Thread nD τ).loc main_arg6) :=
  (show W1 m ρ c (Proc.devRef .tc main_arg6) = W0 m ρ c (Proc.devRef .tc main_arg6) by host_keep).trans (back0_main_arg6 m ρ c)
theorem back2_main_arg6 : W2 m ρ c (Proc.devRef .tc main_arg6) = m ((c : Thread nD τ).loc main_arg6) :=
  (W2_of_ne m ρ c main_arg6 (by decide)).trans (back1_main_arg6 m ρ c)
theorem back3_main_arg6 : W3 m ρ c (Proc.devRef .tc main_arg6) = m ((c : Thread nD τ).loc main_arg6) :=
  (show W3 m ρ c (Proc.devRef .tc main_arg6) = W2 m ρ c (Proc.devRef .tc main_arg6) by host_keep).trans (back2_main_arg6 m ρ c)
theorem back4_main_arg6 : W4 m ρ c (Proc.devRef .tc main_arg6) = m ((c : Thread nD τ).loc main_arg6) :=
  (W4_of_ne m ρ c main_arg6 (by decide)).trans (back3_main_arg6 m ρ c)
theorem back5_main_arg6 : W5 m ρ c (Proc.devRef .tc main_arg6) = m ((c : Thread nD τ).loc main_arg6) :=
  (show W5 m ρ c (Proc.devRef .tc main_arg6) = W4 m ρ c (Proc.devRef .tc main_arg6) by host_keep).trans (back4_main_arg6 m ρ c)
theorem back6_main_arg6 : W6 m ρ c (Proc.devRef .tc main_arg6) = m ((c : Thread nD τ).loc main_arg6) :=
  (W6_of_ne m ρ c main_arg6 (by decide)).trans (back5_main_arg6 m ρ c)
theorem back7_main_arg6 : W7 m ρ c (Proc.devRef .tc main_arg6) = m ((c : Thread nD τ).loc main_arg6) :=
  (show W7 m ρ c (Proc.devRef .tc main_arg6) = W6 m ρ c (Proc.devRef .tc main_arg6) by host_keep).trans (back6_main_arg6 m ρ c)
theorem back8_main_arg6 : W8 m ρ c (Proc.devRef .tc main_arg6) = m ((c : Thread nD τ).loc main_arg6) :=
  (W8_of_ne m ρ c main_arg6 (by decide)).trans (back7_main_arg6 m ρ c)
theorem back9_main_arg6 : W9 m ρ c (Proc.devRef .tc main_arg6) = m ((c : Thread nD τ).loc main_arg6) :=
  (show W9 m ρ c (Proc.devRef .tc main_arg6) = W8 m ρ c (Proc.devRef .tc main_arg6) by host_keep).trans (back8_main_arg6 m ρ c)
theorem back10_main_arg6 : W10 m ρ c (Proc.devRef .tc main_arg6) = m ((c : Thread nD τ).loc main_arg6) :=
  (W10_of_ne m ρ c main_arg6 (by decide)).trans (back9_main_arg6 m ρ c)
theorem back11_main_arg6 : W11 m ρ c (Proc.devRef .tc main_arg6) = m ((c : Thread nD τ).loc main_arg6) :=
  (show W11 m ρ c (Proc.devRef .tc main_arg6) = W10 m ρ c (Proc.devRef .tc main_arg6) by host_keep).trans (back10_main_arg6 m ρ c)
theorem back12_main_arg6 : W12 m ρ c (Proc.devRef .tc main_arg6) = m ((c : Thread nD τ).loc main_arg6) :=
  (W12_of_ne m ρ c main_arg6 (by decide)).trans (back11_main_arg6 m ρ c)
theorem back13_main_arg6 : W13 m ρ c (Proc.devRef .tc main_arg6) = m ((c : Thread nD τ).loc main_arg6) :=
  (show W13 m ρ c (Proc.devRef .tc main_arg6) = W12 m ρ c (Proc.devRef .tc main_arg6) by host_keep).trans (back12_main_arg6 m ρ c)
theorem back14_main_arg6 : W14 m ρ c (Proc.devRef .tc main_arg6) = m ((c : Thread nD τ).loc main_arg6) :=
  (W14_of_ne m ρ c main_arg6 (by decide)).trans (back13_main_arg6 m ρ c)
theorem back0_main_arg7 : W0 m ρ c (Proc.devRef .tc main_arg7) = m ((c : Thread nD τ).loc main_arg7) := rfl
theorem back1_main_arg7 : W1 m ρ c (Proc.devRef .tc main_arg7) = m ((c : Thread nD τ).loc main_arg7) :=
  (show W1 m ρ c (Proc.devRef .tc main_arg7) = W0 m ρ c (Proc.devRef .tc main_arg7) by host_keep).trans (back0_main_arg7 m ρ c)
theorem back2_main_arg7 : W2 m ρ c (Proc.devRef .tc main_arg7) = m ((c : Thread nD τ).loc main_arg7) :=
  (W2_of_ne m ρ c main_arg7 (by decide)).trans (back1_main_arg7 m ρ c)
theorem back3_main_arg7 : W3 m ρ c (Proc.devRef .tc main_arg7) = m ((c : Thread nD τ).loc main_arg7) :=
  (show W3 m ρ c (Proc.devRef .tc main_arg7) = W2 m ρ c (Proc.devRef .tc main_arg7) by host_keep).trans (back2_main_arg7 m ρ c)
theorem back4_main_arg7 : W4 m ρ c (Proc.devRef .tc main_arg7) = m ((c : Thread nD τ).loc main_arg7) :=
  (W4_of_ne m ρ c main_arg7 (by decide)).trans (back3_main_arg7 m ρ c)
theorem back5_main_arg7 : W5 m ρ c (Proc.devRef .tc main_arg7) = m ((c : Thread nD τ).loc main_arg7) :=
  (show W5 m ρ c (Proc.devRef .tc main_arg7) = W4 m ρ c (Proc.devRef .tc main_arg7) by host_keep).trans (back4_main_arg7 m ρ c)
theorem back6_main_arg7 : W6 m ρ c (Proc.devRef .tc main_arg7) = m ((c : Thread nD τ).loc main_arg7) :=
  (W6_of_ne m ρ c main_arg7 (by decide)).trans (back5_main_arg7 m ρ c)
theorem back7_main_arg7 : W7 m ρ c (Proc.devRef .tc main_arg7) = m ((c : Thread nD τ).loc main_arg7) :=
  (show W7 m ρ c (Proc.devRef .tc main_arg7) = W6 m ρ c (Proc.devRef .tc main_arg7) by host_keep).trans (back6_main_arg7 m ρ c)
theorem back8_main_arg7 : W8 m ρ c (Proc.devRef .tc main_arg7) = m ((c : Thread nD τ).loc main_arg7) :=
  (W8_of_ne m ρ c main_arg7 (by decide)).trans (back7_main_arg7 m ρ c)
theorem back9_main_arg7 : W9 m ρ c (Proc.devRef .tc main_arg7) = m ((c : Thread nD τ).loc main_arg7) :=
  (show W9 m ρ c (Proc.devRef .tc main_arg7) = W8 m ρ c (Proc.devRef .tc main_arg7) by host_keep).trans (back8_main_arg7 m ρ c)
theorem back10_main_arg7 : W10 m ρ c (Proc.devRef .tc main_arg7) = m ((c : Thread nD τ).loc main_arg7) :=
  (W10_of_ne m ρ c main_arg7 (by decide)).trans (back9_main_arg7 m ρ c)
theorem back11_main_arg7 : W11 m ρ c (Proc.devRef .tc main_arg7) = m ((c : Thread nD τ).loc main_arg7) :=
  (show W11 m ρ c (Proc.devRef .tc main_arg7) = W10 m ρ c (Proc.devRef .tc main_arg7) by host_keep).trans (back10_main_arg7 m ρ c)
theorem back12_main_arg7 : W12 m ρ c (Proc.devRef .tc main_arg7) = m ((c : Thread nD τ).loc main_arg7) :=
  (W12_of_ne m ρ c main_arg7 (by decide)).trans (back11_main_arg7 m ρ c)
theorem back13_main_arg7 : W13 m ρ c (Proc.devRef .tc main_arg7) = m ((c : Thread nD τ).loc main_arg7) :=
  (show W13 m ρ c (Proc.devRef .tc main_arg7) = W12 m ρ c (Proc.devRef .tc main_arg7) by host_keep).trans (back12_main_arg7 m ρ c)
theorem back14_main_arg7 : W14 m ρ c (Proc.devRef .tc main_arg7) = m ((c : Thread nD τ).loc main_arg7) :=
  (W14_of_ne m ρ c main_arg7 (by decide)).trans (back13_main_arg7 m ρ c)
theorem back0_main_arg8 : W0 m ρ c (Proc.devRef .tc main_arg8) = m ((c : Thread nD τ).loc main_arg8) := rfl
theorem back1_main_arg8 : W1 m ρ c (Proc.devRef .tc main_arg8) = m ((c : Thread nD τ).loc main_arg8) :=
  (show W1 m ρ c (Proc.devRef .tc main_arg8) = W0 m ρ c (Proc.devRef .tc main_arg8) by host_keep).trans (back0_main_arg8 m ρ c)
theorem back2_main_arg8 : W2 m ρ c (Proc.devRef .tc main_arg8) = m ((c : Thread nD τ).loc main_arg8) :=
  (W2_of_ne m ρ c main_arg8 (by decide)).trans (back1_main_arg8 m ρ c)
theorem back3_main_arg8 : W3 m ρ c (Proc.devRef .tc main_arg8) = m ((c : Thread nD τ).loc main_arg8) :=
  (show W3 m ρ c (Proc.devRef .tc main_arg8) = W2 m ρ c (Proc.devRef .tc main_arg8) by host_keep).trans (back2_main_arg8 m ρ c)
theorem back4_main_arg8 : W4 m ρ c (Proc.devRef .tc main_arg8) = m ((c : Thread nD τ).loc main_arg8) :=
  (W4_of_ne m ρ c main_arg8 (by decide)).trans (back3_main_arg8 m ρ c)
theorem back5_main_arg8 : W5 m ρ c (Proc.devRef .tc main_arg8) = m ((c : Thread nD τ).loc main_arg8) :=
  (show W5 m ρ c (Proc.devRef .tc main_arg8) = W4 m ρ c (Proc.devRef .tc main_arg8) by host_keep).trans (back4_main_arg8 m ρ c)
theorem back6_main_arg8 : W6 m ρ c (Proc.devRef .tc main_arg8) = m ((c : Thread nD τ).loc main_arg8) :=
  (W6_of_ne m ρ c main_arg8 (by decide)).trans (back5_main_arg8 m ρ c)
theorem back7_main_arg8 : W7 m ρ c (Proc.devRef .tc main_arg8) = m ((c : Thread nD τ).loc main_arg8) :=
  (show W7 m ρ c (Proc.devRef .tc main_arg8) = W6 m ρ c (Proc.devRef .tc main_arg8) by host_keep).trans (back6_main_arg8 m ρ c)
theorem back8_main_arg8 : W8 m ρ c (Proc.devRef .tc main_arg8) = m ((c : Thread nD τ).loc main_arg8) :=
  (W8_of_ne m ρ c main_arg8 (by decide)).trans (back7_main_arg8 m ρ c)
theorem back9_main_arg8 : W9 m ρ c (Proc.devRef .tc main_arg8) = m ((c : Thread nD τ).loc main_arg8) :=
  (show W9 m ρ c (Proc.devRef .tc main_arg8) = W8 m ρ c (Proc.devRef .tc main_arg8) by host_keep).trans (back8_main_arg8 m ρ c)
theorem back10_main_arg8 : W10 m ρ c (Proc.devRef .tc main_arg8) = m ((c : Thread nD τ).loc main_arg8) :=
  (W10_of_ne m ρ c main_arg8 (by decide)).trans (back9_main_arg8 m ρ c)
theorem back11_main_arg8 : W11 m ρ c (Proc.devRef .tc main_arg8) = m ((c : Thread nD τ).loc main_arg8) :=
  (show W11 m ρ c (Proc.devRef .tc main_arg8) = W10 m ρ c (Proc.devRef .tc main_arg8) by host_keep).trans (back10_main_arg8 m ρ c)
theorem back12_main_arg8 : W12 m ρ c (Proc.devRef .tc main_arg8) = m ((c : Thread nD τ).loc main_arg8) :=
  (W12_of_ne m ρ c main_arg8 (by decide)).trans (back11_main_arg8 m ρ c)
theorem back13_main_arg8 : W13 m ρ c (Proc.devRef .tc main_arg8) = m ((c : Thread nD τ).loc main_arg8) :=
  (show W13 m ρ c (Proc.devRef .tc main_arg8) = W12 m ρ c (Proc.devRef .tc main_arg8) by host_keep).trans (back12_main_arg8 m ρ c)
theorem back14_main_arg8 : W14 m ρ c (Proc.devRef .tc main_arg8) = m ((c : Thread nD τ).loc main_arg8) :=
  (W14_of_ne m ρ c main_arg8 (by decide)).trans (back13_main_arg8 m ρ c)
theorem back0_main_arg9 : W0 m ρ c (Proc.devRef .tc main_arg9) = m ((c : Thread nD τ).loc main_arg9) := rfl
theorem back1_main_arg9 : W1 m ρ c (Proc.devRef .tc main_arg9) = m ((c : Thread nD τ).loc main_arg9) :=
  (show W1 m ρ c (Proc.devRef .tc main_arg9) = W0 m ρ c (Proc.devRef .tc main_arg9) by host_keep).trans (back0_main_arg9 m ρ c)
theorem back2_main_arg9 : W2 m ρ c (Proc.devRef .tc main_arg9) = m ((c : Thread nD τ).loc main_arg9) :=
  (W2_of_ne m ρ c main_arg9 (by decide)).trans (back1_main_arg9 m ρ c)
theorem back3_main_arg9 : W3 m ρ c (Proc.devRef .tc main_arg9) = m ((c : Thread nD τ).loc main_arg9) :=
  (show W3 m ρ c (Proc.devRef .tc main_arg9) = W2 m ρ c (Proc.devRef .tc main_arg9) by host_keep).trans (back2_main_arg9 m ρ c)
theorem back4_main_arg9 : W4 m ρ c (Proc.devRef .tc main_arg9) = m ((c : Thread nD τ).loc main_arg9) :=
  (W4_of_ne m ρ c main_arg9 (by decide)).trans (back3_main_arg9 m ρ c)
theorem back5_main_arg9 : W5 m ρ c (Proc.devRef .tc main_arg9) = m ((c : Thread nD τ).loc main_arg9) :=
  (show W5 m ρ c (Proc.devRef .tc main_arg9) = W4 m ρ c (Proc.devRef .tc main_arg9) by host_keep).trans (back4_main_arg9 m ρ c)
theorem back6_main_arg9 : W6 m ρ c (Proc.devRef .tc main_arg9) = m ((c : Thread nD τ).loc main_arg9) :=
  (W6_of_ne m ρ c main_arg9 (by decide)).trans (back5_main_arg9 m ρ c)
theorem back7_main_arg9 : W7 m ρ c (Proc.devRef .tc main_arg9) = m ((c : Thread nD τ).loc main_arg9) :=
  (show W7 m ρ c (Proc.devRef .tc main_arg9) = W6 m ρ c (Proc.devRef .tc main_arg9) by host_keep).trans (back6_main_arg9 m ρ c)
theorem back8_main_arg9 : W8 m ρ c (Proc.devRef .tc main_arg9) = m ((c : Thread nD τ).loc main_arg9) :=
  (W8_of_ne m ρ c main_arg9 (by decide)).trans (back7_main_arg9 m ρ c)
theorem back9_main_arg9 : W9 m ρ c (Proc.devRef .tc main_arg9) = m ((c : Thread nD τ).loc main_arg9) :=
  (show W9 m ρ c (Proc.devRef .tc main_arg9) = W8 m ρ c (Proc.devRef .tc main_arg9) by host_keep).trans (back8_main_arg9 m ρ c)
theorem back10_main_arg9 : W10 m ρ c (Proc.devRef .tc main_arg9) = m ((c : Thread nD τ).loc main_arg9) :=
  (W10_of_ne m ρ c main_arg9 (by decide)).trans (back9_main_arg9 m ρ c)
theorem back11_main_arg9 : W11 m ρ c (Proc.devRef .tc main_arg9) = m ((c : Thread nD τ).loc main_arg9) :=
  (show W11 m ρ c (Proc.devRef .tc main_arg9) = W10 m ρ c (Proc.devRef .tc main_arg9) by host_keep).trans (back10_main_arg9 m ρ c)
theorem back12_main_arg9 : W12 m ρ c (Proc.devRef .tc main_arg9) = m ((c : Thread nD τ).loc main_arg9) :=
  (W12_of_ne m ρ c main_arg9 (by decide)).trans (back11_main_arg9 m ρ c)
theorem back13_main_arg9 : W13 m ρ c (Proc.devRef .tc main_arg9) = m ((c : Thread nD τ).loc main_arg9) :=
  (show W13 m ρ c (Proc.devRef .tc main_arg9) = W12 m ρ c (Proc.devRef .tc main_arg9) by host_keep).trans (back12_main_arg9 m ρ c)
theorem back14_main_arg9 : W14 m ρ c (Proc.devRef .tc main_arg9) = m ((c : Thread nD τ).loc main_arg9) :=
  (W14_of_ne m ρ c main_arg9 (by decide)).trans (back13_main_arg9 m ρ c)
theorem back1_main_v5 : W1 m ρ c (Proc.devRef .tc main_v5) = srcK (m ((c : Thread nD τ).loc main_arg1)) := by
  show StableHlo.after hostOps0 (W0 m ρ c) (Proc.devRef .tc main_v5) = _
  after_results
  rfl
theorem back2_main_v5 : W2 m ρ c (Proc.devRef .tc main_v5) = srcK (m ((c : Thread nD τ).loc main_arg1)) :=
  (W2_of_ne m ρ c main_v5 (by decide)).trans (back1_main_v5 m ρ c)
theorem back3_main_v5 : W3 m ρ c (Proc.devRef .tc main_v5) = srcK (m ((c : Thread nD τ).loc main_arg1)) :=
  (show W3 m ρ c (Proc.devRef .tc main_v5) = W2 m ρ c (Proc.devRef .tc main_v5) by host_keep).trans (back2_main_v5 m ρ c)
theorem back4_main_v5 : W4 m ρ c (Proc.devRef .tc main_v5) = srcK (m ((c : Thread nD τ).loc main_arg1)) :=
  (W4_of_ne m ρ c main_v5 (by decide)).trans (back3_main_v5 m ρ c)
theorem back5_main_v5 : W5 m ρ c (Proc.devRef .tc main_v5) = srcK (m ((c : Thread nD τ).loc main_arg1)) :=
  (show W5 m ρ c (Proc.devRef .tc main_v5) = W4 m ρ c (Proc.devRef .tc main_v5) by host_keep).trans (back4_main_v5 m ρ c)
theorem back6_main_v5 : W6 m ρ c (Proc.devRef .tc main_v5) = srcK (m ((c : Thread nD τ).loc main_arg1)) :=
  (W6_of_ne m ρ c main_v5 (by decide)).trans (back5_main_v5 m ρ c)
theorem back7_main_v5 : W7 m ρ c (Proc.devRef .tc main_v5) = srcK (m ((c : Thread nD τ).loc main_arg1)) :=
  (show W7 m ρ c (Proc.devRef .tc main_v5) = W6 m ρ c (Proc.devRef .tc main_v5) by host_keep).trans (back6_main_v5 m ρ c)
theorem back8_main_v5 : W8 m ρ c (Proc.devRef .tc main_v5) = srcK (m ((c : Thread nD τ).loc main_arg1)) :=
  (W8_of_ne m ρ c main_v5 (by decide)).trans (back7_main_v5 m ρ c)
theorem back9_main_v5 : W9 m ρ c (Proc.devRef .tc main_v5) = srcK (m ((c : Thread nD τ).loc main_arg1)) :=
  (show W9 m ρ c (Proc.devRef .tc main_v5) = W8 m ρ c (Proc.devRef .tc main_v5) by host_keep).trans (back8_main_v5 m ρ c)
theorem back10_main_v5 : W10 m ρ c (Proc.devRef .tc main_v5) = srcK (m ((c : Thread nD τ).loc main_arg1)) :=
  (W10_of_ne m ρ c main_v5 (by decide)).trans (back9_main_v5 m ρ c)
theorem back11_main_v5 : W11 m ρ c (Proc.devRef .tc main_v5) = srcK (m ((c : Thread nD τ).loc main_arg1)) :=
  (show W11 m ρ c (Proc.devRef .tc main_v5) = W10 m ρ c (Proc.devRef .tc main_v5) by host_keep).trans (back10_main_v5 m ρ c)
theorem back12_main_v5 : W12 m ρ c (Proc.devRef .tc main_v5) = srcK (m ((c : Thread nD τ).loc main_arg1)) :=
  (W12_of_ne m ρ c main_v5 (by decide)).trans (back11_main_v5 m ρ c)
theorem back1_main_v7 : W1 m ρ c (Proc.devRef .tc main_v7) = dstK (m ((c : Thread nD τ).loc main_arg1)) := by
  show StableHlo.after hostOps0 (W0 m ρ c) (Proc.devRef .tc main_v7) = _
  after_results
  rfl
theorem back2_main_v7 : W2 m ρ c (Proc.devRef .tc main_v7) = dstK (m ((c : Thread nD τ).loc main_arg1)) :=
  (W2_of_ne m ρ c main_v7 (by decide)).trans (back1_main_v7 m ρ c)
theorem back3_main_v7 : W3 m ρ c (Proc.devRef .tc main_v7) = dstK (m ((c : Thread nD τ).loc main_arg1)) :=
  (show W3 m ρ c (Proc.devRef .tc main_v7) = W2 m ρ c (Proc.devRef .tc main_v7) by host_keep).trans (back2_main_v7 m ρ c)
theorem back4_main_v7 : W4 m ρ c (Proc.devRef .tc main_v7) = dstK (m ((c : Thread nD τ).loc main_arg1)) :=
  (W4_of_ne m ρ c main_v7 (by decide)).trans (back3_main_v7 m ρ c)
theorem back5_main_v7 : W5 m ρ c (Proc.devRef .tc main_v7) = dstK (m ((c : Thread nD τ).loc main_arg1)) :=
  (show W5 m ρ c (Proc.devRef .tc main_v7) = W4 m ρ c (Proc.devRef .tc main_v7) by host_keep).trans (back4_main_v7 m ρ c)
theorem back6_main_v7 : W6 m ρ c (Proc.devRef .tc main_v7) = dstK (m ((c : Thread nD τ).loc main_arg1)) :=
  (W6_of_ne m ρ c main_v7 (by decide)).trans (back5_main_v7 m ρ c)
theorem back7_main_v7 : W7 m ρ c (Proc.devRef .tc main_v7) = dstK (m ((c : Thread nD τ).loc main_arg1)) :=
  (show W7 m ρ c (Proc.devRef .tc main_v7) = W6 m ρ c (Proc.devRef .tc main_v7) by host_keep).trans (back6_main_v7 m ρ c)
theorem back8_main_v7 : W8 m ρ c (Proc.devRef .tc main_v7) = dstK (m ((c : Thread nD τ).loc main_arg1)) :=
  (W8_of_ne m ρ c main_v7 (by decide)).trans (back7_main_v7 m ρ c)
theorem back9_main_v7 : W9 m ρ c (Proc.devRef .tc main_v7) = dstK (m ((c : Thread nD τ).loc main_arg1)) :=
  (show W9 m ρ c (Proc.devRef .tc main_v7) = W8 m ρ c (Proc.devRef .tc main_v7) by host_keep).trans (back8_main_v7 m ρ c)
theorem back10_main_v7 : W10 m ρ c (Proc.devRef .tc main_v7) = dstK (m ((c : Thread nD τ).loc main_arg1)) :=
  (W10_of_ne m ρ c main_v7 (by decide)).trans (back9_main_v7 m ρ c)
theorem back11_main_v7 : W11 m ρ c (Proc.devRef .tc main_v7) = dstK (m ((c : Thread nD τ).loc main_arg1)) :=
  (show W11 m ρ c (Proc.devRef .tc main_v7) = W10 m ρ c (Proc.devRef .tc main_v7) by host_keep).trans (back10_main_v7 m ρ c)
theorem back12_main_v7 : W12 m ρ c (Proc.devRef .tc main_v7) = dstK (m ((c : Thread nD τ).loc main_arg1)) :=
  (W12_of_ne m ρ c main_v7 (by decide)).trans (back11_main_v7 m ρ c)

/-! ## Layer by layer -/

set_option maxHeartbeats 4000000 in
theorem zin0 : W1 m ρ c (Proc.devRef .tc main_v18) = (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) := by
  show StableHlo.after hostOps0 (W0 m ρ c) (Proc.devRef .tc main_v18) = _
  after_results_simp
  try rfl
theorem w1_0 : W1 m ρ c (Proc.devRef .tc main_v20) = (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 := by
  rw [← back0_main_arg4 m ρ c]
  show StableHlo.after hostOps0 (W0 m ρ c) (Proc.devRef .tc main_v20) = _
  after_results
  rfl
theorem w2_0 : W1 m ρ c (Proc.devRef .tc main_v24) = (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 := by
  rw [← back0_main_arg6 m ρ c]
  show StableHlo.after hostOps0 (W0 m ρ c) (Proc.devRef .tc main_v24) = _
  after_results
  rfl
theorem b1_0 : (fun k : Cert.Gin.SH2.Idx => (W1 m ρ c (Proc.devRef .tc main_v27) : S1x256.Idx → EReal) (ix2 0 (k 0))) = (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 := by
  have e : (W1 m ρ c (Proc.devRef .tc main_v27) : S1x256.Idx → EReal) = shapeCast S1x256 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 shapeCasts_S256_S1x256 := by
    rw [← back0_main_arg5 m ρ c]
    show StableHlo.after hostOps0 (W0 m ρ c) (Proc.devRef .tc main_v27) = _
    after_results
    rfl
  rw [e]; exact row_of_cast _ _
theorem b2_0 : (fun k : Cert.Gin.SH.Idx => (W1 m ρ c (Proc.devRef .tc main_v28) : S1x128.Idx → EReal) (ix2 0 (k 0))) = (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 := by
  have e : (W1 m ρ c (Proc.devRef .tc main_v28) : S1x128.Idx → EReal) = shapeCast S1x128 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 shapeCasts_S128_S1x128 := by
    rw [← back0_main_arg7 m ρ c]
    show StableHlo.after hostOps0 (W0 m ρ c) (Proc.devRef .tc main_v28) = _
    after_results
    rfl
  rw [e]; exact row_of_cast _ _
theorem g_0 : (fun k : Cert.Gin.SH.Idx => (W3 m ρ c (Proc.devRef .tc main_v40) : S1x128.Idx → EReal) (ix2 0 (k 0))) = (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).γ := by
  have e : (W3 m ρ c (Proc.devRef .tc main_v40) : S1x128.Idx → EReal) = shapeCast S1x128 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).γ shapeCasts_S128_S1x128 := by
    rw [← back2_main_arg8 m ρ c]
    show StableHlo.after hostOps1 (W2 m ρ c) (Proc.devRef .tc main_v40) = _
    after_results
    rfl
  rw [e]; exact row_of_cast _ _
theorem bt_0 : (fun k : Cert.Gin.SH.Idx => (W3 m ρ c (Proc.devRef .tc main_v41) : S1x128.Idx → EReal) (ix2 0 (k 0))) = (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).β := by
  have e : (W3 m ρ c (Proc.devRef .tc main_v41) : S1x128.Idx → EReal) = shapeCast S1x128 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).β shapeCasts_S128_S1x128 := by
    rw [← back2_main_arg9 m ρ c]
    show StableHlo.after hostOps1 (W2 m ρ c) (Proc.devRef .tc main_v41) = _
    after_results
    rfl
  rw [e]; exact row_of_cast _ _
/-- The column mean and variance the host computes between the layer's two regions, from the sums the first left. -/
theorem mean_0 : (W3 m ρ c (Proc.devRef .tc main_v31) : S1x128.Idx → EReal)
    = Host.divf (F := Ideal) (W2 m ρ c (Proc.devRef .tc main_v29_1)) (broadcastInDim S1x128 ![] bcast_S_S1x128 (constant (F := Ideal) S_ .f32 0x47C35000#32)) := by
  show StableHlo.after hostOps1 (W2 m ρ c) (Proc.devRef .tc main_v31) = _
  after_results
  try rfl
theorem var_0 : (W3 m ρ c (Proc.devRef .tc main_v35) : S1x128.Idx → EReal)
    = subf (Host.divf (F := Ideal) (W2 m ρ c (Proc.devRef .tc main_v29_2)) (broadcastInDim S1x128 ![] bcast_S_S1x128 (constant (F := Ideal) S_ .f32 0x47C35000#32)))
        (mulf (Host.divf (F := Ideal) (W2 m ρ c (Proc.devRef .tc main_v29_1)) (broadcastInDim S1x128 ![] bcast_S_S1x128 (constant (F := Ideal) S_ .f32 0x47C35000#32)))
              (Host.divf (F := Ideal) (W2 m ρ c (Proc.devRef .tc main_v29_1)) (broadcastInDim S1x128 ![] bcast_S_S1x128 (constant (F := Ideal) S_ .f32 0x47C35000#32)))) := by
  show StableHlo.after hostOps1 (W2 m ρ c) (Proc.devRef .tc main_v35) = _
  after_results
  try rfl
theorem zp_keep_0 : W3 m ρ c (Proc.devRef .tc main_v29_0) = W2 m ρ c (Proc.devRef .tc main_v29_0) := by host_keep

set_option maxHeartbeats 4000000 in
/-- Layer 0: what the second region leaves is the specification's layer of the aggregate. -/
theorem layer0 : W4 m ρ c (Proc.devRef .tc main_v42) = Cert.Gin.layerK (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have hZ : Cert.Gin.zpre (W1 m ρ c (Proc.devRef .tc main_v18)) (W1 m ρ c (Proc.devRef .tc main_v20))
      (fun k : Cert.Gin.SH2.Idx => (W1 m ρ c (Proc.devRef .tc main_v27) : S1x256.Idx → EReal) (ix2 0 (k 0)))
      (W1 m ρ c (Proc.devRef .tc main_v24))
      (fun k : Cert.Gin.SH.Idx => (W1 m ρ c (Proc.devRef .tc main_v28) : S1x128.Idx → EReal) (ix2 0 (k 0)))
      = Cert.Gin.zpre (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 := by
    rw [zin0 m ρ c, w1_0 m ρ c, w2_0 m ρ c]
    exact congrArg₂ (fun b1 b2 => Cert.Gin.zpre _ _ b1 _ b2) (b1_0 m ρ c) (b2_0 m ρ c)
  have hzp : (W2 m ρ c (Proc.devRef .tc main_v29_0) : S100000x128.Idx → EReal) = Cert.Gin.zpre (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 :=
    (W2_arr m ρ c 5).trans ((Cert.KernelIdeal.Mlp0.zpre_eq (V1 m ρ) c).trans hZ)
  have hs : (W2 m ρ c (Proc.devRef .tc main_v29_1) : S1x128.Idx → EReal) = fun i => Cert.Gin.colsum (Cert.Gin.zpre (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) (ix1 (i 1)) :=
    (W2_arr m ρ c 6).trans ((Cert.KernelIdeal.Mlp0.sum_eq (V1 m ρ) c).trans
      (congrArg (fun (Z : Cert.Gin.Arr Cert.Gin.SNH) => fun i : S1x128.Idx => Cert.Gin.colsum Z (ix1 (i 1))) hZ))
  have hss : (W2 m ρ c (Proc.devRef .tc main_v29_2) : S1x128.Idx → EReal) = fun i => Cert.Gin.colsumsq (Cert.Gin.zpre (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) (ix1 (i 1)) :=
    (W2_arr m ρ c 7).trans ((Cert.KernelIdeal.Mlp0.sumsq_eq (V1 m ρ) c).trans
      (congrArg (fun (Z : Cert.Gin.Arr Cert.Gin.SNH) => fun i : S1x128.Idx => Cert.Gin.colsumsq Z (ix1 (i 1))) hZ))
  have hmean : (fun j : Cert.Gin.SH.Idx => (W3 m ρ c (Proc.devRef .tc main_v31) : S1x128.Idx → EReal) (ix2 0 (j 0)))
      = Cert.Gin.mean (Cert.Gin.zpre (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) := by
    rw [mean_0 m ρ c, hs]
    funext j
    exact congrArg (fun q : Cert.Gin.SH.Idx => Ideal.div (Cert.Gin.colsum (Cert.Gin.zpre (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) q) Cert.Gin.cN) (eq_ix1 j).symm
  have hvar : (fun j : Cert.Gin.SH.Idx => (W3 m ρ c (Proc.devRef .tc main_v35) : S1x128.Idx → EReal) (ix2 0 (j 0)))
      = Cert.Gin.varK (Cert.Gin.zpre (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) := by
    rw [var_0 m ρ c, hs, hss]
    funext j
    exact congrArg (fun q : Cert.Gin.SH.Idx => Cert.Gin.varK (Cert.Gin.zpre (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) q) (eq_ix1 j).symm
  refine (W4_arr m ρ c 5).trans ((Cert.KernelIdeal.Bn1.out_eq (V3 m ρ) c).trans ?_)
  unfold Cert.Gin.layerK
  have hzp' : (W3 m ρ c (Proc.devRef .tc main_v29_0) : S100000x128.Idx → EReal) = Cert.Gin.zpre (aggK (srcK (m ((c : Thread nD τ).loc main_arg1))) (dstK (m ((c : Thread nD τ).loc main_arg1))) (embedK (m ((c : Thread nD τ).loc main_arg0)) (m ((c : Thread nD τ).loc main_arg2)) (m ((c : Thread nD τ).loc main_arg3)))) (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 :=
    (zp_keep_0 m ρ c).trans hzp
  exact congr (congr (congr (congr (congrArg Cert.Gin.bnrelu hzp') hmean) hvar) (g_0 m ρ c)) (bt_0 m ρ c)

set_option maxHeartbeats 4000000 in
theorem zin1 : W5 m ρ c (Proc.devRef .tc main_v53) = (aggK (srcK (m ((c : Thread nD τ).loc main_arg1))) (dstK (m ((c : Thread nD τ).loc main_arg1))) (W4 m ρ c (Proc.devRef .tc main_v42))) := by
  rw [← back4_main_v5 m ρ c, ← back4_main_v7 m ρ c]
  show StableHlo.after hostOps2 (W4 m ρ c) (Proc.devRef .tc main_v53) = _
  after_results_simp
  try rfl
theorem w1_1 : W5 m ρ c (Proc.devRef .tc main_v55) = (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 := by
  rw [← back4_main_arg4 m ρ c]
  show StableHlo.after hostOps2 (W4 m ρ c) (Proc.devRef .tc main_v55) = _
  after_results
  rfl
theorem w2_1 : W5 m ρ c (Proc.devRef .tc main_v59) = (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 := by
  rw [← back4_main_arg6 m ρ c]
  show StableHlo.after hostOps2 (W4 m ρ c) (Proc.devRef .tc main_v59) = _
  after_results
  rfl
theorem b1_1 : (fun k : Cert.Gin.SH2.Idx => (W5 m ρ c (Proc.devRef .tc main_v62) : S1x256.Idx → EReal) (ix2 0 (k 0))) = (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 := by
  have e : (W5 m ρ c (Proc.devRef .tc main_v62) : S1x256.Idx → EReal) = shapeCast S1x256 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 shapeCasts_S256_S1x256 := by
    rw [← back4_main_arg5 m ρ c]
    show StableHlo.after hostOps2 (W4 m ρ c) (Proc.devRef .tc main_v62) = _
    after_results
    rfl
  rw [e]; exact row_of_cast _ _
theorem b2_1 : (fun k : Cert.Gin.SH.Idx => (W5 m ρ c (Proc.devRef .tc main_v63) : S1x128.Idx → EReal) (ix2 0 (k 0))) = (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 := by
  have e : (W5 m ρ c (Proc.devRef .tc main_v63) : S1x128.Idx → EReal) = shapeCast S1x128 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 shapeCasts_S128_S1x128 := by
    rw [← back4_main_arg7 m ρ c]
    show StableHlo.after hostOps2 (W4 m ρ c) (Proc.devRef .tc main_v63) = _
    after_results
    rfl
  rw [e]; exact row_of_cast _ _
theorem g_1 : (fun k : Cert.Gin.SH.Idx => (W7 m ρ c (Proc.devRef .tc main_v75) : S1x128.Idx → EReal) (ix2 0 (k 0))) = (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).γ := by
  have e : (W7 m ρ c (Proc.devRef .tc main_v75) : S1x128.Idx → EReal) = shapeCast S1x128 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).γ shapeCasts_S128_S1x128 := by
    rw [← back6_main_arg8 m ρ c]
    show StableHlo.after hostOps3 (W6 m ρ c) (Proc.devRef .tc main_v75) = _
    after_results
    rfl
  rw [e]; exact row_of_cast _ _
theorem bt_1 : (fun k : Cert.Gin.SH.Idx => (W7 m ρ c (Proc.devRef .tc main_v76) : S1x128.Idx → EReal) (ix2 0 (k 0))) = (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).β := by
  have e : (W7 m ρ c (Proc.devRef .tc main_v76) : S1x128.Idx → EReal) = shapeCast S1x128 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).β shapeCasts_S128_S1x128 := by
    rw [← back6_main_arg9 m ρ c]
    show StableHlo.after hostOps3 (W6 m ρ c) (Proc.devRef .tc main_v76) = _
    after_results
    rfl
  rw [e]; exact row_of_cast _ _
/-- The column mean and variance the host computes between the layer's two regions, from the sums the first left. -/
theorem mean_1 : (W7 m ρ c (Proc.devRef .tc main_v66) : S1x128.Idx → EReal)
    = Host.divf (F := Ideal) (W6 m ρ c (Proc.devRef .tc main_v64_1)) (broadcastInDim S1x128 ![] bcast_S_S1x128 (constant (F := Ideal) S_ .f32 0x47C35000#32)) := by
  show StableHlo.after hostOps3 (W6 m ρ c) (Proc.devRef .tc main_v66) = _
  after_results
  try rfl
theorem var_1 : (W7 m ρ c (Proc.devRef .tc main_v70) : S1x128.Idx → EReal)
    = subf (Host.divf (F := Ideal) (W6 m ρ c (Proc.devRef .tc main_v64_2)) (broadcastInDim S1x128 ![] bcast_S_S1x128 (constant (F := Ideal) S_ .f32 0x47C35000#32)))
        (mulf (Host.divf (F := Ideal) (W6 m ρ c (Proc.devRef .tc main_v64_1)) (broadcastInDim S1x128 ![] bcast_S_S1x128 (constant (F := Ideal) S_ .f32 0x47C35000#32)))
              (Host.divf (F := Ideal) (W6 m ρ c (Proc.devRef .tc main_v64_1)) (broadcastInDim S1x128 ![] bcast_S_S1x128 (constant (F := Ideal) S_ .f32 0x47C35000#32)))) := by
  show StableHlo.after hostOps3 (W6 m ρ c) (Proc.devRef .tc main_v70) = _
  after_results
  try rfl
theorem zp_keep_1 : W7 m ρ c (Proc.devRef .tc main_v64_0) = W6 m ρ c (Proc.devRef .tc main_v64_0) := by host_keep

set_option maxHeartbeats 4000000 in
/-- Layer 1: what the second region leaves is the specification's layer of the aggregate. -/
theorem layer1 : W8 m ρ c (Proc.devRef .tc main_v77) = Cert.Gin.layerK (aggK (srcK (m ((c : Thread nD τ).loc main_arg1))) (dstK (m ((c : Thread nD τ).loc main_arg1))) (W4 m ρ c (Proc.devRef .tc main_v42))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have hZ : Cert.Gin.zpre (W5 m ρ c (Proc.devRef .tc main_v53)) (W5 m ρ c (Proc.devRef .tc main_v55))
      (fun k : Cert.Gin.SH2.Idx => (W5 m ρ c (Proc.devRef .tc main_v62) : S1x256.Idx → EReal) (ix2 0 (k 0)))
      (W5 m ρ c (Proc.devRef .tc main_v59))
      (fun k : Cert.Gin.SH.Idx => (W5 m ρ c (Proc.devRef .tc main_v63) : S1x128.Idx → EReal) (ix2 0 (k 0)))
      = Cert.Gin.zpre (aggK (srcK (m ((c : Thread nD τ).loc main_arg1))) (dstK (m ((c : Thread nD τ).loc main_arg1))) (W4 m ρ c (Proc.devRef .tc main_v42))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 := by
    rw [zin1 m ρ c, w1_1 m ρ c, w2_1 m ρ c]
    exact congrArg₂ (fun b1 b2 => Cert.Gin.zpre _ _ b1 _ b2) (b1_1 m ρ c) (b2_1 m ρ c)
  have hzp : (W6 m ρ c (Proc.devRef .tc main_v64_0) : S100000x128.Idx → EReal) = Cert.Gin.zpre (aggK (srcK (m ((c : Thread nD τ).loc main_arg1))) (dstK (m ((c : Thread nD τ).loc main_arg1))) (W4 m ρ c (Proc.devRef .tc main_v42))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 :=
    (W6_arr m ρ c 5).trans ((Cert.KernelIdeal.Mlp2.zpre_eq (V5 m ρ) c).trans hZ)
  have hs : (W6 m ρ c (Proc.devRef .tc main_v64_1) : S1x128.Idx → EReal) = fun i => Cert.Gin.colsum (Cert.Gin.zpre (aggK (srcK (m ((c : Thread nD τ).loc main_arg1))) (dstK (m ((c : Thread nD τ).loc main_arg1))) (W4 m ρ c (Proc.devRef .tc main_v42))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) (ix1 (i 1)) :=
    (W6_arr m ρ c 6).trans ((Cert.KernelIdeal.Mlp2.sum_eq (V5 m ρ) c).trans
      (congrArg (fun (Z : Cert.Gin.Arr Cert.Gin.SNH) => fun i : S1x128.Idx => Cert.Gin.colsum Z (ix1 (i 1))) hZ))
  have hss : (W6 m ρ c (Proc.devRef .tc main_v64_2) : S1x128.Idx → EReal) = fun i => Cert.Gin.colsumsq (Cert.Gin.zpre (aggK (srcK (m ((c : Thread nD τ).loc main_arg1))) (dstK (m ((c : Thread nD τ).loc main_arg1))) (W4 m ρ c (Proc.devRef .tc main_v42))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) (ix1 (i 1)) :=
    (W6_arr m ρ c 7).trans ((Cert.KernelIdeal.Mlp2.sumsq_eq (V5 m ρ) c).trans
      (congrArg (fun (Z : Cert.Gin.Arr Cert.Gin.SNH) => fun i : S1x128.Idx => Cert.Gin.colsumsq Z (ix1 (i 1))) hZ))
  have hmean : (fun j : Cert.Gin.SH.Idx => (W7 m ρ c (Proc.devRef .tc main_v66) : S1x128.Idx → EReal) (ix2 0 (j 0)))
      = Cert.Gin.mean (Cert.Gin.zpre (aggK (srcK (m ((c : Thread nD τ).loc main_arg1))) (dstK (m ((c : Thread nD τ).loc main_arg1))) (W4 m ρ c (Proc.devRef .tc main_v42))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) := by
    rw [mean_1 m ρ c, hs]
    funext j
    exact congrArg (fun q : Cert.Gin.SH.Idx => Ideal.div (Cert.Gin.colsum (Cert.Gin.zpre (aggK (srcK (m ((c : Thread nD τ).loc main_arg1))) (dstK (m ((c : Thread nD τ).loc main_arg1))) (W4 m ρ c (Proc.devRef .tc main_v42))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) q) Cert.Gin.cN) (eq_ix1 j).symm
  have hvar : (fun j : Cert.Gin.SH.Idx => (W7 m ρ c (Proc.devRef .tc main_v70) : S1x128.Idx → EReal) (ix2 0 (j 0)))
      = Cert.Gin.varK (Cert.Gin.zpre (aggK (srcK (m ((c : Thread nD τ).loc main_arg1))) (dstK (m ((c : Thread nD τ).loc main_arg1))) (W4 m ρ c (Proc.devRef .tc main_v42))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) := by
    rw [var_1 m ρ c, hs, hss]
    funext j
    exact congrArg (fun q : Cert.Gin.SH.Idx => Cert.Gin.varK (Cert.Gin.zpre (aggK (srcK (m ((c : Thread nD τ).loc main_arg1))) (dstK (m ((c : Thread nD τ).loc main_arg1))) (W4 m ρ c (Proc.devRef .tc main_v42))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) q) (eq_ix1 j).symm
  refine (W8_arr m ρ c 5).trans ((Cert.KernelIdeal.Bn3.out_eq (V7 m ρ) c).trans ?_)
  unfold Cert.Gin.layerK
  have hzp' : (W7 m ρ c (Proc.devRef .tc main_v64_0) : S100000x128.Idx → EReal) = Cert.Gin.zpre (aggK (srcK (m ((c : Thread nD τ).loc main_arg1))) (dstK (m ((c : Thread nD τ).loc main_arg1))) (W4 m ρ c (Proc.devRef .tc main_v42))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 :=
    (zp_keep_1 m ρ c).trans hzp
  exact congr (congr (congr (congr (congrArg Cert.Gin.bnrelu hzp') hmean) hvar) (g_1 m ρ c)) (bt_1 m ρ c)

set_option maxHeartbeats 4000000 in
theorem zin2 : W9 m ρ c (Proc.devRef .tc main_v88) = (aggK (srcK (m ((c : Thread nD τ).loc main_arg1))) (dstK (m ((c : Thread nD τ).loc main_arg1))) (W8 m ρ c (Proc.devRef .tc main_v77))) := by
  rw [← back8_main_v5 m ρ c, ← back8_main_v7 m ρ c]
  show StableHlo.after hostOps4 (W8 m ρ c) (Proc.devRef .tc main_v88) = _
  after_results_simp
  try rfl
theorem w1_2 : W9 m ρ c (Proc.devRef .tc main_v90) = (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 := by
  rw [← back8_main_arg4 m ρ c]
  show StableHlo.after hostOps4 (W8 m ρ c) (Proc.devRef .tc main_v90) = _
  after_results
  rfl
theorem w2_2 : W9 m ρ c (Proc.devRef .tc main_v94) = (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 := by
  rw [← back8_main_arg6 m ρ c]
  show StableHlo.after hostOps4 (W8 m ρ c) (Proc.devRef .tc main_v94) = _
  after_results
  rfl
theorem b1_2 : (fun k : Cert.Gin.SH2.Idx => (W9 m ρ c (Proc.devRef .tc main_v97) : S1x256.Idx → EReal) (ix2 0 (k 0))) = (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 := by
  have e : (W9 m ρ c (Proc.devRef .tc main_v97) : S1x256.Idx → EReal) = shapeCast S1x256 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 shapeCasts_S256_S1x256 := by
    rw [← back8_main_arg5 m ρ c]
    show StableHlo.after hostOps4 (W8 m ρ c) (Proc.devRef .tc main_v97) = _
    after_results
    rfl
  rw [e]; exact row_of_cast _ _
theorem b2_2 : (fun k : Cert.Gin.SH.Idx => (W9 m ρ c (Proc.devRef .tc main_v98) : S1x128.Idx → EReal) (ix2 0 (k 0))) = (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 := by
  have e : (W9 m ρ c (Proc.devRef .tc main_v98) : S1x128.Idx → EReal) = shapeCast S1x128 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 shapeCasts_S128_S1x128 := by
    rw [← back8_main_arg7 m ρ c]
    show StableHlo.after hostOps4 (W8 m ρ c) (Proc.devRef .tc main_v98) = _
    after_results
    rfl
  rw [e]; exact row_of_cast _ _
theorem g_2 : (fun k : Cert.Gin.SH.Idx => (W11 m ρ c (Proc.devRef .tc main_v110) : S1x128.Idx → EReal) (ix2 0 (k 0))) = (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).γ := by
  have e : (W11 m ρ c (Proc.devRef .tc main_v110) : S1x128.Idx → EReal) = shapeCast S1x128 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).γ shapeCasts_S128_S1x128 := by
    rw [← back10_main_arg8 m ρ c]
    show StableHlo.after hostOps5 (W10 m ρ c) (Proc.devRef .tc main_v110) = _
    after_results
    rfl
  rw [e]; exact row_of_cast _ _
theorem bt_2 : (fun k : Cert.Gin.SH.Idx => (W11 m ρ c (Proc.devRef .tc main_v111) : S1x128.Idx → EReal) (ix2 0 (k 0))) = (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).β := by
  have e : (W11 m ρ c (Proc.devRef .tc main_v111) : S1x128.Idx → EReal) = shapeCast S1x128 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).β shapeCasts_S128_S1x128 := by
    rw [← back10_main_arg9 m ρ c]
    show StableHlo.after hostOps5 (W10 m ρ c) (Proc.devRef .tc main_v111) = _
    after_results
    rfl
  rw [e]; exact row_of_cast _ _
/-- The column mean and variance the host computes between the layer's two regions, from the sums the first left. -/
theorem mean_2 : (W11 m ρ c (Proc.devRef .tc main_v101) : S1x128.Idx → EReal)
    = Host.divf (F := Ideal) (W10 m ρ c (Proc.devRef .tc main_v99_1)) (broadcastInDim S1x128 ![] bcast_S_S1x128 (constant (F := Ideal) S_ .f32 0x47C35000#32)) := by
  show StableHlo.after hostOps5 (W10 m ρ c) (Proc.devRef .tc main_v101) = _
  after_results
  try rfl
theorem var_2 : (W11 m ρ c (Proc.devRef .tc main_v105) : S1x128.Idx → EReal)
    = subf (Host.divf (F := Ideal) (W10 m ρ c (Proc.devRef .tc main_v99_2)) (broadcastInDim S1x128 ![] bcast_S_S1x128 (constant (F := Ideal) S_ .f32 0x47C35000#32)))
        (mulf (Host.divf (F := Ideal) (W10 m ρ c (Proc.devRef .tc main_v99_1)) (broadcastInDim S1x128 ![] bcast_S_S1x128 (constant (F := Ideal) S_ .f32 0x47C35000#32)))
              (Host.divf (F := Ideal) (W10 m ρ c (Proc.devRef .tc main_v99_1)) (broadcastInDim S1x128 ![] bcast_S_S1x128 (constant (F := Ideal) S_ .f32 0x47C35000#32)))) := by
  show StableHlo.after hostOps5 (W10 m ρ c) (Proc.devRef .tc main_v105) = _
  after_results
  try rfl
theorem zp_keep_2 : W11 m ρ c (Proc.devRef .tc main_v99_0) = W10 m ρ c (Proc.devRef .tc main_v99_0) := by host_keep

set_option maxHeartbeats 4000000 in
/-- Layer 2: what the second region leaves is the specification's layer of the aggregate. -/
theorem layer2 : W12 m ρ c (Proc.devRef .tc main_v112) = Cert.Gin.layerK (aggK (srcK (m ((c : Thread nD τ).loc main_arg1))) (dstK (m ((c : Thread nD τ).loc main_arg1))) (W8 m ρ c (Proc.devRef .tc main_v77))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have hZ : Cert.Gin.zpre (W9 m ρ c (Proc.devRef .tc main_v88)) (W9 m ρ c (Proc.devRef .tc main_v90))
      (fun k : Cert.Gin.SH2.Idx => (W9 m ρ c (Proc.devRef .tc main_v97) : S1x256.Idx → EReal) (ix2 0 (k 0)))
      (W9 m ρ c (Proc.devRef .tc main_v94))
      (fun k : Cert.Gin.SH.Idx => (W9 m ρ c (Proc.devRef .tc main_v98) : S1x128.Idx → EReal) (ix2 0 (k 0)))
      = Cert.Gin.zpre (aggK (srcK (m ((c : Thread nD τ).loc main_arg1))) (dstK (m ((c : Thread nD τ).loc main_arg1))) (W8 m ρ c (Proc.devRef .tc main_v77))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 := by
    rw [zin2 m ρ c, w1_2 m ρ c, w2_2 m ρ c]
    exact congrArg₂ (fun b1 b2 => Cert.Gin.zpre _ _ b1 _ b2) (b1_2 m ρ c) (b2_2 m ρ c)
  have hzp : (W10 m ρ c (Proc.devRef .tc main_v99_0) : S100000x128.Idx → EReal) = Cert.Gin.zpre (aggK (srcK (m ((c : Thread nD τ).loc main_arg1))) (dstK (m ((c : Thread nD τ).loc main_arg1))) (W8 m ρ c (Proc.devRef .tc main_v77))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 :=
    (W10_arr m ρ c 5).trans ((Cert.KernelIdeal.Mlp4.zpre_eq (V9 m ρ) c).trans hZ)
  have hs : (W10 m ρ c (Proc.devRef .tc main_v99_1) : S1x128.Idx → EReal) = fun i => Cert.Gin.colsum (Cert.Gin.zpre (aggK (srcK (m ((c : Thread nD τ).loc main_arg1))) (dstK (m ((c : Thread nD τ).loc main_arg1))) (W8 m ρ c (Proc.devRef .tc main_v77))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) (ix1 (i 1)) :=
    (W10_arr m ρ c 6).trans ((Cert.KernelIdeal.Mlp4.sum_eq (V9 m ρ) c).trans
      (congrArg (fun (Z : Cert.Gin.Arr Cert.Gin.SNH) => fun i : S1x128.Idx => Cert.Gin.colsum Z (ix1 (i 1))) hZ))
  have hss : (W10 m ρ c (Proc.devRef .tc main_v99_2) : S1x128.Idx → EReal) = fun i => Cert.Gin.colsumsq (Cert.Gin.zpre (aggK (srcK (m ((c : Thread nD τ).loc main_arg1))) (dstK (m ((c : Thread nD τ).loc main_arg1))) (W8 m ρ c (Proc.devRef .tc main_v77))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) (ix1 (i 1)) :=
    (W10_arr m ρ c 7).trans ((Cert.KernelIdeal.Mlp4.sumsq_eq (V9 m ρ) c).trans
      (congrArg (fun (Z : Cert.Gin.Arr Cert.Gin.SNH) => fun i : S1x128.Idx => Cert.Gin.colsumsq Z (ix1 (i 1))) hZ))
  have hmean : (fun j : Cert.Gin.SH.Idx => (W11 m ρ c (Proc.devRef .tc main_v101) : S1x128.Idx → EReal) (ix2 0 (j 0)))
      = Cert.Gin.mean (Cert.Gin.zpre (aggK (srcK (m ((c : Thread nD τ).loc main_arg1))) (dstK (m ((c : Thread nD τ).loc main_arg1))) (W8 m ρ c (Proc.devRef .tc main_v77))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) := by
    rw [mean_2 m ρ c, hs]
    funext j
    exact congrArg (fun q : Cert.Gin.SH.Idx => Ideal.div (Cert.Gin.colsum (Cert.Gin.zpre (aggK (srcK (m ((c : Thread nD τ).loc main_arg1))) (dstK (m ((c : Thread nD τ).loc main_arg1))) (W8 m ρ c (Proc.devRef .tc main_v77))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) q) Cert.Gin.cN) (eq_ix1 j).symm
  have hvar : (fun j : Cert.Gin.SH.Idx => (W11 m ρ c (Proc.devRef .tc main_v105) : S1x128.Idx → EReal) (ix2 0 (j 0)))
      = Cert.Gin.varK (Cert.Gin.zpre (aggK (srcK (m ((c : Thread nD τ).loc main_arg1))) (dstK (m ((c : Thread nD τ).loc main_arg1))) (W8 m ρ c (Proc.devRef .tc main_v77))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) := by
    rw [var_2 m ρ c, hs, hss]
    funext j
    exact congrArg (fun q : Cert.Gin.SH.Idx => Cert.Gin.varK (Cert.Gin.zpre (aggK (srcK (m ((c : Thread nD τ).loc main_arg1))) (dstK (m ((c : Thread nD τ).loc main_arg1))) (W8 m ρ c (Proc.devRef .tc main_v77))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) q) (eq_ix1 j).symm
  refine (W12_arr m ρ c 5).trans ((Cert.KernelIdeal.Bn5.out_eq (V11 m ρ) c).trans ?_)
  unfold Cert.Gin.layerK
  have hzp' : (W11 m ρ c (Proc.devRef .tc main_v99_0) : S100000x128.Idx → EReal) = Cert.Gin.zpre (aggK (srcK (m ((c : Thread nD τ).loc main_arg1))) (dstK (m ((c : Thread nD τ).loc main_arg1))) (W8 m ρ c (Proc.devRef .tc main_v77))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 :=
    (zp_keep_2 m ρ c).trans hzp
  exact congr (congr (congr (congr (congrArg Cert.Gin.bnrelu hzp') hmean) hvar) (g_2 m ρ c)) (bt_2 m ρ c)

set_option maxHeartbeats 4000000 in
theorem zin3 : W13 m ρ c (Proc.devRef .tc main_v123) = (aggK (srcK (m ((c : Thread nD τ).loc main_arg1))) (dstK (m ((c : Thread nD τ).loc main_arg1))) (W12 m ρ c (Proc.devRef .tc main_v112))) := by
  rw [← back12_main_v5 m ρ c, ← back12_main_v7 m ρ c]
  show StableHlo.after hostOps6 (W12 m ρ c) (Proc.devRef .tc main_v123) = _
  after_results_simp
  try rfl
theorem w1_3 : W13 m ρ c (Proc.devRef .tc main_v125) = (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 := by
  rw [← back12_main_arg4 m ρ c]
  show StableHlo.after hostOps6 (W12 m ρ c) (Proc.devRef .tc main_v125) = _
  after_results
  rfl
theorem w2_3 : W13 m ρ c (Proc.devRef .tc main_v129) = (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 := by
  rw [← back12_main_arg6 m ρ c]
  show StableHlo.after hostOps6 (W12 m ρ c) (Proc.devRef .tc main_v129) = _
  after_results
  rfl
theorem b1_3 : (fun k : Cert.Gin.SH2.Idx => (W13 m ρ c (Proc.devRef .tc main_v132) : S1x256.Idx → EReal) (ix2 0 (k 0))) = (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 := by
  have e : (W13 m ρ c (Proc.devRef .tc main_v132) : S1x256.Idx → EReal) = shapeCast S1x256 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 shapeCasts_S256_S1x256 := by
    rw [← back12_main_arg5 m ρ c]
    show StableHlo.after hostOps6 (W12 m ρ c) (Proc.devRef .tc main_v132) = _
    after_results
    rfl
  rw [e]; exact row_of_cast _ _
theorem b2_3 : (fun k : Cert.Gin.SH.Idx => (W13 m ρ c (Proc.devRef .tc main_v133) : S1x128.Idx → EReal) (ix2 0 (k 0))) = (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 := by
  have e : (W13 m ρ c (Proc.devRef .tc main_v133) : S1x128.Idx → EReal) = shapeCast S1x128 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 shapeCasts_S128_S1x128 := by
    rw [← back12_main_arg7 m ρ c]
    show StableHlo.after hostOps6 (W12 m ρ c) (Proc.devRef .tc main_v133) = _
    after_results
    rfl
  rw [e]; exact row_of_cast _ _
theorem g_3 : (fun k : Cert.Gin.SH.Idx => (W15 m ρ c (Proc.devRef .tc main_v145) : S1x128.Idx → EReal) (ix2 0 (k 0))) = (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).γ := by
  have e : (W15 m ρ c (Proc.devRef .tc main_v145) : S1x128.Idx → EReal) = shapeCast S1x128 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).γ shapeCasts_S128_S1x128 := by
    rw [← back14_main_arg8 m ρ c]
    show StableHlo.after hostOps7 (W14 m ρ c) (Proc.devRef .tc main_v145) = _
    after_results
    rfl
  rw [e]; exact row_of_cast _ _
theorem bt_3 : (fun k : Cert.Gin.SH.Idx => (W15 m ρ c (Proc.devRef .tc main_v146) : S1x128.Idx → EReal) (ix2 0 (k 0))) = (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).β := by
  have e : (W15 m ρ c (Proc.devRef .tc main_v146) : S1x128.Idx → EReal) = shapeCast S1x128 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).β shapeCasts_S128_S1x128 := by
    rw [← back14_main_arg9 m ρ c]
    show StableHlo.after hostOps7 (W14 m ρ c) (Proc.devRef .tc main_v146) = _
    after_results
    rfl
  rw [e]; exact row_of_cast _ _
/-- The column mean and variance the host computes between the layer's two regions, from the sums the first left. -/
theorem mean_3 : (W15 m ρ c (Proc.devRef .tc main_v136) : S1x128.Idx → EReal)
    = Host.divf (F := Ideal) (W14 m ρ c (Proc.devRef .tc main_v134_1)) (broadcastInDim S1x128 ![] bcast_S_S1x128 (constant (F := Ideal) S_ .f32 0x47C35000#32)) := by
  show StableHlo.after hostOps7 (W14 m ρ c) (Proc.devRef .tc main_v136) = _
  after_results
  try rfl
theorem var_3 : (W15 m ρ c (Proc.devRef .tc main_v140) : S1x128.Idx → EReal)
    = subf (Host.divf (F := Ideal) (W14 m ρ c (Proc.devRef .tc main_v134_2)) (broadcastInDim S1x128 ![] bcast_S_S1x128 (constant (F := Ideal) S_ .f32 0x47C35000#32)))
        (mulf (Host.divf (F := Ideal) (W14 m ρ c (Proc.devRef .tc main_v134_1)) (broadcastInDim S1x128 ![] bcast_S_S1x128 (constant (F := Ideal) S_ .f32 0x47C35000#32)))
              (Host.divf (F := Ideal) (W14 m ρ c (Proc.devRef .tc main_v134_1)) (broadcastInDim S1x128 ![] bcast_S_S1x128 (constant (F := Ideal) S_ .f32 0x47C35000#32)))) := by
  show StableHlo.after hostOps7 (W14 m ρ c) (Proc.devRef .tc main_v140) = _
  after_results
  try rfl
theorem zp_keep_3 : W15 m ρ c (Proc.devRef .tc main_v134_0) = W14 m ρ c (Proc.devRef .tc main_v134_0) := by host_keep

set_option maxHeartbeats 4000000 in
/-- Layer 3: what the second region leaves is the specification's layer of the aggregate. -/
theorem layer3 : W16 m ρ c (Proc.devRef .tc main_v147) = Cert.Gin.layerK (aggK (srcK (m ((c : Thread nD τ).loc main_arg1))) (dstK (m ((c : Thread nD τ).loc main_arg1))) (W12 m ρ c (Proc.devRef .tc main_v112))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have hZ : Cert.Gin.zpre (W13 m ρ c (Proc.devRef .tc main_v123)) (W13 m ρ c (Proc.devRef .tc main_v125))
      (fun k : Cert.Gin.SH2.Idx => (W13 m ρ c (Proc.devRef .tc main_v132) : S1x256.Idx → EReal) (ix2 0 (k 0)))
      (W13 m ρ c (Proc.devRef .tc main_v129))
      (fun k : Cert.Gin.SH.Idx => (W13 m ρ c (Proc.devRef .tc main_v133) : S1x128.Idx → EReal) (ix2 0 (k 0)))
      = Cert.Gin.zpre (aggK (srcK (m ((c : Thread nD τ).loc main_arg1))) (dstK (m ((c : Thread nD τ).loc main_arg1))) (W12 m ρ c (Proc.devRef .tc main_v112))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 := by
    rw [zin3 m ρ c, w1_3 m ρ c, w2_3 m ρ c]
    exact congrArg₂ (fun b1 b2 => Cert.Gin.zpre _ _ b1 _ b2) (b1_3 m ρ c) (b2_3 m ρ c)
  have hzp : (W14 m ρ c (Proc.devRef .tc main_v134_0) : S100000x128.Idx → EReal) = Cert.Gin.zpre (aggK (srcK (m ((c : Thread nD τ).loc main_arg1))) (dstK (m ((c : Thread nD τ).loc main_arg1))) (W12 m ρ c (Proc.devRef .tc main_v112))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 :=
    (W14_arr m ρ c 5).trans ((Cert.KernelIdeal.Mlp6.zpre_eq (V13 m ρ) c).trans hZ)
  have hs : (W14 m ρ c (Proc.devRef .tc main_v134_1) : S1x128.Idx → EReal) = fun i => Cert.Gin.colsum (Cert.Gin.zpre (aggK (srcK (m ((c : Thread nD τ).loc main_arg1))) (dstK (m ((c : Thread nD τ).loc main_arg1))) (W12 m ρ c (Proc.devRef .tc main_v112))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) (ix1 (i 1)) :=
    (W14_arr m ρ c 6).trans ((Cert.KernelIdeal.Mlp6.sum_eq (V13 m ρ) c).trans
      (congrArg (fun (Z : Cert.Gin.Arr Cert.Gin.SNH) => fun i : S1x128.Idx => Cert.Gin.colsum Z (ix1 (i 1))) hZ))
  have hss : (W14 m ρ c (Proc.devRef .tc main_v134_2) : S1x128.Idx → EReal) = fun i => Cert.Gin.colsumsq (Cert.Gin.zpre (aggK (srcK (m ((c : Thread nD τ).loc main_arg1))) (dstK (m ((c : Thread nD τ).loc main_arg1))) (W12 m ρ c (Proc.devRef .tc main_v112))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) (ix1 (i 1)) :=
    (W14_arr m ρ c 7).trans ((Cert.KernelIdeal.Mlp6.sumsq_eq (V13 m ρ) c).trans
      (congrArg (fun (Z : Cert.Gin.Arr Cert.Gin.SNH) => fun i : S1x128.Idx => Cert.Gin.colsumsq Z (ix1 (i 1))) hZ))
  have hmean : (fun j : Cert.Gin.SH.Idx => (W15 m ρ c (Proc.devRef .tc main_v136) : S1x128.Idx → EReal) (ix2 0 (j 0)))
      = Cert.Gin.mean (Cert.Gin.zpre (aggK (srcK (m ((c : Thread nD τ).loc main_arg1))) (dstK (m ((c : Thread nD τ).loc main_arg1))) (W12 m ρ c (Proc.devRef .tc main_v112))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) := by
    rw [mean_3 m ρ c, hs]
    funext j
    exact congrArg (fun q : Cert.Gin.SH.Idx => Ideal.div (Cert.Gin.colsum (Cert.Gin.zpre (aggK (srcK (m ((c : Thread nD τ).loc main_arg1))) (dstK (m ((c : Thread nD τ).loc main_arg1))) (W12 m ρ c (Proc.devRef .tc main_v112))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) q) Cert.Gin.cN) (eq_ix1 j).symm
  have hvar : (fun j : Cert.Gin.SH.Idx => (W15 m ρ c (Proc.devRef .tc main_v140) : S1x128.Idx → EReal) (ix2 0 (j 0)))
      = Cert.Gin.varK (Cert.Gin.zpre (aggK (srcK (m ((c : Thread nD τ).loc main_arg1))) (dstK (m ((c : Thread nD τ).loc main_arg1))) (W12 m ρ c (Proc.devRef .tc main_v112))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) := by
    rw [var_3 m ρ c, hs, hss]
    funext j
    exact congrArg (fun q : Cert.Gin.SH.Idx => Cert.Gin.varK (Cert.Gin.zpre (aggK (srcK (m ((c : Thread nD τ).loc main_arg1))) (dstK (m ((c : Thread nD τ).loc main_arg1))) (W12 m ρ c (Proc.devRef .tc main_v112))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2) q) (eq_ix1 j).symm
  refine (W16_arr m ρ c 5).trans ((Cert.KernelIdeal.Bn7.out_eq (V15 m ρ) c).trans ?_)
  unfold Cert.Gin.layerK
  have hzp' : (W15 m ρ c (Proc.devRef .tc main_v134_0) : S100000x128.Idx → EReal) = Cert.Gin.zpre (aggK (srcK (m ((c : Thread nD τ).loc main_arg1))) (dstK (m ((c : Thread nD τ).loc main_arg1))) (W12 m ρ c (Proc.devRef .tc main_v112))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b1 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).W2 (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).b2 :=
    (zp_keep_3 m ρ c).trans hzp
  exact congr (congr (congr (congr (congrArg Cert.Gin.bnrelu hzp') hmean) hvar) (g_3 m ρ c)) (bt_3 m ρ c)

/-- The result buffer after the run: four layers over the aggregation, from the embedded features. -/
theorem value : W16 m ρ c (Proc.devRef .tc main_v147)
    = Cert.Gin.net Cert.Gin.layerK (aggK (srcK (m ((c : Thread nD τ).loc main_arg1))) (dstK (m ((c : Thread nD τ).loc main_arg1))))
        (embedK (m ((c : Thread nD τ).loc main_arg0)) (m ((c : Thread nD τ).loc main_arg2)) (m ((c : Thread nD τ).loc main_arg3)))
        (pK0 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (pK1 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (pK2 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (pK3 (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  unfold Cert.Gin.net
  rw [layer3 m ρ c, layer2 m ρ c, layer1 m ρ c, layer0 m ρ c]

end Cert.KernelIdeal.KValue

end
-- ==== Proof.RefOps.lean ====
/- The reference program's @main as lists of its host operations, in order: every statement of the printed windows
   `main_part0` … `main_part4` is one entry, and a call of a module-local function is that function's statements
   written out in its place over the call's printed record of buffers (the function's parameters replaced by the
   operands, `φ` by the record) — @_var's inner call of @_where over the record's `call0`. The lists are cut where
   a reader wants to stop: after the embedding and the index rows, and after each layer's final clamp; a layer is
   cut once more where a printed window ends, so that every window is a concatenation of whole lists. -/
import proofs.«155226_j39831526703451_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The embedding and the two index rows: `h₀ = x · W_emb + b_emb` (%0–%3), then the source row (%4–%5) and the
    destination row (%6–%7) of the edge table. (8 operations.) -/
abbrev opsE : List (HloOp τ sig (Elt F)) :=
  [ StableHlo.binary main_arg0 main_arg2 main_v0 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),   -- %0 = stablehlo.dot_general %arg0, %arg2, contracting_dims = [1] x [0], precision = [DEFAULT, DEFAULT]
    StableHlo.unary main_arg3 main_v1 (broadcastInDim S1x128 ![1] bcast_S128_S1x128_1 : (⟨S128, .f32⟩ : BufTy).Contents (Elt F) → (⟨S1x128, .f32⟩ : BufTy).Contents (Elt F)),   -- %1 = stablehlo.broadcast_in_dim %arg3, dims = [1]
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),   -- %2 = stablehlo.broadcast_in_dim %1, dims = [0, 1]
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),   -- %3 = stablehlo.add %0, %2
    StableHlo.unary main_arg1 main_v4 ((extractStridedSlice S1x400000 ![0, 0] · slices_S2x400000_S1x400000_0_0) : (⟨S2x400000, .i32⟩ : BufTy).Contents (Elt F) → (⟨S1x400000, .i32⟩ : BufTy).Contents (Elt F)),   -- %4 = stablehlo.slice %arg1 [0:1, 0:400000]
    StableHlo.reshape main_v4 main_v5 rfl shapeCasts_S1x400000_S400000,   -- %5 = stablehlo.reshape %4
    StableHlo.unary main_arg1 main_v6 ((extractStridedSlice S1x400000 ![1, 0] · slices_S2x400000_S1x400000_1_0) : (⟨S2x400000, .i32⟩ : BufTy).Contents (Elt F) → (⟨S1x400000, .i32⟩ : BufTy).Contents (Elt F)),   -- %6 = stablehlo.slice %arg1 [1:2, 0:400000]
    StableHlo.reshape main_v6 main_v7 rfl shapeCasts_S1x400000_S400000 ]   -- %7 = stablehlo.reshape %6

/-- Layer 0, first part: the aggregate `z = h + Σ_{e : dst e = ·} h[src e]` (%8–%18), the perceptron
    `y = max (z · W1 + b1) 0 · W2 + b2` (%19–%35), the column mean (%36–%38), the column variance as the mean squared
    deviation (the call writing %39), and the normalisation up to the broadcast of the scale row (%40–%52). (75 operations.) -/
abbrev opsL0a : List (HloOp τ sig (Elt F)) :=
  [ StableHlo.nullary main_c (constantI S_ 32 0#32),   -- %c = stablehlo.constant dense<0>
    StableHlo.unary main_c main_v8 (broadcastInDim S400000 ![] bcast_S_S400000 : (⟨S_, .i32⟩ : BufTy).Contents (Elt F) → (⟨S400000, .i32⟩ : BufTy).Contents (Elt F)),   -- %8 = stablehlo.broadcast_in_dim %c, dims = []
    StableHlo.binary main_v5 main_v8 main_v9 (cmpi .slt : (⟨S400000, .i32⟩ : BufTy).Contents (Elt F) → (⟨S400000, .i32⟩ : BufTy).Contents (Elt F) → (⟨S400000, .i1⟩ : BufTy).Contents (Elt F)),   -- %9 = stablehlo.compare LT, %5, %8, SIGNED
    StableHlo.nullary main_c_0 (constantI S_ 32 100000#32),   -- %c_0 = stablehlo.constant dense<100000>
    StableHlo.unary main_c_0 main_v10 (broadcastInDim S400000 ![] bcast_S_S400000 : (⟨S_, .i32⟩ : BufTy).Contents (Elt F) → (⟨S400000, .i32⟩ : BufTy).Contents (Elt F)),   -- %10 = stablehlo.broadcast_in_dim %c_0, dims = []
    StableHlo.binary main_v5 main_v10 main_v11 (addi : (⟨S400000, .i32⟩ : BufTy).Contents (Elt F) → (⟨S400000, .i32⟩ : BufTy).Contents (Elt F) → (⟨S400000, .i32⟩ : BufTy).Contents (Elt F)),   -- %11 = stablehlo.add %5, %10
    StableHlo.ternary main_v9 main_v11 main_v5 main_v12 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),   -- %12 = stablehlo.select %9, %11, %5
    StableHlo.unary main_v12 main_v13 (broadcastInDim S400000x1 ![0] bcast_S400000_S400000x1_0 : (⟨S400000, .i32⟩ : BufTy).Contents (Elt F) → (⟨S400000x1, .i32⟩ : BufTy).Contents (Elt F)),   -- %13 = stablehlo.broadcast_in_dim %12, dims = [0]
    StableHlo.binary main_v3 main_v13 main_v14 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),   -- %14 = "stablehlo.gather"(%3, %13)
    StableHlo.nullary main_cst (constant S_ .f32 0x00000000#32),   -- %cst = stablehlo.constant dense<0.000000e+00>
    StableHlo.unary main_cst main_v15 (broadcastInDim S100000x128 ![] bcast_S_S100000x128 : (⟨S_, .f32⟩ : BufTy).Contents (Elt F) → (⟨S100000x128, .f32⟩ : BufTy).Contents (Elt F)),   -- %15 = stablehlo.broadcast_in_dim %cst, dims = []
    StableHlo.unary main_v7 main_v16 (broadcastInDim S400000x1 ![0] bcast_S400000_S400000x1_0 : (⟨S400000, .i32⟩ : BufTy).Contents (Elt F) → (⟨S400000x1, .i32⟩ : BufTy).Contents (Elt F)),   -- %16 = stablehlo.broadcast_in_dim %7, dims = [0]
    StableHlo.ternary main_v15 main_v16 main_v14 main_v17 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),   -- %17 = "stablehlo.scatter"(%15, %16, %14)
    StableHlo.binary main_v3 main_v17 main_v18 (addf : (⟨S100000x128, .f32⟩ : BufTy).Contents (Elt F) → (⟨S100000x128, .f32⟩ : BufTy).Contents (Elt F) → (⟨S100000x128, .f32⟩ : BufTy).Contents (Elt F)),   -- %18 = stablehlo.add %3, %17
    StableHlo.unary main_arg4 main_v19 ((extractStridedSlice S1x128x256 ![0, 0, 0] · slices_S4x128x256_S1x128x256_0_0_0) : (⟨S4x128x256, .f32⟩ : BufTy).Contents (Elt F) → (⟨S1x128x256, .f32⟩ : BufTy).Contents (Elt F)),   -- %19 = stablehlo.slice %arg4 [0:1, 0:128, 0:256]
    StableHlo.reshape main_v19 main_v20 rfl shapeCasts_S1x128x256_S128x256,   -- %20 = stablehlo.reshape %19
    StableHlo.binary main_v18 main_v20 main_v21 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),   -- %21 = stablehlo.dot_general %18, %20, contracting_dims = [1] x [0], precision = [DEFAULT, DEFAULT]
    StableHlo.unary main_arg5 main_v22 ((extractStridedSlice S1x256 ![0, 0] · slices_S4x256_S1x256_0_0) : (⟨S4x256, .f32⟩ : BufTy).Contents (Elt F) → (⟨S1x256, .f32⟩ : BufTy).Contents (Elt F)),   -- %22 = stablehlo.slice %arg5 [0:1, 0:256]
    StableHlo.reshape main_v22 main_v23 rfl shapeCasts_S1x256_S256,   -- %23 = stablehlo.reshape %22
    StableHlo.unary main_v23 main_v24 (broadcastInDim S1x256 ![1] bcast_S256_S1x256_1 : (⟨S256, .f32⟩ : BufTy).Contents (Elt F) → (⟨S1x256, .f32⟩ : BufTy).Contents (Elt F)),   -- %24 = stablehlo.broadcast_in_dim %23, dims = [1]
    StableHlo.unary main_v24 main_v25 (broadcastInDim S100000x256 ![0, 1] bcast_S1x256_S100000x256_0_1 : (⟨S1x256, .f32⟩ : BufTy).Contents (Elt F) → (⟨S100000x256, .f32⟩ : BufTy).Contents (Elt F)),   -- %25 = stablehlo.broadcast_in_dim %24, dims = [0, 1]
    StableHlo.binary main_v21 main_v25 main_v26 (addf : (⟨S100000x256, .f32⟩ : BufTy).Contents (Elt F) → (⟨S100000x256, .f32⟩ : BufTy).Contents (Elt F) → (⟨S100000x256, .f32⟩ : BufTy).Contents (Elt F)),   -- %26 = stablehlo.add %21, %25
    StableHlo.TRef.nullary main_call0.cst (constant S_ .f32 0x00000000#32),   -- @relu's %cst = stablehlo.constant dense<0.000000e+00>
    StableHlo.TRef.unary main_call0.cst main_call0.v0 (broadcastInDim S100000x256 ![] bcast_S_S100000x256),   -- @relu's %0 = stablehlo.broadcast_in_dim %cst, dims = []
    StableHlo.TRef.binary (.of main_v26 : StableHlo.TRef sig ⟨S100000x256, .f32⟩) main_call0.v0 main_call0.v1 maximumf,   -- @relu's %1 = stablehlo.maximum %arg0, %0
    StableHlo.unary main_arg6 main_v28 ((extractStridedSlice S1x256x128 ![0, 0, 0] · slices_S4x256x128_S1x256x128_0_0_0) : (⟨S4x256x128, .f32⟩ : BufTy).Contents (Elt F) → (⟨S1x256x128, .f32⟩ : BufTy).Contents (Elt F)),   -- %28 = stablehlo.slice %arg6 [0:1, 0:256, 0:128]
    StableHlo.reshape main_v28 main_v29 rfl shapeCasts_S1x256x128_S256x128,   -- %29 = stablehlo.reshape %28
    StableHlo.binary main_v27 main_v29 main_v30 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),   -- %30 = stablehlo.dot_general %27, %29, contracting_dims = [1] x [0], precision = [DEFAULT, DEFAULT]
    StableHlo.unary main_arg7 main_v31 ((extractStridedSlice S1x128 ![0, 0] · slices_S4x128_S1x128_0_0) : (⟨S4x128, .f32⟩ : BufTy).Contents (Elt F) → (⟨S1x128, .f32⟩ : BufTy).Contents (Elt F)),   -- %31 = stablehlo.slice %arg7 [0:1, 0:128]
    StableHlo.reshape main_v31 main_v32 rfl shapeCasts_S1x128_S128,   -- %32 = stablehlo.reshape %31
    StableHlo.unary main_v32 main_v33 (broadcastInDim S1x128 ![1] bcast_S128_S1x128_1 : (⟨S128, .f32⟩ : BufTy).Contents (Elt F) → (⟨S1x128, .f32⟩ : BufTy).Contents (Elt F)),   -- %33 = stablehlo.broadcast_in_dim %32, dims = [1]
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),   -- %34 = stablehlo.broadcast_in_dim %33, dims = [0, 1]
    StableHlo.binary main_v30 main_v34 main_v35 (addf : (⟨S100000x128, .f32⟩ : BufTy).Contents (Elt F) → (⟨S100000x128, .f32⟩ : BufTy).Contents (Elt F) → (⟨S100000x128, .f32⟩ : BufTy).Contents (Elt F)),   -- %35 = stablehlo.add %30, %34
    StableHlo.nullary main_cst_1 (constant S_ .f32 0x00000000#32),   -- %cst_1 = stablehlo.constant dense<0.000000e+00>
    StableHlo.binary main_v35 main_cst_1 main_v36 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),   -- %36 = stablehlo.reduce(%35 init: %cst_1) applies stablehlo.add across dimensions = [0]
    StableHlo.nullary main_cst_2 (constant S_ .f32 0x47C35000#32),   -- %cst_2 = stablehlo.constant dense<1.000000e+05>
    StableHlo.unary main_cst_2 main_v37 (broadcastInDim S128 ![] bcast_S_S128 : (⟨S_, .f32⟩ : BufTy).Contents (Elt F) → (⟨S128, .f32⟩ : BufTy).Contents (Elt F)),   -- %37 = stablehlo.broadcast_in_dim %cst_2, dims = []
    StableHlo.binary main_v36 main_v37 main_v38 (Host.divf : (⟨S128, .f32⟩ : BufTy).Contents (Elt F) → (⟨S128, .f32⟩ : BufTy).Contents (Elt F) → (⟨S128, .f32⟩ : BufTy).Contents (Elt F)),   -- %38 = stablehlo.divide %36, %37
    StableHlo.nullary main_c_3 (constantI S_ 32 0#32),   -- %c_3 = stablehlo.constant dense<0>
    StableHlo.TRef.nullary main_call1.cst (constant S_ .f32 0x00000000#32),   -- @_var's %cst = stablehlo.constant dense<0.000000e+00>
    StableHlo.TRef.binary (.of main_v35 : StableHlo.TRef sig ⟨S100000x128, .f32⟩) main_call1.cst main_call1.v0 (fun x v => Host.reduceAdd x v reducesTo_S100000x128_S128_d0 h_S_),   -- @_var's %0 = stablehlo.reduce(%arg0 init: %cst) applies stablehlo.add across dimensions = [0]
    StableHlo.TRef.unary main_call1.v0 main_call1.v1 (broadcastInDim S1x128 ![1] bcast_S128_S1x128_1),   -- @_var's %1 = stablehlo.broadcast_in_dim %0, dims = [1]
    StableHlo.TRef.nullary main_call1.cst_0 (constant S_ .f32 0x47C35000#32),   -- @_var's %cst_0 = stablehlo.constant dense<1.000000e+05>
    StableHlo.TRef.unary main_call1.cst_0 main_call1.v2 (broadcastInDim S1x128 ![] bcast_S_S1x128),   -- @_var's %2 = stablehlo.broadcast_in_dim %cst_0, dims = []
    StableHlo.TRef.binary main_call1.v1 main_call1.v2 main_call1.v3 Host.divf,   -- @_var's %3 = stablehlo.divide %1, %2
    StableHlo.TRef.unary main_call1.v3 main_call1.v4 (broadcastInDim S100000x128 ![0, 1] bcast_S1x128_S100000x128_0_1),   -- @_var's %4 = stablehlo.broadcast_in_dim %3, dims = [0, 1]
    StableHlo.TRef.binary (.of main_v35 : StableHlo.TRef sig ⟨S100000x128, .f32⟩) main_call1.v4 main_call1.v5 subf,   -- @_var's %5 = stablehlo.subtract %arg0, %4
    StableHlo.TRef.binary main_call1.v5 main_call1.v5 main_call1.v6 mulf,   -- @_var's %6 = chlo.square %5
    StableHlo.TRef.unary (.of main_c_3 : StableHlo.TRef sig ⟨S_, .i32⟩) main_call1.v7 (sitofp .f32),   -- @_var's %7 = stablehlo.convert %arg1
    StableHlo.TRef.nullary main_call1.cst_1 (constant S_ .f32 0x47C35000#32),   -- @_var's %cst_1 = stablehlo.constant dense<1.000000e+05>
    StableHlo.TRef.binary main_call1.cst_1 main_call1.v7 main_call1.v8 subf,   -- @_var's %8 = stablehlo.subtract %cst_1, %7
    StableHlo.TRef.nullary main_call1.cst_2 (constant S_ .f32 0x00000000#32),   -- @_var's %cst_2 = stablehlo.constant dense<0.000000e+00>
    StableHlo.TRef.binary main_call1.v6 main_call1.cst_2 main_call1.v9 (fun x v => Host.reduceAdd x v reducesTo_S100000x128_S128_d0 h_S_),   -- @_var's %9 = stablehlo.reduce(%6 init: %cst_2) applies stablehlo.add across dimensions = [0]
    StableHlo.TRef.unary main_call1.v8 main_call1.v10 (broadcastInDim S128 ![] bcast_S_S128),   -- @_var's %10 = stablehlo.broadcast_in_dim %8, dims = []
    StableHlo.TRef.binary main_call1.v9 main_call1.v10 main_call1.v11 Host.divf,   -- @_var's %11 = stablehlo.divide %9, %10
    StableHlo.TRef.nullary main_call1.cst_3 (constant S_ .f32 0x00000000#32),   -- @_var's %cst_3 = stablehlo.constant dense<0.000000e+00>
    StableHlo.TRef.binary main_call1.v8 main_call1.cst_3 main_call1.v12 (cmpf .ogt),   -- @_var's %12 = stablehlo.compare GT, %8, %cst_3, FLOAT
    StableHlo.TRef.nullary main_call1.cst_4 (constant S_ .f32 0x7FC00000#32),   -- @_var's %cst_4 = stablehlo.constant dense<0x7FC00000>
    StableHlo.TRef.unary main_call1.cst_4 main_call1.call0.v0 id,   -- @_var's @_where's %0 = stablehlo.convert %arg2
    StableHlo.TRef.unary main_call1.call0.v0 main_call1.call0.v1 (broadcastInDim S128 ![] bcast_S_S128),   -- @_var's @_where's %1 = stablehlo.broadcast_in_dim %0, dims = []
    StableHlo.TRef.ternary main_call1.v12 main_call1.v11 main_call1.call0.v1 main_call1.call0.v2 (fun p a b => select (broadcastInDim S128 ![] bcast_S_S128 p) a b),   -- @_var's @_where's %2 = stablehlo.select %arg0, %arg1, %1
    StableHlo.unary main_v38 main_v40 (broadcastInDim S1x128 ![1] bcast_S128_S1x128_1 : (⟨S128, .f32⟩ : BufTy).Contents (Elt F) → (⟨S1x128, .f32⟩ : BufTy).Contents (Elt F)),   -- %40 = stablehlo.broadcast_in_dim %38, dims = [1]
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),   -- %41 = stablehlo.broadcast_in_dim %40, dims = [0, 1]
    StableHlo.binary main_v35 main_v41 main_v42 (subf : (⟨S100000x128, .f32⟩ : BufTy).Contents (Elt F) → (⟨S100000x128, .f32⟩ : BufTy).Contents (Elt F) → (⟨S100000x128, .f32⟩ : BufTy).Contents (Elt F)),   -- %42 = stablehlo.subtract %35, %41
    StableHlo.nullary main_cst_4 (constant S_ .f32 0x3727C5AC#32),   -- %cst_4 = stablehlo.constant dense<9.99999974E-6>
    StableHlo.unary main_cst_4 main_v43 (broadcastInDim S128 ![] bcast_S_S128 : (⟨S_, .f32⟩ : BufTy).Contents (Elt F) → (⟨S128, .f32⟩ : BufTy).Contents (Elt F)),   -- %43 = stablehlo.broadcast_in_dim %cst_4, dims = []
    StableHlo.binary main_v39 main_v43 main_v44 (addf : (⟨S128, .f32⟩ : BufTy).Contents (Elt F) → (⟨S128, .f32⟩ : BufTy).Contents (Elt F) → (⟨S128, .f32⟩ : BufTy).Contents (Elt F)),   -- %44 = stablehlo.add %39, %43
    StableHlo.unary main_v44 main_v45 (Host.rsqrt : (⟨S128, .f32⟩ : BufTy).Contents (Elt F) → (⟨S128, .f32⟩ : BufTy).Contents (Elt F)),   -- %45 = stablehlo.rsqrt %44
    StableHlo.unary main_v45 main_v46 (broadcastInDim S1x128 ![1] bcast_S128_S1x128_1 : (⟨S128, .f32⟩ : BufTy).Contents (Elt F) → (⟨S1x128, .f32⟩ : BufTy).Contents (Elt F)),   -- %46 = stablehlo.broadcast_in_dim %45, dims = [1]
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),   -- %47 = stablehlo.broadcast_in_dim %46, dims = [0, 1]
    StableHlo.binary main_v42 main_v47 main_v48 (mulf : (⟨S100000x128, .f32⟩ : BufTy).Contents (Elt F) → (⟨S100000x128, .f32⟩ : BufTy).Contents (Elt F) → (⟨S100000x128, .f32⟩ : BufTy).Contents (Elt F)),   -- %48 = stablehlo.multiply %42, %47
    StableHlo.unary main_arg8 main_v49 ((extractStridedSlice S1x128 ![0, 0] · slices_S4x128_S1x128_0_0) : (⟨S4x128, .f32⟩ : BufTy).Contents (Elt F) → (⟨S1x128, .f32⟩ : BufTy).Contents (Elt F)),   -- %49 = stablehlo.slice %arg8 [0:1, 0:128]
    StableHlo.reshape main_v49 main_v50 rfl shapeCasts_S1x128_S128,   -- %50 = stablehlo.reshape %49
    StableHlo.unary main_v50 main_v51 (broadcastInDim S1x128 ![1] bcast_S128_S1x128_1 : (⟨S128, .f32⟩ : BufTy).Contents (Elt F) → (⟨S1x128, .f32⟩ : BufTy).Contents (Elt F)),   -- %51 = stablehlo.broadcast_in_dim %50, dims = [1]
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)) ]   -- %52 = stablehlo.broadcast_in_dim %51, dims = [0, 1]

/-- Layer 0, second part: the scale, the shift (%53–%58) and the clamp at zero (the call writing %59). (9 operations.) -/
abbrev opsL0b : List (HloOp τ sig (Elt F)) :=
  [ StableHlo.binary main_v48 main_v52 main_v53 (mulf : (⟨S100000x128, .f32⟩ : BufTy).Contents (Elt F) → (⟨S100000x128, .f32⟩ : BufTy).Contents (Elt F) → (⟨S100000x128, .f32⟩ : BufTy).Contents (Elt F)),   -- %53 = stablehlo.multiply %48, %52
    StableHlo.unary main_arg9 main_v54 ((extractStridedSlice S1x128 ![0, 0] · slices_S4x128_S1x128_0_0) : (⟨S4x128, .f32⟩ : BufTy).Contents (Elt F) → (⟨S1x128, .f32⟩ : BufTy).Contents (Elt F)),   -- %54 = stablehlo.slice %arg9 [0:1, 0:128]
    StableHlo.reshape main_v54 main_v55 rfl shapeCasts_S1x128_S128,   -- %55 = stablehlo.reshape %54
    StableHlo.unary main_v55 main_v56 (broadcastInDim S1x128 ![1] bcast_S128_S1x128_1 : (⟨S128, .f32⟩ : BufTy).Contents (Elt F) → (⟨S1x128, .f32⟩ : BufTy).Contents (Elt F)),   -- %56 = stablehlo.broadcast_in_dim %55, dims = [1]
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),   -- %57 = stablehlo.broadcast_in_dim %56, dims = [0, 1]
    StableHlo.binary main_v53 main_v57 main_v58 (addf : (⟨S100000x128, .f32⟩ : BufTy).Contents (Elt F) → (⟨S100000x128, .f32⟩ : BufTy).Contents (Elt F) → (⟨S100000x128, .f32⟩ : BufTy).Contents (Elt F)),   -- %58 = stablehlo.add %53, %57
    StableHlo.TRef.nullary main_call2.cst (constant S_ .f32 0x00000000#32),   -- @relu_0's %cst = stablehlo.constant dense<0.000000e+00>
    StableHlo.TRef.unary main_call2.cst main_call2.v0 (broadcastInDim S100000x128 ![] bcast_S_S100000x128),   -- @relu_0's %0 = stablehlo.broadcast_in_dim %cst, dims = []
    StableHlo.TRef.binary (.of main_v58 : StableHlo.TRef sig ⟨S100000x128, .f32⟩) main_call2.v0 main_call2.v1 maximumf ]   -- @relu_0's %1 = stablehlo.maximum %arg0, %0

/-- Layer 1, first part: as layer 0's, from %59: aggregate (%60–%70), perceptron (%71–%87), mean (%88–%90),
    variance (the call writing %91), normalisation up to the product with the scale row (%92–%105). (76 operations.) -/
abbrev opsL1a : List (HloOp τ sig (Elt F)) :=
  [ StableHlo.nullary main_c_5 (constantI S_ 32 0#32),   -- %c_5 = stablehlo.constant dense<0>
    StableHlo.unary main_c_5 main_v60 (broadcastInDim S400000 ![] bcast_S_S400000 : (⟨S_, .i32⟩ : BufTy).Contents (Elt F) → (⟨S400000, .i32⟩ : BufTy).Contents (Elt F)),   -- %60 = stablehlo.broadcast_in_dim %c_5, dims = []
    StableHlo.binary main_v5 main_v60 main_v61 (cmpi .slt : (⟨S400000, .i32⟩ : BufTy).Contents (Elt F) → (⟨S400000, .i32⟩ : BufTy).Contents (Elt F) → (⟨S400000, .i1⟩ : BufTy).Contents (Elt F)),   -- %61 = stablehlo.compare LT, %5, %60, SIGNED
    StableHlo.nullary main_c_6 (constantI S_ 32 100000#32),   -- %c_6 = stablehlo.constant dense<100000>
    StableHlo.unary main_c_6 main_v62 (broadcastInDim S400000 ![] bcast_S_S400000 : (⟨S_, .i32⟩ : BufTy).Contents (Elt F) → (⟨S400000, .i32⟩ : BufTy).Contents (Elt F)),   -- %62 = stablehlo.broadcast_in_dim %c_6, dims = []
    StableHlo.binary main_v5 main_v62 main_v63 (addi : (⟨S400000, .i32⟩ : BufTy).Contents (Elt F) → (⟨S400000, .i32⟩ : BufTy).Contents (Elt F) → (⟨S400000, .i32⟩ : BufTy).Contents (Elt F)),   -- %63 = stablehlo.add %5, %62
    StableHlo.ternary main_v61 main_v63 main_v5 main_v64 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),   -- %64 = stablehlo.select %61, %63, %5
    StableHlo.unary main_v64 main_v65 (broadcastInDim S400000x1 ![0] bcast_S400000_S400000x1_0 : (⟨S400000, .i32⟩ : BufTy).Contents (Elt F) → (⟨S400000x1, .i32⟩ : BufTy).Contents (Elt F)),   -- %65 = stablehlo.broadcast_in_dim %64, dims = [0]
    StableHlo.binary main_v59 main_v65 main_v66 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),   -- %66 = "stablehlo.gather"(%59, %65)
    StableHlo.nullary main_cst_7 (constant S_ .f32 0x00000000#32),   -- %cst_7 = stablehlo.constant dense<0.000000e+00>
    StableHlo.unary main_cst_7 main_v67 (broadcastInDim S100000x128 ![] bcast_S_S100000x128 : (⟨S_, .f32⟩ : BufTy).Contents (Elt F) → (⟨S100000x128, .f32⟩ : BufTy).Contents (Elt F)),   -- %67 = stablehlo.broadcast_in_dim %cst_7, dims = []
    StableHlo.unary main_v7 main_v68 (broadcastInDim S400000x1 ![0] bcast_S400000_S400000x1_0 : (⟨S400000, .i32⟩ : BufTy).Contents (Elt F) → (⟨S400000x1, .i32⟩ : BufTy).Contents (Elt F)),   -- %68 = stablehlo.broadcast_in_dim %7, dims = [0]
    StableHlo.ternary main_v67 main_v68 main_v66 main_v69 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),   -- %69 = "stablehlo.scatter"(%67, %68, %66)
    StableHlo.binary main_v59 main_v69 main_v70 (addf : (⟨S100000x128, .f32⟩ : BufTy).Contents (Elt F) → (⟨S100000x128, .f32⟩ : BufTy).Contents (Elt F) → (⟨S100000x128, .f32⟩ : BufTy).Contents (Elt F)),   -- %70 = stablehlo.add %59, %69
    StableHlo.unary main_arg4 main_v71 ((extractStridedSlice S1x128x256 ![1, 0, 0] · slices_S4x128x256_S1x128x256_1_0_0) : (⟨S4x128x256, .f32⟩ : BufTy).Contents (Elt F) → (⟨S1x128x256, .f32⟩ : BufTy).Contents (Elt F)),   -- %71 = stablehlo.slice %arg4 [1:2, 0:128, 0:256]
    StableHlo.reshape main_v71 main_v72 rfl shapeCasts_S1x128x256_S128x256,   -- %72 = stablehlo.reshape %71
    StableHlo.binary main_v70 main_v72 main_v73 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),   -- %73 = stablehlo.dot_general %70, %72, contracting_dims = [1] x [0], precision = [DEFAULT, DEFAULT]
    StableHlo.unary main_arg5 main_v74 ((extractStridedSlice S1x256 ![1, 0] · slices_S4x256_S1x256_1_0) : (⟨S4x256, .f32⟩ : BufTy).Contents (Elt F) → (⟨S1x256, .f32⟩ : BufTy).Contents (Elt F)),   -- %74 = stablehlo.slice %arg5 [1:2, 0:256]
    StableHlo.reshape main_v74 main_v75 rfl shapeCasts_S1x256_S256,   -- %75 = stablehlo.reshape %74
    StableHlo.unary main_v75 main_v76 (broadcastInDim S1x256 ![1] bcast_S256_S1x256_1 : (⟨S256, .f32⟩ : BufTy).Contents (Elt F) → (⟨S1x256, .f32⟩ : BufTy).Contents (Elt F)),   -- %76 = stablehlo.broadcast_in_dim %75, dims = [1]
    StableHlo.unary main_v76 main_v77 (broadcastInDim S100000x256 ![0, 1] bcast_S1x256_S100000x256_0_1 : (⟨S1x256, .f32⟩ : BufTy).Contents (Elt F) → (⟨S100000x256, .f32⟩ : BufTy).Contents (Elt F)),   -- %77 = stablehlo.broadcast_in_dim %76, dims = [0, 1]
    StableHlo.binary main_v73 main_v77 main_v78 (addf : (⟨S100000x256, .f32⟩ : BufTy).Contents (Elt F) → (⟨S100000x256, .f32⟩ : BufTy).Contents (Elt F) → (⟨S100000x256, .f32⟩ : BufTy).Contents (Elt F)),   -- %78 = stablehlo.add %73, %77
    StableHlo.TRef.nullary main_call3.cst (constant S_ .f32 0x00000000#32),   -- @relu's %cst = stablehlo.constant dense<0.000000e+00>
    StableHlo.TRef.unary main_call3.cst main_call3.v0 (broadcastInDim S100000x256 ![] bcast_S_S100000x256),   -- @relu's %0 = stablehlo.broadcast_in_dim %cst, dims = []
    StableHlo.TRef.binary (.of main_v78 : StableHlo.TRef sig ⟨S100000x256, .f32⟩) main_call3.v0 main_call3.v1 maximumf,   -- @relu's %1 = stablehlo.maximum %arg0, %0
    StableHlo.unary main_arg6 main_v80 ((extractStridedSlice S1x256x128 ![1, 0, 0] · slices_S4x256x128_S1x256x128_1_0_0) : (⟨S4x256x128, .f32⟩ : BufTy).Contents (Elt F) → (⟨S1x256x128, .f32⟩ : BufTy).Contents (Elt F)),   -- %80 = stablehlo.slice %arg6 [1:2, 0:256, 0:128]
    StableHlo.reshape main_v80 main_v81 rfl shapeCasts_S1x256x128_S256x128,   -- %81 = stablehlo.reshape %80
    StableHlo.binary main_v79 main_v81 main_v82 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),   -- %82 = stablehlo.dot_general %79, %81, contracting_dims = [1] x [0], precision = [DEFAULT, DEFAULT]
    StableHlo.unary main_arg7 main_v83 ((extractStridedSlice S1x128 ![1, 0] · slices_S4x128_S1x128_1_0) : (⟨S4x128, .f32⟩ : BufTy).Contents (Elt F) → (⟨S1x128, .f32⟩ : BufTy).Contents (Elt F)),   -- %83 = stablehlo.slice %arg7 [1:2, 0:128]
    StableHlo.reshape main_v83 main_v84 rfl shapeCasts_S1x128_S128,   -- %84 = stablehlo.reshape %83
    StableHlo.unary main_v84 main_v85 (broadcastInDim S1x128 ![1] bcast_S128_S1x128_1 : (⟨S128, .f32⟩ : BufTy).Contents (Elt F) → (⟨S1x128, .f32⟩ : BufTy).Contents (Elt F)),   -- %85 = stablehlo.broadcast_in_dim %84, dims = [1]
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),   -- %86 = stablehlo.broadcast_in_dim %85, dims = [0, 1]
    StableHlo.binary main_v82 main_v86 main_v87 (addf : (⟨S100000x128, .f32⟩ : BufTy).Contents (Elt F) → (⟨S100000x128, .f32⟩ : BufTy).Contents (Elt F) → (⟨S100000x128, .f32⟩ : BufTy).Contents (Elt F)),   -- %87 = stablehlo.add %82, %86
    StableHlo.nullary main_cst_8 (constant S_ .f32 0x00000000#32),   -- %cst_8 = stablehlo.constant dense<0.000000e+00>
    StableHlo.binary main_v87 main_cst_8 main_v88 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),   -- %88 = stablehlo.reduce(%87 init: %cst_8) applies stablehlo.add across dimensions = [0]
    StableHlo.nullary main_cst_9 (constant S_ .f32 0x47C35000#32),   -- %cst_9 = stablehlo.constant dense<1.000000e+05>
    StableHlo.unary main_cst_9 main_v89 (broadcastInDim S128 ![] bcast_S_S128 : (⟨S_, .f32⟩ : BufTy).Contents (Elt F) → (⟨S128, .f32⟩ : BufTy).Contents (Elt F)),   -- %89 = stablehlo.broadcast_in_dim %cst_9, dims = []
    StableHlo.binary main_v88 main_v89 main_v90 (Host.divf : (⟨S128, .f32⟩ : BufTy).Contents (Elt F) → (⟨S128, .f32⟩ : BufTy).Contents (Elt F) → (⟨S128, .f32⟩ : BufTy).Contents (Elt F)),   -- %90 = stablehlo.divide %88, %89
    StableHlo.nullary main_c_10 (constantI S_ 32 0#32),   -- %c_10 = stablehlo.constant dense<0>
    StableHlo.TRef.nullary main_call4.cst (constant S_ .f32 0x00000000#32),   -- @_var's %cst = stablehlo.constant dense<0.000000e+00>
    StableHlo.TRef.binary (.of main_v87 : StableHlo.TRef sig ⟨S100000x128, .f32⟩) main_call4.cst main_call4.v0 (fun x v => Host.reduceAdd x v reducesTo_S100000x128_S128_d0 h_S_),   -- @_var's %0 = stablehlo.reduce(%arg0 init: %cst) applies stablehlo.add across dimensions = [0]
    StableHlo.TRef.unary main_call4.v0 main_call4.v1 (broadcastInDim S1x128 ![1] bcast_S128_S1x128_1),   -- @_var's %1 = stablehlo.broadcast_in_dim %0, dims = [1]
    StableHlo.TRef.nullary main_call4.cst_0 (constant S_ .f32 0x47C35000#32),   -- @_var's %cst_0 = stablehlo.constant dense<1.000000e+05>
    StableHlo.TRef.unary main_call4.cst_0 main_call4.v2 (broadcastInDim S1x128 ![] bcast_S_S1x128),   -- @_var's %2 = stablehlo.broadcast_in_dim %cst_0, dims = []
    StableHlo.TRef.binary main_call4.v1 main_call4.v2 main_call4.v3 Host.divf,   -- @_var's %3 = stablehlo.divide %1, %2
    StableHlo.TRef.unary main_call4.v3 main_call4.v4 (broadcastInDim S100000x128 ![0, 1] bcast_S1x128_S100000x128_0_1),   -- @_var's %4 = stablehlo.broadcast_in_dim %3, dims = [0, 1]
    StableHlo.TRef.binary (.of main_v87 : StableHlo.TRef sig ⟨S100000x128, .f32⟩) main_call4.v4 main_call4.v5 subf,   -- @_var's %5 = stablehlo.subtract %arg0, %4
    StableHlo.TRef.binary main_call4.v5 main_call4.v5 main_call4.v6 mulf,   -- @_var's %6 = chlo.square %5
    StableHlo.TRef.unary (.of main_c_10 : StableHlo.TRef sig ⟨S_, .i32⟩) main_call4.v7 (sitofp .f32),   -- @_var's %7 = stablehlo.convert %arg1
    StableHlo.TRef.nullary main_call4.cst_1 (constant S_ .f32 0x47C35000#32),   -- @_var's %cst_1 = stablehlo.constant dense<1.000000e+05>
    StableHlo.TRef.binary main_call4.cst_1 main_call4.v7 main_call4.v8 subf,   -- @_var's %8 = stablehlo.subtract %cst_1, %7
    StableHlo.TRef.nullary main_call4.cst_2 (constant S_ .f32 0x00000000#32),   -- @_var's %cst_2 = stablehlo.constant dense<0.000000e+00>
    StableHlo.TRef.binary main_call4.v6 main_call4.cst_2 main_call4.v9 (fun x v => Host.reduceAdd x v reducesTo_S100000x128_S128_d0 h_S_),   -- @_var's %9 = stablehlo.reduce(%6 init: %cst_2) applies stablehlo.add across dimensions = [0]
    StableHlo.TRef.unary main_call4.v8 main_call4.v10 (broadcastInDim S128 ![] bcast_S_S128),   -- @_var's %10 = stablehlo.broadcast_in_dim %8, dims = []
    StableHlo.TRef.binary main_call4.v9 main_call4.v10 main_call4.v11 Host.divf,   -- @_var's %11 = stablehlo.divide %9, %10
    StableHlo.TRef.nullary main_call4.cst_3 (constant S_ .f32 0x00000000#32),   -- @_var's %cst_3 = stablehlo.constant dense<0.000000e+00>
    StableHlo.TRef.binary main_call4.v8 main_call4.cst_3 main_call4.v12 (cmpf .ogt),   -- @_var's %12 = stablehlo.compare GT, %8, %cst_3, FLOAT
    StableHlo.TRef.nullary main_call4.cst_4 (constant S_ .f32 0x7FC00000#32),   -- @_var's %cst_4 = stablehlo.constant dense<0x7FC00000>
    StableHlo.TRef.unary main_call4.cst_4 main_call4.call0.v0 id,   -- @_var's @_where's %0 = stablehlo.convert %arg2
    StableHlo.TRef.unary main_call4.call0.v0 main_call4.call0.v1 (broadcastInDim S128 ![] bcast_S_S128),   -- @_var's @_where's %1 = stablehlo.broadcast_in_dim %0, dims = []
    StableHlo.TRef.ternary main_call4.v12 main_call4.v11 main_call4.call0.v1 main_call4.call0.v2 (fun p a b => select (broadcastInDim S128 ![] bcast_S_S128 p) a b),   -- @_var's @_where's %2 = stablehlo.select %arg0, %arg1, %1
    StableHlo.unary main_v90 main_v92 (broadcastInDim S1x128 ![1] bcast_S128_S1x128_1 : (⟨S128, .f32⟩ : BufTy).Contents (Elt F) → (⟨S1x128, .f32⟩ : BufTy).Contents (Elt F)),   -- %92 = stablehlo.broadcast_in_dim %90, dims = [1]
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),   -- %93 = stablehlo.broadcast_in_dim %92, dims = [0, 1]
    StableHlo.binary main_v87 main_v93 main_v94 (subf : (⟨S100000x128, .f32⟩ : BufTy).Contents (Elt F) → (⟨S100000x128, .f32⟩ : BufTy).Contents (Elt F) → (⟨S100000x128, .f32⟩ : BufTy).Contents (Elt F)),   -- %94 = stablehlo.subtract %87, %93
    StableHlo.nullary main_cst_11 (constant S_ .f32 0x3727C5AC#32),   -- %cst_11 = stablehlo.constant dense<9.99999974E-6>
    StableHlo.unary main_cst_11 main_v95 (broadcastInDim S128 ![] bcast_S_S128 : (⟨S_, .f32⟩ : BufTy).Contents (Elt F) → (⟨S128, .f32⟩ : BufTy).Contents (Elt F)),   -- %95 = stablehlo.broadcast_in_dim %cst_11, dims = []
    StableHlo.binary main_v91 main_v95 main_v96 (addf : (⟨S128, .f32⟩ : BufTy).Contents (Elt F) → (⟨S128, .f32⟩ : BufTy).Contents (Elt F) → (⟨S128, .f32⟩ : BufTy).Contents (Elt F)),   -- %96 = stablehlo.add %91, %95
    StableHlo.unary main_v96 main_v97 (Host.rsqrt : (⟨S128, .f32⟩ : BufTy).Contents (Elt F) → (⟨S128, .f32⟩ : BufTy).Contents (Elt F)),   -- %97 = stablehlo.rsqrt %96
    StableHlo.unary main_v97 main_v98 (broadcastInDim S1x128 ![1] bcast_S128_S1x128_1 : (⟨S128, .f32⟩ : BufTy).Contents (Elt F) → (⟨S1x128, .f32⟩ : BufTy).Contents (Elt F)),   -- %98 = stablehlo.broadcast_in_dim %97, dims = [1]
    StableHlo.unary main_v98 main_v99 (broadcastInDim S100000x128 ![0, 1] bcast_S1x128_S100000x128_0_1 : (⟨S1x128, .f32⟩ : BufTy).Contents (Elt F) → (⟨S100000x128, .f32⟩ : BufTy).Contents (Elt F)),   -- %99 = stablehlo.broadcast_in_dim %98, dims = [0, 1]
    StableHlo.binary main_v94 main_v99 main_v100 (mulf : (⟨S100000x128, .f32⟩ : BufTy).Contents (Elt F) → (⟨S100000x128, .f32⟩ : BufTy).Contents (Elt F) → (⟨S100000x128, .f32⟩ : BufTy).Contents (Elt F)),   -- %100 = stablehlo.multiply %94, %99
    StableHlo.unary main_arg8 main_v101 ((extractStridedSlice S1x128 ![1, 0] · slices_S4x128_S1x128_1_0) : (⟨S4x128, .f32⟩ : BufTy).Contents (Elt F) → (⟨S1x128, .f32⟩ : BufTy).Contents (Elt F)),   -- %101 = stablehlo.slice %arg8 [1:2, 0:128]
    StableHlo.reshape main_v101 main_v102 rfl shapeCasts_S1x128_S128,   -- %102 = stablehlo.reshape %101
    StableHlo.unary main_v102 main_v103 (broadcastInDim S1x128 ![1] bcast_S128_S1x128_1 : (⟨S128, .f32⟩ : BufTy).Contents (Elt F) → (⟨S1x128, .f32⟩ : BufTy).Contents (Elt F)),   -- %103 = stablehlo.broadcast_in_dim %102, dims = [1]
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),   -- %104 = stablehlo.broadcast_in_dim %103, dims = [0, 1]
    StableHlo.binary main_v100 main_v104 main_v105 (mulf : (⟨S100000x128, .f32⟩ : BufTy).Contents (Elt F) → (⟨S100000x128, .f32⟩ : BufTy).Contents (Elt F) → (⟨S100000x128, .f32⟩ : BufTy).Contents (Elt F)) ]   -- %105 = stablehlo.multiply %100, %104

/-- Layer 1, second part: the shift (%106–%110) and the clamp at zero (the call writing %111). (8 operations.) -/
abbrev opsL1b : List (HloOp τ sig (Elt F)) :=
  [ StableHlo.unary main_arg9 main_v106 ((extractStridedSlice S1x128 ![1, 0] · slices_S4x128_S1x128_1_0) : (⟨S4x128, .f32⟩ : BufTy).Contents (Elt F) → (⟨S1x128, .f32⟩ : BufTy).Contents (Elt F)),   -- %106 = stablehlo.slice %arg9 [1:2, 0:128]
    StableHlo.reshape main_v106 main_v107 rfl shapeCasts_S1x128_S128,   -- %107 = stablehlo.reshape %106
    StableHlo.unary main_v107 main_v108 (broadcastInDim S1x128 ![1] bcast_S128_S1x128_1 : (⟨S128, .f32⟩ : BufTy).Contents (Elt F) → (⟨S1x128, .f32⟩ : BufTy).Contents (Elt F)),   -- %108 = stablehlo.broadcast_in_dim %107, dims = [1]
    StableHlo.unary main_v108 main_v109 (broadcastInDim S100000x128 ![0, 1] bcast_S1x128_S100000x128_0_1 : (⟨S1x128, .f32⟩ : BufTy).Contents (Elt F) → (⟨S100000x128, .f32⟩ : BufTy).Contents (Elt F)),   -- %109 = stablehlo.broadcast_in_dim %108, dims = [0, 1]
    StableHlo.binary main_v105 main_v109 main_v110 (addf : (⟨S100000x128, .f32⟩ : BufTy).Contents (Elt F) → (⟨S100000x128, .f32⟩ : BufTy).Contents (Elt F) → (⟨S100000x128, .f32⟩ : BufTy).Contents (Elt F)),   -- %110 = stablehlo.add %105, %109
    StableHlo.TRef.nullary main_call5.cst (constant S_ .f32 0x00000000#32),   -- @relu_0's %cst = stablehlo.constant dense<0.000000e+00>
    StableHlo.TRef.unary main_call5.cst main_call5.v0 (broadcastInDim S100000x128 ![] bcast_S_S100000x128),   -- @relu_0's %0 = stablehlo.broadcast_in_dim %cst, dims = []
    StableHlo.TRef.binary (.of main_v110 : StableHlo.TRef sig ⟨S100000x128, .f32⟩) main_call5.v0 main_call5.v1 maximumf ]   -- @relu_0's %1 = stablehlo.maximum %arg0, %0

/-- Layer 2, first part: from %111: aggregate (%112–%122), perceptron (%123–%139), mean (%140–%142), variance (the
    call writing %143), normalisation up to the slice of the shift table (%144–%158). (77 operations.) -/
abbrev opsL2a : List (HloOp τ sig (Elt F)) :=
  [ StableHlo.nullary main_c_12 (constantI S_ 32 0#32),   -- %c_12 = stablehlo.constant dense<0>
    StableHlo.unary main_c_12 main_v112 (broadcastInDim S400000 ![] bcast_S_S400000 : (⟨S_, .i32⟩ : BufTy).Contents (Elt F) → (⟨S400000, .i32⟩ : BufTy).Contents (Elt F)),   -- %112 = stablehlo.broadcast_in_dim %c_12, dims = []
    StableHlo.binary main_v5 main_v112 main_v113 (cmpi .slt : (⟨S400000, .i32⟩ : BufTy).Contents (Elt F) → (⟨S400000, .i32⟩ : BufTy).Contents (Elt F) → (⟨S400000, .i1⟩ : BufTy).Contents (Elt F)),   -- %113 = stablehlo.compare LT, %5, %112, SIGNED
    StableHlo.nullary main_c_13 (constantI S_ 32 100000#32),   -- %c_13 = stablehlo.constant dense<100000>
    StableHlo.unary main_c_13 main_v114 (broadcastInDim S400000 ![] bcast_S_S400000 : (⟨S_, .i32⟩ : BufTy).Contents (Elt F) → (⟨S400000, .i32⟩ : BufTy).Contents (Elt F)),   -- %114 = stablehlo.broadcast_in_dim %c_13, dims = []
    StableHlo.binary main_v5 main_v114 main_v115 (addi : (⟨S400000, .i32⟩ : BufTy).Contents (Elt F) → (⟨S400000, .i32⟩ : BufTy).Contents (Elt F) → (⟨S400000, .i32⟩ : BufTy).Contents (Elt F)),   -- %115 = stablehlo.add %5, %114
    StableHlo.ternary main_v113 main_v115 main_v5 main_v116 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),   -- %116 = stablehlo.select %113, %115, %5
    StableHlo.unary main_v116 main_v117 (broadcastInDim S400000x1 ![0] bcast_S400000_S400000x1_0 : (⟨S400000, .i32⟩ : BufTy).Contents (Elt F) → (⟨S400000x1, .i32⟩ : BufTy).Contents (Elt F)),   -- %117 = stablehlo.broadcast_in_dim %116, dims = [0]
    StableHlo.binary main_v111 main_v117 main_v118 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),   -- %118 = "stablehlo.gather"(%111, %117)
    StableHlo.nullary main_cst_14 (constant S_ .f32 0x00000000#32),   -- %cst_14 = stablehlo.constant dense<0.000000e+00>
    StableHlo.unary main_cst_14 main_v119 (broadcastInDim S100000x128 ![] bcast_S_S100000x128 : (⟨S_, .f32⟩ : BufTy).Contents (Elt F) → (⟨S100000x128, .f32⟩ : BufTy).Contents (Elt F)),   -- %119 = stablehlo.broadcast_in_dim %cst_14, dims = []
    StableHlo.unary main_v7 main_v120 (broadcastInDim S400000x1 ![0] bcast_S400000_S400000x1_0 : (⟨S400000, .i32⟩ : BufTy).Contents (Elt F) → (⟨S400000x1, .i32⟩ : BufTy).Contents (Elt F)),   -- %120 = stablehlo.broadcast_in_dim %7, dims = [0]
    StableHlo.ternary main_v119 main_v120 main_v118 main_v121 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),   -- %121 = "stablehlo.scatter"(%119, %120, %118)
    StableHlo.binary main_v111 main_v121 main_v122 (addf : (⟨S100000x128, .f32⟩ : BufTy).Contents (Elt F) → (⟨S100000x128, .f32⟩ : BufTy).Contents (Elt F) → (⟨S100000x128, .f32⟩ : BufTy).Contents (Elt F)),   -- %122 = stablehlo.add %111, %121
    StableHlo.unary main_arg4 main_v123 ((extractStridedSlice S1x128x256 ![2, 0, 0] · slices_S4x128x256_S1x128x256_2_0_0) : (⟨S4x128x256, .f32⟩ : BufTy).Contents (Elt F) → (⟨S1x128x256, .f32⟩ : BufTy).Contents (Elt F)),   -- %123 = stablehlo.slice %arg4 [2:3, 0:128, 0:256]
    StableHlo.reshape main_v123 main_v124 rfl shapeCasts_S1x128x256_S128x256,   -- %124 = stablehlo.reshape %123
    StableHlo.binary main_v122 main_v124 main_v125 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),   -- %125 = stablehlo.dot_general %122, %124, contracting_dims = [1] x [0], precision = [DEFAULT, DEFAULT]
    StableHlo.unary main_arg5 main_v126 ((extractStridedSlice S1x256 ![2, 0] · slices_S4x256_S1x256_2_0) : (⟨S4x256, .f32⟩ : BufTy).Contents (Elt F) → (⟨S1x256, .f32⟩ : BufTy).Contents (Elt F)),   -- %126 = stablehlo.slice %arg5 [2:3, 0:256]
    StableHlo.reshape main_v126 main_v127 rfl shapeCasts_S1x256_S256,   -- %127 = stablehlo.reshape %126
    StableHlo.unary main_v127 main_v128 (broadcastInDim S1x256 ![1] bcast_S256_S1x256_1 : (⟨S256, .f32⟩ : BufTy).Contents (Elt F) → (⟨S1x256, .f32⟩ : BufTy).Contents (Elt F)),   -- %128 = stablehlo.broadcast_in_dim %127, dims = [1]
    StableHlo.unary main_v128 main_v129 (broadcastInDim S100000x256 ![0, 1] bcast_S1x256_S100000x256_0_1 : (⟨S1x256, .f32⟩ : BufTy).Contents (Elt F) → (⟨S100000x256, .f32⟩ : BufTy).Contents (Elt F)),   -- %129 = stablehlo.broadcast_in_dim %128, dims = [0, 1]
    StableHlo.binary main_v125 main_v129 main_v130 (addf : (⟨S100000x256, .f32⟩ : BufTy).Contents (Elt F) → (⟨S100000x256, .f32⟩ : BufTy).Contents (Elt F) → (⟨S100000x256, .f32⟩ : BufTy).Contents (Elt F)),   -- %130 = stablehlo.add %125, %129
    StableHlo.TRef.nullary main_call6.cst (constant S_ .f32 0x00000000#32),   -- @relu's %cst = stablehlo.constant dense<0.000000e+00>
    StableHlo.TRef.unary main_call6.cst main_call6.v0 (broadcastInDim S100000x256 ![] bcast_S_S100000x256),   -- @relu's %0 = stablehlo.broadcast_in_dim %cst, dims = []
    StableHlo.TRef.binary (.of main_v130 : StableHlo.TRef sig ⟨S100000x256, .f32⟩) main_call6.v0 main_call6.v1 maximumf,   -- @relu's %1 = stablehlo.maximum %arg0, %0
    StableHlo.unary main_arg6 main_v132 ((extractStridedSlice S1x256x128 ![2, 0, 0] · slices_S4x256x128_S1x256x128_2_0_0) : (⟨S4x256x128, .f32⟩ : BufTy).Contents (Elt F) → (⟨S1x256x128, .f32⟩ : BufTy).Contents (Elt F)),   -- %132 = stablehlo.slice %arg6 [2:3, 0:256, 0:128]
    StableHlo.reshape main_v132 main_v133 rfl shapeCasts_S1x256x128_S256x128,   -- %133 = stablehlo.reshape %132
    StableHlo.binary main_v131 main_v133 main_v134 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),   -- %134 = stablehlo.dot_general %131, %133, contracting_dims = [1] x [0], precision = [DEFAULT, DEFAULT]
    StableHlo.unary main_arg7 main_v135 ((extractStridedSlice S1x128 ![2, 0] · slices_S4x128_S1x128_2_0) : (⟨S4x128, .f32⟩ : BufTy).Contents (Elt F) → (⟨S1x128, .f32⟩ : BufTy).Contents (Elt F)),   -- %135 = stablehlo.slice %arg7 [2:3, 0:128]
    StableHlo.reshape main_v135 main_v136 rfl shapeCasts_S1x128_S128,   -- %136 = stablehlo.reshape %135
    StableHlo.unary main_v136 main_v137 (broadcastInDim S1x128 ![1] bcast_S128_S1x128_1 : (⟨S128, .f32⟩ : BufTy).Contents (Elt F) → (⟨S1x128, .f32⟩ : BufTy).Contents (Elt F)),   -- %137 = stablehlo.broadcast_in_dim %136, dims = [1]
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),   -- %138 = stablehlo.broadcast_in_dim %137, dims = [0, 1]
    StableHlo.binary main_v134 main_v138 main_v139 (addf : (⟨S100000x128, .f32⟩ : BufTy).Contents (Elt F) → (⟨S100000x128, .f32⟩ : BufTy).Contents (Elt F) → (⟨S100000x128, .f32⟩ : BufTy).Contents (Elt F)),   -- %139 = stablehlo.add %134, %138
    StableHlo.nullary main_cst_15 (constant S_ .f32 0x00000000#32),   -- %cst_15 = stablehlo.constant dense<0.000000e+00>
    StableHlo.binary main_v139 main_cst_15 main_v140 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),   -- %140 = stablehlo.reduce(%139 init: %cst_15) applies stablehlo.add across dimensions = [0]
    StableHlo.nullary main_cst_16 (constant S_ .f32 0x47C35000#32),   -- %cst_16 = stablehlo.constant dense<1.000000e+05>
    StableHlo.unary main_cst_16 main_v141 (broadcastInDim S128 ![] bcast_S_S128 : (⟨S_, .f32⟩ : BufTy).Contents (Elt F) → (⟨S128, .f32⟩ : BufTy).Contents (Elt F)),   -- %141 = stablehlo.broadcast_in_dim %cst_16, dims = []
    StableHlo.binary main_v140 main_v141 main_v142 (Host.divf : (⟨S128, .f32⟩ : BufTy).Contents (Elt F) → (⟨S128, .f32⟩ : BufTy).Contents (Elt F) → (⟨S128, .f32⟩ : BufTy).Contents (Elt F)),   -- %142 = stablehlo.divide %140, %141
    StableHlo.nullary main_c_17 (constantI S_ 32 0#32),   -- %c_17 = stablehlo.constant dense<0>
    StableHlo.TRef.nullary main_call7.cst (constant S_ .f32 0x00000000#32),   -- @_var's %cst = stablehlo.constant dense<0.000000e+00>
    StableHlo.TRef.binary (.of main_v139 : StableHlo.TRef sig ⟨S100000x128, .f32⟩) main_call7.cst main_call7.v0 (fun x v => Host.reduceAdd x v reducesTo_S100000x128_S128_d0 h_S_),   -- @_var's %0 = stablehlo.reduce(%arg0 init: %cst) applies stablehlo.add across dimensions = [0]
    StableHlo.TRef.unary main_call7.v0 main_call7.v1 (broadcastInDim S1x128 ![1] bcast_S128_S1x128_1),   -- @_var's %1 = stablehlo.broadcast_in_dim %0, dims = [1]
    StableHlo.TRef.nullary main_call7.cst_0 (constant S_ .f32 0x47C35000#32),   -- @_var's %cst_0 = stablehlo.constant dense<1.000000e+05>
    StableHlo.TRef.unary main_call7.cst_0 main_call7.v2 (broadcastInDim S1x128 ![] bcast_S_S1x128),   -- @_var's %2 = stablehlo.broadcast_in_dim %cst_0, dims = []
    StableHlo.TRef.binary main_call7.v1 main_call7.v2 main_call7.v3 Host.divf,   -- @_var's %3 = stablehlo.divide %1, %2
    StableHlo.TRef.unary main_call7.v3 main_call7.v4 (broadcastInDim S100000x128 ![0, 1] bcast_S1x128_S100000x128_0_1),   -- @_var's %4 = stablehlo.broadcast_in_dim %3, dims = [0, 1]
    StableHlo.TRef.binary (.of main_v139 : StableHlo.TRef sig ⟨S100000x128, .f32⟩) main_call7.v4 main_call7.v5 subf,   -- @_var's %5 = stablehlo.subtract %arg0, %4
    StableHlo.TRef.binary main_call7.v5 main_call7.v5 main_call7.v6 mulf,   -- @_var's %6 = chlo.square %5
    StableHlo.TRef.unary (.of main_c_17 : StableHlo.TRef sig ⟨S_, .i32⟩) main_call7.v7 (sitofp .f32),   -- @_var's %7 = stablehlo.convert %arg1
    StableHlo.TRef.nullary main_call7.cst_1 (constant S_ .f32 0x47C35000#32),   -- @_var's %cst_1 = stablehlo.constant dense<1.000000e+05>
    StableHlo.TRef.binary main_call7.cst_1 main_call7.v7 main_call7.v8 subf,   -- @_var's %8 = stablehlo.subtract %cst_1, %7
    StableHlo.TRef.nullary main_call7.cst_2 (constant S_ .f32 0x00000000#32),   -- @_var's %cst_2 = stablehlo.constant dense<0.000000e+00>
    StableHlo.TRef.binary main_call7.v6 main_call7.cst_2 main_call7.v9 (fun x v => Host.reduceAdd x v reducesTo_S100000x128_S128_d0 h_S_),   -- @_var's %9 = stablehlo.reduce(%6 init: %cst_2) applies stablehlo.add across dimensions = [0]
    StableHlo.TRef.unary main_call7.v8 main_call7.v10 (broadcastInDim S128 ![] bcast_S_S128),   -- @_var's %10 = stablehlo.broadcast_in_dim %8, dims = []
    StableHlo.TRef.binary main_call7.v9 main_call7.v10 main_call7.v11 Host.divf,   -- @_var's %11 = stablehlo.divide %9, %10
    StableHlo.TRef.nullary main_call7.cst_3 (constant S_ .f32 0x00000000#32),   -- @_var's %cst_3 = stablehlo.constant dense<0.000000e+00>
    StableHlo.TRef.binary main_call7.v8 main_call7.cst_3 main_call7.v12 (cmpf .ogt),   -- @_var's %12 = stablehlo.compare GT, %8, %cst_3, FLOAT
    StableHlo.TRef.nullary main_call7.cst_4 (constant S_ .f32 0x7FC00000#32),   -- @_var's %cst_4 = stablehlo.constant dense<0x7FC00000>
    StableHlo.TRef.unary main_call7.cst_4 main_call7.call0.v0 id,   -- @_var's @_where's %0 = stablehlo.convert %arg2
    StableHlo.TRef.unary main_call7.call0.v0 main_call7.call0.v1 (broadcastInDim S128 ![] bcast_S_S128),   -- @_var's @_where's %1 = stablehlo.broadcast_in_dim %0, dims = []
    StableHlo.TRef.ternary main_call7.v12 main_call7.v11 main_call7.call0.v1 main_call7.call0.v2 (fun p a b => select (broadcastInDim S128 ![] bcast_S_S128 p) a b),   -- @_var's @_where's %2 = stablehlo.select %arg0, %arg1, %1
    StableHlo.unary main_v142 main_v144 (broadcastInDim S1x128 ![1] bcast_S128_S1x128_1 : (⟨S128, .f32⟩ : BufTy).Contents (Elt F) → (⟨S1x128, .f32⟩ : BufTy).Contents (Elt F)),   -- %144 = stablehlo.broadcast_in_dim %142, dims = [1]
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),   -- %145 = stablehlo.broadcast_in_dim %144, dims = [0, 1]
    StableHlo.binary main_v139 main_v145 main_v146 (subf : (⟨S100000x128, .f32⟩ : BufTy).Contents (Elt F) → (⟨S100000x128, .f32⟩ : BufTy).Contents (Elt F) → (⟨S100000x128, .f32⟩ : BufTy).Contents (Elt F)),   -- %146 = stablehlo.subtract %139, %145
    StableHlo.nullary main_cst_18 (constant S_ .f32 0x3727C5AC#32),   -- %cst_18 = stablehlo.constant dense<9.99999974E-6>
    StableHlo.unary main_cst_18 main_v147 (broadcastInDim S128 ![] bcast_S_S128 : (⟨S_, .f32⟩ : BufTy).Contents (Elt F) → (⟨S128, .f32⟩ : BufTy).Contents (Elt F)),   -- %147 = stablehlo.broadcast_in_dim %cst_18, dims = []
    StableHlo.binary main_v143 main_v147 main_v148 (addf : (⟨S128, .f32⟩ : BufTy).Contents (Elt F) → (⟨S128, .f32⟩ : BufTy).Contents (Elt F) → (⟨S128, .f32⟩ : BufTy).Contents (Elt F)),   -- %148 = stablehlo.add %143, %147
    StableHlo.unary main_v148 main_v149 (Host.rsqrt : (⟨S128, .f32⟩ : BufTy).Contents (Elt F) → (⟨S128, .f32⟩ : BufTy).Contents (Elt F)),   -- %149 = stablehlo.rsqrt %148
    StableHlo.unary main_v149 main_v150 (broadcastInDim S1x128 ![1] bcast_S128_S1x128_1 : (⟨S128, .f32⟩ : BufTy).Contents (Elt F) → (⟨S1x128, .f32⟩ : BufTy).Contents (Elt F)),   -- %150 = stablehlo.broadcast_in_dim %149, dims = [1]
    StableHlo.unary main_v150 main_v151 (broadcastInDim S100000x128 ![0, 1] bcast_S1x128_S100000x128_0_1 : (⟨S1x128, .f32⟩ : BufTy).Contents (Elt F) → (⟨S100000x128, .f32⟩ : BufTy).Contents (Elt F)),   -- %151 = stablehlo.broadcast_in_dim %150, dims = [0, 1]
    StableHlo.binary main_v146 main_v151 main_v152 (mulf : (⟨S100000x128, .f32⟩ : BufTy).Contents (Elt F) → (⟨S100000x128, .f32⟩ : BufTy).Contents (Elt F) → (⟨S100000x128, .f32⟩ : BufTy).Contents (Elt F)),   -- %152 = stablehlo.multiply %146, %151
    StableHlo.unary main_arg8 main_v153 ((extractStridedSlice S1x128 ![2, 0] · slices_S4x128_S1x128_2_0) : (⟨S4x128, .f32⟩ : BufTy).Contents (Elt F) → (⟨S1x128, .f32⟩ : BufTy).Contents (Elt F)),   -- %153 = stablehlo.slice %arg8 [2:3, 0:128]
    StableHlo.reshape main_v153 main_v154 rfl shapeCasts_S1x128_S128,   -- %154 = stablehlo.reshape %153
    StableHlo.unary main_v154 main_v155 (broadcastInDim S1x128 ![1] bcast_S128_S1x128_1 : (⟨S128, .f32⟩ : BufTy).Contents (Elt F) → (⟨S1x128, .f32⟩ : BufTy).Contents (Elt F)),   -- %155 = stablehlo.broadcast_in_dim %154, dims = [1]
    StableHlo.unary main_v155 main_v156 (broadcastInDim S100000x128 ![0, 1] bcast_S1x128_S100000x128_0_1 : (⟨S1x128, .f32⟩ : BufTy).Contents (Elt F) → (⟨S100000x128, .f32⟩ : BufTy).Contents (Elt F)),   -- %156 = stablehlo.broadcast_in_dim %155, dims = [0, 1]
    StableHlo.binary main_v152 main_v156 main_v157 (mulf : (⟨S100000x128, .f32⟩ : BufTy).Contents (Elt F) → (⟨S100000x128, .f32⟩ : BufTy).Contents (Elt F) → (⟨S100000x128, .f32⟩ : BufTy).Contents (Elt F)),   -- %157 = stablehlo.multiply %152, %156
    StableHlo.unary main_arg9 main_v158 ((extractStridedSlice S1x128 ![2, 0] · slices_S4x128_S1x128_2_0) : (⟨S4x128, .f32⟩ : BufTy).Contents (Elt F) → (⟨S1x128, .f32⟩ : BufTy).Contents (Elt F)) ]   -- %158 = stablehlo.slice %arg9 [2:3, 0:128]

/-- Layer 2, second part: the shift (%159–%162) and the clamp at zero (the call writing %163). (7 operations.) -/
abbrev opsL2b : List (HloOp τ sig (Elt F)) :=
  [ StableHlo.reshape main_v158 main_v159 rfl shapeCasts_S1x128_S128,   -- %159 = stablehlo.reshape %158
    StableHlo.unary main_v159 main_v160 (broadcastInDim S1x128 ![1] bcast_S128_S1x128_1 : (⟨S128, .f32⟩ : BufTy).Contents (Elt F) → (⟨S1x128, .f32⟩ : BufTy).Contents (Elt F)),   -- %160 = stablehlo.broadcast_in_dim %159, dims = [1]
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),   -- %161 = stablehlo.broadcast_in_dim %160, dims = [0, 1]
    StableHlo.binary main_v157 main_v161 main_v162 (addf : (⟨S100000x128, .f32⟩ : BufTy).Contents (Elt F) → (⟨S100000x128, .f32⟩ : BufTy).Contents (Elt F) → (⟨S100000x128, .f32⟩ : BufTy).Contents (Elt F)),   -- %162 = stablehlo.add %157, %161
    StableHlo.TRef.nullary main_call8.cst (constant S_ .f32 0x00000000#32),   -- @relu_0's %cst = stablehlo.constant dense<0.000000e+00>
    StableHlo.TRef.unary main_call8.cst main_call8.v0 (broadcastInDim S100000x128 ![] bcast_S_S100000x128),   -- @relu_0's %0 = stablehlo.broadcast_in_dim %cst, dims = []
    StableHlo.TRef.binary (.of main_v162 : StableHlo.TRef sig ⟨S100000x128, .f32⟩) main_call8.v0 main_call8.v1 maximumf ]   -- @relu_0's %1 = stablehlo.maximum %arg0, %0

/-- Layer 3, first part: from %163: aggregate (%164–%174), perceptron (%175–%191), mean (%192–%194), variance (the
    call writing %195), normalisation up to the reshaped shift row (%196–%211). (78 operations.) -/
abbrev opsL3a : List (HloOp τ sig (Elt F)) :=
  [ StableHlo.nullary main_c_19 (constantI S_ 32 0#32),   -- %c_19 = stablehlo.constant dense<0>
    StableHlo.unary main_c_19 main_v164 (broadcastInDim S400000 ![] bcast_S_S400000 : (⟨S_, .i32⟩ : BufTy).Contents (Elt F) → (⟨S400000, .i32⟩ : BufTy).Contents (Elt F)),   -- %164 = stablehlo.broadcast_in_dim %c_19, dims = []
    StableHlo.binary main_v5 main_v164 main_v165 (cmpi .slt : (⟨S400000, .i32⟩ : BufTy).Contents (Elt F) → (⟨S400000, .i32⟩ : BufTy).Contents (Elt F) → (⟨S400000, .i1⟩ : BufTy).Contents (Elt F)),   -- %165 = stablehlo.compare LT, %5, %164, SIGNED
    StableHlo.nullary main_c_20 (constantI S_ 32 100000#32),   -- %c_20 = stablehlo.constant dense<100000>
    StableHlo.unary main_c_20 main_v166 (broadcastInDim S400000 ![] bcast_S_S400000 : (⟨S_, .i32⟩ : BufTy).Contents (Elt F) → (⟨S400000, .i32⟩ : BufTy).Contents (Elt F)),   -- %166 = stablehlo.broadcast_in_dim %c_20, dims = []
    StableHlo.binary main_v5 main_v166 main_v167 (addi : (⟨S400000, .i32⟩ : BufTy).Contents (Elt F) → (⟨S400000, .i32⟩ : BufTy).Contents (Elt F) → (⟨S400000, .i32⟩ : BufTy).Contents (Elt F)),   -- %167 = stablehlo.add %5, %166
    StableHlo.ternary main_v165 main_v167 main_v5 main_v168 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),   -- %168 = stablehlo.select %165, %167, %5
    StableHlo.unary main_v168 main_v169 (broadcastInDim S400000x1 ![0] bcast_S400000_S400000x1_0 : (⟨S400000, .i32⟩ : BufTy).Contents (Elt F) → (⟨S400000x1, .i32⟩ : BufTy).Contents (Elt F)),   -- %169 = stablehlo.broadcast_in_dim %168, dims = [0]
    StableHlo.binary main_v163 main_v169 main_v170 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),   -- %170 = "stablehlo.gather"(%163, %169)
    StableHlo.nullary main_cst_21 (constant S_ .f32 0x00000000#32),   -- %cst_21 = stablehlo.constant dense<0.000000e+00>
    StableHlo.unary main_cst_21 main_v171 (broadcastInDim S100000x128 ![] bcast_S_S100000x128 : (⟨S_, .f32⟩ : BufTy).Contents (Elt F) → (⟨S100000x128, .f32⟩ : BufTy).Contents (Elt F)),   -- %171 = stablehlo.broadcast_in_dim %cst_21, dims = []
    StableHlo.unary main_v7 main_v172 (broadcastInDim S400000x1 ![0] bcast_S400000_S400000x1_0 : (⟨S400000, .i32⟩ : BufTy).Contents (Elt F) → (⟨S400000x1, .i32⟩ : BufTy).Contents (Elt F)),   -- %172 = stablehlo.broadcast_in_dim %7, dims = [0]
    StableHlo.ternary main_v171 main_v172 main_v170 main_v173 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),   -- %173 = "stablehlo.scatter"(%171, %172, %170)
    StableHlo.binary main_v163 main_v173 main_v174 (addf : (⟨S100000x128, .f32⟩ : BufTy).Contents (Elt F) → (⟨S100000x128, .f32⟩ : BufTy).Contents (Elt F) → (⟨S100000x128, .f32⟩ : BufTy).Contents (Elt F)),   -- %174 = stablehlo.add %163, %173
    StableHlo.unary main_arg4 main_v175 ((extractStridedSlice S1x128x256 ![3, 0, 0] · slices_S4x128x256_S1x128x256_3_0_0) : (⟨S4x128x256, .f32⟩ : BufTy).Contents (Elt F) → (⟨S1x128x256, .f32⟩ : BufTy).Contents (Elt F)),   -- %175 = stablehlo.slice %arg4 [3:4, 0:128, 0:256]
    StableHlo.reshape main_v175 main_v176 rfl shapeCasts_S1x128x256_S128x256,   -- %176 = stablehlo.reshape %175
    StableHlo.binary main_v174 main_v176 main_v177 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),   -- %177 = stablehlo.dot_general %174, %176, contracting_dims = [1] x [0], precision = [DEFAULT, DEFAULT]
    StableHlo.unary main_arg5 main_v178 ((extractStridedSlice S1x256 ![3, 0] · slices_S4x256_S1x256_3_0) : (⟨S4x256, .f32⟩ : BufTy).Contents (Elt F) → (⟨S1x256, .f32⟩ : BufTy).Contents (Elt F)),   -- %178 = stablehlo.slice %arg5 [3:4, 0:256]
    StableHlo.reshape main_v178 main_v179 rfl shapeCasts_S1x256_S256,   -- %179 = stablehlo.reshape %178
    StableHlo.unary main_v179 main_v180 (broadcastInDim S1x256 ![1] bcast_S256_S1x256_1 : (⟨S256, .f32⟩ : BufTy).Contents (Elt F) → (⟨S1x256, .f32⟩ : BufTy).Contents (Elt F)),   -- %180 = stablehlo.broadcast_in_dim %179, dims = [1]
    StableHlo.unary main_v180 main_v181 (broadcastInDim S100000x256 ![0, 1] bcast_S1x256_S100000x256_0_1 : (⟨S1x256, .f32⟩ : BufTy).Contents (Elt F) → (⟨S100000x256, .f32⟩ : BufTy).Contents (Elt F)),   -- %181 = stablehlo.broadcast_in_dim %180, dims = [0, 1]
    StableHlo.binary main_v177 main_v181 main_v182 (addf : (⟨S100000x256, .f32⟩ : BufTy).Contents (Elt F) → (⟨S100000x256, .f32⟩ : BufTy).Contents (Elt F) → (⟨S100000x256, .f32⟩ : BufTy).Contents (Elt F)),   -- %182 = stablehlo.add %177, %181
    StableHlo.TRef.nullary main_call9.cst (constant S_ .f32 0x00000000#32),   -- @relu's %cst = stablehlo.constant dense<0.000000e+00>
    StableHlo.TRef.unary main_call9.cst main_call9.v0 (broadcastInDim S100000x256 ![] bcast_S_S100000x256),   -- @relu's %0 = stablehlo.broadcast_in_dim %cst, dims = []
    StableHlo.TRef.binary (.of main_v182 : StableHlo.TRef sig ⟨S100000x256, .f32⟩) main_call9.v0 main_call9.v1 maximumf,   -- @relu's %1 = stablehlo.maximum %arg0, %0
    StableHlo.unary main_arg6 main_v184 ((extractStridedSlice S1x256x128 ![3, 0, 0] · slices_S4x256x128_S1x256x128_3_0_0) : (⟨S4x256x128, .f32⟩ : BufTy).Contents (Elt F) → (⟨S1x256x128, .f32⟩ : BufTy).Contents (Elt F)),   -- %184 = stablehlo.slice %arg6 [3:4, 0:256, 0:128]
    StableHlo.reshape main_v184 main_v185 rfl shapeCasts_S1x256x128_S256x128,   -- %185 = stablehlo.reshape %184
    StableHlo.binary main_v183 main_v185 main_v186 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),   -- %186 = stablehlo.dot_general %183, %185, contracting_dims = [1] x [0], precision = [DEFAULT, DEFAULT]
    StableHlo.unary main_arg7 main_v187 ((extractStridedSlice S1x128 ![3, 0] · slices_S4x128_S1x128_3_0) : (⟨S4x128, .f32⟩ : BufTy).Contents (Elt F) → (⟨S1x128, .f32⟩ : BufTy).Contents (Elt F)),   -- %187 = stablehlo.slice %arg7 [3:4, 0:128]
    StableHlo.reshape main_v187 main_v188 rfl shapeCasts_S1x128_S128,   -- %188 = stablehlo.reshape %187
    StableHlo.unary main_v188 main_v189 (broadcastInDim S1x128 ![1] bcast_S128_S1x128_1 : (⟨S128, .f32⟩ : BufTy).Contents (Elt F) → (⟨S1x128, .f32⟩ : BufTy).Contents (Elt F)),   -- %189 = stablehlo.broadcast_in_dim %188, dims = [1]
    StableHlo.unary main_v189 main_v190 (broadcastInDim S100000x128 ![0, 1] bcast_S1x128_S100000x128_0_1 : (⟨S1x128, .f32⟩ : BufTy).Contents (Elt F) → (⟨S100000x128, .f32⟩ : BufTy).Contents (Elt F)),   -- %190 = stablehlo.broadcast_in_dim %189, dims = [0, 1]
    StableHlo.binary main_v186 main_v190 main_v191 (addf : (⟨S100000x128, .f32⟩ : BufTy).Contents (Elt F) → (⟨S100000x128, .f32⟩ : BufTy).Contents (Elt F) → (⟨S100000x128, .f32⟩ : BufTy).Contents (Elt F)),   -- %191 = stablehlo.add %186, %190
    StableHlo.nullary main_cst_22 (constant S_ .f32 0x00000000#32),   -- %cst_22 = stablehlo.constant dense<0.000000e+00>
    StableHlo.binary main_v191 main_cst_22 main_v192 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),   -- %192 = stablehlo.reduce(%191 init: %cst_22) applies stablehlo.add across dimensions = [0]
    StableHlo.nullary main_cst_23 (constant S_ .f32 0x47C35000#32),   -- %cst_23 = stablehlo.constant dense<1.000000e+05>
    StableHlo.unary main_cst_23 main_v193 (broadcastInDim S128 ![] bcast_S_S128 : (⟨S_, .f32⟩ : BufTy).Contents (Elt F) → (⟨S128, .f32⟩ : BufTy).Contents (Elt F)),   -- %193 = stablehlo.broadcast_in_dim %cst_23, dims = []
    StableHlo.binary main_v192 main_v193 main_v194 (Host.divf : (⟨S128, .f32⟩ : BufTy).Contents (Elt F) → (⟨S128, .f32⟩ : BufTy).Contents (Elt F) → (⟨S128, .f32⟩ : BufTy).Contents (Elt F)),   -- %194 = stablehlo.divide %192, %193
    StableHlo.nullary main_c_24 (constantI S_ 32 0#32),   -- %c_24 = stablehlo.constant dense<0>
    StableHlo.TRef.nullary main_call10.cst (constant S_ .f32 0x00000000#32),   -- @_var's %cst = stablehlo.constant dense<0.000000e+00>
    StableHlo.TRef.binary (.of main_v191 : StableHlo.TRef sig ⟨S100000x128, .f32⟩) main_call10.cst main_call10.v0 (fun x v => Host.reduceAdd x v reducesTo_S100000x128_S128_d0 h_S_),   -- @_var's %0 = stablehlo.reduce(%arg0 init: %cst) applies stablehlo.add across dimensions = [0]
    StableHlo.TRef.unary main_call10.v0 main_call10.v1 (broadcastInDim S1x128 ![1] bcast_S128_S1x128_1),   -- @_var's %1 = stablehlo.broadcast_in_dim %0, dims = [1]
    StableHlo.TRef.nullary main_call10.cst_0 (constant S_ .f32 0x47C35000#32),   -- @_var's %cst_0 = stablehlo.constant dense<1.000000e+05>
    StableHlo.TRef.unary main_call10.cst_0 main_call10.v2 (broadcastInDim S1x128 ![] bcast_S_S1x128),   -- @_var's %2 = stablehlo.broadcast_in_dim %cst_0, dims = []
    StableHlo.TRef.binary main_call10.v1 main_call10.v2 main_call10.v3 Host.divf,   -- @_var's %3 = stablehlo.divide %1, %2
    StableHlo.TRef.unary main_call10.v3 main_call10.v4 (broadcastInDim S100000x128 ![0, 1] bcast_S1x128_S100000x128_0_1),   -- @_var's %4 = stablehlo.broadcast_in_dim %3, dims = [0, 1]
    StableHlo.TRef.binary (.of main_v191 : StableHlo.TRef sig ⟨S100000x128, .f32⟩) main_call10.v4 main_call10.v5 subf,   -- @_var's %5 = stablehlo.subtract %arg0, %4
    StableHlo.TRef.binary main_call10.v5 main_call10.v5 main_call10.v6 mulf,   -- @_var's %6 = chlo.square %5
    StableHlo.TRef.unary (.of main_c_24 : StableHlo.TRef sig ⟨S_, .i32⟩) main_call10.v7 (sitofp .f32),   -- @_var's %7 = stablehlo.convert %arg1
    StableHlo.TRef.nullary main_call10.cst_1 (constant S_ .f32 0x47C35000#32),   -- @_var's %cst_1 = stablehlo.constant dense<1.000000e+05>
    StableHlo.TRef.binary main_call10.cst_1 main_call10.v7 main_call10.v8 subf,   -- @_var's %8 = stablehlo.subtract %cst_1, %7
    StableHlo.TRef.nullary main_call10.cst_2 (constant S_ .f32 0x00000000#32),   -- @_var's %cst_2 = stablehlo.constant dense<0.000000e+00>
    StableHlo.TRef.binary main_call10.v6 main_call10.cst_2 main_call10.v9 (fun x v => Host.reduceAdd x v reducesTo_S100000x128_S128_d0 h_S_),   -- @_var's %9 = stablehlo.reduce(%6 init: %cst_2) applies stablehlo.add across dimensions = [0]
    StableHlo.TRef.unary main_call10.v8 main_call10.v10 (broadcastInDim S128 ![] bcast_S_S128),   -- @_var's %10 = stablehlo.broadcast_in_dim %8, dims = []
    StableHlo.TRef.binary main_call10.v9 main_call10.v10 main_call10.v11 Host.divf,   -- @_var's %11 = stablehlo.divide %9, %10
    StableHlo.TRef.nullary main_call10.cst_3 (constant S_ .f32 0x00000000#32),   -- @_var's %cst_3 = stablehlo.constant dense<0.000000e+00>
    StableHlo.TRef.binary main_call10.v8 main_call10.cst_3 main_call10.v12 (cmpf .ogt),   -- @_var's %12 = stablehlo.compare GT, %8, %cst_3, FLOAT
    StableHlo.TRef.nullary main_call10.cst_4 (constant S_ .f32 0x7FC00000#32),   -- @_var's %cst_4 = stablehlo.constant dense<0x7FC00000>
    StableHlo.TRef.unary main_call10.cst_4 main_call10.call0.v0 id,   -- @_var's @_where's %0 = stablehlo.convert %arg2
    StableHlo.TRef.unary main_call10.call0.v0 main_call10.call0.v1 (broadcastInDim S128 ![] bcast_S_S128),   -- @_var's @_where's %1 = stablehlo.broadcast_in_dim %0, dims = []
    StableHlo.TRef.ternary main_call10.v12 main_call10.v11 main_call10.call0.v1 main_call10.call0.v2 (fun p a b => select (broadcastInDim S128 ![] bcast_S_S128 p) a b),   -- @_var's @_where's %2 = stablehlo.select %arg0, %arg1, %1
    StableHlo.unary main_v194 main_v196 (broadcastInDim S1x128 ![1] bcast_S128_S1x128_1 : (⟨S128, .f32⟩ : BufTy).Contents (Elt F) → (⟨S1x128, .f32⟩ : BufTy).Contents (Elt F)),   -- %196 = stablehlo.broadcast_in_dim %194, dims = [1]
    StableHlo.unary main_v196 main_v197 (broadcastInDim S100000x128 ![0, 1] bcast_S1x128_S100000x128_0_1 : (⟨S1x128, .f32⟩ : BufTy).Contents (Elt F) → (⟨S100000x128, .f32⟩ : BufTy).Contents (Elt F)),   -- %197 = stablehlo.broadcast_in_dim %196, dims = [0, 1]
    StableHlo.binary main_v191 main_v197 main_v198 (subf : (⟨S100000x128, .f32⟩ : BufTy).Contents (Elt F) → (⟨S100000x128, .f32⟩ : BufTy).Contents (Elt F) → (⟨S100000x128, .f32⟩ : BufTy).Contents (Elt F)),   -- %198 = stablehlo.subtract %191, %197
    StableHlo.nullary main_cst_25 (constant S_ .f32 0x3727C5AC#32),   -- %cst_25 = stablehlo.constant dense<9.99999974E-6>
    StableHlo.unary main_cst_25 main_v199 (broadcastInDim S128 ![] bcast_S_S128 : (⟨S_, .f32⟩ : BufTy).Contents (Elt F) → (⟨S128, .f32⟩ : BufTy).Contents (Elt F)),   -- %199 = stablehlo.broadcast_in_dim %cst_25, dims = []
    StableHlo.binary main_v195 main_v199 main_v200 (addf : (⟨S128, .f32⟩ : BufTy).Contents (Elt F) → (⟨S128, .f32⟩ : BufTy).Contents (Elt F) → (⟨S128, .f32⟩ : BufTy).Contents (Elt F)),   -- %200 = stablehlo.add %195, %199
    StableHlo.unary main_v200 main_v201 (Host.rsqrt : (⟨S128, .f32⟩ : BufTy).Contents (Elt F) → (⟨S128, .f32⟩ : BufTy).Contents (Elt F)),   -- %201 = stablehlo.rsqrt %200
    StableHlo.unary main_v201 main_v202 (broadcastInDim S1x128 ![1] bcast_S128_S1x128_1 : (⟨S128, .f32⟩ : BufTy).Contents (Elt F) → (⟨S1x128, .f32⟩ : BufTy).Contents (Elt F)),   -- %202 = stablehlo.broadcast_in_dim %201, dims = [1]
    StableHlo.unary main_v202 main_v203 (broadcastInDim S100000x128 ![0, 1] bcast_S1x128_S100000x128_0_1 : (⟨S1x128, .f32⟩ : BufTy).Contents (Elt F) → (⟨S100000x128, .f32⟩ : BufTy).Contents (Elt F)),   -- %203 = stablehlo.broadcast_in_dim %202, dims = [0, 1]
    StableHlo.binary main_v198 main_v203 main_v204 (mulf : (⟨S100000x128, .f32⟩ : BufTy).Contents (Elt F) → (⟨S100000x128, .f32⟩ : BufTy).Contents (Elt F) → (⟨S100000x128, .f32⟩ : BufTy).Contents (Elt F)),   -- %204 = stablehlo.multiply %198, %203
    StableHlo.unary main_arg8 main_v205 ((extractStridedSlice S1x128 ![3, 0] · slices_S4x128_S1x128_3_0) : (⟨S4x128, .f32⟩ : BufTy).Contents (Elt F) → (⟨S1x128, .f32⟩ : BufTy).Contents (Elt F)),   -- %205 = stablehlo.slice %arg8 [3:4, 0:128]
    StableHlo.reshape main_v205 main_v206 rfl shapeCasts_S1x128_S128,   -- %206 = stablehlo.reshape %205
    StableHlo.unary main_v206 main_v207 (broadcastInDim S1x128 ![1] bcast_S128_S1x128_1 : (⟨S128, .f32⟩ : BufTy).Contents (Elt F) → (⟨S1x128, .f32⟩ : BufTy).Contents (Elt F)),   -- %207 = stablehlo.broadcast_in_dim %206, dims = [1]
    StableHlo.unary main_v207 main_v208 (broadcastInDim S100000x128 ![0, 1] bcast_S1x128_S100000x128_0_1 : (⟨S1x128, .f32⟩ : BufTy).Contents (Elt F) → (⟨S100000x128, .f32⟩ : BufTy).Contents (Elt F)),   -- %208 = stablehlo.broadcast_in_dim %207, dims = [0, 1]
    StableHlo.binary main_v204 main_v208 main_v209 (mulf : (⟨S100000x128, .f32⟩ : BufTy).Contents (Elt F) → (⟨S100000x128, .f32⟩ : BufTy).Contents (Elt F) → (⟨S100000x128, .f32⟩ : BufTy).Contents (Elt F)),   -- %209 = stablehlo.multiply %204, %208
    StableHlo.unary main_arg9 main_v210 ((extractStridedSlice S1x128 ![3, 0] · slices_S4x128_S1x128_3_0) : (⟨S4x128, .f32⟩ : BufTy).Contents (Elt F) → (⟨S1x128, .f32⟩ : BufTy).Contents (Elt F)),   -- %210 = stablehlo.slice %arg9 [3:4, 0:128]
    StableHlo.reshape main_v210 main_v211 rfl shapeCasts_S1x128_S128 ]   -- %211 = stablehlo.reshape %210

/-- Layer 3, second part: the shift (%212–%214) and the clamp at zero (the call writing %215, the result). (6 operations.) -/
abbrev opsL3b : List (HloOp τ sig (Elt F)) :=
  [ StableHlo.unary main_v211 main_v212 (broadcastInDim S1x128 ![1] bcast_S128_S1x128_1 : (⟨S128, .f32⟩ : BufTy).Contents (Elt F) → (⟨S1x128, .f32⟩ : BufTy).Contents (Elt F)),   -- %212 = stablehlo.broadcast_in_dim %211, dims = [1]
    StableHlo.unary main_v212 main_v213 (broadcastInDim S100000x128 ![0, 1] bcast_S1x128_S100000x128_0_1 : (⟨S1x128, .f32⟩ : BufTy).Contents (Elt F) → (⟨S100000x128, .f32⟩ : BufTy).Contents (Elt F)),   -- %213 = stablehlo.broadcast_in_dim %212, dims = [0, 1]
    StableHlo.binary main_v209 main_v213 main_v214 (addf : (⟨S100000x128, .f32⟩ : BufTy).Contents (Elt F) → (⟨S100000x128, .f32⟩ : BufTy).Contents (Elt F) → (⟨S100000x128, .f32⟩ : BufTy).Contents (Elt F)),   -- %214 = stablehlo.add %209, %213
    StableHlo.TRef.nullary main_call11.cst (constant S_ .f32 0x00000000#32),   -- @relu_0's %cst = stablehlo.constant dense<0.000000e+00>
    StableHlo.TRef.unary main_call11.cst main_call11.v0 (broadcastInDim S100000x128 ![] bcast_S_S100000x128),   -- @relu_0's %0 = stablehlo.broadcast_in_dim %cst, dims = []
    StableHlo.TRef.binary (.of main_v214 : StableHlo.TRef sig ⟨S100000x128, .f32⟩) main_call11.v0 main_call11.v1 maximumf ]   -- @relu_0's %1 = stablehlo.maximum %arg0, %0

/-- Layer 0 whole: from the aggregate of the previous features to the clamp that writes the next. -/
abbrev opsL0 : List (HloOp τ sig (Elt F)) := opsL0a ++ opsL0b
/-- Layer 1 whole: from the aggregate of the previous features to the clamp that writes the next. -/
abbrev opsL1 : List (HloOp τ sig (Elt F)) := opsL1a ++ opsL1b
/-- Layer 2 whole: from the aggregate of the previous features to the clamp that writes the next. -/
abbrev opsL2 : List (HloOp τ sig (Elt F)) := opsL2a ++ opsL2b
/-- Layer 3 whole: from the aggregate of the previous features to the clamp that writes the next. -/
abbrev opsL3 : List (HloOp τ sig (Elt F)) := opsL3a ++ opsL3b

/-- @main's 344 operations, in order. -/
abbrev ops : List (HloOp τ sig (Elt F)) := opsE ++ opsL0 ++ opsL1 ++ opsL2 ++ opsL3

end Cert.ReferenceIdeal.RefRun

end
-- ==== Proof.RefRun.lean ====
/- The reference program's run, read back.

   @main is the straight line of the operations listed in RefOps: each printed window is, once the called functions'
   bodies are put in place of their calls and sequencing is re-associated, the line of the lists that make it up, and
   @main runs the windows in order. On a signature that scopes nothing, every weakly fair execution of such a line ends
   with each buffer at the fold of the operations over what the launch held. The result buffer is stated at that fold,
   not expanded; no operation writes an argument buffer (each writes the buffer of the value it defines), so the ten
   arguments end as they began. -/
import proofs.«155226_j39831526703451_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line of its operations -/

set_option maxRecDepth 8192 in
set_option maxHeartbeats 4000000 in
/-- Statements 1–60: the embedding, the index rows, and layer 0 up to the broadcast of the scale row. The called
    functions' bodies stand in place of their calls and sequencing is re-associated; what is left differs from the line
    only in its last step's trailing return. -/
theorem main_part0_eq (c : Dev nD) : main_part0 (F := F) c = seq (opsE ++ opsL0a) := by
  simp only [main_part0, fn_relu.body, fn_var.body, fn_where.body, opsE, opsL0a, List.cons_append, List.nil_append, seq,
    bind_assoc, pure_bind]
  rfl

set_option maxRecDepth 8192 in
set_option maxHeartbeats 4000000 in
/-- Statements 61–120: the rest of layer 0, and layer 1 up to the product with the scale row. -/
theorem main_part1_eq (c : Dev nD) : main_part1 (F := F) c = seq (opsL0b ++ opsL1a) := by
  simp only [main_part1, fn_relu.body, fn_relu_0.body, fn_var.body, fn_where.body, opsL0b, opsL1a, List.cons_append,
    List.nil_append, seq, bind_assoc, pure_bind]
  rfl

set_option maxRecDepth 8192 in
set_option maxHeartbeats 4000000 in
/-- Statements 121–180: the rest of layer 1, and layer 2 up to the slice of the shift table. -/
theorem main_part2_eq (c : Dev nD) : main_part2 (F := F) c = seq (opsL1b ++ opsL2a) := by
  simp only [main_part2, fn_relu.body, fn_relu_0.body, fn_var.body, fn_where.body, opsL1b, opsL2a, List.cons_append,
    List.nil_append, seq, bind_assoc, pure_bind]
  rfl

set_option maxRecDepth 8192 in
set_option maxHeartbeats 4000000 in
/-- Statements 181–240: the rest of layer 2, and layer 3 up to the reshaped shift row. -/
theorem main_part3_eq (c : Dev nD) : main_part3 (F := F) c = seq (opsL2b ++ opsL3a) := by
  simp only [main_part3, fn_relu.body, fn_relu_0.body, fn_var.body, fn_where.body, opsL2b, opsL3a, List.cons_append,
    List.nil_append, seq, bind_assoc, pure_bind]
  rfl

set_option maxRecDepth 8192 in
/-- Statements 241–245: the rest of layer 3, ending in @main's return. -/
theorem main_part4_eq (c : Dev nD) : main_part4 (F := F) c = seq opsL3b := by
  simp only [main_part4, fn_relu_0.body, opsL3b, seq, bind_assoc, pure_bind]

/-- The whole list, bracketed by windows: concatenation is associative. -/
theorem ops_windows : (ops : List (HloOp τ sig (Elt F)))
    = (opsE ++ opsL0a) ++ ((opsL0b ++ opsL1a) ++ ((opsL1b ++ opsL2a) ++ ((opsL2b ++ opsL3a) ++ opsL3b))) := by
  simp only [ops, opsL0, opsL1, opsL2, opsL3, List.append_assoc]

/-- @main is the line of its operations: it runs the windows in order, and a line run after a line is the line of the
    concatenation. -/
theorem main_eq (c : Dev nD) : main (F := F) c = seq ops := by
  rw [ops_windows, seq_append, ← main_part0_eq c, seq_append, ← main_part1_eq c, seq_append, ← main_part2_eq c,
    seq_append, ← main_part3_eq c, ← main_part4_eq c]
  rfl

/-! ## The signature scopes nothing -/

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes

Both facts hold of each operation by the way it is built (its buffers are the references it names; it leaves no
written buffer undetermined), so of each of the nine lists entry by entry, and of their concatenation. -/

set_option maxRecDepth 8192 in
theorem opsE_sub : (opsE : List (HloOp τ sig (Elt F))).Forall fun op => op.bufs ⊆ tcRefs τ sig := by
  simp only [opsE, List.forall_cons, List.Forall, nullary_bufs_sub, unary_bufs_sub, binary_bufs_sub, ternary_bufs_sub,
    reshape_bufs_sub, and_self]
set_option maxRecDepth 8192 in
theorem opsE_fresh : ∀ op ∈ (opsE : List (HloOp τ sig (Elt F))), op.fresh = ∅ := by
  intro _ h; (repeat (cases h with | head => rfl | tail _ h => ?_)); exact nomatch h

set_option maxRecDepth 8192 in
theorem opsL0a_sub : (opsL0a : List (HloOp τ sig (Elt F))).Forall fun op => op.bufs ⊆ tcRefs τ sig := by
  simp only [opsL0a, List.forall_cons, List.Forall, nullary_bufs_sub, unary_bufs_sub, binary_bufs_sub, ternary_bufs_sub,
    reshape_bufs_sub, and_self]
set_option maxRecDepth 8192 in
theorem opsL0a_fresh : ∀ op ∈ (opsL0a : List (HloOp τ sig (Elt F))), op.fresh = ∅ := by
  intro _ h; (repeat (cases h with | head => rfl | tail _ h => ?_)); exact nomatch h

set_option maxRecDepth 8192 in
theorem opsL0b_sub : (opsL0b : List (HloOp τ sig (Elt F))).Forall fun op => op.bufs ⊆ tcRefs τ sig := by
  simp only [opsL0b, List.forall_cons, List.Forall, nullary_bufs_sub, unary_bufs_sub, binary_bufs_sub, ternary_bufs_sub,
    reshape_bufs_sub, and_self]
set_option maxRecDepth 8192 in
theorem opsL0b_fresh : ∀ op ∈ (opsL0b : List (HloOp τ sig (Elt F))), op.fresh = ∅ := by
  intro _ h; (repeat (cases h with | head => rfl | tail _ h => ?_)); exact nomatch h

set_option maxRecDepth 8192 in
theorem opsL1a_sub : (opsL1a : List (HloOp τ sig (Elt F))).Forall fun op => op.bufs ⊆ tcRefs τ sig := by
  simp only [opsL1a, List.forall_cons, List.Forall, nullary_bufs_sub, unary_bufs_sub, binary_bufs_sub, ternary_bufs_sub,
    reshape_bufs_sub, and_self]
set_option maxRecDepth 8192 in
theorem opsL1a_fresh : ∀ op ∈ (opsL1a : List (HloOp τ sig (Elt F))), op.fresh = ∅ := by
  intro _ h; (repeat (cases h with | head => rfl | tail _ h => ?_)); exact nomatch h

set_option maxRecDepth 8192 in
theorem opsL1b_sub : (opsL1b : List (HloOp τ sig (Elt F))).Forall fun op => op.bufs ⊆ tcRefs τ sig := by
  simp only [opsL1b, List.forall_cons, List.Forall, nullary_bufs_sub, unary_bufs_sub, binary_bufs_sub, ternary_bufs_sub,
    reshape_bufs_sub, and_self]
set_option maxRecDepth 8192 in
theorem opsL1b_fresh : ∀ op ∈ (opsL1b : List (HloOp τ sig (Elt F))), op.fresh = ∅ := by
  intro _ h; (repeat (cases h with | head => rfl | tail _ h => ?_)); exact nomatch h

set_option maxRecDepth 8192 in
theorem opsL2a_sub : (opsL2a : List (HloOp τ sig (Elt F))).Forall fun op => op.bufs ⊆ tcRefs τ sig := by
  simp only [opsL2a, List.forall_cons, List.Forall, nullary_bufs_sub, unary_bufs_sub, binary_bufs_sub, ternary_bufs_sub,
    reshape_bufs_sub, and_self]
set_option maxRecDepth 8192 in
theorem opsL2a_fresh : ∀ op ∈ (opsL2a : List (HloOp τ sig (Elt F))), op.fresh = ∅ := by
  intro _ h; (repeat (cases h with | head => rfl | tail _ h => ?_)); exact nomatch h

set_option maxRecDepth 8192 in
theorem opsL2b_sub : (opsL2b : List (HloOp τ sig (Elt F))).Forall fun op => op.bufs ⊆ tcRefs τ sig := by
  simp only [opsL2b, List.forall_cons, List.Forall, nullary_bufs_sub, unary_bufs_sub, binary_bufs_sub, ternary_bufs_sub,
    reshape_bufs_sub, and_self]
set_option maxRecDepth 8192 in
theorem opsL2b_fresh : ∀ op ∈ (opsL2b : List (HloOp τ sig (Elt F))), op.fresh = ∅ := by
  intro _ h; (repeat (cases h with | head => rfl | tail _ h => ?_)); exact nomatch h

set_option maxRecDepth 8192 in
theorem opsL3a_sub : (opsL3a : List (HloOp τ sig (Elt F))).Forall fun op => op.bufs ⊆ tcRefs τ sig := by
  simp only [opsL3a, List.forall_cons, List.Forall, nullary_bufs_sub, unary_bufs_sub, binary_bufs_sub, ternary_bufs_sub,
    reshape_bufs_sub, and_self]
set_option maxRecDepth 8192 in
theorem opsL3a_fresh : ∀ op ∈ (opsL3a : List (HloOp τ sig (Elt F))), op.fresh = ∅ := by
  intro _ h; (repeat (cases h with | head => rfl | tail _ h => ?_)); exact nomatch h

set_option maxRecDepth 8192 in
theorem opsL3b_sub : (opsL3b : List (HloOp τ sig (Elt F))).Forall fun op => op.bufs ⊆ tcRefs τ sig := by
  simp only [opsL3b, List.forall_cons, List.Forall, nullary_bufs_sub, unary_bufs_sub, binary_bufs_sub, ternary_bufs_sub,
    reshape_bufs_sub, and_self]
set_option maxRecDepth 8192 in
theorem opsL3b_fresh : ∀ op ∈ (opsL3b : List (HloOp τ sig (Elt F))), op.fresh = ∅ := by
  intro _ h; (repeat (cases h with | head => rfl | tail _ h => ?_)); exact nomatch h

/-- Membership in the whole list is membership in one of the nine lists. -/
theorem mem_ops {op : HloOp τ sig (Elt F)} (h : op ∈ (ops : List (HloOp τ sig (Elt F)))) :
    op ∈ (opsE : List (HloOp τ sig (Elt F))) ∨ op ∈ (opsL0a : List (HloOp τ sig (Elt F)))
      ∨ op ∈ (opsL0b : List (HloOp τ sig (Elt F))) ∨ op ∈ (opsL1a : List (HloOp τ sig (Elt F)))
      ∨ op ∈ (opsL1b : List (HloOp τ sig (Elt F))) ∨ op ∈ (opsL2a : List (HloOp τ sig (Elt F)))
      ∨ op ∈ (opsL2b : List (HloOp τ sig (Elt F))) ∨ op ∈ (opsL3a : List (HloOp τ sig (Elt F)))
      ∨ op ∈ (opsL3b : List (HloOp τ sig (Elt F))) := by
  simpa only [ops, opsL0, opsL1, opsL2, opsL3, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h | h | h
    exacts [List.forall_iff_forall_mem.mp opsE_sub op h, List.forall_iff_forall_mem.mp opsL0a_sub op h,
      List.forall_iff_forall_mem.mp opsL0b_sub op h, List.forall_iff_forall_mem.mp opsL1a_sub op h,
      List.forall_iff_forall_mem.mp opsL1b_sub op h, List.forall_iff_forall_mem.mp opsL2a_sub op h,
      List.forall_iff_forall_mem.mp opsL2b_sub op h, List.forall_iff_forall_mem.mp opsL3a_sub op h,
      List.forall_iff_forall_mem.mp opsL3b_sub op h]

theorem ops_fresh : ∀ op ∈ (ops : List (HloOp τ sig (Elt F))), op.fresh = ∅ := fun op h => by
  rcases mem_ops h with h | h | h | h | h | h | h | h | h
  exacts [opsE_fresh op h, opsL0a_fresh op h, opsL0b_fresh op h, opsL1a_fresh op h, opsL1b_fresh op h, opsL2a_fresh op h,
    opsL2b_fresh op h, opsL3a_fresh op h, opsL3b_fresh op h]

/-! ## No operation writes an argument

An operation changes only the buffer of the value it defines, and that buffer is never one of the ten arguments': at
an argument's reference each operation's result is what was there, the two references being different. -/

/-- The ten argument buffers. -/
abbrev argRefs : List (Ref sig .tc) :=
  [main_arg0, main_arg1, main_arg2, main_arg3, main_arg4, main_arg5, main_arg6, main_arg7, main_arg8, main_arg9]

set_option maxRecDepth 8192 in
set_option maxHeartbeats 4000000 in
theorem opsE_keep (V : Valuation τ sig (Elt F)) : ∀ a ∈ argRefs, after opsE V (Proc.devRef .tc a) = V (Proc.devRef .tc a) := by
  intro a ha
  fin_cases ha <;>
    simp (disch := decide) only [after_cons, after_nil, nullary_result_ne', unary_result_ne', binary_result_ne',
      ternary_result_ne', reshape_result_ne']

set_option maxRecDepth 8192 in
set_option maxHeartbeats 4000000 in
theorem opsL0a_keep (V : Valuation τ sig (Elt F)) : ∀ a ∈ argRefs, after opsL0a V (Proc.devRef .tc a) = V (Proc.devRef .tc a) := by
  intro a ha
  fin_cases ha <;>
    simp (disch := decide) only [after_cons, after_nil, nullary_result_ne', unary_result_ne', binary_result_ne',
      ternary_result_ne', reshape_result_ne']

set_option maxRecDepth 8192 in
set_option maxHeartbeats 4000000 in
theorem opsL0b_keep (V : Valuation τ sig (Elt F)) : ∀ a ∈ argRefs, after opsL0b V (Proc.devRef .tc a) = V (Proc.devRef .tc a) := by
  intro a ha
  fin_cases ha <;>
    simp (disch := decide) only [after_cons, after_nil, nullary_result_ne', unary_result_ne', binary_result_ne',
      ternary_result_ne', reshape_result_ne']

set_option maxRecDepth 8192 in
set_option maxHeartbeats 4000000 in
theorem opsL1a_keep (V : Valuation τ sig (Elt F)) : ∀ a ∈ argRefs, after opsL1a V (Proc.devRef .tc a) = V (Proc.devRef .tc a) := by
  intro a ha
  fin_cases ha <;>
    simp (disch := decide) only [after_cons, after_nil, nullary_result_ne', unary_result_ne', binary_result_ne',
      ternary_result_ne', reshape_result_ne']

set_option maxRecDepth 8192 in
set_option maxHeartbeats 4000000 in
theorem opsL1b_keep (V : Valuation τ sig (Elt F)) : ∀ a ∈ argRefs, after opsL1b V (Proc.devRef .tc a) = V (Proc.devRef .tc a) := by
  intro a ha
  fin_cases ha <;>
    simp (disch := decide) only [after_cons, after_nil, nullary_result_ne', unary_result_ne', binary_result_ne',
      ternary_result_ne', reshape_result_ne']

set_option maxRecDepth 8192 in
set_option maxHeartbeats 4000000 in
theorem opsL2a_keep (V : Valuation τ sig (Elt F)) : ∀ a ∈ argRefs, after opsL2a V (Proc.devRef .tc a) = V (Proc.devRef .tc a) := by
  intro a ha
  fin_cases ha <;>
    simp (disch := decide) only [after_cons, after_nil, nullary_result_ne', unary_result_ne', binary_result_ne',
      ternary_result_ne', reshape_result_ne']

set_option maxRecDepth 8192 in
set_option maxHeartbeats 4000000 in
theorem opsL2b_keep (V : Valuation τ sig (Elt F)) : ∀ a ∈ argRefs, after opsL2b V (Proc.devRef .tc a) = V (Proc.devRef .tc a) := by
  intro a ha
  fin_cases ha <;>
    simp (disch := decide) only [after_cons, after_nil, nullary_result_ne', unary_result_ne', binary_result_ne',
      ternary_result_ne', reshape_result_ne']

set_option maxRecDepth 8192 in
set_option maxHeartbeats 4000000 in
theorem opsL3a_keep (V : Valuation τ sig (Elt F)) : ∀ a ∈ argRefs, after opsL3a V (Proc.devRef .tc a) = V (Proc.devRef .tc a) := by
  intro a ha
  fin_cases ha <;>
    simp (disch := decide) only [after_cons, after_nil, nullary_result_ne', unary_result_ne', binary_result_ne',
      ternary_result_ne', reshape_result_ne']

set_option maxRecDepth 8192 in
set_option maxHeartbeats 4000000 in
theorem opsL3b_keep (V : Valuation τ sig (Elt F)) : ∀ a ∈ argRefs, after opsL3b V (Proc.devRef .tc a) = V (Proc.devRef .tc a) := by
  intro a ha
  fin_cases ha <;>
    simp (disch := decide) only [after_cons, after_nil, nullary_result_ne', unary_result_ne', binary_result_ne',
      ternary_result_ne', reshape_result_ne']

/-- The fold over the whole list is the folds over the nine lists in turn, and each leaves the arguments. -/
theorem ops_keep (V : Valuation τ sig (Elt F)) (a : Ref sig .tc) (ha : a ∈ argRefs) :
    after ops V (Proc.devRef .tc a) = V (Proc.devRef .tc a) := by
  simp only [ops, opsL0, opsL1, opsL2, opsL3, after_append]
  rw [opsL3b_keep _ a ha, opsL3a_keep _ a ha, opsL2b_keep _ a ha, opsL2a_keep _ a ha, opsL1b_keep _ a ha, opsL1a_keep _ a ha,
    opsL0b_keep _ a ha, opsL0a_keep _ a ha, opsE_keep _ a ha]

/-! ## The run -/

/-- On every device, for any float values, from any memory with zero counters: every weakly fair execution of @main
    terminates with the result buffer at the fold of the operations over the device's launch contents, and the ten
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v215) = after ops (launchContents m c) (Proc.devRef .tc main_v215)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v215,
      (h c main_arg0).trans (ops_keep _ main_arg0 (by decide)), (h c main_arg1).trans (ops_keep _ main_arg1 (by decide)),
      (h c main_arg2).trans (ops_keep _ main_arg2 (by decide)), (h c main_arg3).trans (ops_keep _ main_arg3 (by decide)),
      (h c main_arg4).trans (ops_keep _ main_arg4 (by decide)), (h c main_arg5).trans (ops_keep _ main_arg5 (by decide)),
      (h c main_arg6).trans (ops_keep _ main_arg6 (by decide)), (h c main_arg7).trans (ops_keep _ main_arg7 (by decide)),
      (h c main_arg8).trans (ops_keep _ main_arg8 (by decide)), (h c main_arg9).trans (ops_keep _ main_arg9 (by decide))⟩)
    (run_seq scopedRefs_eq scopedSems_eq defs main (fun _ => ops) main_eq (fun _ => ops_sub) m ρ (fun _ => ops_fresh))

end Cert.ReferenceIdeal.RefRun

end
-- ==== Proof.RefLayer.lean ====
/-
  One layer of the reference, as the term its printed operations compose, read index by index: it is the
  specification's layer with the variance written as the mean squared deviation.  Beside it the embedding, the
  neighbour aggregation and each layer's parameters as the terms the reference builds from its arguments.
-/
import proofs.«155226_j39831526703451_1_alg».proof.ReferenceIdeal
import proofs.«155226_j39831526703451_1_alg».proof.Proof.Spec
import proofs.«155226_j39831526703451_1_alg».proof.Proof.GinConsts
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.StackMember
import Idealize.ShloMosaic.PureOps.Ideal.Laws

noncomputable section

open scoped BigOperators

namespace Cert.ReferenceIdeal.RefLayer

open Idealize.ShloMosaic Idealize.ShloMosaic.ValueIdx
open Cert.ReferenceIdeal Cert.ReferenceIdeal.Facts₀

/-! ## Operations read at an index, at any sizes -/

section Generic
variable {α : Type} {m k n : Nat}

/-- A vector laid along axis 1 of a one-row matrix reads the vector. -/
theorem bcast_vec_oneRow_apply (h : (⟨1, ![k]⟩ : Shape).BroadcastsInDim ⟨2, ![1, k]⟩ ![1])
    (b : (⟨1, ![k]⟩ : Shape).Idx → α) (r : Fin 1) (t : Fin k) :
    broadcastInDim ⟨2, ![1, k]⟩ ![1] h b (ix2 r t) = b (ix1 t) := by
  refine broadcastInDim_apply ![1] h b (ix2 r t) (ix1 t) ?_
  intro a
  match a with
  | ⟨0, _⟩ =>
    show t.val = if k = 1 then 0 else t.val
    split_ifs with hk
    · have := t.isLt; omega
    · rfl

/-- A vector laid along every row of a matrix, through a one-row matrix, reads the vector at the column. -/
theorem bcast_rows_apply (h1 : (⟨1, ![k]⟩ : Shape).BroadcastsInDim ⟨2, ![1, k]⟩ ![1])
    (h2 : (⟨2, ![1, k]⟩ : Shape).BroadcastsInDim ⟨2, ![m, k]⟩ ![0, 1])
    (b : (⟨1, ![k]⟩ : Shape).Idx → α) (r : Fin m) (t : Fin k) :
    broadcastInDim ⟨2, ![m, k]⟩ ![0, 1] h2 (broadcastInDim ⟨2, ![1, k]⟩ ![1] h1 b) (ix2 r t) = b (ix1 t) := by
  rw [broadcastInDim_oneRow_apply, bcast_vec_oneRow_apply]

/-- The host's sum over the rows of a matrix from an initial value that is zero, read at a column, is the sum of
    that column's entries. -/
theorem colsum_apply {u : Shape} (h' : (⟨2, ![m, k]⟩ : Shape).ReducesTo [0] ⟨1, ![k]⟩)
    (x : FVec Ideal ⟨2, ![m, k]⟩ .f32) (init : u.Idx → Ideal .f32) (hu : 0 < u.numel)
    (h0 : init (Shape.Idx.first hu) = 0) (t : Fin k) :
    Host.reduceAdd x init h' hu (ix1 t) = ∑ r : Fin m, x (ix2 r t) := by
  have h : (⟨2, ![m, k]⟩ : Shape).Reduces [0] ⟨1, ![k]⟩ := ⟨h'.1, Nat.one_pos, h'.2⟩
  show Ideal.hostReduceAdd h' x _ (ix1 t) = _
  rw [Ideal.hostReduceAdd_single h' h, h0, zero_add]
  refine Finset.sum_congr rfl fun r _ => ?_
  refine congrArg x (funext fun a => Fin.ext ?_)
  match a with
  | ⟨0, _⟩ => rfl
  | ⟨1, _⟩ => rfl

/-- A matrix product whose dimension numbers are the plain ones (rows by contraction times contraction by columns),
    read at an index, is the sum over the contracted coordinate of the products of the entries. -/
theorem dot_apply (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (a : Fin m) (b : Fin n) :
    Host.dotGeneral d none A B (ix2 a b) = ∑ c : Fin k, A (ix2 a c) * B (ix2 c b) := by
  subst hd
  exact StackMember.dotGeneral_plain_apply none A B a b

end Generic

variable [Facts]

/-! ## The terms the reference's operations compose -/

/-- The two-layer perceptron: the product with `W1`, the bias laid along every row, the clamp at zero, the product with
    `W2` and its bias. -/
def zpreTerm (z : FVec Ideal S100000x128 .f32) (W1 : FVec Ideal S128x256 .f32) (b1 : FVec Ideal S256 .f32)
    (W2 : FVec Ideal S256x128 .f32) (b2 : FVec Ideal S128 .f32) : FVec Ideal S100000x128 .f32 :=
  addf
    (Host.dotGeneral dot_S100000x256_S256x128_S100000x128_1_0_0_1_n_n none
      (maximumf
        (addf (Host.dotGeneral dot_S100000x128_S128x256_S100000x256_1_0_0_1_n_n none z W1)
          (broadcastInDim S100000x256 ![0, 1] bcast_S1x256_S100000x256_0_1
            (broadcastInDim S1x256 ![1] bcast_S256_S1x256_1 b1)))
        (broadcastInDim S100000x256 ![] bcast_S_S100000x256 (constant (F := Ideal) S_ .f32 0x00000000#32)))
      W2)
    (broadcastInDim S100000x128 ![0, 1] bcast_S1x128_S100000x128_0_1
      (broadcastInDim S1x128 ![1] bcast_S128_S1x128_1 b2))

/-- The column means: the column sums divided by the node count. -/
def meanTerm (y : FVec Ideal S100000x128 .f32) : FVec Ideal S128 .f32 :=
  Host.divf
    (Host.reduceAdd y (constant (F := Ideal) S_ .f32 0x00000000#32) reducesTo_S100000x128_S128_d0 h_S_)
    (broadcastInDim S128 ![] bcast_S_S128 (constant (F := Ideal) S_ .f32 0x47C35000#32))

/-- The squared deviations from the column means, as the variance function computes them. -/
def devSqTerm (y : FVec Ideal S100000x128 .f32) : FVec Ideal S100000x128 .f32 :=
  mulf
    (subf y
      (broadcastInDim S100000x128 ![0, 1] bcast_S1x128_S100000x128_0_1
        (Host.divf
          (broadcastInDim S1x128 ![1] bcast_S128_S1x128_1
            (Host.reduceAdd y (constant (F := Ideal) S_ .f32 0x00000000#32) reducesTo_S100000x128_S128_d0 h_S_))
          (broadcastInDim S1x128 ![] bcast_S_S1x128 (constant (F := Ideal) S_ .f32 0x47C35000#32)))))
    (subf y
      (broadcastInDim S100000x128 ![0, 1] bcast_S1x128_S100000x128_0_1
        (Host.divf
          (broadcastInDim S1x128 ![1] bcast_S128_S1x128_1
            (Host.reduceAdd y (constant (F := Ideal) S_ .f32 0x00000000#32) reducesTo_S100000x128_S128_d0 h_S_))
          (broadcastInDim S1x128 ![] bcast_S_S1x128 (constant (F := Ideal) S_ .f32 0x47C35000#32)))))

/-- The divisor of the variance: the node count minus the correction `c` converted to a float. -/
def divisorTerm (c : IVec S_ 32) : FVec Ideal S_ .f32 :=
  subf (constant (F := Ideal) S_ .f32 0x47C35000#32) (sitofp .f32 c)

/-- The column variances: the sums of the squared deviations divided by the divisor where it is positive, the
    not-a-number pattern's value elsewhere. -/
def varTerm (y : FVec Ideal S100000x128 .f32) (c : IVec S_ 32) : FVec Ideal S128 .f32 :=
  select
    (broadcastInDim S128 ![] bcast_S_S128
      (cmpf .ogt (divisorTerm c) (constant (F := Ideal) S_ .f32 0x00000000#32)))
    (Host.divf
      (Host.reduceAdd (devSqTerm y) (constant (F := Ideal) S_ .f32 0x00000000#32) reducesTo_S100000x128_S128_d0 h_S_)
      (broadcastInDim S128 ![] bcast_S_S128 (divisorTerm c)))
    (broadcastInDim S128 ![] bcast_S_S128 (id (constant (F := Ideal) S_ .f32 0x7FC00000#32)))

/-- Normalise by the column statistics, scale, shift and clamp at zero. -/
def bnreluTerm (y : FVec Ideal S100000x128 .f32) (μ v γ β : FVec Ideal S128 .f32) : FVec Ideal S100000x128 .f32 :=
  maximumf
    (addf
      (mulf
        (mulf
          (subf y
            (broadcastInDim S100000x128 ![0, 1] bcast_S1x128_S100000x128_0_1
              (broadcastInDim S1x128 ![1] bcast_S128_S1x128_1 μ)))
          (broadcastInDim S100000x128 ![0, 1] bcast_S1x128_S100000x128_0_1
            (broadcastInDim S1x128 ![1] bcast_S128_S1x128_1
              (Host.rsqrt
                (addf v (broadcastInDim S128 ![] bcast_S_S128 (constant (F := Ideal) S_ .f32 0x3727C5AC#32)))))))
        (broadcastInDim S100000x128 ![0, 1] bcast_S1x128_S100000x128_0_1
          (broadcastInDim S1x128 ![1] bcast_S128_S1x128_1 γ)))
      (broadcastInDim S100000x128 ![0, 1] bcast_S1x128_S100000x128_0_1
        (broadcastInDim S1x128 ![1] bcast_S128_S1x128_1 β)))
    (broadcastInDim S100000x128 ![] bcast_S_S100000x128 (constant (F := Ideal) S_ .f32 0x00000000#32))

/-- One layer of the reference over its aggregated input `z` and its parameters: the perceptron, the column
    statistics (the variance with correction zero), the normalisation and the clamp. -/
def layerTerm (z : FVec Ideal S100000x128 .f32) (W1 : FVec Ideal S128x256 .f32) (b1 : FVec Ideal S256 .f32)
    (W2 : FVec Ideal S256x128 .f32) (b2 γ β : FVec Ideal S128 .f32) : FVec Ideal S100000x128 .f32 :=
  bnreluTerm (zpreTerm z W1 b1 W2 b2) (meanTerm (zpreTerm z W1 b1 W2 b2))
    (varTerm (zpreTerm z W1 b1 W2 b2) (constantI S_ 32 0#32)) γ β

/-- The node embedding: the product with the embedding matrix plus its bias laid along every row. -/
def embed (x : FVec Ideal S100000x32 .f32) (We : FVec Ideal S32x128 .f32) (be : FVec Ideal S128 .f32) :
    FVec Ideal S100000x128 .f32 :=
  addf (Host.dotGeneral dot_S100000x32_S32x128_S100000x128_1_0_0_1_n_n none x We)
    (broadcastInDim S100000x128 ![0, 1] bcast_S1x128_S100000x128_0_1
      (broadcastInDim S1x128 ![1] bcast_S128_S1x128_1 be))

/-- The source rows as gather indices: a negative index moved up by the node count, as a column of start indices. -/
def srcIdx (src : IVec S400000 32) : IVec S400000x1 32 :=
  broadcastInDim S400000x1 ![0] bcast_S400000_S400000x1_0
    (select (cmpi .slt src (broadcastInDim S400000 ![] bcast_S_S400000 (constantI S_ 32 0#32)))
      (addi src (broadcastInDim S400000 ![] bcast_S_S400000 (constantI S_ 32 100000#32))) src)

/-- The neighbour aggregation plus the node's own features: the rows of `h` gathered at the edges' sources and
    added into the rows the edges' destinations name, from zero, then added to `h`. -/
def agg (src dst : IVec S400000 32) (h : FVec Ideal S100000x128 .f32) : FVec Ideal S100000x128 .f32 :=
  addf h
    (Host.scatterAdd scatter_S100000x128_S400000x1_S400000x128_1_0_0_1
      (broadcastInDim S100000x128 ![] bcast_S_S100000x128 (constant (F := Ideal) S_ .f32 0x00000000#32))
      (broadcastInDim S400000x1 ![0] bcast_S400000_S400000x1_0 dst)
      (Host.gather gather_S100000x128_S400000x1_S400000x128_1_0_n_n_0_1_1128 h (srcIdx src)))

/-- The edges' sources: row 0 of the edge array. -/
def srcOf (e : IVec S2x400000 32) : IVec S400000 32 :=
  shapeCast S400000 (extractStridedSlice S1x400000 ![0, 0] e slices_S2x400000_S1x400000_0_0) shapeCasts_S1x400000_S400000
/-- The edges' destinations: row 1 of the edge array. -/
def dstOf (e : IVec S2x400000 32) : IVec S400000 32 :=
  shapeCast S400000 (extractStridedSlice S1x400000 ![1, 0] e slices_S2x400000_S1x400000_1_0) shapeCasts_S1x400000_S400000

/-- Layer 0's parameters: slice 0 of each stacked parameter array. -/
def params0 (a4 : FVec Ideal S4x128x256 .f32) (a5 : FVec Ideal S4x256 .f32) (a6 : FVec Ideal S4x256x128 .f32)
    (a7 a8 a9 : FVec Ideal S4x128 .f32) : Gin.Params where
  W1 := shapeCast S128x256 (extractStridedSlice S1x128x256 ![0, 0, 0] a4 slices_S4x128x256_S1x128x256_0_0_0) shapeCasts_S1x128x256_S128x256
  b1 := shapeCast S256 (extractStridedSlice S1x256 ![0, 0] a5 slices_S4x256_S1x256_0_0) shapeCasts_S1x256_S256
  W2 := shapeCast S256x128 (extractStridedSlice S1x256x128 ![0, 0, 0] a6 slices_S4x256x128_S1x256x128_0_0_0) shapeCasts_S1x256x128_S256x128
  b2 := shapeCast S128 (extractStridedSlice S1x128 ![0, 0] a7 slices_S4x128_S1x128_0_0) shapeCasts_S1x128_S128
  γ := shapeCast S128 (extractStridedSlice S1x128 ![0, 0] a8 slices_S4x128_S1x128_0_0) shapeCasts_S1x128_S128
  β := shapeCast S128 (extractStridedSlice S1x128 ![0, 0] a9 slices_S4x128_S1x128_0_0) shapeCasts_S1x128_S128

/-- Layer 1's parameters: slice 1 of each stacked parameter array. -/
def params1 (a4 : FVec Ideal S4x128x256 .f32) (a5 : FVec Ideal S4x256 .f32) (a6 : FVec Ideal S4x256x128 .f32)
    (a7 a8 a9 : FVec Ideal S4x128 .f32) : Gin.Params where
  W1 := shapeCast S128x256 (extractStridedSlice S1x128x256 ![1, 0, 0] a4 slices_S4x128x256_S1x128x256_1_0_0) shapeCasts_S1x128x256_S128x256
  b1 := shapeCast S256 (extractStridedSlice S1x256 ![1, 0] a5 slices_S4x256_S1x256_1_0) shapeCasts_S1x256_S256
  W2 := shapeCast S256x128 (extractStridedSlice S1x256x128 ![1, 0, 0] a6 slices_S4x256x128_S1x256x128_1_0_0) shapeCasts_S1x256x128_S256x128
  b2 := shapeCast S128 (extractStridedSlice S1x128 ![1, 0] a7 slices_S4x128_S1x128_1_0) shapeCasts_S1x128_S128
  γ := shapeCast S128 (extractStridedSlice S1x128 ![1, 0] a8 slices_S4x128_S1x128_1_0) shapeCasts_S1x128_S128
  β := shapeCast S128 (extractStridedSlice S1x128 ![1, 0] a9 slices_S4x128_S1x128_1_0) shapeCasts_S1x128_S128

/-- Layer 2's parameters: slice 2 of each stacked parameter array. -/
def params2 (a4 : FVec Ideal S4x128x256 .f32) (a5 : FVec Ideal S4x256 .f32) (a6 : FVec Ideal S4x256x128 .f32)
    (a7 a8 a9 : FVec Ideal S4x128 .f32) : Gin.Params where
  W1 := shapeCast S128x256 (extractStridedSlice S1x128x256 ![2, 0, 0] a4 slices_S4x128x256_S1x128x256_2_0_0) shapeCasts_S1x128x256_S128x256
  b1 := shapeCast S256 (extractStridedSlice S1x256 ![2, 0] a5 slices_S4x256_S1x256_2_0) shapeCasts_S1x256_S256
  W2 := shapeCast S256x128 (extractStridedSlice S1x256x128 ![2, 0, 0] a6 slices_S4x256x128_S1x256x128_2_0_0) shapeCasts_S1x256x128_S256x128
  b2 := shapeCast S128 (extractStridedSlice S1x128 ![2, 0] a7 slices_S4x128_S1x128_2_0) shapeCasts_S1x128_S128
  γ := shapeCast S128 (extractStridedSlice S1x128 ![2, 0] a8 slices_S4x128_S1x128_2_0) shapeCasts_S1x128_S128
  β := shapeCast S128 (extractStridedSlice S1x128 ![2, 0] a9 slices_S4x128_S1x128_2_0) shapeCasts_S1x128_S128

/-- Layer 3's parameters: slice 3 of each stacked parameter array. -/
def params3 (a4 : FVec Ideal S4x128x256 .f32) (a5 : FVec Ideal S4x256 .f32) (a6 : FVec Ideal S4x256x128 .f32)
    (a7 a8 a9 : FVec Ideal S4x128 .f32) : Gin.Params where
  W1 := shapeCast S128x256 (extractStridedSlice S1x128x256 ![3, 0, 0] a4 slices_S4x128x256_S1x128x256_3_0_0) shapeCasts_S1x128x256_S128x256
  b1 := shapeCast S256 (extractStridedSlice S1x256 ![3, 0] a5 slices_S4x256_S1x256_3_0) shapeCasts_S1x256_S256
  W2 := shapeCast S256x128 (extractStridedSlice S1x256x128 ![3, 0, 0] a6 slices_S4x256x128_S1x256x128_3_0_0) shapeCasts_S1x256x128_S256x128
  b2 := shapeCast S128 (extractStridedSlice S1x128 ![3, 0] a7 slices_S4x128_S1x128_3_0) shapeCasts_S1x128_S128
  γ := shapeCast S128 (extractStridedSlice S1x128 ![3, 0] a8 slices_S4x128_S1x128_3_0) shapeCasts_S1x128_S128
  β := shapeCast S128 (extractStridedSlice S1x128 ![3, 0] a9 slices_S4x128_S1x128_3_0) shapeCasts_S1x128_S128

/-! ## Each term read index by index -/

theorem dot1_plain : dot_S100000x128_S128x256_S100000x256_1_0_0_1_n_n = DotDims.plain 100000 128 256 := rfl
theorem dot2_plain : dot_S100000x256_S256x128_S100000x128_1_0_0_1_n_n = DotDims.plain 100000 256 128 := rfl

/-- The perceptron's term is the specification's perceptron. -/
theorem zpreTerm_eq (z : FVec Ideal S100000x128 .f32) (W1 : FVec Ideal S128x256 .f32) (b1 : FVec Ideal S256 .f32)
    (W2 : FVec Ideal S256x128 .f32) (b2 : FVec Ideal S128 .f32) :
    zpreTerm z W1 b1 W2 b2 = Gin.zpre z W1 b1 W2 b2 := by
  funext idx
  obtain ⟨r, j, rfl⟩ : ∃ (r : Fin 100000) (j : Fin 128), idx = ix2 r j := ⟨idx 0, idx 1, eq_ix2 idx⟩
  show Host.dotGeneral dot_S100000x256_S256x128_S100000x128_1_0_0_1_n_n none _ W2 (ix2 r j)
      + broadcastInDim S100000x128 ![0, 1] bcast_S1x128_S100000x128_0_1
          (broadcastInDim S1x128 ![1] bcast_S128_S1x128_1 b2) (ix2 r j)
    = Gin.zpreAt z W1 b1 W2 b2 r j
  rw [dot_apply _ dot2_plain, bcast_rows_apply]
  unfold Gin.zpreAt
  congr 1
  refine Finset.sum_congr rfl fun c _ => ?_
  congr 1
  show max (Host.dotGeneral dot_S100000x128_S128x256_S100000x256_1_0_0_1_n_n none z W1 (ix2 r c)
        + broadcastInDim S100000x256 ![0, 1] bcast_S1x256_S100000x256_0_1
            (broadcastInDim S1x256 ![1] bcast_S256_S1x256_1 b1) (ix2 r c))
      (broadcastInDim S100000x256 ![] bcast_S_S100000x256 (constant (F := Ideal) S_ .f32 0x00000000#32) (ix2 r c))
    = Gin.hid z W1 b1 r c
  rw [dot_apply _ dot1_plain, bcast_rows_apply, broadcastInDim_scalar_apply]
  show max _ (Ideal.ofBits .f32 0x00000000#32) = _
  rw [Ideal.ofBits_zero_f32]
  rfl

/-- The column means' term is the specification's mean. -/
theorem meanTerm_eq (y : FVec Ideal S100000x128 .f32) : meanTerm y = Gin.mean y := by
  funext j
  obtain ⟨t, rfl⟩ : ∃ t : Fin 128, j = ix1 t := ⟨j 0, eq_ix1 j⟩
  show Ideal.div
      (Host.reduceAdd y (constant (F := Ideal) S_ .f32 0x00000000#32) reducesTo_S100000x128_S128_d0 h_S_ (ix1 t))
      (broadcastInDim S128 ![] bcast_S_S128 (constant (F := Ideal) S_ .f32 0x47C35000#32) (ix1 t))
    = Ideal.div (∑ n : Fin 100000, y (ix2 n t)) Gin.cN
  rw [colsum_apply _ _ _ _ Ideal.ofBits_zero_f32, broadcastInDim_scalar_apply]
  rfl

/-- With correction zero the divisor is the node count minus zero. -/
theorem divisorTerm_zero : divisorTerm (constantI S_ 32 0#32) ix0 = Gin.cN - 0 := by
  show Ideal.ofBits .f32 0x47C35000#32 - ((((0#32 : BitVec 32).toInt : ℤ) : ℝ) : EReal) = Gin.cN - 0
  simp [Gin.cN]

/-- A squared deviation, read at an index. -/
theorem devSqTerm_apply (y : FVec Ideal S100000x128 .f32) (r : Fin 100000) (t : Fin 128) :
    devSqTerm y (ix2 r t)
      = (y (ix2 r t) - Gin.mean y (ix1 t)) * (y (ix2 r t) - Gin.mean y (ix1 t)) := by
  have hm : broadcastInDim S100000x128 ![0, 1] bcast_S1x128_S100000x128_0_1
        (Host.divf
          (broadcastInDim S1x128 ![1] bcast_S128_S1x128_1
            (Host.reduceAdd y (constant (F := Ideal) S_ .f32 0x00000000#32) reducesTo_S100000x128_S128_d0 h_S_))
          (broadcastInDim S1x128 ![] bcast_S_S1x128 (constant (F := Ideal) S_ .f32 0x47C35000#32))) (ix2 r t)
      = Gin.mean y (ix1 t) := by
    rw [broadcastInDim_oneRow_apply]
    show Ideal.div
        (broadcastInDim S1x128 ![1] bcast_S128_S1x128_1
          (Host.reduceAdd y (constant (F := Ideal) S_ .f32 0x00000000#32) reducesTo_S100000x128_S128_d0 h_S_)
          (ix2 (0 : Fin 1) t))
        (broadcastInDim S1x128 ![] bcast_S_S1x128 (constant (F := Ideal) S_ .f32 0x47C35000#32) (ix2 (0 : Fin 1) t))
      = Ideal.div (∑ n : Fin 100000, y (ix2 n t)) Gin.cN
    rw [bcast_vec_oneRow_apply, colsum_apply _ _ _ _ Ideal.ofBits_zero_f32, broadcastInDim_scalar_apply]
    rfl
  show (y (ix2 r t) - _) * (y (ix2 r t) - _) = _
  rw [hm]

/-- The variance's term with correction zero is the specification's mean squared deviation: the node count is
    positive, so the guard on the divisor selects the quotient. -/
theorem varTerm_eq (hN : Gin.cN = ((100000 : ℝ) : EReal)) (y : FVec Ideal S100000x128 .f32) :
    varTerm y (constantI S_ 32 0#32) = Gin.varR y := by
  funext j
  obtain ⟨t, rfl⟩ : ∃ t : Fin 128, j = ix1 t := ⟨j 0, eq_ix1 j⟩
  have hpos : (0 : EReal) < Gin.cN := by
    rw [hN]
    exact EReal.coe_pos.mpr (by norm_num)
  have hc : cmpf .ogt (divisorTerm (constantI S_ 32 0#32)) (constant (F := Ideal) S_ .f32 0x00000000#32) ix0
      = 1#1 := by
    show Ideal.cmp .ogt (divisorTerm (constantI S_ 32 0#32) ix0) (Ideal.ofBits .f32 0x00000000#32) = 1#1
    rw [divisorTerm_zero, Ideal.ofBits_zero_f32]
    simp [Ideal.cmp, hpos]
  show Scalar.select
      (broadcastInDim S128 ![] bcast_S_S128
        (cmpf .ogt (divisorTerm (constantI S_ 32 0#32)) (constant (F := Ideal) S_ .f32 0x00000000#32)) (ix1 t))
      (Ideal.div
        (Host.reduceAdd (devSqTerm y) (constant (F := Ideal) S_ .f32 0x00000000#32) reducesTo_S100000x128_S128_d0 h_S_
          (ix1 t))
        (broadcastInDim S128 ![] bcast_S_S128 (divisorTerm (constantI S_ 32 0#32)) (ix1 t)))
      (broadcastInDim S128 ![] bcast_S_S128 (id (constant (F := Ideal) S_ .f32 0x7FC00000#32)) (ix1 t))
    = Gin.varR y (ix1 t)
  rw [broadcastInDim_scalar_apply, broadcastInDim_scalar_apply, hc, select_one,
    colsum_apply _ _ _ _ Ideal.ofBits_zero_f32, divisorTerm_zero]
  show Ideal.div (∑ r : Fin 100000, devSqTerm y (ix2 r t)) (Gin.cN - 0)
    = Ideal.div (∑ n : Fin 100000, (y (ix2 n t) - Gin.mean y (ix1 t)) * (y (ix2 n t) - Gin.mean y (ix1 t)))
        (Gin.cN - 0)
  exact congrArg (fun s => Ideal.div s (Gin.cN - 0)) (Finset.sum_congr rfl fun r _ => devSqTerm_apply y r t)

/-- The normalisation's term is the specification's. -/
theorem bnreluTerm_eq (y : FVec Ideal S100000x128 .f32) (μ v γ β : FVec Ideal S128 .f32) :
    bnreluTerm y μ v γ β = Gin.bnrelu y μ v γ β := by
  funext idx
  obtain ⟨r, t, rfl⟩ : ∃ (r : Fin 100000) (t : Fin 128), idx = ix2 r t := ⟨idx 0, idx 1, eq_ix2 idx⟩
  show max
      ((y (ix2 r t)
            - broadcastInDim S100000x128 ![0, 1] bcast_S1x128_S100000x128_0_1
                (broadcastInDim S1x128 ![1] bcast_S128_S1x128_1 μ) (ix2 r t))
          * broadcastInDim S100000x128 ![0, 1] bcast_S1x128_S100000x128_0_1
              (broadcastInDim S1x128 ![1] bcast_S128_S1x128_1
                (Host.rsqrt
                  (addf v (broadcastInDim S128 ![] bcast_S_S128 (constant (F := Ideal) S_ .f32 0x3727C5AC#32)))))
              (ix2 r t)
          * broadcastInDim S100000x128 ![0, 1] bcast_S1x128_S100000x128_0_1
              (broadcastInDim S1x128 ![1] bcast_S128_S1x128_1 γ) (ix2 r t)
        + broadcastInDim S100000x128 ![0, 1] bcast_S1x128_S100000x128_0_1
            (broadcastInDim S1x128 ![1] bcast_S128_S1x128_1 β) (ix2 r t))
      (broadcastInDim S100000x128 ![] bcast_S_S100000x128 (constant (F := Ideal) S_ .f32 0x00000000#32) (ix2 r t))
    = max ((y (ix2 r t) - μ (ix1 t)) * Ideal.rsqrt (v (ix1 t) + Gin.eps) * γ (ix1 t) + β (ix1 t)) 0
  rw [bcast_rows_apply, bcast_rows_apply, bcast_rows_apply, bcast_rows_apply, broadcastInDim_scalar_apply]
  show max
      ((y (ix2 r t) - μ (ix1 t))
          * Ideal.rsqrt
              (v (ix1 t) + broadcastInDim S128 ![] bcast_S_S128 (constant (F := Ideal) S_ .f32 0x3727C5AC#32) (ix1 t))
          * γ (ix1 t)
        + β (ix1 t))
      (Ideal.ofBits .f32 0x00000000#32)
    = _
  rw [broadcastInDim_scalar_apply, Ideal.ofBits_zero_f32]
  rfl

/-- ONE LAYER of the reference is the specification's layer with the variance as the mean squared deviation, given
    that the node count's pattern denotes 100000. -/
theorem layerTerm_eq_of (hN : Gin.cN = ((100000 : ℝ) : EReal)) (z : FVec Ideal S100000x128 .f32)
    (W1 : FVec Ideal S128x256 .f32) (b1 : FVec Ideal S256 .f32) (W2 : FVec Ideal S256x128 .f32)
    (b2 γ β : FVec Ideal S128 .f32) :
    layerTerm z W1 b1 W2 b2 γ β = Gin.layerR z ⟨W1, b1, W2, b2, γ, β⟩ := by
  unfold layerTerm Gin.layerR
  rw [bnreluTerm_eq, meanTerm_eq, varTerm_eq hN, zpreTerm_eq]

/-- ONE LAYER of the reference is the specification's layer with the variance as the mean squared deviation. -/
theorem layerTerm_eq (z : FVec Ideal S100000x128 .f32) (W1 : FVec Ideal S128x256 .f32) (b1 : FVec Ideal S256 .f32)
    (W2 : FVec Ideal S256x128 .f32) (b2 γ β : FVec Ideal S128 .f32) :
    layerTerm z W1 b1 W2 b2 γ β = Gin.layerR z ⟨W1, b1, W2, b2, γ, β⟩ :=
  layerTerm_eq_of Gin.Consts.cN_eq z W1 b1 W2 b2 γ β

end Cert.ReferenceIdeal.RefLayer

end
-- ==== Proof.RefValue.lean ====
/-
  The reference's value.  Its operations run in five stretches: the embedding with the two index rows, then the four
  layers.  Each stretch is read alone, from an arbitrary valuation of the buffers, as a named function of what the
  buffers it reads held; the stretches then compose to the four-layer network of the specification over the embedding,
  the neighbour aggregation and the sliced parameters.
-/
import proofs.«155226_j39831526703451_1_alg».proof.Proof.RefOps
import proofs.«155226_j39831526703451_1_alg».proof.Proof.RefLayer
import Idealize.ShloMosaic.Lib.Pipeline.Frame

noncomputable section

namespace Cert.ReferenceIdeal.RefValue

open Cert.ReferenceIdeal Cert.ReferenceIdeal.RefRun Cert.ReferenceIdeal.RefLayer
open Idealize.ShloMosaic Idealize.ShloMosaic.StableHlo Idealize.SL.Sem

/-- A layer over a parameter record is the layer over its fields. -/
theorem layerTerm_params (z : FVec Ideal S100000x128 .f32) (p : Gin.Params) :
    layerTerm z p.W1 p.b1 p.W2 p.b2 p.γ p.β = Gin.layerR z p := by
  cases p
  exact layerTerm_eq _ _ _ _ _ _ _

/-! ## What each stretch writes

A buffer outside the list of those a stretch's operations write keeps its contents through the stretch. -/

/-- The buffers the first stretch writes. -/
abbrev opsE_W : List (Ref sig .tc) :=
  [main_v0, main_v1, main_v2, main_v3, main_v4, main_v5, main_v6, main_v7]

set_option maxHeartbeats 4000000 in
theorem opsE_writes :
    (opsE (F := Ideal)).Forall fun op => op.writes ⊆ (opsE_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- The buffers the first part of layer 0's stretch writes. -/
abbrev opsL0a_W : List (Ref sig .tc) :=
  [main_c, main_v8, main_v9, main_c_0, main_v10, main_v11, main_v12, main_v13, main_v14, main_cst, main_v15,
    main_v16, main_v17, main_v18, main_v19, main_v20, main_v21, main_v22, main_v23, main_v24, main_v25, main_v26,
    main_call0.cst.ref, main_call0.v0.ref, main_call0.v1.ref, main_v28, main_v29, main_v30, main_v31, main_v32,
    main_v33, main_v34, main_v35, main_cst_1, main_v36, main_cst_2, main_v37, main_v38, main_c_3,
    main_call1.cst.ref, main_call1.v0.ref, main_call1.v1.ref, main_call1.cst_0.ref, main_call1.v2.ref,
    main_call1.v3.ref, main_call1.v4.ref, main_call1.v5.ref, main_call1.v6.ref, main_call1.v7.ref,
    main_call1.cst_1.ref, main_call1.v8.ref, main_call1.cst_2.ref, main_call1.v9.ref, main_call1.v10.ref,
    main_call1.v11.ref, main_call1.cst_3.ref, main_call1.v12.ref, main_call1.cst_4.ref, main_call1.call0.v0.ref,
    main_call1.call0.v1.ref, main_call1.call0.v2.ref, main_v40, main_v41, main_v42, main_cst_4, main_v43, main_v44,
    main_v45, main_v46, main_v47, main_v48, main_v49, main_v50, main_v51, main_v52]

set_option maxHeartbeats 4000000 in
theorem opsL0a_writes :
    (opsL0a (F := Ideal)).Forall fun op => op.writes ⊆ (opsL0a_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- The buffers the second part of layer 0's stretch writes. -/
abbrev opsL0b_W : List (Ref sig .tc) :=
  [main_v53, main_v54, main_v55, main_v56, main_v57, main_v58, main_call2.cst.ref, main_call2.v0.ref,
    main_call2.v1.ref]

set_option maxHeartbeats 4000000 in
theorem opsL0b_writes :
    (opsL0b (F := Ideal)).Forall fun op => op.writes ⊆ (opsL0b_W.map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- The buffers the first part of layer 1's stretch writes. -/
abbrev opsL1a_W : List (Ref sig .tc) :=
  [main_c_5, main_v60, main_v61, main_c_6, main_v62, main_v63, main_v64, main_v65, main_v66, main_cst_7, main_v67,
    main_v68, main_v69, main_v70, main_v71, main_v72, main_v73, main_v74, main_v75, main_v76, main_v77, main_v78,
    main_call3.cst.ref, main_call3.v0.ref, main_call3.v1.ref, main_v80, main_v81, main_v82, main_v83, main_v84,
    main_v85, main_v86, main_v87, main_cst_8, main_v88, main_cst_9, main_v89, main_v90, main_c_10,
    main_call4.cst.ref, main_call4.v0.ref, main_call4.v1.ref, main_call4.cst_0.ref, main_call4.v2.ref,
    main_call4.v3.ref, main_call4.v4.ref, main_call4.v5.ref, main_call4.v6.ref, main_call4.v7.ref,
    main_call4.cst_1.ref, main_call4.v8.ref, main_call4.cst_2.ref, main_call4.v9.ref, main_call4.v10.ref,
    main_call4.v11.ref, main_call4.cst_3.ref, main_call4.v12.ref, main_call4.cst_4.ref, main_call4.call0.v0.ref,
    main_call4.call0.v1.ref, main_call4.call0.v2.ref, main_v92, main_v93, main_v94, main_cst_11, main_v95,
    main_v96, main_v97, main_v98, main_v99, main_v100, main_v101, main_v102, main_v103, main_v104, main_v105]

set_option maxHeartbeats 4000000 in
theorem opsL1a_writes :
    (opsL1a (F := Ideal)).Forall fun op => op.writes ⊆ (opsL1a_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- The buffers the second part of layer 1's stretch writes. -/
abbrev opsL1b_W : List (Ref sig .tc) :=
  [main_v106, main_v107, main_v108, main_v109, main_v110, main_call5.cst.ref, main_call5.v0.ref, main_call5.v1.ref]

set_option maxHeartbeats 4000000 in
theorem opsL1b_writes :
    (opsL1b (F := Ideal)).Forall fun op => op.writes ⊆ (opsL1b_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- The buffers the first part of layer 2's stretch writes. -/
abbrev opsL2a_W : List (Ref sig .tc) :=
  [main_c_12, main_v112, main_v113, main_c_13, main_v114, main_v115, main_v116, main_v117, main_v118, main_cst_14,
    main_v119, main_v120, main_v121, main_v122, main_v123, main_v124, main_v125, main_v126, main_v127, main_v128,
    main_v129, main_v130, main_call6.cst.ref, main_call6.v0.ref, main_call6.v1.ref, main_v132, main_v133,
    main_v134, main_v135, main_v136, main_v137, main_v138, main_v139, main_cst_15, main_v140, main_cst_16,
    main_v141, main_v142, main_c_17, main_call7.cst.ref, main_call7.v0.ref, main_call7.v1.ref,
    main_call7.cst_0.ref, main_call7.v2.ref, main_call7.v3.ref, main_call7.v4.ref, main_call7.v5.ref,
    main_call7.v6.ref, main_call7.v7.ref, main_call7.cst_1.ref, main_call7.v8.ref, main_call7.cst_2.ref,
    main_call7.v9.ref, main_call7.v10.ref, main_call7.v11.ref, main_call7.cst_3.ref, main_call7.v12.ref,
    main_call7.cst_4.ref, main_call7.call0.v0.ref, main_call7.call0.v1.ref, main_call7.call0.v2.ref, main_v144,
    main_v145, main_v146, main_cst_18, main_v147, main_v148, main_v149, main_v150, main_v151, main_v152, main_v153,
    main_v154, main_v155, main_v156, main_v157, main_v158]

set_option maxHeartbeats 4000000 in
theorem opsL2a_writes :
    (opsL2a (F := Ideal)).Forall fun op => op.writes ⊆ (opsL2a_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- The buffers the second part of layer 2's stretch writes. -/
abbrev opsL2b_W : List (Ref sig .tc) :=
  [main_v159, main_v160, main_v161, main_v162, main_call8.cst.ref, main_call8.v0.ref, main_call8.v1.ref]

set_option maxHeartbeats 4000000 in
theorem opsL2b_writes :
    (opsL2b (F := Ideal)).Forall fun op => op.writes ⊆ (opsL2b_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- The buffers the first part of layer 3's stretch writes. -/
abbrev opsL3a_W : List (Ref sig .tc) :=
  [main_c_19, main_v164, main_v165, main_c_20, main_v166, main_v167, main_v168, main_v169, main_v170, main_cst_21,
    main_v171, main_v172, main_v173, main_v174, main_v175, main_v176, main_v177, main_v178, main_v179, main_v180,
    main_v181, main_v182, main_call9.cst.ref, main_call9.v0.ref, main_call9.v1.ref, main_v184, main_v185,
    main_v186, main_v187, main_v188, main_v189, main_v190, main_v191, main_cst_22, main_v192, main_cst_23,
    main_v193, main_v194, main_c_24, main_call10.cst.ref, main_call10.v0.ref, main_call10.v1.ref,
    main_call10.cst_0.ref, main_call10.v2.ref, main_call10.v3.ref, main_call10.v4.ref, main_call10.v5.ref,
    main_call10.v6.ref, main_call10.v7.ref, main_call10.cst_1.ref, main_call10.v8.ref, main_call10.cst_2.ref,
    main_call10.v9.ref, main_call10.v10.ref, main_call10.v11.ref, main_call10.cst_3.ref, main_call10.v12.ref,
    main_call10.cst_4.ref, main_call10.call0.v0.ref, main_call10.call0.v1.ref, main_call10.call0.v2.ref, main_v196,
    main_v197, main_v198, main_cst_25, main_v199, main_v200, main_v201, main_v202, main_v203, main_v204, main_v205,
    main_v206, main_v207, main_v208, main_v209, main_v210, main_v211]

set_option maxHeartbeats 4000000 in
theorem opsL3a_writes :
    (opsL3a (F := Ideal)).Forall fun op => op.writes ⊆ (opsL3a_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- The buffers the second part of layer 3's stretch writes. -/
abbrev opsL3b_W : List (Ref sig .tc) :=
  [main_v212, main_v213, main_v214, main_call11.cst.ref, main_call11.v0.ref, main_call11.v1.ref]

set_option maxHeartbeats 4000000 in
theorem opsL3b_writes :
    (opsL3b (F := Ideal)).Forall fun op => op.writes ⊆ (opsL3b_W.map (Proc.devRef (τ := τ) .tc)).toFinset := by
  simp only [List.Forall]
  refine ⟨?_, ?_, ?_, ?_, ?_, ?_⟩ <;>
    (simp only [nullary_writes, unary_writes, binary_writes, ternary_writes, quaternary_writes, reshape_writes, Finset.singleton_subset_iff, List.mem_toFinset]
     exact List.mem_map_of_mem (by decide))

/-- The first stretch keeps every buffer it does not write. -/
theorem keepE (W : Valuation τ sig (Elt Ideal)) (r : Ref sig .tc) (h : r ∉ opsE_W) :
    after (opsE (F := Ideal)) W (Proc.devRef .tc r) = W (Proc.devRef .tc r) :=
  after_of_writes_sub _ _ opsE_writes h

/-- Layer 0's stretch keeps every buffer it does not write. -/
theorem keepL0 (W : Valuation τ sig (Elt Ideal)) (r : Ref sig .tc) (ha : r ∉ opsL0a_W) (hb : r ∉ opsL0b_W) :
    after (opsL0 (F := Ideal)) W (Proc.devRef .tc r) = W (Proc.devRef .tc r) := by
  show after ((opsL0a (F := Ideal)) ++ (opsL0b (F := Ideal))) W _ = _
  rw [after_append, after_of_writes_sub _ _ opsL0b_writes hb, after_of_writes_sub _ _ opsL0a_writes ha]

/-- Layer 1's stretch keeps every buffer it does not write. -/
theorem keepL1 (W : Valuation τ sig (Elt Ideal)) (r : Ref sig .tc) (ha : r ∉ opsL1a_W) (hb : r ∉ opsL1b_W) :
    after (opsL1 (F := Ideal)) W (Proc.devRef .tc r) = W (Proc.devRef .tc r) := by
  show after ((opsL1a (F := Ideal)) ++ (opsL1b (F := Ideal))) W _ = _
  rw [after_append, after_of_writes_sub _ _ opsL1b_writes hb, after_of_writes_sub _ _ opsL1a_writes ha]

/-- Layer 2's stretch keeps every buffer it does not write. -/
theorem keepL2 (W : Valuation τ sig (Elt Ideal)) (r : Ref sig .tc) (ha : r ∉ opsL2a_W) (hb : r ∉ opsL2b_W) :
    after (opsL2 (F := Ideal)) W (Proc.devRef .tc r) = W (Proc.devRef .tc r) := by
  show after ((opsL2a (F := Ideal)) ++ (opsL2b (F := Ideal))) W _ = _
  rw [after_append, after_of_writes_sub _ _ opsL2b_writes hb, after_of_writes_sub _ _ opsL2a_writes ha]

/-- Layer 3's stretch keeps every buffer it does not write. -/
theorem keepL3 (W : Valuation τ sig (Elt Ideal)) (r : Ref sig .tc) (ha : r ∉ opsL3a_W) (hb : r ∉ opsL3b_W) :
    after (opsL3 (F := Ideal)) W (Proc.devRef .tc r) = W (Proc.devRef .tc r) := by
  show after ((opsL3a (F := Ideal)) ++ (opsL3b (F := Ideal))) W _ = _
  rw [after_append, after_of_writes_sub _ _ opsL3b_writes hb, after_of_writes_sub _ _ opsL3a_writes ha]

/-! ## The embedding and the index rows -/

/-- After the first stretch the embedding's buffer holds the embedding of the arguments. -/
theorem valE_v3 (W : Valuation τ sig (Elt Ideal)) :
    after (opsE (F := Ideal)) W (Proc.devRef .tc main_v3)
      = embed (W (Proc.devRef .tc main_arg0)) (W (Proc.devRef .tc main_arg2)) (W (Proc.devRef .tc main_arg3)) := by
  after_results_simp
  rfl

/-- … the source row's buffer holds row 0 of the edge array … -/
theorem valE_v5 (W : Valuation τ sig (Elt Ideal)) :
    after (opsE (F := Ideal)) W (Proc.devRef .tc main_v5) = srcOf (W (Proc.devRef .tc main_arg1)) := by
  after_results_simp
  rfl

/-- … and the destination row's buffer holds row 1. -/
theorem valE_v7 (W : Valuation τ sig (Elt Ideal)) :
    after (opsE (F := Ideal)) W (Proc.devRef .tc main_v7) = dstOf (W (Proc.devRef .tc main_arg1)) := by
  after_results_simp
  rfl

/-! ## The layers -/

/-- Layer 0's stretch, from any valuation: its result buffer holds the specification's layer of the aggregate of
    what the index rows' and the previous layer's buffers held, at slice 0 of the parameter arrays. -/
theorem valL0 (W : Valuation τ sig (Elt Ideal)) :
    after (opsL0 (F := Ideal)) W (Proc.devRef .tc main_v59)
      = Gin.layerR (agg (W (Proc.devRef .tc main_v5)) (W (Proc.devRef .tc main_v7)) (W (Proc.devRef .tc main_v3)))
          (params0 (W (Proc.devRef .tc main_arg4)) (W (Proc.devRef .tc main_arg5)) (W (Proc.devRef .tc main_arg6)) (W (Proc.devRef .tc main_arg7)) (W (Proc.devRef .tc main_arg8)) (W (Proc.devRef .tc main_arg9))) := by
  refine Eq.trans ?_ (layerTerm_params _ _)
  show after ((opsL0a (F := Ideal)) ++ (opsL0b (F := Ideal))) W _ = _
  rw [after_append]
  after_results_simp
  rfl

/-- Layer 1's stretch, from any valuation: its result buffer holds the specification's layer of the aggregate of
    what the index rows' and the previous layer's buffers held, at slice 1 of the parameter arrays. -/
theorem valL1 (W : Valuation τ sig (Elt Ideal)) :
    after (opsL1 (F := Ideal)) W (Proc.devRef .tc main_v111)
      = Gin.layerR (agg (W (Proc.devRef .tc main_v5)) (W (Proc.devRef .tc main_v7)) (W (Proc.devRef .tc main_v59)))
          (params1 (W (Proc.devRef .tc main_arg4)) (W (Proc.devRef .tc main_arg5)) (W (Proc.devRef .tc main_arg6)) (W (Proc.devRef .tc main_arg7)) (W (Proc.devRef .tc main_arg8)) (W (Proc.devRef .tc main_arg9))) := by
  refine Eq.trans ?_ (layerTerm_params _ _)
  show after ((opsL1a (F := Ideal)) ++ (opsL1b (F := Ideal))) W _ = _
  rw [after_append]
  after_results_simp
  rfl

/-- Layer 2's stretch, from any valuation: its result buffer holds the specification's layer of the aggregate of
    what the index rows' and the previous layer's buffers held, at slice 2 of the parameter arrays. -/
theorem valL2 (W : Valuation τ sig (Elt Ideal)) :
    after (opsL2 (F := Ideal)) W (Proc.devRef .tc main_v163)
      = Gin.layerR (agg (W (Proc.devRef .tc main_v5)) (W (Proc.devRef .tc main_v7)) (W (Proc.devRef .tc main_v111)))
          (params2 (W (Proc.devRef .tc main_arg4)) (W (Proc.devRef .tc main_arg5)) (W (Proc.devRef .tc main_arg6)) (W (Proc.devRef .tc main_arg7)) (W (Proc.devRef .tc main_arg8)) (W (Proc.devRef .tc main_arg9))) := by
  refine Eq.trans ?_ (layerTerm_params _ _)
  show after ((opsL2a (F := Ideal)) ++ (opsL2b (F := Ideal))) W _ = _
  rw [after_append]
  after_results_simp
  rfl

/-- Layer 3's stretch, from any valuation: its result buffer holds the specification's layer of the aggregate of
    what the index rows' and the previous layer's buffers held, at slice 3 of the parameter arrays. -/
theorem valL3 (W : Valuation τ sig (Elt Ideal)) :
    after (opsL3 (F := Ideal)) W (Proc.devRef .tc main_v215)
      = Gin.layerR (agg (W (Proc.devRef .tc main_v5)) (W (Proc.devRef .tc main_v7)) (W (Proc.devRef .tc main_v163)))
          (params3 (W (Proc.devRef .tc main_arg4)) (W (Proc.devRef .tc main_arg5)) (W (Proc.devRef .tc main_arg6)) (W (Proc.devRef .tc main_arg7)) (W (Proc.devRef .tc main_arg8)) (W (Proc.devRef .tc main_arg9))) := by
  refine Eq.trans ?_ (layerTerm_params _ _)
  show after ((opsL3a (F := Ideal)) ++ (opsL3b (F := Ideal))) W _ = _
  rw [after_append]
  after_results_simp
  rfl

/-! ## The whole reference -/

/-- What the stretches keep: the index rows are the rows of the edge array and the parameter arrays are the arguments'. -/
structure Inv (W V : Valuation τ sig (Elt Ideal)) : Prop where
  v5 : V (Proc.devRef .tc main_v5) = srcOf (W (Proc.devRef .tc main_arg1))
  v7 : V (Proc.devRef .tc main_v7) = dstOf (W (Proc.devRef .tc main_arg1))
  a4 : V (Proc.devRef .tc main_arg4) = W (Proc.devRef .tc main_arg4)
  a5 : V (Proc.devRef .tc main_arg5) = W (Proc.devRef .tc main_arg5)
  a6 : V (Proc.devRef .tc main_arg6) = W (Proc.devRef .tc main_arg6)
  a7 : V (Proc.devRef .tc main_arg7) = W (Proc.devRef .tc main_arg7)
  a8 : V (Proc.devRef .tc main_arg8) = W (Proc.devRef .tc main_arg8)
  a9 : V (Proc.devRef .tc main_arg9) = W (Proc.devRef .tc main_arg9)

theorem invE (W : Valuation τ sig (Elt Ideal)) : Inv W (after (opsE (F := Ideal)) W) :=
  ⟨valE_v5 W, valE_v7 W, keepE W main_arg4 (by decide),
    keepE W main_arg5 (by decide),
    keepE W main_arg6 (by decide),
    keepE W main_arg7 (by decide),
    keepE W main_arg8 (by decide),
    keepE W main_arg9 (by decide)⟩

theorem invL0 {W V : Valuation τ sig (Elt Ideal)} (h : Inv W V) : Inv W (after (opsL0 (F := Ideal)) V) :=
  ⟨(keepL0 V main_v5 (by decide) (by decide)).trans h.v5, (keepL0 V main_v7 (by decide) (by decide)).trans h.v7,
    (keepL0 V main_arg4 (by decide) (by decide)).trans h.a4,
    (keepL0 V main_arg5 (by decide) (by decide)).trans h.a5,
    (keepL0 V main_arg6 (by decide) (by decide)).trans h.a6,
    (keepL0 V main_arg7 (by decide) (by decide)).trans h.a7,
    (keepL0 V main_arg8 (by decide) (by decide)).trans h.a8,
    (keepL0 V main_arg9 (by decide) (by decide)).trans h.a9⟩

theorem invL1 {W V : Valuation τ sig (Elt Ideal)} (h : Inv W V) : Inv W (after (opsL1 (F := Ideal)) V) :=
  ⟨(keepL1 V main_v5 (by decide) (by decide)).trans h.v5, (keepL1 V main_v7 (by decide) (by decide)).trans h.v7,
    (keepL1 V main_arg4 (by decide) (by decide)).trans h.a4,
    (keepL1 V main_arg5 (by decide) (by decide)).trans h.a5,
    (keepL1 V main_arg6 (by decide) (by decide)).trans h.a6,
    (keepL1 V main_arg7 (by decide) (by decide)).trans h.a7,
    (keepL1 V main_arg8 (by decide) (by decide)).trans h.a8,
    (keepL1 V main_arg9 (by decide) (by decide)).trans h.a9⟩

theorem invL2 {W V : Valuation τ sig (Elt Ideal)} (h : Inv W V) : Inv W (after (opsL2 (F := Ideal)) V) :=
  ⟨(keepL2 V main_v5 (by decide) (by decide)).trans h.v5, (keepL2 V main_v7 (by decide) (by decide)).trans h.v7,
    (keepL2 V main_arg4 (by decide) (by decide)).trans h.a4,
    (keepL2 V main_arg5 (by decide) (by decide)).trans h.a5,
    (keepL2 V main_arg6 (by decide) (by decide)).trans h.a6,
    (keepL2 V main_arg7 (by decide) (by decide)).trans h.a7,
    (keepL2 V main_arg8 (by decide) (by decide)).trans h.a8,
    (keepL2 V main_arg9 (by decide) (by decide)).trans h.a9⟩

theorem invL3 {W V : Valuation τ sig (Elt Ideal)} (h : Inv W V) : Inv W (after (opsL3 (F := Ideal)) V) :=
  ⟨(keepL3 V main_v5 (by decide) (by decide)).trans h.v5, (keepL3 V main_v7 (by decide) (by decide)).trans h.v7,
    (keepL3 V main_arg4 (by decide) (by decide)).trans h.a4,
    (keepL3 V main_arg5 (by decide) (by decide)).trans h.a5,
    (keepL3 V main_arg6 (by decide) (by decide)).trans h.a6,
    (keepL3 V main_arg7 (by decide) (by decide)).trans h.a7,
    (keepL3 V main_arg8 (by decide) (by decide)).trans h.a8,
    (keepL3 V main_arg9 (by decide) (by decide)).trans h.a9⟩

/-- THE REFERENCE'S VALUE: from any valuation of the buffers, after all its operations the result buffer holds the
    four-layer network of the specification — each layer with the variance as the mean squared deviation — over the
    embedding of the node features, the aggregation along the edge array's two rows, and the four slices of the
    parameter arrays. -/
theorem value (W : Valuation τ sig (Elt Ideal)) :
    after (ops (F := Ideal)) W (Proc.devRef .tc main_v215)
      = Gin.net Gin.layerR
          (agg (srcOf (W (Proc.devRef .tc main_arg1))) (dstOf (W (Proc.devRef .tc main_arg1))))
          (embed (W (Proc.devRef .tc main_arg0)) (W (Proc.devRef .tc main_arg2)) (W (Proc.devRef .tc main_arg3)))
          (params0 (W (Proc.devRef .tc main_arg4)) (W (Proc.devRef .tc main_arg5)) (W (Proc.devRef .tc main_arg6)) (W (Proc.devRef .tc main_arg7)) (W (Proc.devRef .tc main_arg8)) (W (Proc.devRef .tc main_arg9)))
          (params1 (W (Proc.devRef .tc main_arg4)) (W (Proc.devRef .tc main_arg5)) (W (Proc.devRef .tc main_arg6)) (W (Proc.devRef .tc main_arg7)) (W (Proc.devRef .tc main_arg8)) (W (Proc.devRef .tc main_arg9)))
          (params2 (W (Proc.devRef .tc main_arg4)) (W (Proc.devRef .tc main_arg5)) (W (Proc.devRef .tc main_arg6)) (W (Proc.devRef .tc main_arg7)) (W (Proc.devRef .tc main_arg8)) (W (Proc.devRef .tc main_arg9)))
          (params3 (W (Proc.devRef .tc main_arg4)) (W (Proc.devRef .tc main_arg5)) (W (Proc.devRef .tc main_arg6)) (W (Proc.devRef .tc main_arg7)) (W (Proc.devRef .tc main_arg8)) (W (Proc.devRef .tc main_arg9))) := by
  have hE := invE W
  have h0 := invL0 hE
  have h1 := invL1 h0
  have h2 := invL2 h1
  show after (((((opsE (F := Ideal)) ++ (opsL0 (F := Ideal))) ++ (opsL1 (F := Ideal))) ++ (opsL2 (F := Ideal))) ++ (opsL3 (F := Ideal))) W _ = _
  rw [after_append ((((opsE (F := Ideal)) ++ (opsL0 (F := Ideal))) ++ (opsL1 (F := Ideal))) ++ (opsL2 (F := Ideal))) (opsL3 (F := Ideal)),
    after_append (((opsE (F := Ideal)) ++ (opsL0 (F := Ideal))) ++ (opsL1 (F := Ideal))) (opsL2 (F := Ideal)),
    after_append ((opsE (F := Ideal)) ++ (opsL0 (F := Ideal))) (opsL1 (F := Ideal)), after_append (opsE (F := Ideal)) (opsL0 (F := Ideal))]
  rw [valL3, h2.v5, h2.v7, h2.a4, h2.a5, h2.a6, h2.a7, h2.a8, h2.a9,
    valL2, h1.v5, h1.v7, h1.a4, h1.a5, h1.a6, h1.a7, h1.a8, h1.a9,
    valL1, h0.v5, h0.v7, h0.a4, h0.a5, h0.a6, h0.a7, h0.a8, h0.a9,
    valL0, hE.v5, hE.v7, hE.a4, hE.a5, hE.a6, hE.a7, hE.a8, hE.a9, valE_v3]
  rfl

end Cert.ReferenceIdeal.RefValue

end
-- ==== Proof.Bridge.lean ====
/-
  The two programs apply the same host operations for the embedding, the index rows, the aggregation and the
  parameter slices; each program's text names its own copies of the operations' dimension records, equal field
  by field.  So the functions read off the kernel's program and those read off the reference are the same
  functions.
-/
import proofs.«155226_j39831526703451_1_alg».proof.Proof.KDefs
import proofs.«155226_j39831526703451_1_alg».proof.Proof.RefLayer

set_option maxRecDepth 16384

noncomputable section

namespace Cert.Bridge

open Idealize.ShloMosaic

-- the reference's side conditions, whatever their proof
variable [Cert.ReferenceIdeal.Facts]

theorem embed_eq : Cert.KernelIdeal.KValue.embedK = Cert.ReferenceIdeal.RefLayer.embed := rfl
theorem src_eq : Cert.KernelIdeal.KValue.srcK = Cert.ReferenceIdeal.RefLayer.srcOf := rfl
theorem dst_eq : Cert.KernelIdeal.KValue.dstK = Cert.ReferenceIdeal.RefLayer.dstOf := rfl
theorem agg_eq : Cert.KernelIdeal.KValue.aggK = Cert.ReferenceIdeal.RefLayer.agg := rfl
theorem p0_eq : Cert.KernelIdeal.KValue.pK0 = Cert.ReferenceIdeal.RefLayer.params0 := rfl
theorem p1_eq : Cert.KernelIdeal.KValue.pK1 = Cert.ReferenceIdeal.RefLayer.params1 := rfl
theorem p2_eq : Cert.KernelIdeal.KValue.pK2 = Cert.ReferenceIdeal.RefLayer.params2 := rfl
theorem p3_eq : Cert.KernelIdeal.KValue.pK3 = Cert.ReferenceIdeal.RefLayer.params3 := rfl

end Cert.Bridge

end
-- ==== Proof.lean ====
/-
  A four-layer graph-isomorphism encoder over 100000 nodes and 400000 edges: node features embedded by a matrix
  product, then four times — aggregate each node's neighbours (a gather of the sources' rows scatter-added at the
  destinations), apply a two-layer perceptron, normalise every feature by its mean and variance over the nodes,
  scale, shift and clamp at zero.

  The kernel's program runs the perceptron and the normalisation as two grid regions per layer over blocks of 2000
  nodes, accumulating each feature's sum and sum of squares across the grid and computing the variance as
  `E[y²] − (E[y])²` between the regions; the reference computes the whole arrays at once and the variance as
  `E[(y − E[y])²]`.  At exact extended-real arithmetic the block sums re-associate freely, and the two variances
  agree because every intermediate value is a real number: the inputs are real by the precondition, sums,
  products and maxima of reals are real, a gather reads entries, a scatter-add adds finitely many, and the
  reciprocal square root is taken of a non-negative real plus a positive offset.

  The frames of the two kernel programs are the generated ones; the reference's frame is its run with the result
  dropped; no operation was rewritten by the idealisation, so nothing is owed for it.
-/
import proofs.«155226_j39831526703451_1_alg».proof.Defs
import proofs.«155226_j39831526703451_1_alg».proof.Proof.Gen.Kernel
import proofs.«155226_j39831526703451_1_alg».proof.Proof.Gen.Kernel.Skeleton
import proofs.«155226_j39831526703451_1_alg».proof.Proof.Gen.Kernel.Launch
import proofs.«155226_j39831526703451_1_alg».proof.Proof.Gen.Kernel.Points
import proofs.«155226_j39831526703451_1_alg».proof.Proof.Gen.Kernel.Frame
import proofs.«155226_j39831526703451_1_alg».proof.Proof.Gen.KernelIdeal
import proofs.«155226_j39831526703451_1_alg».proof.Proof.Gen.KernelIdeal.Skeleton
import proofs.«155226_j39831526703451_1_alg».proof.Proof.Gen.KernelIdeal.Launch
import proofs.«155226_j39831526703451_1_alg».proof.Proof.Gen.KernelIdeal.Points
import proofs.«155226_j39831526703451_1_alg».proof.Proof.Gen.KernelIdeal.Frame
import proofs.«155226_j39831526703451_1_alg».proof.Proof.Gen.ReferenceIdeal
import proofs.«155226_j39831526703451_1_alg».proof.Proof.Gen.Pre_finite_inputs
import proofs.«155226_j39831526703451_1_alg».proof.Proof.GinMath
import proofs.«155226_j39831526703451_1_alg».proof.Proof.PreReal
import proofs.«155226_j39831526703451_1_alg».proof.Proof.KDefs
import proofs.«155226_j39831526703451_1_alg».proof.Proof.KRun
import proofs.«155226_j39831526703451_1_alg».proof.Proof.KValue
import proofs.«155226_j39831526703451_1_alg».proof.Proof.RefRun
import proofs.«155226_j39831526703451_1_alg».proof.Proof.RefValue
import proofs.«155226_j39831526703451_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the four-layer network of the argument arrays in their result buffers: the kernel's
    with each variance as mean of squares minus squared mean, which on real entries is the mean squared deviation
    the reference computes. -/
theorem algebraic : Cert.algebraic_KernelIdeal_ReferenceIdeal := by
  intro m ρ m' ρ' hpre hagree
  refine ⟨fun c => Cert.Gin.net Cert.Gin.layerR
      (Cert.KernelIdeal.KValue.aggK (Cert.KernelIdeal.KValue.srcK (m ((c.tc : Thread Cert.KernelIdeal.nD Cert.KernelIdeal.τ).loc Cert.KernelIdeal.main_arg1))) (Cert.KernelIdeal.KValue.dstK (m ((c.tc : Thread Cert.KernelIdeal.nD Cert.KernelIdeal.τ).loc Cert.KernelIdeal.main_arg1))))
      (Cert.KernelIdeal.KValue.embedK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (Cert.KernelIdeal.KValue.pK0 (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.KernelIdeal.KValue.pK1 (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (Cert.KernelIdeal.KValue.pK2 (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.KernelIdeal.KValue.pK3 (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · refine (θ_run Cert.KernelIdeal.defs _ _).mono (fun r h c => ⟨(h c).1.trans ?_, (h c).2⟩)
      (Cert.KernelIdeal.KRun.run_named (F := Ideal) m ρ)
    obtain ⟨h0, h2, h3, h4, h5, h6, h7, h8, h9⟩ :=
      Cert.Pre_finite_inputs.PreReal.real_of_pre _ _ _ _ _ _ _ _ _ _ (hpre c)
    refine (Cert.KernelIdeal.KValue.value m ρ c).trans ?_
    exact Cert.Gin.net_eq _ (fun h hh => Cert.KernelIdeal.KValue.isReal_aggK _ _ hh) _
      (Cert.KernelIdeal.KValue.isReal_embedK h0 h2 h3) _ _ _ _
      (Cert.KernelIdeal.KValue.isReal_pK0 h4 h5 h6 h7 h8 h9) (Cert.KernelIdeal.KValue.isReal_pK1 h4 h5 h6 h7 h8 h9)
      (Cert.KernelIdeal.KValue.isReal_pK2 h4 h5 h6 h7 h8 h9) (Cert.KernelIdeal.KValue.isReal_pK3 h4 h5 h6 h7 h8 h9)
  · refine (θ_run Cert.ReferenceIdeal.defs _ _).mono (fun r h c => ⟨(h c).1.trans ?_, (h c).2⟩)
      (Cert.ReferenceIdeal.RefRun.run (F := Ideal) m' ρ')
    refine (Cert.ReferenceIdeal.RefValue.value _).trans ?_
    obtain ⟨e0, e1, e2, e3, e4, e5, e6, e7, e8, e9⟩ := hagree c
    show Cert.Gin.net Cert.Gin.layerR
      (Cert.ReferenceIdeal.RefLayer.agg (Cert.ReferenceIdeal.RefLayer.srcOf (m' ((c.tc : Thread Cert.ReferenceIdeal.nD Cert.ReferenceIdeal.τ).loc Cert.ReferenceIdeal.main_arg1))) (Cert.ReferenceIdeal.RefLayer.dstOf (m' ((c.tc : Thread Cert.ReferenceIdeal.nD Cert.ReferenceIdeal.τ).loc Cert.ReferenceIdeal.main_arg1))))
      (Cert.ReferenceIdeal.RefLayer.embed (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
      (Cert.ReferenceIdeal.RefLayer.params0 (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) (Cert.ReferenceIdeal.RefLayer.params1 (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))
      (Cert.ReferenceIdeal.RefLayer.params2 (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) (Cert.ReferenceIdeal.RefLayer.params3 (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) = _
    rw [e0, e1, e2, e3, e4, e5, e6, e7, e8, e9, ← Cert.Bridge.embed_eq, ← Cert.Bridge.src_eq, ← Cert.Bridge.dst_eq,
      ← Cert.Bridge.agg_eq, ← Cert.Bridge.p0_eq, ← Cert.Bridge.p1_eq, ← Cert.Bridge.p2_eq, ← Cert.Bridge.p3_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
